-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x30x10 : Shape := ⟨3, ![131072, 30, 10]⟩
abbrev S1x30 : Shape := ⟨2, ![1, 30]⟩
abbrev S_ : Shape := ⟨0, ![]⟩

class Facts : Prop where
  bcast_S_S131072x30x10 : S_.BroadcastsInDim S131072x30x10 (![] : Fin 0 → Fin S131072x30x10.rank)
  reducesTo_S131072x30x10_S_d0_1_2 : S131072x30x10.ReducesTo [0, 1, 2] S_
  h_S_ : 0 < S_.numel
  bcast_S_S1x30 : S_.BroadcastsInDim S1x30 (![] : Fin 0 → Fin S1x30.rank)
  reducesTo_S1x30_S_d0_1 : S1x30.ReducesTo [0, 1] S_

variable [Facts]

def fn {F : FTy → Type} [FloatOps F] (main_arg0 : FVec F S131072x30x10 .f32) (main_arg1 : FVec F S1x30 .f32) (main_arg2 : FVec F S1x30 .f32) : IVec S_ 1 :=
  let main_v0 : FVec F S131072x30x10 .f32 := Host.absf main_arg0
  let main_cst : FVec F S_ .f32 := constant S_ .f32 0x7F800000#32
  let main_v1 : FVec F S131072x30x10 .f32 := broadcastInDim S131072x30x10 ![] bcast_S_S131072x30x10 main_cst
  let main_v2 : IVec S131072x30x10 1 := cmpf .olt main_v0 main_v1
  let main_c : IVec S_ 1 := constantI S_ 1 1#1
  let main_v3 : IVec S_ 1 := (fun x v => Host.reduce IntOp.andi x v reducesTo_S131072x30x10_S_d0_1_2 h_S_) main_v2 main_c
  let main_v4 : FVec F S1x30 .f32 := Host.absf main_arg1
  let main_cst_0 : FVec F S_ .f32 := constant S_ .f32 0x7F800000#32
  let main_v5 : FVec F S1x30 .f32 := broadcastInDim S1x30 ![] bcast_S_S1x30 main_cst_0
  let main_v6 : IVec S1x30 1 := cmpf .olt main_v4 main_v5
  let main_c_1 : IVec S_ 1 := constantI S_ 1 1#1
  let main_v7 : IVec S_ 1 := (fun x v => Host.reduce IntOp.andi x v reducesTo_S1x30_S_d0_1 h_S_) main_v6 main_c_1
  let main_v8 : IVec S_ 1 := andi main_v3 main_v7
  let main_v9 : FVec F S1x30 .f32 := Host.absf main_arg2
  let main_cst_2 : FVec F S_ .f32 := constant S_ .f32 0x7F800000#32
  let main_v10 : FVec F S1x30 .f32 := broadcastInDim S1x30 ![] bcast_S_S1x30 main_cst_2
  let main_v11 : IVec S1x30 1 := cmpf .olt main_v9 main_v10
  let main_c_3 : IVec S_ 1 := constantI S_ 1 1#1
  let main_v12 : IVec S_ 1 := (fun x v => Host.reduce IntOp.andi x v reducesTo_S1x30_S_d0_1 h_S_) main_v11 main_c_3
  let main_v13 : IVec S_ 1 := andi main_v8 main_v12
  main_v13
-- ==== Kernel.lean ====
abbrev S131072x30x10 : Shape := ⟨3, ![131072, 30, 10]⟩
abbrev S1x30 : Shape := ⟨2, ![1, 30]⟩
abbrev S131072 : Shape := ⟨1, ![131072]⟩
abbrev S131072x1 : Shape := ⟨2, ![131072, 1]⟩
abbrev S30 : Shape := ⟨1, ![30]⟩
abbrev S_ : Shape := ⟨0, ![]⟩
abbrev S131072x30 : Shape := ⟨2, ![131072, 30]⟩
abbrev S131072x1x1 : Shape := ⟨3, ![131072, 1, 1]⟩
abbrev S131072x30x1 : Shape := ⟨3, ![131072, 30, 1]⟩
abbrev S131072x30x4 : Shape := ⟨3, ![131072, 30, 4]⟩
abbrev S30x1 : Shape := ⟨2, ![30, 1]⟩
abbrev S10 : Shape := ⟨1, ![10]⟩
abbrev S1x10 : Shape := ⟨2, ![1, 10]⟩
abbrev S30x10 : Shape := ⟨2, ![30, 10]⟩
abbrev S30x10x1 : Shape := ⟨3, ![30, 10, 1]⟩
abbrev S30x10x2 : Shape := ⟨3, ![30, 10, 2]⟩
abbrev S30x20 : Shape := ⟨2, ![30, 20]⟩
abbrev S131072x30x28 : Shape := ⟨3, ![131072, 30, 28]⟩
abbrev S256x30x10 : Shape := ⟨3, ![256, 30, 10]⟩
abbrev S256x30x4 : Shape := ⟨3, ![256, 30, 4]⟩
abbrev S256x30 : Shape := ⟨2, ![256, 30]⟩
abbrev S256x30x28 : Shape := ⟨3, ![256, 30, 28]⟩
abbrev S256x20 : Shape := ⟨2, ![256, 20]⟩
abbrev S256x1 : Shape := ⟨2, ![256, 1]⟩
abbrev S256 : Shape := ⟨1, ![256]⟩
abbrev S256x1x4 : Shape := ⟨3, ![256, 1, 4]⟩
abbrev S256x4 : Shape := ⟨2, ![256, 4]⟩
abbrev S256x1x10 : Shape := ⟨3, ![256, 1, 10]⟩
abbrev S256x10 : Shape := ⟨2, ![256, 10]⟩
abbrev S256x8 : Shape := ⟨2, ![256, 8]⟩
abbrev S256x28 : Shape := ⟨2, ![256, 28]⟩
abbrev S256x1x28 : Shape := ⟨3, ![256, 1, 28]⟩

abbrev nBuf : Space → Nat
  | .hbm => 174
  | .vmem => 9
  | .smem => 0
  | _ => 0

abbrev hbmTy0_0 (i : Nat) : BufTy := match i % 128 with
  | 0 => ⟨S131072x30x10, .f32⟩
  | 1 => ⟨S1x30, .f32⟩
  | 2 => ⟨S1x30, .f32⟩
  | 3 => ⟨S131072, .i32⟩
  | 4 => ⟨S131072x1, .i32⟩
  | 5 => ⟨S30, .i32⟩
  | 6 => ⟨S1x30, .i32⟩
  | 7 => ⟨S_, .i32⟩
  | 8 => ⟨S1x30, .i32⟩
  | 9 => ⟨S1x30, .i32⟩
  | 10 => ⟨S131072x30, .i32⟩
  | 11 => ⟨S131072x30, .i32⟩
  | 12 => ⟨S131072x30, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S131072x30, .i32⟩
  | 20 => ⟨S131072x30, .i32⟩
  | 21 => ⟨S_, .i32⟩
  | 22 => ⟨S131072x30, .i32⟩
  | 23 => ⟨S131072x30, .i1⟩
  | 24 => ⟨S_, .i32⟩
  | 25 => ⟨S131072x30, .i32⟩
  | 26 => ⟨S131072x30, .i1⟩
  | 27 => ⟨S_, .i32⟩
  | 28 => ⟨S_, .i1⟩
  | 29 => ⟨S131072x30, .i1⟩
  | 30 => ⟨S131072x30, .i1⟩
  | 31 => ⟨S131072x30, .i1⟩
  | 32 => ⟨S131072x30, .i32⟩
  | 33 => ⟨S131072x30, .i32⟩
  | 34 => ⟨S131072x30, .i32⟩
  | 35 => ⟨S_, .i32⟩
  | 36 => ⟨S_, .i32⟩
  | 37 => ⟨S131072x30, .i32⟩
  | 38 => ⟨S131072x30, .i32⟩
  | 39 => ⟨S131072x30, .i32⟩
  | 40 => ⟨S_, .i32⟩
  | 41 => ⟨S131072x30, .i32⟩
  | 42 => ⟨S131072x30, .i1⟩
  | 43 => ⟨S131072x30, .i32⟩
  | 44 => ⟨S131072x30, .i32⟩
  | 45 => ⟨S_, .i32⟩
  | 46 => ⟨S131072x30, .i32⟩
  | 47 => ⟨S131072x30, .i1⟩
  | 48 => ⟨S131072x30, .i1⟩
  | 49 => ⟨S_, .i32⟩
  | 50 => ⟨S131072x30, .i32⟩
  | 51 => ⟨S131072x30, .i32⟩
  | 52 => ⟨S131072x30, .i32⟩
  | 53 => ⟨S_, .i32⟩
  | 54 => ⟨S131072x30, .i32⟩
  | 55 => ⟨S131072x30, .i32⟩
  | 56 => ⟨S_, .i32⟩
  | 57 => ⟨S_, .i32⟩
  | 58 => ⟨S_, .i32⟩
  | 59 => ⟨S131072x30, .i32⟩
  | 60 => ⟨S131072x30, .i32⟩
  | 61 => ⟨S_, .i32⟩
  | 62 => ⟨S131072x30, .i32⟩
  | 63 => ⟨S131072x30, .i32⟩
  | 64 => ⟨S_, .i32⟩
  | 65 => ⟨S131072x30, .i32⟩
  | 66 => ⟨S131072x30, .i1⟩
  | 67 => ⟨S131072x1x1, .f32⟩
  | 68 => ⟨S131072, .f32⟩
  | 69 => ⟨S131072x1x1, .f32⟩
  | 70 => ⟨S131072, .f32⟩
  | 71 => ⟨S_, .i32⟩
  | 72 => ⟨S131072x30, .i32⟩
  | 73 => ⟨S131072x30, .i1⟩
  | 74 => ⟨S_, .i32⟩
  | 75 => ⟨S131072x30, .i32⟩
  | 76 => ⟨S131072x30, .i32⟩
  | 77 => ⟨S131072x30, .i32⟩
  | 78 => ⟨S131072x30x1, .i32⟩
  | 79 => ⟨S131072x30, .f32⟩
  | 80 => ⟨S_, .i32⟩
  | 81 => ⟨S131072x30, .i32⟩
  | 82 => ⟨S131072x30, .i1⟩
  | 83 => ⟨S_, .i32⟩
  | 84 => ⟨S131072x30, .i32⟩
  | 85 => ⟨S131072x30, .i32⟩
  | 86 => ⟨S131072x30, .i32⟩
  | 87 => ⟨S131072x30x1, .i32⟩
  | 88 => ⟨S131072x30, .f32⟩
  | 89 => ⟨S_, .i32⟩
  | 90 => ⟨S131072x30, .i32⟩
  | 91 => ⟨S131072x30, .i1⟩
  | 92 => ⟨S_, .i32⟩
  | 93 => ⟨S131072x30, .i32⟩
  | 94 => ⟨S131072x30, .i32⟩
  | 95 => ⟨S131072x30, .i32⟩
  | 96 => ⟨S131072x30x1, .i32⟩
  | 97 => ⟨S131072x30, .f32⟩
  | 98 => ⟨S_, .f32⟩
  | 99 => ⟨S_, .f32⟩
  | 100 => ⟨S131072x30, .f32⟩
  | 101 => ⟨S131072x30, .f32⟩
  | 102 => ⟨S_, .i32⟩
  | 103 => ⟨S131072x30, .i32⟩
  | 104 => ⟨S131072x30, .i1⟩
  | 105 => ⟨S_, .i32⟩
  | 106 => ⟨S131072x30, .i32⟩
  | 107 => ⟨S131072x30, .i32⟩
  | 108 => ⟨S131072x30, .i32⟩
  | 109 => ⟨S131072x30x1, .i32⟩
  | 110 => ⟨S131072x30, .f32⟩
  | 111 => ⟨S_, .f32⟩
  | 112 => ⟨S_, .f32⟩
  | 113 => ⟨S131072x30, .f32⟩
  | 114 => ⟨S131072x30, .f32⟩
  | 115 => ⟨S131072x30x1, .f32⟩
  | 116 => ⟨S131072x30x1, .f32⟩
  | 117 => ⟨S131072x30x1, .f32⟩
  | 118 => ⟨S131072x30x1, .f32⟩
  | 119 => ⟨S131072x30x4, .f32⟩
  | 120 => ⟨S30, .i32⟩
  | 121 => ⟨S30x1, .i32⟩
  | 122 => ⟨S10, .i32⟩
  | 123 => ⟨S1x10, .i32⟩
  | 124 => ⟨S30x10, .i32⟩
  | 125 => ⟨S30x10, .i32⟩
  | 126 => ⟨S30x10, .i32⟩
  | 127 => ⟨S_, .i32⟩
  | _ => ⟨S131072x30x10, .f32⟩

abbrev hbmTy0_1 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S30x10, .i32⟩
  | 6 => ⟨S30x10, .i32⟩
  | 7 => ⟨S_, .i32⟩
  | 8 => ⟨S30x10, .i32⟩
  | 9 => ⟨S30x10, .i1⟩
  | 10 => ⟨S_, .i32⟩
  | 11 => ⟨S30x10, .i32⟩
  | 12 => ⟨S30x10, .i1⟩
  | 13 => ⟨S_, .i32⟩
  | 14 => ⟨S_, .i1⟩
  | 15 => ⟨S30x10, .i1⟩
  | 16 => ⟨S30x10, .i1⟩
  | 17 => ⟨S30x10, .i1⟩
  | 18 => ⟨S30x10, .i32⟩
  | 19 => ⟨S30x10, .i32⟩
  | 20 => ⟨S30x10, .i32⟩
  | 21 => ⟨S30, .f32⟩
  | 22 => ⟨S_, .i32⟩
  | 23 => ⟨S30x10, .i32⟩
  | 24 => ⟨S30x10, .i1⟩
  | 25 => ⟨S_, .i32⟩
  | 26 => ⟨S30x10, .i32⟩
  | 27 => ⟨S30x10, .i32⟩
  | 28 => ⟨S30x10, .i32⟩
  | 29 => ⟨S30x10x1, .i32⟩
  | 30 => ⟨S30x10, .f32⟩
  | 31 => ⟨S30, .f32⟩
  | 32 => ⟨S_, .i32⟩
  | 33 => ⟨S30x10, .i32⟩
  | 34 => ⟨S30x10, .i1⟩
  | 35 => ⟨S_, .i32⟩
  | 36 => ⟨S30x10, .i32⟩
  | 37 => ⟨S30x10, .i32⟩
  | 38 => ⟨S30x10, .i32⟩
  | 39 => ⟨S30x10x1, .i32⟩
  | 40 => ⟨S30x10, .f32⟩
  | 41 => ⟨S30x10x1, .f32⟩
  | 42 => ⟨S30x10x1, .f32⟩
  | 43 => ⟨S30x10x2, .f32⟩
  | 44 => ⟨S30x20, .f32⟩
  | 45 => ⟨S131072x30x28, .f32⟩
  | _ => ⟨S131072x30x10, .f32⟩

abbrev hbmTy (i : Nat) : BufTy := match i / 128 with
  | 0 => hbmTy0_0 i
  | 1 => hbmTy0_1 i
  | _ => ⟨S131072x30x10, .f32⟩

abbrev bufTy : (tb : Table) → Fin (tcTables nBuf tb) → BufTy
  | .hbm, ⟨i, _⟩ => hbmTy i
  | .local _ .vmem, ⟨0, _⟩ => ⟨S256x30x10, .f32⟩
  | .local _ .vmem, ⟨1, _⟩ => ⟨S256x30x10, .f32⟩
  | .local _ .vmem, ⟨2, _⟩ => ⟨S256x30x4, .f32⟩
  | .local _ .vmem, ⟨3, _⟩ => ⟨S256x30x4, .f32⟩
  | .local _ .vmem, ⟨4, _⟩ => ⟨S256x30, .i32⟩
  | .local _ .vmem, ⟨5, _⟩ => ⟨S256x30, .i32⟩
  | .local _ .vmem, ⟨6, _⟩ => ⟨S30x20, .f32⟩
  | .local _ .vmem, ⟨7, _⟩ => ⟨S256x30x28, .f32⟩
  | .local _ .vmem, ⟨8, _⟩ => ⟨S256x30x28, .f32⟩
  | _, _ => ⟨S131072x30x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v9 : Ref sig .tc := ⟨.hbm, 34, rfl⟩
abbrev main_c_1 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_c : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_0 : Ref sig .tc := ⟨.hbm, 49, rfl⟩
abbrev main_call1_v12 : Ref sig .tc := ⟨.hbm, 50, rfl⟩
abbrev main_call1_v13 : Ref sig .tc := ⟨.hbm, 51, rfl⟩
abbrev main_v10 : Ref sig .tc := ⟨.hbm, 52, rfl⟩
abbrev main_c_2 : Ref sig .tc := ⟨.hbm, 53, rfl⟩
abbrev main_v11 : Ref sig .tc := ⟨.hbm, 54, rfl⟩
abbrev main_v12 : Ref sig .tc := ⟨.hbm, 55, rfl⟩
abbrev main_c_3 : Ref sig .tc := ⟨.hbm, 56, rfl⟩
abbrev main_c_4 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_v13 : Ref sig .tc := ⟨.hbm, 63, rfl⟩
abbrev main_c_5 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_c_6 : Ref sig .tc := ⟨.hbm, 71, rfl⟩
abbrev main_v20 : Ref sig .tc := ⟨.hbm, 72, rfl⟩
abbrev main_v21 : Ref sig .tc := ⟨.hbm, 73, rfl⟩
abbrev main_c_7 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_c_8 : Ref sig .tc := ⟨.hbm, 80, rfl⟩
abbrev main_v27 : Ref sig .tc := ⟨.hbm, 81, rfl⟩
abbrev main_v28 : Ref sig .tc := ⟨.hbm, 82, rfl⟩
abbrev main_c_9 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_c_10 : Ref sig .tc := ⟨.hbm, 89, rfl⟩
abbrev main_v34 : Ref sig .tc := ⟨.hbm, 90, rfl⟩
abbrev main_v35 : Ref sig .tc := ⟨.hbm, 91, rfl⟩
abbrev main_c_11 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_cst : Ref sig .tc := ⟨.hbm, 98, rfl⟩
abbrev main_call3_v0 : Ref sig .tc := ⟨.hbm, 99, rfl⟩
abbrev main_call3_v1 : Ref sig .tc := ⟨.hbm, 100, rfl⟩
abbrev main_v41 : Ref sig .tc := ⟨.hbm, 101, rfl⟩
abbrev main_c_12 : Ref sig .tc := ⟨.hbm, 102, rfl⟩
abbrev main_v42 : Ref sig .tc := ⟨.hbm, 103, rfl⟩
abbrev main_v43 : Ref sig .tc := ⟨.hbm, 104, rfl⟩
abbrev main_c_13 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_cst_14 : Ref sig .tc := ⟨.hbm, 111, rfl⟩
abbrev main_call4_v0 : Ref sig .tc := ⟨.hbm, 112, rfl⟩
abbrev main_call4_v1 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_c_15 : Ref sig .tc := ⟨.hbm, 127, rfl⟩
abbrev main_call5_v0 : Ref sig .tc := ⟨.hbm, 128, rfl⟩
abbrev main_call5_c : Ref sig .tc := ⟨.hbm, 129, rfl⟩
abbrev main_call5_v1 : Ref sig .tc := ⟨.hbm, 130, rfl⟩
abbrev main_call5_c_0 : Ref sig .tc := ⟨.hbm, 131, rfl⟩
abbrev main_call5_v2 : Ref sig .tc := ⟨.hbm, 132, rfl⟩
abbrev main_call5_v3 : Ref sig .tc := ⟨.hbm, 133, rfl⟩
abbrev main_call5_v4 : Ref sig .tc := ⟨.hbm, 134, rfl⟩
abbrev main_call5_c_1 : Ref sig .tc := ⟨.hbm, 135, rfl⟩
abbrev main_call5_v5 : Ref sig .tc := ⟨.hbm, 136, rfl⟩
abbrev main_call5_v6 : Ref sig .tc := ⟨.hbm, 137, rfl⟩
abbrev main_call5_c_2 : Ref sig .tc := ⟨.hbm, 138, rfl⟩
abbrev main_call5_v7 : Ref sig .tc := ⟨.hbm, 139, rfl⟩
abbrev main_call5_v8 : Ref sig .tc := ⟨.hbm, 140, rfl⟩
abbrev main_call5_c_3 : Ref sig .tc := ⟨.hbm, 141, rfl⟩
abbrev main_call5_v9 : Ref sig .tc := ⟨.hbm, 142, rfl⟩
abbrev main_call5_v10 : Ref sig .tc := ⟨.hbm, 143, rfl⟩
abbrev main_call5_v11 : Ref sig .tc := ⟨.hbm, 144, rfl⟩
abbrev main_call5_v12 : Ref sig .tc := ⟨.hbm, 145, rfl⟩
abbrev main_call5_v13 : Ref sig .tc := ⟨.hbm, 146, rfl⟩
abbrev main_call5_v14 : Ref sig .tc := ⟨.hbm, 147, rfl⟩
abbrev main_v62 : Ref sig .tc := ⟨.hbm, 148, rfl⟩
abbrev main_v63 : Ref sig .tc := ⟨.hbm, 149, rfl⟩
abbrev main_c_16 : Ref sig .tc := ⟨.hbm, 150, rfl⟩
abbrev main_v64 : Ref sig .tc := ⟨.hbm, 151, rfl⟩
abbrev main_v65 : Ref sig .tc := ⟨.hbm, 152, rfl⟩
abbrev main_c_17 : Ref sig .tc := ⟨.hbm, 153, rfl⟩
abbrev main_v66 : Ref sig .tc := ⟨.hbm, 154, rfl⟩
abbrev main_v67 : Ref sig .tc := ⟨.hbm, 155, rfl⟩
abbrev main_v68 : Ref sig .tc := ⟨.hbm, 156, rfl⟩
abbrev main_v69 : Ref sig .tc := ⟨.hbm, 157, rfl⟩
abbrev main_v70 : Ref sig .tc := ⟨.hbm, 158, rfl⟩
abbrev main_v71 : Ref sig .tc := ⟨.hbm, 159, rfl⟩
abbrev main_c_18 : Ref sig .tc := ⟨.hbm, 160, rfl⟩
abbrev main_v72 : Ref sig .tc := ⟨.hbm, 161, rfl⟩
abbrev main_v73 : Ref sig .tc := ⟨.hbm, 162, rfl⟩
abbrev main_c_19 : Ref sig .tc := ⟨.hbm, 163, rfl⟩
abbrev main_v74 : Ref sig .tc := ⟨.hbm, 164, rfl⟩
abbrev main_v75 : Ref sig .tc := ⟨.hbm, 165, rfl⟩
abbrev main_v76 : Ref sig .tc := ⟨.hbm, 166, rfl⟩
abbrev main_v77 : Ref sig .tc := ⟨.hbm, 167, rfl⟩
abbrev main_v78 : Ref sig .tc := ⟨.hbm, 168, rfl⟩
abbrev main_v79 : Ref sig .tc := ⟨.hbm, 169, rfl⟩
abbrev main_v80 : Ref sig .tc := ⟨.hbm, 170, rfl⟩
abbrev main_v81 : Ref sig .tc := ⟨.hbm, 171, rfl⟩
abbrev main_v82 : Ref sig .tc := ⟨.hbm, 172, rfl⟩
abbrev main_v83 : Ref sig .tc := ⟨.hbm, 173, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![512], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x30x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x30x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x30 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S30x20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x30x28 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S131072_S131072x1_0 : S131072.BroadcastsInDim S131072x1 (![0] : Fin 1 → Fin S131072x1.rank)
  bcast_S30_S1x30_1 : S30.BroadcastsInDim S1x30 (![1] : Fin 1 → Fin S1x30.rank)
  bcast_S_S1x30 : S_.BroadcastsInDim S1x30 (![] : Fin 0 → Fin S1x30.rank)
  bcast_S1x30_S131072x30_0_1 : S1x30.BroadcastsInDim S131072x30 (![0, 1] : Fin 2 → Fin S131072x30.rank)
  bcast_S131072x1_S131072x30_0_1 : S131072x1.BroadcastsInDim S131072x30 (![0, 1] : Fin 2 → Fin S131072x30.rank)
  bcast_S_S131072x30 : S_.BroadcastsInDim S131072x30 (![] : Fin 0 → Fin S131072x30.rank)
  slices_S131072x30x10_S131072x1x1_0_0_0 : S131072x30x10.Slices ![0, 0, 0] S131072x1x1
  shapeCasts_S131072x1x1_S131072 : S131072x1x1.ShapeCasts S131072
  slices_S131072x30x10_S131072x1x1_0_0_1 : S131072x30x10.Slices ![0, 0, 1] S131072x1x1
  bcast_S131072x30_S131072x30x1_0_1 : S131072x30.BroadcastsInDim S131072x30x1 (![0, 1] : Fin 2 → Fin S131072x30x1.rank)
  concatenates_S131072x30x1_S131072x30x1_S131072x30x1_S131072x30x1_S131072x30x4_d2 : Shape.Concatenates [S131072x30x1, S131072x30x1, S131072x30x1, S131072x30x1] S131072x30x4 2
  bcast_S30_S30x1_0 : S30.BroadcastsInDim S30x1 (![0] : Fin 1 → Fin S30x1.rank)
  bcast_S10_S1x10_1 : S10.BroadcastsInDim S1x10 (![1] : Fin 1 → Fin S1x10.rank)
  bcast_S30x1_S30x10_0_1 : S30x1.BroadcastsInDim S30x10 (![0, 1] : Fin 2 → Fin S30x10.rank)
  bcast_S1x10_S30x10_0_1 : S1x10.BroadcastsInDim S30x10 (![0, 1] : Fin 2 → Fin S30x10.rank)
  bcast_S_S30x10 : S_.BroadcastsInDim S30x10 (![] : Fin 0 → Fin S30x10.rank)
  shapeCasts_S1x30_S30 : S1x30.ShapeCasts S30
  bcast_S30x10_S30x10x1_0_1 : S30x10.BroadcastsInDim S30x10x1 (![0, 1] : Fin 2 → Fin S30x10x1.rank)
  concatenates_S30x10x1_S30x10x1_S30x10x2_d2 : Shape.Concatenates [S30x10x1, S30x10x1] S30x10x2 2
  shapeCasts_S30x10x2_S30x20 : S30x10x2.ShapeCasts S30x20
  inb_S30x20_S30x20_0_0 : ∀ a, (![0, 0] : Fin 2 → Nat) a + S30x20.size a ≤ S30x20.size a
  h_S30x20 : 0 < S30x20.numel
  shapeCasts_S30x20_S30x20 : S30x20.ShapeCasts S30x20
  bitsLt_bf16_f32 : FTy.bits .bf16 < FTy.bits .f32
  iota_S256x30_d1_w32 : S256x30.Iotas .tc 32 [1]
  iota_S256x20_d1_w32 : S256x20.Iotas .tc 32 [1]
  inb_S256x30_S256x1_0_0 : ∀ a, (![0, 0] : Fin 2 → Nat) a + S256x1.size a ≤ S256x30.size a
  h_S256x1 : 0 < S256x1.numel
  shapeCasts_S256x1_S256 : S256x1.ShapeCasts S256
  shapeCasts_S256_S256x1 : S256.ShapeCasts S256x1
  broadcasts_S256x1_S256x30 : S256x1.Broadcasts S256x30
  natLt_1_32 : 1 < 32
  broadcasts_S256x1_S256x20 : S256x1.Broadcasts S256x20
  inb_S256x30x4_S256x1x4_0_0_0 : ∀ a, (![0, 0, 0] : Fin 3 → Nat) a + S256x1x4.size a ≤ S256x30x4.size a
  h_S256x1x4 : 0 < S256x1x4.numel
  shapeCasts_S256x1x4_S256x4 : S256x1x4.ShapeCasts S256x4
  slices_S256x4_o0_0_S256x1 : S256x4.Slices ![0, 0] S256x1
  slices_S256x4_o0_1_S256x1 : S256x4.Slices ![0, 1] S256x1
  slices_S256x4_o0_2_S256x1 : S256x4.Slices ![0, 2] S256x1
  slices_S256x4_o0_3_S256x1 : S256x4.Slices ![0, 3] S256x1
  shapeCasts_S256x1_S256x1 : S256x1.ShapeCasts S256x1
  inb_S256x30x10_S256x1x10_0_0_0 : ∀ a, (![0, 0, 0] : Fin 3 → Nat) a + S256x1x10.size a ≤ S256x30x10.size a
  h_S256x1x10 : 0 < S256x1x10.numel
  shapeCasts_S256x1x10_S256x10 : S256x1x10.ShapeCasts S256x10
  slices_S256x10_o0_2_S256x8 : S256x10.Slices ![0, 2] S256x8
  concatenates_S256x20_S256x8_S256x28_d1 : Shape.Concatenates [S256x20, S256x8] S256x28 1
  inb_S256x30x28_S256x1x28_0_0_0 : ∀ a, (![0, 0, 0] : Fin 3 → Nat) a + S256x1x28.size a ≤ S256x30x28.size a
  h_S256x1x28 : 0 < S256x1x28.numel
  shapeCasts_S256x1x28_S256x28 : S256x1x28.ShapeCasts S256x28
  shapeCasts_S256x28_S256x1x28 : S256x28.ShapeCasts S256x1x28
  inb_S256x30_S256x1_0_1 : ∀ a, (![0, 1] : Fin 2 → Nat) a + S256x1.size a ≤ S256x30.size a
  inb_S256x30x4_S256x1x4_0_1_0 : ∀ a, (![0, 1, 0] : Fin 3 → Nat) a + S256x1x4.size a ≤ S256x30x4.size a
  inb_S256x30x10_S256x1x10_0_1_0 : ∀ a, (![0, 1, 0] : Fin 3 → Nat) a + S256x1x10.size a ≤ S256x30x10.size a
  inb_S256x30x28_S256x1x28_0_1_0 : ∀ a, (![0, 1, 0] : Fin 3 → Nat) a + S256x1x28.size a ≤ S256x30x28.size a
  inb_S256x30_S256x1_0_2 : ∀ a, (![0, 2] : Fin 2 → Nat) a + S256x1.size a ≤ S256x30.size a
  inb_S256x30x4_S256x1x4_0_2_0 : ∀ a, (![0, 2, 0] : Fin 3 → Nat) a + S256x1x4.size a ≤ S256x30x4.size a
  inb_S256x30x10_S256x1x10_0_2_0 : ∀ a, (![0, 2, 0] : Fin 3 → Nat) a + S256x1x10.size a ≤ S256x30x10.size a
  inb_S256x30x28_S256x1x28_0_2_0 : ∀ a, (![0, 2, 0] : Fin 3 → Nat) a + S256x1x28.size a ≤ S256x30x28.size a
  inb_S256x30_S256x1_0_3 : ∀ a, (![0, 3] : Fin 2 → Nat) a + S256x1.size a ≤ S256x30.size a
  inb_S256x30x4_S256x1x4_0_3_0 : ∀ a, (![0, 3, 0] : Fin 3 → Nat) a + S256x1x4.size a ≤ S256x30x4.size a
  inb_S256x30x10_S256x1x10_0_3_0 : ∀ a, (![0, 3, 0] : Fin 3 → Nat) a + S256x1x10.size a ≤ S256x30x10.size a
  inb_S256x30x28_S256x1x28_0_3_0 : ∀ a, (![0, 3, 0] : Fin 3 → Nat) a + S256x1x28.size a ≤ S256x30x28.size a
  inb_S256x30_S256x1_0_4 : ∀ a, (![0, 4] : Fin 2 → Nat) a + S256x1.size a ≤ S256x30.size a
  inb_S256x30x4_S256x1x4_0_4_0 : ∀ a, (![0, 4, 0] : Fin 3 → Nat) a + S256x1x4.size a ≤ S256x30x4.size a
  inb_S256x30x10_S256x1x10_0_4_0 : ∀ a, (![0, 4, 0] : Fin 3 → Nat) a + S256x1x10.size a ≤ S256x30x10.size a
  inb_S256x30x28_S256x1x28_0_4_0 : ∀ a, (![0, 4, 0] : Fin 3 → Nat) a + S256x1x28.size a ≤ S256x30x28.size a
  inb_S256x30_S256x1_0_5 : ∀ a, (![0, 5] : Fin 2 → Nat) a + S256x1.size a ≤ S256x30.size a
  inb_S256x30x4_S256x1x4_0_5_0 : ∀ a, (![0, 5, 0] : Fin 3 → Nat) a + S256x1x4.size a ≤ S256x30x4.size a
  inb_S256x30x10_S256x1x10_0_5_0 : ∀ a, (![0, 5, 0] : Fin 3 → Nat) a + S256x1x10.size a ≤ S256x30x10.size a
  inb_S256x30x28_S256x1x28_0_5_0 : ∀ a, (![0, 5, 0] : Fin 3 → Nat) a + S256x1x28.size a ≤ S256x30x28.size a
  inb_S256x30_S256x1_0_6 : ∀ a, (![0, 6] : Fin 2 → Nat) a + S256x1.size a ≤ S256x30.size a
  inb_S256x30x4_S256x1x4_0_6_0 : ∀ a, (![0, 6, 0] : Fin 3 → Nat) a + S256x1x4.size a ≤ S256x30x4.size a
  inb_S256x30x10_S256x1x10_0_6_0 : ∀ a, (![0, 6, 0] : Fin 3 → Nat) a + S256x1x10.size a ≤ S256x30x10.size a
  inb_S256x30x28_S256x1x28_0_6_0 : ∀ a, (![0, 6, 0] : Fin 3 → Nat) a + S256x1x28.size a ≤ S256x30x28.size a
  inb_S256x30_S256x1_0_7 : ∀ a, (![0, 7] : Fin 2 → Nat) a + S256x1.size a ≤ S256x30.size a
  inb_S256x30x4_S256x1x4_0_7_0 : ∀ a, (![0, 7, 0] : Fin 3 → Nat) a + S256x1x4.size a ≤ S256x30x4.size a
  inb_S256x30x10_S256x1x10_0_7_0 : ∀ a, (![0, 7, 0] : Fin 3 → Nat) a + S256x1x10.size a ≤ S256x30x10.size a
  inb_S256x30x28_S256x1x28_0_7_0 : ∀ a, (![0, 7, 0] : Fin 3 → Nat) a + S256x1x28.size a ≤ S256x30x28.size a
  inb_S256x30_S256x1_0_8 : ∀ a, (![0, 8] : Fin 2 → Nat) a + S256x1.size a ≤ S256x30.size a
  inb_S256x30x4_S256x1x4_0_8_0 : ∀ a, (![0, 8, 0] : Fin 3 → Nat) a + S256x1x4.size a ≤ S256x30x4.size a
  inb_S256x30x10_S256x1x10_0_8_0 : ∀ a, (![0, 8, 0] : Fin 3 → Nat) a + S256x1x10.size a ≤ S256x30x10.size a
  inb_S256x30x28_S256x1x28_0_8_0 : ∀ a, (![0, 8, 0] : Fin 3 → Nat) a + S256x1x28.size a ≤ S256x30x28.size a
  inb_S256x30_S256x1_0_9 : ∀ a, (![0, 9] : Fin 2 → Nat) a + S256x1.size a ≤ S256x30.size a
  inb_S256x30x4_S256x1x4_0_9_0 : ∀ a, (![0, 9, 0] : Fin 3 → Nat) a + S256x1x4.size a ≤ S256x30x4.size a
  inb_S256x30x10_S256x1x10_0_9_0 : ∀ a, (![0, 9, 0] : Fin 3 → Nat) a + S256x1x10.size a ≤ S256x30x10.size a
  inb_S256x30x28_S256x1x28_0_9_0 : ∀ a, (![0, 9, 0] : Fin 3 → Nat) a + S256x1x28.size a ≤ S256x30x28.size a
  inb_S256x30_S256x1_0_10 : ∀ a, (![0, 10] : Fin 2 → Nat) a + S256x1.size a ≤ S256x30.size a
  inb_S256x30x4_S256x1x4_0_10_0 : ∀ a, (![0, 10, 0] : Fin 3 → Nat) a + S256x1x4.size a ≤ S256x30x4.size a
  inb_S256x30x10_S256x1x10_0_10_0 : ∀ a, (![0, 10, 0] : Fin 3 → Nat) a + S256x1x10.size a ≤ S256x30x10.size a
  inb_S256x30x28_S256x1x28_0_10_0 : ∀ a, (![0, 10, 0] : Fin 3 → Nat) a + S256x1x28.size a ≤ S256x30x28.size a
  inb_S256x30_S256x1_0_11 : ∀ a, (![0, 11] : Fin 2 → Nat) a + S256x1.size a ≤ S256x30.size a
  inb_S256x30x4_S256x1x4_0_11_0 : ∀ a, (![0, 11, 0] : Fin 3 → Nat) a + S256x1x4.size a ≤ S256x30x4.size a
  inb_S256x30x10_S256x1x10_0_11_0 : ∀ a, (![0, 11, 0] : Fin 3 → Nat) a + S256x1x10.size a ≤ S256x30x10.size a
  inb_S256x30x28_S256x1x28_0_11_0 : ∀ a, (![0, 11, 0] : Fin 3 → Nat) a + S256x1x28.size a ≤ S256x30x28.size a
  inb_S256x30_S256x1_0_12 : ∀ a, (![0, 12] : Fin 2 → Nat) a + S256x1.size a ≤ S256x30.size a
  inb_S256x30x4_S256x1x4_0_12_0 : ∀ a, (![0, 12, 0] : Fin 3 → Nat) a + S256x1x4.size a ≤ S256x30x4.size a
  inb_S256x30x10_S256x1x10_0_12_0 : ∀ a, (![0, 12, 0] : Fin 3 → Nat) a + S256x1x10.size a ≤ S256x30x10.size a
  inb_S256x30x28_S256x1x28_0_12_0 : ∀ a, (![0, 12, 0] : Fin 3 → Nat) a + S256x1x28.size a ≤ S256x30x28.size a
  inb_S256x30_S256x1_0_13 : ∀ a, (![0, 13] : Fin 2 → Nat) a + S256x1.size a ≤ S256x30.size a
  inb_S256x30x4_S256x1x4_0_13_0 : ∀ a, (![0, 13, 0] : Fin 3 → Nat) a + S256x1x4.size a ≤ S256x30x4.size a
  inb_S256x30x10_S256x1x10_0_13_0 : ∀ a, (![0, 13, 0] : Fin 3 → Nat) a + S256x1x10.size a ≤ S256x30x10.size a
  inb_S256x30x28_S256x1x28_0_13_0 : ∀ a, (![0, 13, 0] : Fin 3 → Nat) a + S256x1x28.size a ≤ S256x30x28.size a
  inb_S256x30_S256x1_0_14 : ∀ a, (![0, 14] : Fin 2 → Nat) a + S256x1.size a ≤ S256x30.size a
  inb_S256x30x4_S256x1x4_0_14_0 : ∀ a, (![0, 14, 0] : Fin 3 → Nat) a + S256x1x4.size a ≤ S256x30x4.size a
  inb_S256x30x10_S256x1x10_0_14_0 : ∀ a, (![0, 14, 0] : Fin 3 → Nat) a + S256x1x10.size a ≤ S256x30x10.size a
  inb_S256x30x28_S256x1x28_0_14_0 : ∀ a, (![0, 14, 0] : Fin 3 → Nat) a + S256x1x28.size a ≤ S256x30x28.size a
  inb_S256x30_S256x1_0_15 : ∀ a, (![0, 15] : Fin 2 → Nat) a + S256x1.size a ≤ S256x30.size a
  inb_S256x30x4_S256x1x4_0_15_0 : ∀ a, (![0, 15, 0] : Fin 3 → Nat) a + S256x1x4.size a ≤ S256x30x4.size a
  inb_S256x30x10_S256x1x10_0_15_0 : ∀ a, (![0, 15, 0] : Fin 3 → Nat) a + S256x1x10.size a ≤ S256x30x10.size a
  inb_S256x30x28_S256x1x28_0_15_0 : ∀ a, (![0, 15, 0] : Fin 3 → Nat) a + S256x1x28.size a ≤ S256x30x28.size a
  inb_S256x30_S256x1_0_16 : ∀ a, (![0, 16] : Fin 2 → Nat) a + S256x1.size a ≤ S256x30.size a
  inb_S256x30x4_S256x1x4_0_16_0 : ∀ a, (![0, 16, 0] : Fin 3 → Nat) a + S256x1x4.size a ≤ S256x30x4.size a
  inb_S256x30x10_S256x1x10_0_16_0 : ∀ a, (![0, 16, 0] : Fin 3 → Nat) a + S256x1x10.size a ≤ S256x30x10.size a
  inb_S256x30x28_S256x1x28_0_16_0 : ∀ a, (![0, 16, 0] : Fin 3 → Nat) a + S256x1x28.size a ≤ S256x30x28.size a
  inb_S256x30_S256x1_0_17 : ∀ a, (![0, 17] : Fin 2 → Nat) a + S256x1.size a ≤ S256x30.size a
  inb_S256x30x4_S256x1x4_0_17_0 : ∀ a, (![0, 17, 0] : Fin 3 → Nat) a + S256x1x4.size a ≤ S256x30x4.size a
  inb_S256x30x10_S256x1x10_0_17_0 : ∀ a, (![0, 17, 0] : Fin 3 → Nat) a + S256x1x10.size a ≤ S256x30x10.size a
  inb_S256x30x28_S256x1x28_0_17_0 : ∀ a, (![0, 17, 0] : Fin 3 → Nat) a + S256x1x28.size a ≤ S256x30x28.size a
  inb_S256x30_S256x1_0_18 : ∀ a, (![0, 18] : Fin 2 → Nat) a + S256x1.size a ≤ S256x30.size a
  inb_S256x30x4_S256x1x4_0_18_0 : ∀ a, (![0, 18, 0] : Fin 3 → Nat) a + S256x1x4.size a ≤ S256x30x4.size a
  inb_S256x30x10_S256x1x10_0_18_0 : ∀ a, (![0, 18, 0] : Fin 3 → Nat) a + S256x1x10.size a ≤ S256x30x10.size a
  inb_S256x30x28_S256x1x28_0_18_0 : ∀ a, (![0, 18, 0] : Fin 3 → Nat) a + S256x1x28.size a ≤ S256x30x28.size a
  inb_S256x30_S256x1_0_19 : ∀ a, (![0, 19] : Fin 2 → Nat) a + S256x1.size a ≤ S256x30.size a
  inb_S256x30x4_S256x1x4_0_19_0 : ∀ a, (![0, 19, 0] : Fin 3 → Nat) a + S256x1x4.size a ≤ S256x30x4.size a
  inb_S256x30x10_S256x1x10_0_19_0 : ∀ a, (![0, 19, 0] : Fin 3 → Nat) a + S256x1x10.size a ≤ S256x30x10.size a
  inb_S256x30x28_S256x1x28_0_19_0 : ∀ a, (![0, 19, 0] : Fin 3 → Nat) a + S256x1x28.size a ≤ S256x30x28.size a
  inb_S256x30_S256x1_0_20 : ∀ a, (![0, 20] : Fin 2 → Nat) a + S256x1.size a ≤ S256x30.size a
  inb_S256x30x4_S256x1x4_0_20_0 : ∀ a, (![0, 20, 0] : Fin 3 → Nat) a + S256x1x4.size a ≤ S256x30x4.size a
  inb_S256x30x10_S256x1x10_0_20_0 : ∀ a, (![0, 20, 0] : Fin 3 → Nat) a + S256x1x10.size a ≤ S256x30x10.size a
  inb_S256x30x28_S256x1x28_0_20_0 : ∀ a, (![0, 20, 0] : Fin 3 → Nat) a + S256x1x28.size a ≤ S256x30x28.size a
  inb_S256x30_S256x1_0_21 : ∀ a, (![0, 21] : Fin 2 → Nat) a + S256x1.size a ≤ S256x30.size a
  inb_S256x30x4_S256x1x4_0_21_0 : ∀ a, (![0, 21, 0] : Fin 3 → Nat) a + S256x1x4.size a ≤ S256x30x4.size a
  inb_S256x30x10_S256x1x10_0_21_0 : ∀ a, (![0, 21, 0] : Fin 3 → Nat) a + S256x1x10.size a ≤ S256x30x10.size a
  inb_S256x30x28_S256x1x28_0_21_0 : ∀ a, (![0, 21, 0] : Fin 3 → Nat) a + S256x1x28.size a ≤ S256x30x28.size a
  inb_S256x30_S256x1_0_22 : ∀ a, (![0, 22] : Fin 2 → Nat) a + S256x1.size a ≤ S256x30.size a
  inb_S256x30x4_S256x1x4_0_22_0 : ∀ a, (![0, 22, 0] : Fin 3 → Nat) a + S256x1x4.size a ≤ S256x30x4.size a
  inb_S256x30x10_S256x1x10_0_22_0 : ∀ a, (![0, 22, 0] : Fin 3 → Nat) a + S256x1x10.size a ≤ S256x30x10.size a
  inb_S256x30x28_S256x1x28_0_22_0 : ∀ a, (![0, 22, 0] : Fin 3 → Nat) a + S256x1x28.size a ≤ S256x30x28.size a
  inb_S256x30_S256x1_0_23 : ∀ a, (![0, 23] : Fin 2 → Nat) a + S256x1.size a ≤ S256x30.size a
  inb_S256x30x4_S256x1x4_0_23_0 : ∀ a, (![0, 23, 0] : Fin 3 → Nat) a + S256x1x4.size a ≤ S256x30x4.size a
  inb_S256x30x10_S256x1x10_0_23_0 : ∀ a, (![0, 23, 0] : Fin 3 → Nat) a + S256x1x10.size a ≤ S256x30x10.size a
  inb_S256x30x28_S256x1x28_0_23_0 : ∀ a, (![0, 23, 0] : Fin 3 → Nat) a + S256x1x28.size a ≤ S256x30x28.size a
  inb_S256x30_S256x1_0_24 : ∀ a, (![0, 24] : Fin 2 → Nat) a + S256x1.size a ≤ S256x30.size a
  inb_S256x30x4_S256x1x4_0_24_0 : ∀ a, (![0, 24, 0] : Fin 3 → Nat) a + S256x1x4.size a ≤ S256x30x4.size a
  inb_S256x30x10_S256x1x10_0_24_0 : ∀ a, (![0, 24, 0] : Fin 3 → Nat) a + S256x1x10.size a ≤ S256x30x10.size a
  inb_S256x30x28_S256x1x28_0_24_0 : ∀ a, (![0, 24, 0] : Fin 3 → Nat) a + S256x1x28.size a ≤ S256x30x28.size a
  inb_S256x30_S256x1_0_25 : ∀ a, (![0, 25] : Fin 2 → Nat) a + S256x1.size a ≤ S256x30.size a
  inb_S256x30x4_S256x1x4_0_25_0 : ∀ a, (![0, 25, 0] : Fin 3 → Nat) a + S256x1x4.size a ≤ S256x30x4.size a
  inb_S256x30x10_S256x1x10_0_25_0 : ∀ a, (![0, 25, 0] : Fin 3 → Nat) a + S256x1x10.size a ≤ S256x30x10.size a
  inb_S256x30x28_S256x1x28_0_25_0 : ∀ a, (![0, 25, 0] : Fin 3 → Nat) a + S256x1x28.size a ≤ S256x30x28.size a
  inb_S256x30_S256x1_0_26 : ∀ a, (![0, 26] : Fin 2 → Nat) a + S256x1.size a ≤ S256x30.size a
  inb_S256x30x4_S256x1x4_0_26_0 : ∀ a, (![0, 26, 0] : Fin 3 → Nat) a + S256x1x4.size a ≤ S256x30x4.size a
  inb_S256x30x10_S256x1x10_0_26_0 : ∀ a, (![0, 26, 0] : Fin 3 → Nat) a + S256x1x10.size a ≤ S256x30x10.size a
  inb_S256x30x28_S256x1x28_0_26_0 : ∀ a, (![0, 26, 0] : Fin 3 → Nat) a + S256x1x28.size a ≤ S256x30x28.size a
  inb_S256x30_S256x1_0_27 : ∀ a, (![0, 27] : Fin 2 → Nat) a + S256x1.size a ≤ S256x30.size a
  inb_S256x30x4_S256x1x4_0_27_0 : ∀ a, (![0, 27, 0] : Fin 3 → Nat) a + S256x1x4.size a ≤ S256x30x4.size a
  inb_S256x30x10_S256x1x10_0_27_0 : ∀ a, (![0, 27, 0] : Fin 3 → Nat) a + S256x1x10.size a ≤ S256x30x10.size a
  inb_S256x30x28_S256x1x28_0_27_0 : ∀ a, (![0, 27, 0] : Fin 3 → Nat) a + S256x1x28.size a ≤ S256x30x28.size a
  inb_S256x30_S256x1_0_28 : ∀ a, (![0, 28] : Fin 2 → Nat) a + S256x1.size a ≤ S256x30.size a
  inb_S256x30x4_S256x1x4_0_28_0 : ∀ a, (![0, 28, 0] : Fin 3 → Nat) a + S256x1x4.size a ≤ S256x30x4.size a
  inb_S256x30x10_S256x1x10_0_28_0 : ∀ a, (![0, 28, 0] : Fin 3 → Nat) a + S256x1x10.size a ≤ S256x30x10.size a
  inb_S256x30x28_S256x1x28_0_28_0 : ∀ a, (![0, 28, 0] : Fin 3 → Nat) a + S256x1x28.size a ≤ S256x30x28.size a
  inb_S256x30_S256x1_0_29 : ∀ a, (![0, 29] : Fin 2 → Nat) a + S256x1.size a ≤ S256x30.size a
  inb_S256x30x4_S256x1x4_0_29_0 : ∀ a, (![0, 29, 0] : Fin 3 → Nat) a + S256x1x4.size a ≤ S256x30x4.size a
  inb_S256x30x10_S256x1x10_0_29_0 : ∀ a, (![0, 29, 0] : Fin 3 → Nat) a + S256x1x10.size a ≤ S256x30x10.size a
  inb_S256x30x28_S256x1x28_0_29_0 : ∀ a, (![0, 29, 0] : Fin 3 → Nat) a + S256x1x28.size a ≤ S256x30x28.size a
  gather_S131072_S131072x30x1_S131072x30_n_0_n_n_0_2_1_wf : GatherDims.WF S131072 S131072x30x1 S131072x30 [] [0] [] [0] [] 2 ![1]
  gather_S30_S30x10x1_S30x10_n_0_n_n_0_2_1_wf : GatherDims.WF S30 S30x10x1 S30x10 [] [0] [] [0] [] 2 ![1]
  dot_S256x30_S30x20_S256x20_1_0_0_1_n_n_wf : DotDims.WF S256x30 S30x20 S256x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x30x10.size a ≤ S131072x30x10.size a
  hwx0_0 : ∀ i : grid0.Coords, EltTy.bits .f32 = 32 ∨ (Rect.block (s := S131072x30x10) S256x30x10.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x30x4.size a ≤ S131072x30x4.size a
  hwx0_1 : ∀ i : grid0.Coords, EltTy.bits .f32 = 32 ∨ (Rect.block (s := S131072x30x4) S256x30x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x30.size a ≤ S131072x30.size a
  hwx0_2 : ∀ i : grid0.Coords, EltTy.bits .i32 = 32 ∨ (Rect.block (s := S131072x30) S256x30.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S30x20.size a ≤ S30x20.size a
  hwx0_3 : ∀ i : grid0.Coords, EltTy.bits .f32 = 32 ∨ (Rect.block (s := S30x20) S30x20.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x30x28.size a ≤ S131072x30x28.size a
  hwx0_4 : ∀ i : grid0.Coords, EltTy.bits .f32 = 32 ∨ (Rect.block (s := S131072x30x28) S256x30x28.size (cc0_transform_4 i) (hinb0_4 i)).WholeWords (EltTy.packing .f32)

variable [Facts₀]

def gather_S131072_S131072x30x1_S131072x30_n_0_n_n_0_2_1 : GatherDims S131072 S131072x30x1 S131072x30 where
  offsetDims := []
  collapsedSliceDims := [0]
  operandBatchingDims := []
  startIndicesBatchingDims := []
  startIndexMap := [0]
  indexVectorDim := 2
  sliceSizes := ![1]
  wf := gather_S131072_S131072x30x1_S131072x30_n_0_n_n_0_2_1_wf
def gather_S30_S30x10x1_S30x10_n_0_n_n_0_2_1 : GatherDims S30 S30x10x1 S30x10 where
  offsetDims := []
  collapsedSliceDims := [0]
  operandBatchingDims := []
  startIndicesBatchingDims := []
  startIndexMap := [0]
  indexVectorDim := 2
  sliceSizes := ![1]
  wf := gather_S30_S30x10x1_S30x10_n_0_n_n_0_2_1_wf
def dot_S256x30_S30x20_S256x20_1_0_0_1_n_n : DotDims S256x30 S30x20 S256x20 where
  lhsContracting := [1]
  rhsContracting := [0]
  lhsNonContracting := [0]
  rhsNonContracting := [1]
  lhsBatch := []
  rhsBatch := []
  wf := dot_S256x30_S30x20_S256x20_1_0_0_1_n_n_wf

abbrev win0_0 : Pipeline.Window sig grid0 :=
  Pipeline.Window.ofSpec (Memref.whole main_arg0) S256x30x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v54) S256x30x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S256x30.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v82) S30x20.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v83) S256x30x28.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x30x10 : Shape := ⟨3, ![131072, 30, 10]⟩
abbrev S1x30 : Shape := ⟨2, ![1, 30]⟩
abbrev S131072x1x1 : Shape := ⟨3, ![131072, 1, 1]⟩
abbrev S131072 : Shape := ⟨1, ![131072]⟩
abbrev S131072x1 : Shape := ⟨2, ![131072, 1]⟩
abbrev S30 : Shape := ⟨1, ![30]⟩
abbrev S131072x30 : Shape := ⟨2, ![131072, 30]⟩
abbrev S131072x30x1 : Shape := ⟨3, ![131072, 30, 1]⟩
abbrev S131072x30x2 : Shape := ⟨3, ![131072, 30, 2]⟩
abbrev S3932160x2 : Shape := ⟨2, ![3932160, 2]⟩
abbrev S_ : Shape := ⟨0, ![]⟩
abbrev S9x2 : Shape := ⟨2, ![9, 2]⟩
abbrev S3932169x2 : Shape := ⟨2, ![3932169, 2]⟩
abbrev S3932160x1x2 : Shape := ⟨3, ![3932160, 1, 2]⟩
abbrev S3932160x10x2 : Shape := ⟨3, ![3932160, 10, 2]⟩
abbrev S3932160x20 : Shape := ⟨2, ![3932160, 20]⟩
abbrev S30x131072x20 : Shape := ⟨3, ![30, 131072, 20]⟩
abbrev S131072x30x20 : Shape := ⟨3, ![131072, 30, 20]⟩
abbrev S131072x30x8 : Shape := ⟨3, ![131072, 30, 8]⟩
abbrev S131072x30x28 : Shape := ⟨3, ![131072, 30, 28]⟩

abbrev nBuf : Space → Nat
  | .hbm => 72
  | .vmem => 0
  | .smem => 0
  | _ => 0

abbrev bufTy : (tb : Table) → Fin (tcTables nBuf tb) → BufTy
  | .hbm, ⟨0, _⟩ => ⟨S131072x30x10, .f32⟩
  | .hbm, ⟨1, _⟩ => ⟨S1x30, .f32⟩
  | .hbm, ⟨2, _⟩ => ⟨S1x30, .f32⟩
  | .hbm, ⟨3, _⟩ => ⟨S131072x1x1, .f32⟩
  | .hbm, ⟨4, _⟩ => ⟨S131072, .f32⟩
  | .hbm, ⟨5, _⟩ => ⟨S131072x1, .f32⟩
  | .hbm, ⟨6, _⟩ => ⟨S30, .f32⟩
  | .hbm, ⟨7, _⟩ => ⟨S1x30, .f32⟩
  | .hbm, ⟨8, _⟩ => ⟨S131072x30, .f32⟩
  | .hbm, ⟨9, _⟩ => ⟨S131072x30, .f32⟩
  | .hbm, ⟨10, _⟩ => ⟨S131072x30, .f32⟩
  | .hbm, ⟨11, _⟩ => ⟨S131072x1x1, .f32⟩
  | .hbm, ⟨12, _⟩ => ⟨S131072, .f32⟩
  | .hbm, ⟨13, _⟩ => ⟨S131072x1, .f32⟩
  | .hbm, ⟨14, _⟩ => ⟨S30, .f32⟩
  | .hbm, ⟨15, _⟩ => ⟨S1x30, .f32⟩
  | .hbm, ⟨16, _⟩ => ⟨S131072x30, .f32⟩
  | .hbm, ⟨17, _⟩ => ⟨S131072x30, .f32⟩
  | .hbm, ⟨18, _⟩ => ⟨S131072x30, .f32⟩
  | .hbm, ⟨19, _⟩ => ⟨S131072x30x1, .f32⟩
  | .hbm, ⟨20, _⟩ => ⟨S131072x30x1, .f32⟩
  | .hbm, ⟨21, _⟩ => ⟨S131072x30x2, .f32⟩
  | .hbm, ⟨22, _⟩ => ⟨S3932160x2, .f32⟩
  | .hbm, ⟨23, _⟩ => ⟨S_, .f32⟩
  | .hbm, ⟨24, _⟩ => ⟨S9x2, .f32⟩
  | .hbm, ⟨25, _⟩ => ⟨S3932169x2, .f32⟩
  | .hbm, ⟨26, _⟩ => ⟨S_, .i32⟩
  | .hbm, ⟨27, _⟩ => ⟨S_, .i32⟩
  | .hbm, ⟨28, _⟩ => ⟨S3932160x2, .f32⟩
  | .hbm, ⟨29, _⟩ => ⟨S_, .i32⟩
  | .hbm, ⟨30, _⟩ => ⟨S_, .i32⟩
  | .hbm, ⟨31, _⟩ => ⟨S3932160x2, .f32⟩
  | .hbm, ⟨32, _⟩ => ⟨S_, .i32⟩
  | .hbm, ⟨33, _⟩ => ⟨S_, .i32⟩
  | .hbm, ⟨34, _⟩ => ⟨S3932160x2, .f32⟩
  | .hbm, ⟨35, _⟩ => ⟨S_, .i32⟩
  | .hbm, ⟨36, _⟩ => ⟨S_, .i32⟩
  | .hbm, ⟨37, _⟩ => ⟨S3932160x2, .f32⟩
  | .hbm, ⟨38, _⟩ => ⟨S_, .i32⟩
  | .hbm, ⟨39, _⟩ => ⟨S_, .i32⟩
  | .hbm, ⟨40, _⟩ => ⟨S3932160x2, .f32⟩
  | .hbm, ⟨41, _⟩ => ⟨S_, .i32⟩
  | .hbm, ⟨42, _⟩ => ⟨S_, .i32⟩
  | .hbm, ⟨43, _⟩ => ⟨S3932160x2, .f32⟩
  | .hbm, ⟨44, _⟩ => ⟨S_, .i32⟩
  | .hbm, ⟨45, _⟩ => ⟨S_, .i32⟩
  | .hbm, ⟨46, _⟩ => ⟨S3932160x2, .f32⟩
  | .hbm, ⟨47, _⟩ => ⟨S_, .i32⟩
  | .hbm, ⟨48, _⟩ => ⟨S_, .i32⟩
  | .hbm, ⟨49, _⟩ => ⟨S3932160x2, .f32⟩
  | .hbm, ⟨50, _⟩ => ⟨S_, .i32⟩
  | .hbm, ⟨51, _⟩ => ⟨S_, .i32⟩
  | .hbm, ⟨52, _⟩ => ⟨S3932160x2, .f32⟩
  | .hbm, ⟨53, _⟩ => ⟨S_, .i32⟩
  | .hbm, ⟨54, _⟩ => ⟨S_, .i32⟩
  | .hbm, ⟨55, _⟩ => ⟨S3932160x2, .f32⟩
  | .hbm, ⟨56, _⟩ => ⟨S3932160x1x2, .f32⟩
  | .hbm, ⟨57, _⟩ => ⟨S3932160x1x2, .f32⟩
  | .hbm, ⟨58, _⟩ => ⟨S3932160x1x2, .f32⟩
  | .hbm, ⟨59, _⟩ => ⟨S3932160x1x2, .f32⟩
  | .hbm, ⟨60, _⟩ => ⟨S3932160x1x2, .f32⟩
  | .hbm, ⟨61, _⟩ => ⟨S3932160x1x2, .f32⟩
  | .hbm, ⟨62, _⟩ => ⟨S3932160x1x2, .f32⟩
  | .hbm, ⟨63, _⟩ => ⟨S3932160x1x2, .f32⟩
  | .hbm, ⟨64, _⟩ => ⟨S3932160x1x2, .f32⟩
  | .hbm, ⟨65, _⟩ => ⟨S3932160x1x2, .f32⟩
  | .hbm, ⟨66, _⟩ => ⟨S3932160x10x2, .f32⟩
  | .hbm, ⟨67, _⟩ => ⟨S3932160x20, .f32⟩
  | .hbm, ⟨68, _⟩ => ⟨S30x131072x20, .f32⟩
  | .hbm, ⟨69, _⟩ => ⟨S131072x30x20, .f32⟩
  | .hbm, ⟨70, _⟩ => ⟨S131072x30x8, .f32⟩
  | .hbm, ⟨71, _⟩ => ⟨S131072x30x28, .f32⟩
  | _, _ => ⟨S131072x30x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst : Ref sig .tc := ⟨.hbm, 23, rfl⟩
abbrev main_v20 : Ref sig .tc := ⟨.hbm, 24, rfl⟩
abbrev main_v21 : Ref sig .tc := ⟨.hbm, 25, rfl⟩
abbrev main_c : Ref sig .tc := ⟨.hbm, 26, rfl⟩
abbrev main_c_0 : Ref sig .tc := ⟨.hbm, 27, rfl⟩
abbrev main_v22 : Ref sig .tc := ⟨.hbm, 28, rfl⟩
abbrev main_c_1 : Ref sig .tc := ⟨.hbm, 29, rfl⟩
abbrev main_c_2 : Ref sig .tc := ⟨.hbm, 30, rfl⟩
abbrev main_v23 : Ref sig .tc := ⟨.hbm, 31, rfl⟩
abbrev main_c_3 : Ref sig .tc := ⟨.hbm, 32, rfl⟩
abbrev main_c_4 : Ref sig .tc := ⟨.hbm, 33, rfl⟩
abbrev main_v24 : Ref sig .tc := ⟨.hbm, 34, rfl⟩
abbrev main_c_5 : Ref sig .tc := ⟨.hbm, 35, rfl⟩
abbrev main_c_6 : Ref sig .tc := ⟨.hbm, 36, rfl⟩
abbrev main_v25 : Ref sig .tc := ⟨.hbm, 37, rfl⟩
abbrev main_c_7 : Ref sig .tc := ⟨.hbm, 38, rfl⟩
abbrev main_c_8 : Ref sig .tc := ⟨.hbm, 39, rfl⟩
abbrev main_v26 : Ref sig .tc := ⟨.hbm, 40, rfl⟩
abbrev main_c_9 : Ref sig .tc := ⟨.hbm, 41, rfl⟩
abbrev main_c_10 : Ref sig .tc := ⟨.hbm, 42, rfl⟩
abbrev main_v27 : Ref sig .tc := ⟨.hbm, 43, rfl⟩
abbrev main_c_11 : Ref sig .tc := ⟨.hbm, 44, rfl⟩
abbrev main_c_12 : Ref sig .tc := ⟨.hbm, 45, rfl⟩
abbrev main_v28 : Ref sig .tc := ⟨.hbm, 46, rfl⟩
abbrev main_c_13 : Ref sig .tc := ⟨.hbm, 47, rfl⟩
abbrev main_c_14 : Ref sig .tc := ⟨.hbm, 48, rfl⟩
abbrev main_v29 : Ref sig .tc := ⟨.hbm, 49, rfl⟩
abbrev main_c_15 : Ref sig .tc := ⟨.hbm, 50, rfl⟩
abbrev main_c_16 : Ref sig .tc := ⟨.hbm, 51, rfl⟩
abbrev main_v30 : Ref sig .tc := ⟨.hbm, 52, rfl⟩
abbrev main_c_17 : Ref sig .tc := ⟨.hbm, 53, rfl⟩
abbrev main_c_18 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩

abbrev nD : Nat := 1
abbrev τ : Topo := Topo.v7x

variable {F : FTy → Type} [FloatOps F]

class Facts₀ : Prop where
  slices_S131072x30x10_S131072x1x1_0_0_0 : S131072x30x10.Slices ![0, 0, 0] S131072x1x1
  shapeCasts_S131072x1x1_S131072 : S131072x1x1.ShapeCasts S131072
  bcast_S131072_S131072x1_0 : S131072.BroadcastsInDim S131072x1 (![0] : Fin 1 → Fin S131072x1.rank)
  shapeCasts_S1x30_S30 : S1x30.ShapeCasts S30
  bcast_S30_S1x30_1 : S30.BroadcastsInDim S1x30 (![1] : Fin 1 → Fin S1x30.rank)
  bcast_S131072x1_S131072x30_0_1 : S131072x1.BroadcastsInDim S131072x30 (![0, 1] : Fin 2 → Fin S131072x30.rank)
  bcast_S1x30_S131072x30_0_1 : S1x30.BroadcastsInDim S131072x30 (![0, 1] : Fin 2 → Fin S131072x30.rank)
  slices_S131072x30x10_S131072x1x1_0_0_1 : S131072x30x10.Slices ![0, 0, 1] S131072x1x1
  bcast_S131072x30_S131072x30x1_0_1 : S131072x30.BroadcastsInDim S131072x30x1 (![0, 1] : Fin 2 → Fin S131072x30x1.rank)
  concatenates_S131072x30x1_S131072x30x1_S131072x30x2_d2 : Shape.Concatenates [S131072x30x1, S131072x30x1] S131072x30x2 2
  shapeCasts_S131072x30x2_S3932160x2 : S131072x30x2.ShapeCasts S3932160x2
  bcast_S_S9x2 : S_.BroadcastsInDim S9x2 (![] : Fin 0 → Fin S9x2.rank)
  concatenates_S9x2_S3932160x2_S3932169x2_d0 : Shape.Concatenates [S9x2, S3932160x2] S3932169x2 0
  sliceFits_S3932169x2_S3932160x2 : S3932169x2.Slices (fun _ => 0) S3932160x2
  h_S_ : 0 < S_.numel
  bcast_S3932160x2_S3932160x1x2_0_2 : S3932160x2.BroadcastsInDim S3932160x1x2 (![0, 2] : Fin 2 → Fin S3932160x1x2.rank)
  concatenates_S3932160x1x2_S3932160x1x2_S3932160x1x2_S3932160x1x2_S3932160x1x2_S3932160x1x2_S3932160x1x2_S3932160x1x2_S3932160x1x2_S3932160x1x2_S3932160x10x2_d1 : Shape.Concatenates [S3932160x1x2, S3932160x1x2, S3932160x1x2, S3932160x1x2, S3932160x1x2, S3932160x1x2, S3932160x1x2, S3932160x1x2, S3932160x1x2, S3932160x1x2] S3932160x10x2 1
  shapeCasts_S3932160x10x2_S3932160x20 : S3932160x10x2.ShapeCasts S3932160x20
  shapeCasts_S3932160x20_S30x131072x20 : S3932160x20.ShapeCasts S30x131072x20
  transposes_S30x131072x20_S131072x30x20_1_0_2 : S30x131072x20.Transposes [1, 0, 2] S131072x30x20
  slices_S131072x30x10_S131072x30x8_0_0_2 : S131072x30x10.Slices ![0, 0, 2] S131072x30x8
  concatenates_S131072x30x20_S131072x30x8_S131072x30x28_d2 : Shape.Concatenates [S131072x30x20, S131072x30x8] S131072x30x28 2

variable [Facts₀]

class Facts : Prop extends Facts₀ where

variable [Facts]
-- ==== Proof.HostFrameK.lean ====
/-
  @main of `Kernel` up to its one region: thirteen stretches of host operations (index arithmetic, gathers out of two
  columns of the input, the rotated weight table), then the region. The region finds every TensorCore buffer at the
  fold of those operations over the launch contents (`V`); no host operation writes an argument array, so the three
  arguments are found as launched; an input window's staging buffer holds, at every grid point, the block of its array
  the index map names (rows 256·t … 256·t + 255 for the three batch-blocked windows, the whole table for the fourth,
  which is fetched once and never moves). From a run to the library's frame post the frame claim's post follows:
  the first argument is a window's array, never written back; the two weight rows are staged by no window.
-/
import proofs.«165622_j90074054132588_2_alg».proof.Proof.Gen.Kernel.Launch
import proofs.«165622_j90074054132588_2_alg».proof.Proof.Gen.Kernel.Skeleton
import proofs.«165622_j90074054132588_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: the launch contents after every host operation. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor

/-- @main is the thirteen stretches, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh⟩) main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

end Cert.Kernel.Hand

end
-- ==== Proof.BodyFrameK.lean ====
/-
  The body of `Kernel`'s one region, and with it the program's frame.

  At grid point t the body is handed rows 256·t … 256·t + 255 of the input [·,30,10], of the four-column side array
  [·,30,4] and of the t-words [·,30], the whole rotated weight table [30,20], and the output's staging buffer
  [256,30,28] at anything. For each j < 30 it loads slab j of the three row-blocked buffers, computes the row-slab
  `rowOf` (one-hot row times the table; a four-way choice of the side column; the product beside input features
  2–9) and stores it as slab j of the output; it also loads the output's slab before overwriting it and drops the
  value. The thirty stores tile the buffer, so what the buffer holds afterwards does not depend on what it held
  before: `out0_4`. The body is run once, symbolically; every iteration is the same sequence of operations, so the
  thirty payloads it finds are `rowOf` of the respective loads by unfolding alone.

  With the proof data "each input at its block, the output at `out0_4` of the input blocks" the library's frame run
  gives termination without fault and every array of the pipeline at its computed contents; the argument arrays are
  never written.
-/
import proofs.«165622_j90074054132588_2_alg».proof.Proof.HostFrameK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One row-slab -/

/-- One row-slab of the result as a function of what the body loads for it: the weight table `w` [30,20], the
    slab's column of t-words `tc` [256,1], its four-column side array `cp` [256,1,4] and its input slab `inp`
    [256,1,10]. The t-word selects row t of the table by a product with the one-hot row (t = k), the channel's
    shift index i = ch div 2 and parity ch mod 2 pick one of the four side columns (current/previous × first/second),
    the product fills channels 0–19 and input features 2–9 fill channels 20–27. The operations are the printed
    ones, in order. -/
noncomputable def rowOf (w : Vec F S30x20 .f32) (tc : Vec F S256x1 .i32) (cp : Vec F S256x1x4 .f32) (inp : Vec F S256x1x10 .f32) : FVec F S256x1x28 .f32 :=
  have v1 : FVec F S30x20 .f32 := shapeCast S30x20 w shapeCasts_S30x20_S30x20
  have v2 : FVec F S30x20 .bf16 := truncf .bf16 v1 bitsLt_bf16_f32
  have v3 : IVec S256x30 32 := iota .tc S256x30 32 [1] iota_S256x30_d1_w32
  have v4 : IVec S256x20 32 := iota .tc S256x20 32 [1] iota_S256x20_d1_w32
  have v5 : IVec S256x20 32 := broadcast S256x20 (1#32 : BitVec 32)
  have v6 : IVec S256x20 32 := shrsi v4 v5
  have v7 : IVec S256x20 32 := broadcast S256x20 (1#32 : BitVec 32)
  have v8 : IVec S256x20 32 := andi v4 v7
  have v10 : IVec S256 32 := shapeCast S256 tc shapeCasts_S256x1_S256
  have v11 : IVec S256x1 32 := shapeCast S256x1 v10 shapeCasts_S256_S256x1
  have v12 : IVec S256x30 32 := broadcastTo S256x30 v11 broadcasts_S256x1_S256x30
  have v13 : IVec S256x30 1 := cmpi .eq v12 v3
  have v14 : IVec S256x30 32 := extui 32 v13 natLt_1_32
  have v15 : FVec F S256x30 .f32 := sitofp .f32 v14
  have v16 : FVec F S256x30 .bf16 := truncf .bf16 v15 bitsLt_bf16_f32
  have cst : FVec F S256x20 .f32 := constant S256x20 .f32 0x00000000#32
  have v17 : FVec F S256x20 .f32 := matmul dot_S256x30_S30x20_S256x20_1_0_0_1_n_n none v16 v2 cst
  have v18 : IVec S256x20 32 := broadcastTo S256x20 v11 broadcasts_S256x1_S256x20
  have v19 : IVec S256x20 1 := cmpi .sge v18 v6
  have v21 : FVec F S256x4 .f32 := shapeCast S256x4 cp shapeCasts_S256x1x4_S256x4
  have v22 : FVec F S256x1 .f32 := extractStridedSlice S256x1 ![0, 0] v21 slices_S256x4_o0_0_S256x1
  have v23 : FVec F S256x1 .f32 := extractStridedSlice S256x1 ![0, 1] v21 slices_S256x4_o0_1_S256x1
  have v24 : FVec F S256x1 .f32 := extractStridedSlice S256x1 ![0, 2] v21 slices_S256x4_o0_2_S256x1
  have v25 : FVec F S256x1 .f32 := extractStridedSlice S256x1 ![0, 3] v21 slices_S256x4_o0_3_S256x1
  have v26 : IVec S256x20 32 := broadcast S256x20 (0#32 : BitVec 32)
  have v27 : IVec S256x20 1 := cmpi .eq v8 v26
  have v28 : FVec F S256x1 .f32 := shapeCast S256x1 v22 shapeCasts_S256x1_S256x1
  have v29 : FVec F S256x20 .f32 := broadcastTo S256x20 v28 broadcasts_S256x1_S256x20
  have v30 : FVec F S256x1 .f32 := shapeCast S256x1 v23 shapeCasts_S256x1_S256x1
  have v31 : FVec F S256x20 .f32 := broadcastTo S256x20 v30 broadcasts_S256x1_S256x20
  have v32 : FVec F S256x20 .f32 := select v27 v29 v31
  have v33 : IVec S256x20 32 := broadcast S256x20 (0#32 : BitVec 32)
  have v34 : IVec S256x20 1 := cmpi .eq v8 v33
  have v35 : FVec F S256x1 .f32 := shapeCast S256x1 v24 shapeCasts_S256x1_S256x1
  have v36 : FVec F S256x20 .f32 := broadcastTo S256x20 v35 broadcasts_S256x1_S256x20
  have v37 : FVec F S256x1 .f32 := shapeCast S256x1 v25 shapeCasts_S256x1_S256x1
  have v38 : FVec F S256x20 .f32 := broadcastTo S256x20 v37 broadcasts_S256x1_S256x20
  have v39 : FVec F S256x20 .f32 := select v34 v36 v38
  have v40 : FVec F S256x20 .f32 := select v19 v32 v39
  have v41 : FVec F S256x20 .f32 := mulf v40 v17
  have v43 : FVec F S256x10 .f32 := shapeCast S256x10 inp shapeCasts_S256x1x10_S256x10
  have v44 : FVec F S256x8 .f32 := extractStridedSlice S256x8 ![0, 2] v43 slices_S256x10_o0_2_S256x8
  have v45 : FVec F S256x28 .f32 := concatenate S256x28 1 [⟨S256x20, v41⟩, ⟨S256x8, v44⟩] concatenates_S256x20_S256x8_S256x28_d1
  have v48 : FVec F S256x1x28 .f32 := shapeCast S256x1x28 v45 shapeCasts_S256x28_S256x1x28
  v48

/-! ## What the body leaves in the output window's buffer -/

/-- The output window's staging buffer after the body, from the four input windows' blocks: the thirty row-slab
    stores as pieces, last first; slab j is `rowOf` of the table, column j of the t-words, slab j of the side array
    and slab j of the input. -/
def out0_4 (x0 : Vec F S256x30x10 .f32) (x1 : Vec F S256x30x4 .f32) (x2 : Vec F S256x30 .i32) (x3 : Vec F S30x20 .f32) : Vec F S256x30x28 .f32 :=
  View.canon ([⟨Rect.unit (s := S256x30x28) ![0, 29, 0] S256x1x28.size inb_S256x30x28_S256x1x28_0_29_0, rowOf (View.ld x3 (Rect.unit (s := S30x20) ![0, 0] S30x20.size inb_S30x20_S30x20_0_0)) (View.ld x2 (Rect.unit (s := S256x30) ![0, 29] S256x1.size inb_S256x30_S256x1_0_29)) (View.ld x1 (Rect.unit (s := S256x30x4) ![0, 29, 0] S256x1x4.size inb_S256x30x4_S256x1x4_0_29_0)) (View.ld x0 (Rect.unit (s := S256x30x10) ![0, 29, 0] S256x1x10.size inb_S256x30x10_S256x1x10_0_29_0))⟩,
    ⟨Rect.unit (s := S256x30x28) ![0, 28, 0] S256x1x28.size inb_S256x30x28_S256x1x28_0_28_0, rowOf (View.ld x3 (Rect.unit (s := S30x20) ![0, 0] S30x20.size inb_S30x20_S30x20_0_0)) (View.ld x2 (Rect.unit (s := S256x30) ![0, 28] S256x1.size inb_S256x30_S256x1_0_28)) (View.ld x1 (Rect.unit (s := S256x30x4) ![0, 28, 0] S256x1x4.size inb_S256x30x4_S256x1x4_0_28_0)) (View.ld x0 (Rect.unit (s := S256x30x10) ![0, 28, 0] S256x1x10.size inb_S256x30x10_S256x1x10_0_28_0))⟩,
    ⟨Rect.unit (s := S256x30x28) ![0, 27, 0] S256x1x28.size inb_S256x30x28_S256x1x28_0_27_0, rowOf (View.ld x3 (Rect.unit (s := S30x20) ![0, 0] S30x20.size inb_S30x20_S30x20_0_0)) (View.ld x2 (Rect.unit (s := S256x30) ![0, 27] S256x1.size inb_S256x30_S256x1_0_27)) (View.ld x1 (Rect.unit (s := S256x30x4) ![0, 27, 0] S256x1x4.size inb_S256x30x4_S256x1x4_0_27_0)) (View.ld x0 (Rect.unit (s := S256x30x10) ![0, 27, 0] S256x1x10.size inb_S256x30x10_S256x1x10_0_27_0))⟩,
    ⟨Rect.unit (s := S256x30x28) ![0, 26, 0] S256x1x28.size inb_S256x30x28_S256x1x28_0_26_0, rowOf (View.ld x3 (Rect.unit (s := S30x20) ![0, 0] S30x20.size inb_S30x20_S30x20_0_0)) (View.ld x2 (Rect.unit (s := S256x30) ![0, 26] S256x1.size inb_S256x30_S256x1_0_26)) (View.ld x1 (Rect.unit (s := S256x30x4) ![0, 26, 0] S256x1x4.size inb_S256x30x4_S256x1x4_0_26_0)) (View.ld x0 (Rect.unit (s := S256x30x10) ![0, 26, 0] S256x1x10.size inb_S256x30x10_S256x1x10_0_26_0))⟩,
    ⟨Rect.unit (s := S256x30x28) ![0, 25, 0] S256x1x28.size inb_S256x30x28_S256x1x28_0_25_0, rowOf (View.ld x3 (Rect.unit (s := S30x20) ![0, 0] S30x20.size inb_S30x20_S30x20_0_0)) (View.ld x2 (Rect.unit (s := S256x30) ![0, 25] S256x1.size inb_S256x30_S256x1_0_25)) (View.ld x1 (Rect.unit (s := S256x30x4) ![0, 25, 0] S256x1x4.size inb_S256x30x4_S256x1x4_0_25_0)) (View.ld x0 (Rect.unit (s := S256x30x10) ![0, 25, 0] S256x1x10.size inb_S256x30x10_S256x1x10_0_25_0))⟩,
    ⟨Rect.unit (s := S256x30x28) ![0, 24, 0] S256x1x28.size inb_S256x30x28_S256x1x28_0_24_0, rowOf (View.ld x3 (Rect.unit (s := S30x20) ![0, 0] S30x20.size inb_S30x20_S30x20_0_0)) (View.ld x2 (Rect.unit (s := S256x30) ![0, 24] S256x1.size inb_S256x30_S256x1_0_24)) (View.ld x1 (Rect.unit (s := S256x30x4) ![0, 24, 0] S256x1x4.size inb_S256x30x4_S256x1x4_0_24_0)) (View.ld x0 (Rect.unit (s := S256x30x10) ![0, 24, 0] S256x1x10.size inb_S256x30x10_S256x1x10_0_24_0))⟩,
    ⟨Rect.unit (s := S256x30x28) ![0, 23, 0] S256x1x28.size inb_S256x30x28_S256x1x28_0_23_0, rowOf (View.ld x3 (Rect.unit (s := S30x20) ![0, 0] S30x20.size inb_S30x20_S30x20_0_0)) (View.ld x2 (Rect.unit (s := S256x30) ![0, 23] S256x1.size inb_S256x30_S256x1_0_23)) (View.ld x1 (Rect.unit (s := S256x30x4) ![0, 23, 0] S256x1x4.size inb_S256x30x4_S256x1x4_0_23_0)) (View.ld x0 (Rect.unit (s := S256x30x10) ![0, 23, 0] S256x1x10.size inb_S256x30x10_S256x1x10_0_23_0))⟩,
    ⟨Rect.unit (s := S256x30x28) ![0, 22, 0] S256x1x28.size inb_S256x30x28_S256x1x28_0_22_0, rowOf (View.ld x3 (Rect.unit (s := S30x20) ![0, 0] S30x20.size inb_S30x20_S30x20_0_0)) (View.ld x2 (Rect.unit (s := S256x30) ![0, 22] S256x1.size inb_S256x30_S256x1_0_22)) (View.ld x1 (Rect.unit (s := S256x30x4) ![0, 22, 0] S256x1x4.size inb_S256x30x4_S256x1x4_0_22_0)) (View.ld x0 (Rect.unit (s := S256x30x10) ![0, 22, 0] S256x1x10.size inb_S256x30x10_S256x1x10_0_22_0))⟩,
    ⟨Rect.unit (s := S256x30x28) ![0, 21, 0] S256x1x28.size inb_S256x30x28_S256x1x28_0_21_0, rowOf (View.ld x3 (Rect.unit (s := S30x20) ![0, 0] S30x20.size inb_S30x20_S30x20_0_0)) (View.ld x2 (Rect.unit (s := S256x30) ![0, 21] S256x1.size inb_S256x30_S256x1_0_21)) (View.ld x1 (Rect.unit (s := S256x30x4) ![0, 21, 0] S256x1x4.size inb_S256x30x4_S256x1x4_0_21_0)) (View.ld x0 (Rect.unit (s := S256x30x10) ![0, 21, 0] S256x1x10.size inb_S256x30x10_S256x1x10_0_21_0))⟩,
    ⟨Rect.unit (s := S256x30x28) ![0, 20, 0] S256x1x28.size inb_S256x30x28_S256x1x28_0_20_0, rowOf (View.ld x3 (Rect.unit (s := S30x20) ![0, 0] S30x20.size inb_S30x20_S30x20_0_0)) (View.ld x2 (Rect.unit (s := S256x30) ![0, 20] S256x1.size inb_S256x30_S256x1_0_20)) (View.ld x1 (Rect.unit (s := S256x30x4) ![0, 20, 0] S256x1x4.size inb_S256x30x4_S256x1x4_0_20_0)) (View.ld x0 (Rect.unit (s := S256x30x10) ![0, 20, 0] S256x1x10.size inb_S256x30x10_S256x1x10_0_20_0))⟩,
    ⟨Rect.unit (s := S256x30x28) ![0, 19, 0] S256x1x28.size inb_S256x30x28_S256x1x28_0_19_0, rowOf (View.ld x3 (Rect.unit (s := S30x20) ![0, 0] S30x20.size inb_S30x20_S30x20_0_0)) (View.ld x2 (Rect.unit (s := S256x30) ![0, 19] S256x1.size inb_S256x30_S256x1_0_19)) (View.ld x1 (Rect.unit (s := S256x30x4) ![0, 19, 0] S256x1x4.size inb_S256x30x4_S256x1x4_0_19_0)) (View.ld x0 (Rect.unit (s := S256x30x10) ![0, 19, 0] S256x1x10.size inb_S256x30x10_S256x1x10_0_19_0))⟩,
    ⟨Rect.unit (s := S256x30x28) ![0, 18, 0] S256x1x28.size inb_S256x30x28_S256x1x28_0_18_0, rowOf (View.ld x3 (Rect.unit (s := S30x20) ![0, 0] S30x20.size inb_S30x20_S30x20_0_0)) (View.ld x2 (Rect.unit (s := S256x30) ![0, 18] S256x1.size inb_S256x30_S256x1_0_18)) (View.ld x1 (Rect.unit (s := S256x30x4) ![0, 18, 0] S256x1x4.size inb_S256x30x4_S256x1x4_0_18_0)) (View.ld x0 (Rect.unit (s := S256x30x10) ![0, 18, 0] S256x1x10.size inb_S256x30x10_S256x1x10_0_18_0))⟩,
    ⟨Rect.unit (s := S256x30x28) ![0, 17, 0] S256x1x28.size inb_S256x30x28_S256x1x28_0_17_0, rowOf (View.ld x3 (Rect.unit (s := S30x20) ![0, 0] S30x20.size inb_S30x20_S30x20_0_0)) (View.ld x2 (Rect.unit (s := S256x30) ![0, 17] S256x1.size inb_S256x30_S256x1_0_17)) (View.ld x1 (Rect.unit (s := S256x30x4) ![0, 17, 0] S256x1x4.size inb_S256x30x4_S256x1x4_0_17_0)) (View.ld x0 (Rect.unit (s := S256x30x10) ![0, 17, 0] S256x1x10.size inb_S256x30x10_S256x1x10_0_17_0))⟩,
    ⟨Rect.unit (s := S256x30x28) ![0, 16, 0] S256x1x28.size inb_S256x30x28_S256x1x28_0_16_0, rowOf (View.ld x3 (Rect.unit (s := S30x20) ![0, 0] S30x20.size inb_S30x20_S30x20_0_0)) (View.ld x2 (Rect.unit (s := S256x30) ![0, 16] S256x1.size inb_S256x30_S256x1_0_16)) (View.ld x1 (Rect.unit (s := S256x30x4) ![0, 16, 0] S256x1x4.size inb_S256x30x4_S256x1x4_0_16_0)) (View.ld x0 (Rect.unit (s := S256x30x10) ![0, 16, 0] S256x1x10.size inb_S256x30x10_S256x1x10_0_16_0))⟩,
    ⟨Rect.unit (s := S256x30x28) ![0, 15, 0] S256x1x28.size inb_S256x30x28_S256x1x28_0_15_0, rowOf (View.ld x3 (Rect.unit (s := S30x20) ![0, 0] S30x20.size inb_S30x20_S30x20_0_0)) (View.ld x2 (Rect.unit (s := S256x30) ![0, 15] S256x1.size inb_S256x30_S256x1_0_15)) (View.ld x1 (Rect.unit (s := S256x30x4) ![0, 15, 0] S256x1x4.size inb_S256x30x4_S256x1x4_0_15_0)) (View.ld x0 (Rect.unit (s := S256x30x10) ![0, 15, 0] S256x1x10.size inb_S256x30x10_S256x1x10_0_15_0))⟩,
    ⟨Rect.unit (s := S256x30x28) ![0, 14, 0] S256x1x28.size inb_S256x30x28_S256x1x28_0_14_0, rowOf (View.ld x3 (Rect.unit (s := S30x20) ![0, 0] S30x20.size inb_S30x20_S30x20_0_0)) (View.ld x2 (Rect.unit (s := S256x30) ![0, 14] S256x1.size inb_S256x30_S256x1_0_14)) (View.ld x1 (Rect.unit (s := S256x30x4) ![0, 14, 0] S256x1x4.size inb_S256x30x4_S256x1x4_0_14_0)) (View.ld x0 (Rect.unit (s := S256x30x10) ![0, 14, 0] S256x1x10.size inb_S256x30x10_S256x1x10_0_14_0))⟩,
    ⟨Rect.unit (s := S256x30x28) ![0, 13, 0] S256x1x28.size inb_S256x30x28_S256x1x28_0_13_0, rowOf (View.ld x3 (Rect.unit (s := S30x20) ![0, 0] S30x20.size inb_S30x20_S30x20_0_0)) (View.ld x2 (Rect.unit (s := S256x30) ![0, 13] S256x1.size inb_S256x30_S256x1_0_13)) (View.ld x1 (Rect.unit (s := S256x30x4) ![0, 13, 0] S256x1x4.size inb_S256x30x4_S256x1x4_0_13_0)) (View.ld x0 (Rect.unit (s := S256x30x10) ![0, 13, 0] S256x1x10.size inb_S256x30x10_S256x1x10_0_13_0))⟩,
    ⟨Rect.unit (s := S256x30x28) ![0, 12, 0] S256x1x28.size inb_S256x30x28_S256x1x28_0_12_0, rowOf (View.ld x3 (Rect.unit (s := S30x20) ![0, 0] S30x20.size inb_S30x20_S30x20_0_0)) (View.ld x2 (Rect.unit (s := S256x30) ![0, 12] S256x1.size inb_S256x30_S256x1_0_12)) (View.ld x1 (Rect.unit (s := S256x30x4) ![0, 12, 0] S256x1x4.size inb_S256x30x4_S256x1x4_0_12_0)) (View.ld x0 (Rect.unit (s := S256x30x10) ![0, 12, 0] S256x1x10.size inb_S256x30x10_S256x1x10_0_12_0))⟩,
    ⟨Rect.unit (s := S256x30x28) ![0, 11, 0] S256x1x28.size inb_S256x30x28_S256x1x28_0_11_0, rowOf (View.ld x3 (Rect.unit (s := S30x20) ![0, 0] S30x20.size inb_S30x20_S30x20_0_0)) (View.ld x2 (Rect.unit (s := S256x30) ![0, 11] S256x1.size inb_S256x30_S256x1_0_11)) (View.ld x1 (Rect.unit (s := S256x30x4) ![0, 11, 0] S256x1x4.size inb_S256x30x4_S256x1x4_0_11_0)) (View.ld x0 (Rect.unit (s := S256x30x10) ![0, 11, 0] S256x1x10.size inb_S256x30x10_S256x1x10_0_11_0))⟩,
    ⟨Rect.unit (s := S256x30x28) ![0, 10, 0] S256x1x28.size inb_S256x30x28_S256x1x28_0_10_0, rowOf (View.ld x3 (Rect.unit (s := S30x20) ![0, 0] S30x20.size inb_S30x20_S30x20_0_0)) (View.ld x2 (Rect.unit (s := S256x30) ![0, 10] S256x1.size inb_S256x30_S256x1_0_10)) (View.ld x1 (Rect.unit (s := S256x30x4) ![0, 10, 0] S256x1x4.size inb_S256x30x4_S256x1x4_0_10_0)) (View.ld x0 (Rect.unit (s := S256x30x10) ![0, 10, 0] S256x1x10.size inb_S256x30x10_S256x1x10_0_10_0))⟩,
    ⟨Rect.unit (s := S256x30x28) ![0, 9, 0] S256x1x28.size inb_S256x30x28_S256x1x28_0_9_0, rowOf (View.ld x3 (Rect.unit (s := S30x20) ![0, 0] S30x20.size inb_S30x20_S30x20_0_0)) (View.ld x2 (Rect.unit (s := S256x30) ![0, 9] S256x1.size inb_S256x30_S256x1_0_9)) (View.ld x1 (Rect.unit (s := S256x30x4) ![0, 9, 0] S256x1x4.size inb_S256x30x4_S256x1x4_0_9_0)) (View.ld x0 (Rect.unit (s := S256x30x10) ![0, 9, 0] S256x1x10.size inb_S256x30x10_S256x1x10_0_9_0))⟩,
    ⟨Rect.unit (s := S256x30x28) ![0, 8, 0] S256x1x28.size inb_S256x30x28_S256x1x28_0_8_0, rowOf (View.ld x3 (Rect.unit (s := S30x20) ![0, 0] S30x20.size inb_S30x20_S30x20_0_0)) (View.ld x2 (Rect.unit (s := S256x30) ![0, 8] S256x1.size inb_S256x30_S256x1_0_8)) (View.ld x1 (Rect.unit (s := S256x30x4) ![0, 8, 0] S256x1x4.size inb_S256x30x4_S256x1x4_0_8_0)) (View.ld x0 (Rect.unit (s := S256x30x10) ![0, 8, 0] S256x1x10.size inb_S256x30x10_S256x1x10_0_8_0))⟩,
    ⟨Rect.unit (s := S256x30x28) ![0, 7, 0] S256x1x28.size inb_S256x30x28_S256x1x28_0_7_0, rowOf (View.ld x3 (Rect.unit (s := S30x20) ![0, 0] S30x20.size inb_S30x20_S30x20_0_0)) (View.ld x2 (Rect.unit (s := S256x30) ![0, 7] S256x1.size inb_S256x30_S256x1_0_7)) (View.ld x1 (Rect.unit (s := S256x30x4) ![0, 7, 0] S256x1x4.size inb_S256x30x4_S256x1x4_0_7_0)) (View.ld x0 (Rect.unit (s := S256x30x10) ![0, 7, 0] S256x1x10.size inb_S256x30x10_S256x1x10_0_7_0))⟩,
    ⟨Rect.unit (s := S256x30x28) ![0, 6, 0] S256x1x28.size inb_S256x30x28_S256x1x28_0_6_0, rowOf (View.ld x3 (Rect.unit (s := S30x20) ![0, 0] S30x20.size inb_S30x20_S30x20_0_0)) (View.ld x2 (Rect.unit (s := S256x30) ![0, 6] S256x1.size inb_S256x30_S256x1_0_6)) (View.ld x1 (Rect.unit (s := S256x30x4) ![0, 6, 0] S256x1x4.size inb_S256x30x4_S256x1x4_0_6_0)) (View.ld x0 (Rect.unit (s := S256x30x10) ![0, 6, 0] S256x1x10.size inb_S256x30x10_S256x1x10_0_6_0))⟩,
    ⟨Rect.unit (s := S256x30x28) ![0, 5, 0] S256x1x28.size inb_S256x30x28_S256x1x28_0_5_0, rowOf (View.ld x3 (Rect.unit (s := S30x20) ![0, 0] S30x20.size inb_S30x20_S30x20_0_0)) (View.ld x2 (Rect.unit (s := S256x30) ![0, 5] S256x1.size inb_S256x30_S256x1_0_5)) (View.ld x1 (Rect.unit (s := S256x30x4) ![0, 5, 0] S256x1x4.size inb_S256x30x4_S256x1x4_0_5_0)) (View.ld x0 (Rect.unit (s := S256x30x10) ![0, 5, 0] S256x1x10.size inb_S256x30x10_S256x1x10_0_5_0))⟩,
    ⟨Rect.unit (s := S256x30x28) ![0, 4, 0] S256x1x28.size inb_S256x30x28_S256x1x28_0_4_0, rowOf (View.ld x3 (Rect.unit (s := S30x20) ![0, 0] S30x20.size inb_S30x20_S30x20_0_0)) (View.ld x2 (Rect.unit (s := S256x30) ![0, 4] S256x1.size inb_S256x30_S256x1_0_4)) (View.ld x1 (Rect.unit (s := S256x30x4) ![0, 4, 0] S256x1x4.size inb_S256x30x4_S256x1x4_0_4_0)) (View.ld x0 (Rect.unit (s := S256x30x10) ![0, 4, 0] S256x1x10.size inb_S256x30x10_S256x1x10_0_4_0))⟩,
    ⟨Rect.unit (s := S256x30x28) ![0, 3, 0] S256x1x28.size inb_S256x30x28_S256x1x28_0_3_0, rowOf (View.ld x3 (Rect.unit (s := S30x20) ![0, 0] S30x20.size inb_S30x20_S30x20_0_0)) (View.ld x2 (Rect.unit (s := S256x30) ![0, 3] S256x1.size inb_S256x30_S256x1_0_3)) (View.ld x1 (Rect.unit (s := S256x30x4) ![0, 3, 0] S256x1x4.size inb_S256x30x4_S256x1x4_0_3_0)) (View.ld x0 (Rect.unit (s := S256x30x10) ![0, 3, 0] S256x1x10.size inb_S256x30x10_S256x1x10_0_3_0))⟩,
    ⟨Rect.unit (s := S256x30x28) ![0, 2, 0] S256x1x28.size inb_S256x30x28_S256x1x28_0_2_0, rowOf (View.ld x3 (Rect.unit (s := S30x20) ![0, 0] S30x20.size inb_S30x20_S30x20_0_0)) (View.ld x2 (Rect.unit (s := S256x30) ![0, 2] S256x1.size inb_S256x30_S256x1_0_2)) (View.ld x1 (Rect.unit (s := S256x30x4) ![0, 2, 0] S256x1x4.size inb_S256x30x4_S256x1x4_0_2_0)) (View.ld x0 (Rect.unit (s := S256x30x10) ![0, 2, 0] S256x1x10.size inb_S256x30x10_S256x1x10_0_2_0))⟩,
    ⟨Rect.unit (s := S256x30x28) ![0, 1, 0] S256x1x28.size inb_S256x30x28_S256x1x28_0_1_0, rowOf (View.ld x3 (Rect.unit (s := S30x20) ![0, 0] S30x20.size inb_S30x20_S30x20_0_0)) (View.ld x2 (Rect.unit (s := S256x30) ![0, 1] S256x1.size inb_S256x30_S256x1_0_1)) (View.ld x1 (Rect.unit (s := S256x30x4) ![0, 1, 0] S256x1x4.size inb_S256x30x4_S256x1x4_0_1_0)) (View.ld x0 (Rect.unit (s := S256x30x10) ![0, 1, 0] S256x1x10.size inb_S256x30x10_S256x1x10_0_1_0))⟩,
    ⟨Rect.unit (s := S256x30x28) ![0, 0, 0] S256x1x28.size inb_S256x30x28_S256x1x28_0_0_0, rowOf (View.ld x3 (Rect.unit (s := S30x20) ![0, 0] S30x20.size inb_S30x20_S30x20_0_0)) (View.ld x2 (Rect.unit (s := S256x30) ![0, 0] S256x1.size inb_S256x30_S256x1_0_0)) (View.ld x1 (Rect.unit (s := S256x30x4) ![0, 0, 0] S256x1x4.size inb_S256x30x4_S256x1x4_0_0_0)) (View.ld x0 (Rect.unit (s := S256x30x10) ![0, 0, 0] S256x1x10.size inb_S256x30x10_S256x1x10_0_0_0))⟩] : List (View.Piece (Elt F) S256x30x28 .f32))

/-! ## The body's triple -/

set_option maxHeartbeats 4000000 in
/-- The body on whole staging memrefs, the inputs' at contents `x0 … x3` and the output's at anything, runs to its
    return holding the inputs' as they were and the output's at `out0_4` of them. -/
theorem sound_kernel (c : Dev nD) (E : Set ℕ) (i : grid0.Coords) (arg1 : Memref sig .tc .vmem S256x30x10 .f32) (harg1 : arg1.IsWhole) (arg2 : Memref sig .tc .vmem S256x30x4 .f32) (harg2 : arg2.IsWhole) (arg3 : Memref sig .tc .vmem S256x30 .i32) (harg3 : arg3.IsWhole) (arg4 : Memref sig .tc .vmem S30x20 .f32) (harg4 : arg4.IsWhole) (arg5 : Memref sig .tc .vmem S256x30x28 .f32) (harg5 : arg5.IsWhole)
    (x0 : Vec F S256x30x10 .f32) (x1 : Vec F S256x30x4 .f32) (x2 : Vec F S256x30 .i32) (x3 : Vec F S30x20 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__assignment_kernel i arg1 harg1 arg2 harg2 arg3 harg3 arg4 harg4 arg5 harg5) K := by
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec_parts!
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact (View.read_writes_junk_eq_canon _ _).trans rfl

/-! ## The pipeline's proof data -/

/-- The proof data of the one pipeline on core `c`: the arrays as the region finds them; after the body at point `t`
    each input's buffer at its block and the output's at `out0_4` of the four input blocks; the class's invariant;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so `sound_kernel` applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.HostFrameI.lean ====
/-
  @main of `KernelIdeal` up to its one region: thirteen stretches of host operations (index arithmetic, gathers out of two
  columns of the input, the rotated weight table), then the region. The region finds every TensorCore buffer at the
  fold of those operations over the launch contents (`V`); no host operation writes an argument array, so the three
  arguments are found as launched; an input window's staging buffer holds, at every grid point, the block of its array
  the index map names (rows 256·t … 256·t + 255 for the three batch-blocked windows, the whole table for the fourth,
  which is fetched once and never moves). From a run to the library's frame post the frame claim's post follows:
  the first argument is a window's array, never written back; the two weight rows are staged by no window.
-/
import proofs.«165622_j90074054132588_2_alg».proof.Proof.Gen.KernelIdeal.Launch
import proofs.«165622_j90074054132588_2_alg».proof.Proof.Gen.KernelIdeal.Skeleton
import proofs.«165622_j90074054132588_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: the launch contents after every host operation. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor

/-- @main is the thirteen stretches, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh⟩) main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

end Cert.KernelIdeal.Hand

end
-- ==== Proof.BodyFrameI.lean ====
/-
  The body of `KernelIdeal`'s one region, and with it the program's frame.

  At grid point t the body is handed rows 256·t … 256·t + 255 of the input [·,30,10], of the four-column side array
  [·,30,4] and of the t-words [·,30], the whole rotated weight table [30,20], and the output's staging buffer
  [256,30,28] at anything. For each j < 30 it loads slab j of the three row-blocked buffers, computes the row-slab
  `rowOf` (one-hot row times the table; a four-way choice of the side column; the product beside input features
  2–9) and stores it as slab j of the output; it also loads the output's slab before overwriting it and drops the
  value. The thirty stores tile the buffer, so what the buffer holds afterwards does not depend on what it held
  before: `out0_4`. The body is run once, symbolically; every iteration is the same sequence of operations, so the
  thirty payloads it finds are `rowOf` of the respective loads by unfolding alone.

  With the proof data "each input at its block, the output at `out0_4` of the input blocks" the library's frame run
  gives termination without fault and every array of the pipeline at its computed contents; the argument arrays are
  never written.
-/
import proofs.«165622_j90074054132588_2_alg».proof.Proof.HostFrameI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One row-slab -/

/-- One row-slab of the result as a function of what the body loads for it: the weight table `w` [30,20], the
    slab's column of t-words `tc` [256,1], its four-column side array `cp` [256,1,4] and its input slab `inp`
    [256,1,10]. The t-word selects row t of the table by a product with the one-hot row (t = k), the channel's
    shift index i = ch div 2 and parity ch mod 2 pick one of the four side columns (current/previous × first/second),
    the product fills channels 0–19 and input features 2–9 fill channels 20–27. The operations are the printed
    ones, in order. -/
noncomputable def rowOf (w : Vec F S30x20 .f32) (tc : Vec F S256x1 .i32) (cp : Vec F S256x1x4 .f32) (inp : Vec F S256x1x10 .f32) : FVec F S256x1x28 .f32 :=
  have v1 : FVec F S30x20 .f32 := shapeCast S30x20 w shapeCasts_S30x20_S30x20
  have v2 : FVec F S30x20 .bf16 := truncf .bf16 v1 bitsLt_bf16_f32
  have v3 : IVec S256x30 32 := iota .tc S256x30 32 [1] iota_S256x30_d1_w32
  have v4 : IVec S256x20 32 := iota .tc S256x20 32 [1] iota_S256x20_d1_w32
  have v5 : IVec S256x20 32 := broadcast S256x20 (1#32 : BitVec 32)
  have v6 : IVec S256x20 32 := shrsi v4 v5
  have v7 : IVec S256x20 32 := broadcast S256x20 (1#32 : BitVec 32)
  have v8 : IVec S256x20 32 := andi v4 v7
  have v10 : IVec S256 32 := shapeCast S256 tc shapeCasts_S256x1_S256
  have v11 : IVec S256x1 32 := shapeCast S256x1 v10 shapeCasts_S256_S256x1
  have v12 : IVec S256x30 32 := broadcastTo S256x30 v11 broadcasts_S256x1_S256x30
  have v13 : IVec S256x30 1 := cmpi .eq v12 v3
  have v14 : IVec S256x30 32 := extui 32 v13 natLt_1_32
  have v15 : FVec F S256x30 .f32 := sitofp .f32 v14
  have v16 : FVec F S256x30 .bf16 := truncf .bf16 v15 bitsLt_bf16_f32
  have cst : FVec F S256x20 .f32 := constant S256x20 .f32 0x00000000#32
  have v17 : FVec F S256x20 .f32 := matmul dot_S256x30_S30x20_S256x20_1_0_0_1_n_n none v16 v2 cst
  have v18 : IVec S256x20 32 := broadcastTo S256x20 v11 broadcasts_S256x1_S256x20
  have v19 : IVec S256x20 1 := cmpi .sge v18 v6
  have v21 : FVec F S256x4 .f32 := shapeCast S256x4 cp shapeCasts_S256x1x4_S256x4
  have v22 : FVec F S256x1 .f32 := extractStridedSlice S256x1 ![0, 0] v21 slices_S256x4_o0_0_S256x1
  have v23 : FVec F S256x1 .f32 := extractStridedSlice S256x1 ![0, 1] v21 slices_S256x4_o0_1_S256x1
  have v24 : FVec F S256x1 .f32 := extractStridedSlice S256x1 ![0, 2] v21 slices_S256x4_o0_2_S256x1
  have v25 : FVec F S256x1 .f32 := extractStridedSlice S256x1 ![0, 3] v21 slices_S256x4_o0_3_S256x1
  have v26 : IVec S256x20 32 := broadcast S256x20 (0#32 : BitVec 32)
  have v27 : IVec S256x20 1 := cmpi .eq v8 v26
  have v28 : FVec F S256x1 .f32 := shapeCast S256x1 v22 shapeCasts_S256x1_S256x1
  have v29 : FVec F S256x20 .f32 := broadcastTo S256x20 v28 broadcasts_S256x1_S256x20
  have v30 : FVec F S256x1 .f32 := shapeCast S256x1 v23 shapeCasts_S256x1_S256x1
  have v31 : FVec F S256x20 .f32 := broadcastTo S256x20 v30 broadcasts_S256x1_S256x20
  have v32 : FVec F S256x20 .f32 := select v27 v29 v31
  have v33 : IVec S256x20 32 := broadcast S256x20 (0#32 : BitVec 32)
  have v34 : IVec S256x20 1 := cmpi .eq v8 v33
  have v35 : FVec F S256x1 .f32 := shapeCast S256x1 v24 shapeCasts_S256x1_S256x1
  have v36 : FVec F S256x20 .f32 := broadcastTo S256x20 v35 broadcasts_S256x1_S256x20
  have v37 : FVec F S256x1 .f32 := shapeCast S256x1 v25 shapeCasts_S256x1_S256x1
  have v38 : FVec F S256x20 .f32 := broadcastTo S256x20 v37 broadcasts_S256x1_S256x20
  have v39 : FVec F S256x20 .f32 := select v34 v36 v38
  have v40 : FVec F S256x20 .f32 := select v19 v32 v39
  have v41 : FVec F S256x20 .f32 := mulf v40 v17
  have v43 : FVec F S256x10 .f32 := shapeCast S256x10 inp shapeCasts_S256x1x10_S256x10
  have v44 : FVec F S256x8 .f32 := extractStridedSlice S256x8 ![0, 2] v43 slices_S256x10_o0_2_S256x8
  have v45 : FVec F S256x28 .f32 := concatenate S256x28 1 [⟨S256x20, v41⟩, ⟨S256x8, v44⟩] concatenates_S256x20_S256x8_S256x28_d1
  have v48 : FVec F S256x1x28 .f32 := shapeCast S256x1x28 v45 shapeCasts_S256x28_S256x1x28
  v48

/-! ## What the body leaves in the output window's buffer -/

/-- The output window's staging buffer after the body, from the four input windows' blocks: the thirty row-slab
    stores as pieces, last first; slab j is `rowOf` of the table, column j of the t-words, slab j of the side array
    and slab j of the input. -/
def out0_4 (x0 : Vec F S256x30x10 .f32) (x1 : Vec F S256x30x4 .f32) (x2 : Vec F S256x30 .i32) (x3 : Vec F S30x20 .f32) : Vec F S256x30x28 .f32 :=
  View.canon ([⟨Rect.unit (s := S256x30x28) ![0, 29, 0] S256x1x28.size inb_S256x30x28_S256x1x28_0_29_0, rowOf (View.ld x3 (Rect.unit (s := S30x20) ![0, 0] S30x20.size inb_S30x20_S30x20_0_0)) (View.ld x2 (Rect.unit (s := S256x30) ![0, 29] S256x1.size inb_S256x30_S256x1_0_29)) (View.ld x1 (Rect.unit (s := S256x30x4) ![0, 29, 0] S256x1x4.size inb_S256x30x4_S256x1x4_0_29_0)) (View.ld x0 (Rect.unit (s := S256x30x10) ![0, 29, 0] S256x1x10.size inb_S256x30x10_S256x1x10_0_29_0))⟩,
    ⟨Rect.unit (s := S256x30x28) ![0, 28, 0] S256x1x28.size inb_S256x30x28_S256x1x28_0_28_0, rowOf (View.ld x3 (Rect.unit (s := S30x20) ![0, 0] S30x20.size inb_S30x20_S30x20_0_0)) (View.ld x2 (Rect.unit (s := S256x30) ![0, 28] S256x1.size inb_S256x30_S256x1_0_28)) (View.ld x1 (Rect.unit (s := S256x30x4) ![0, 28, 0] S256x1x4.size inb_S256x30x4_S256x1x4_0_28_0)) (View.ld x0 (Rect.unit (s := S256x30x10) ![0, 28, 0] S256x1x10.size inb_S256x30x10_S256x1x10_0_28_0))⟩,
    ⟨Rect.unit (s := S256x30x28) ![0, 27, 0] S256x1x28.size inb_S256x30x28_S256x1x28_0_27_0, rowOf (View.ld x3 (Rect.unit (s := S30x20) ![0, 0] S30x20.size inb_S30x20_S30x20_0_0)) (View.ld x2 (Rect.unit (s := S256x30) ![0, 27] S256x1.size inb_S256x30_S256x1_0_27)) (View.ld x1 (Rect.unit (s := S256x30x4) ![0, 27, 0] S256x1x4.size inb_S256x30x4_S256x1x4_0_27_0)) (View.ld x0 (Rect.unit (s := S256x30x10) ![0, 27, 0] S256x1x10.size inb_S256x30x10_S256x1x10_0_27_0))⟩,
    ⟨Rect.unit (s := S256x30x28) ![0, 26, 0] S256x1x28.size inb_S256x30x28_S256x1x28_0_26_0, rowOf (View.ld x3 (Rect.unit (s := S30x20) ![0, 0] S30x20.size inb_S30x20_S30x20_0_0)) (View.ld x2 (Rect.unit (s := S256x30) ![0, 26] S256x1.size inb_S256x30_S256x1_0_26)) (View.ld x1 (Rect.unit (s := S256x30x4) ![0, 26, 0] S256x1x4.size inb_S256x30x4_S256x1x4_0_26_0)) (View.ld x0 (Rect.unit (s := S256x30x10) ![0, 26, 0] S256x1x10.size inb_S256x30x10_S256x1x10_0_26_0))⟩,
    ⟨Rect.unit (s := S256x30x28) ![0, 25, 0] S256x1x28.size inb_S256x30x28_S256x1x28_0_25_0, rowOf (View.ld x3 (Rect.unit (s := S30x20) ![0, 0] S30x20.size inb_S30x20_S30x20_0_0)) (View.ld x2 (Rect.unit (s := S256x30) ![0, 25] S256x1.size inb_S256x30_S256x1_0_25)) (View.ld x1 (Rect.unit (s := S256x30x4) ![0, 25, 0] S256x1x4.size inb_S256x30x4_S256x1x4_0_25_0)) (View.ld x0 (Rect.unit (s := S256x30x10) ![0, 25, 0] S256x1x10.size inb_S256x30x10_S256x1x10_0_25_0))⟩,
    ⟨Rect.unit (s := S256x30x28) ![0, 24, 0] S256x1x28.size inb_S256x30x28_S256x1x28_0_24_0, rowOf (View.ld x3 (Rect.unit (s := S30x20) ![0, 0] S30x20.size inb_S30x20_S30x20_0_0)) (View.ld x2 (Rect.unit (s := S256x30) ![0, 24] S256x1.size inb_S256x30_S256x1_0_24)) (View.ld x1 (Rect.unit (s := S256x30x4) ![0, 24, 0] S256x1x4.size inb_S256x30x4_S256x1x4_0_24_0)) (View.ld x0 (Rect.unit (s := S256x30x10) ![0, 24, 0] S256x1x10.size inb_S256x30x10_S256x1x10_0_24_0))⟩,
    ⟨Rect.unit (s := S256x30x28) ![0, 23, 0] S256x1x28.size inb_S256x30x28_S256x1x28_0_23_0, rowOf (View.ld x3 (Rect.unit (s := S30x20) ![0, 0] S30x20.size inb_S30x20_S30x20_0_0)) (View.ld x2 (Rect.unit (s := S256x30) ![0, 23] S256x1.size inb_S256x30_S256x1_0_23)) (View.ld x1 (Rect.unit (s := S256x30x4) ![0, 23, 0] S256x1x4.size inb_S256x30x4_S256x1x4_0_23_0)) (View.ld x0 (Rect.unit (s := S256x30x10) ![0, 23, 0] S256x1x10.size inb_S256x30x10_S256x1x10_0_23_0))⟩,
    ⟨Rect.unit (s := S256x30x28) ![0, 22, 0] S256x1x28.size inb_S256x30x28_S256x1x28_0_22_0, rowOf (View.ld x3 (Rect.unit (s := S30x20) ![0, 0] S30x20.size inb_S30x20_S30x20_0_0)) (View.ld x2 (Rect.unit (s := S256x30) ![0, 22] S256x1.size inb_S256x30_S256x1_0_22)) (View.ld x1 (Rect.unit (s := S256x30x4) ![0, 22, 0] S256x1x4.size inb_S256x30x4_S256x1x4_0_22_0)) (View.ld x0 (Rect.unit (s := S256x30x10) ![0, 22, 0] S256x1x10.size inb_S256x30x10_S256x1x10_0_22_0))⟩,
    ⟨Rect.unit (s := S256x30x28) ![0, 21, 0] S256x1x28.size inb_S256x30x28_S256x1x28_0_21_0, rowOf (View.ld x3 (Rect.unit (s := S30x20) ![0, 0] S30x20.size inb_S30x20_S30x20_0_0)) (View.ld x2 (Rect.unit (s := S256x30) ![0, 21] S256x1.size inb_S256x30_S256x1_0_21)) (View.ld x1 (Rect.unit (s := S256x30x4) ![0, 21, 0] S256x1x4.size inb_S256x30x4_S256x1x4_0_21_0)) (View.ld x0 (Rect.unit (s := S256x30x10) ![0, 21, 0] S256x1x10.size inb_S256x30x10_S256x1x10_0_21_0))⟩,
    ⟨Rect.unit (s := S256x30x28) ![0, 20, 0] S256x1x28.size inb_S256x30x28_S256x1x28_0_20_0, rowOf (View.ld x3 (Rect.unit (s := S30x20) ![0, 0] S30x20.size inb_S30x20_S30x20_0_0)) (View.ld x2 (Rect.unit (s := S256x30) ![0, 20] S256x1.size inb_S256x30_S256x1_0_20)) (View.ld x1 (Rect.unit (s := S256x30x4) ![0, 20, 0] S256x1x4.size inb_S256x30x4_S256x1x4_0_20_0)) (View.ld x0 (Rect.unit (s := S256x30x10) ![0, 20, 0] S256x1x10.size inb_S256x30x10_S256x1x10_0_20_0))⟩,
    ⟨Rect.unit (s := S256x30x28) ![0, 19, 0] S256x1x28.size inb_S256x30x28_S256x1x28_0_19_0, rowOf (View.ld x3 (Rect.unit (s := S30x20) ![0, 0] S30x20.size inb_S30x20_S30x20_0_0)) (View.ld x2 (Rect.unit (s := S256x30) ![0, 19] S256x1.size inb_S256x30_S256x1_0_19)) (View.ld x1 (Rect.unit (s := S256x30x4) ![0, 19, 0] S256x1x4.size inb_S256x30x4_S256x1x4_0_19_0)) (View.ld x0 (Rect.unit (s := S256x30x10) ![0, 19, 0] S256x1x10.size inb_S256x30x10_S256x1x10_0_19_0))⟩,
    ⟨Rect.unit (s := S256x30x28) ![0, 18, 0] S256x1x28.size inb_S256x30x28_S256x1x28_0_18_0, rowOf (View.ld x3 (Rect.unit (s := S30x20) ![0, 0] S30x20.size inb_S30x20_S30x20_0_0)) (View.ld x2 (Rect.unit (s := S256x30) ![0, 18] S256x1.size inb_S256x30_S256x1_0_18)) (View.ld x1 (Rect.unit (s := S256x30x4) ![0, 18, 0] S256x1x4.size inb_S256x30x4_S256x1x4_0_18_0)) (View.ld x0 (Rect.unit (s := S256x30x10) ![0, 18, 0] S256x1x10.size inb_S256x30x10_S256x1x10_0_18_0))⟩,
    ⟨Rect.unit (s := S256x30x28) ![0, 17, 0] S256x1x28.size inb_S256x30x28_S256x1x28_0_17_0, rowOf (View.ld x3 (Rect.unit (s := S30x20) ![0, 0] S30x20.size inb_S30x20_S30x20_0_0)) (View.ld x2 (Rect.unit (s := S256x30) ![0, 17] S256x1.size inb_S256x30_S256x1_0_17)) (View.ld x1 (Rect.unit (s := S256x30x4) ![0, 17, 0] S256x1x4.size inb_S256x30x4_S256x1x4_0_17_0)) (View.ld x0 (Rect.unit (s := S256x30x10) ![0, 17, 0] S256x1x10.size inb_S256x30x10_S256x1x10_0_17_0))⟩,
    ⟨Rect.unit (s := S256x30x28) ![0, 16, 0] S256x1x28.size inb_S256x30x28_S256x1x28_0_16_0, rowOf (View.ld x3 (Rect.unit (s := S30x20) ![0, 0] S30x20.size inb_S30x20_S30x20_0_0)) (View.ld x2 (Rect.unit (s := S256x30) ![0, 16] S256x1.size inb_S256x30_S256x1_0_16)) (View.ld x1 (Rect.unit (s := S256x30x4) ![0, 16, 0] S256x1x4.size inb_S256x30x4_S256x1x4_0_16_0)) (View.ld x0 (Rect.unit (s := S256x30x10) ![0, 16, 0] S256x1x10.size inb_S256x30x10_S256x1x10_0_16_0))⟩,
    ⟨Rect.unit (s := S256x30x28) ![0, 15, 0] S256x1x28.size inb_S256x30x28_S256x1x28_0_15_0, rowOf (View.ld x3 (Rect.unit (s := S30x20) ![0, 0] S30x20.size inb_S30x20_S30x20_0_0)) (View.ld x2 (Rect.unit (s := S256x30) ![0, 15] S256x1.size inb_S256x30_S256x1_0_15)) (View.ld x1 (Rect.unit (s := S256x30x4) ![0, 15, 0] S256x1x4.size inb_S256x30x4_S256x1x4_0_15_0)) (View.ld x0 (Rect.unit (s := S256x30x10) ![0, 15, 0] S256x1x10.size inb_S256x30x10_S256x1x10_0_15_0))⟩,
    ⟨Rect.unit (s := S256x30x28) ![0, 14, 0] S256x1x28.size inb_S256x30x28_S256x1x28_0_14_0, rowOf (View.ld x3 (Rect.unit (s := S30x20) ![0, 0] S30x20.size inb_S30x20_S30x20_0_0)) (View.ld x2 (Rect.unit (s := S256x30) ![0, 14] S256x1.size inb_S256x30_S256x1_0_14)) (View.ld x1 (Rect.unit (s := S256x30x4) ![0, 14, 0] S256x1x4.size inb_S256x30x4_S256x1x4_0_14_0)) (View.ld x0 (Rect.unit (s := S256x30x10) ![0, 14, 0] S256x1x10.size inb_S256x30x10_S256x1x10_0_14_0))⟩,
    ⟨Rect.unit (s := S256x30x28) ![0, 13, 0] S256x1x28.size inb_S256x30x28_S256x1x28_0_13_0, rowOf (View.ld x3 (Rect.unit (s := S30x20) ![0, 0] S30x20.size inb_S30x20_S30x20_0_0)) (View.ld x2 (Rect.unit (s := S256x30) ![0, 13] S256x1.size inb_S256x30_S256x1_0_13)) (View.ld x1 (Rect.unit (s := S256x30x4) ![0, 13, 0] S256x1x4.size inb_S256x30x4_S256x1x4_0_13_0)) (View.ld x0 (Rect.unit (s := S256x30x10) ![0, 13, 0] S256x1x10.size inb_S256x30x10_S256x1x10_0_13_0))⟩,
    ⟨Rect.unit (s := S256x30x28) ![0, 12, 0] S256x1x28.size inb_S256x30x28_S256x1x28_0_12_0, rowOf (View.ld x3 (Rect.unit (s := S30x20) ![0, 0] S30x20.size inb_S30x20_S30x20_0_0)) (View.ld x2 (Rect.unit (s := S256x30) ![0, 12] S256x1.size inb_S256x30_S256x1_0_12)) (View.ld x1 (Rect.unit (s := S256x30x4) ![0, 12, 0] S256x1x4.size inb_S256x30x4_S256x1x4_0_12_0)) (View.ld x0 (Rect.unit (s := S256x30x10) ![0, 12, 0] S256x1x10.size inb_S256x30x10_S256x1x10_0_12_0))⟩,
    ⟨Rect.unit (s := S256x30x28) ![0, 11, 0] S256x1x28.size inb_S256x30x28_S256x1x28_0_11_0, rowOf (View.ld x3 (Rect.unit (s := S30x20) ![0, 0] S30x20.size inb_S30x20_S30x20_0_0)) (View.ld x2 (Rect.unit (s := S256x30) ![0, 11] S256x1.size inb_S256x30_S256x1_0_11)) (View.ld x1 (Rect.unit (s := S256x30x4) ![0, 11, 0] S256x1x4.size inb_S256x30x4_S256x1x4_0_11_0)) (View.ld x0 (Rect.unit (s := S256x30x10) ![0, 11, 0] S256x1x10.size inb_S256x30x10_S256x1x10_0_11_0))⟩,
    ⟨Rect.unit (s := S256x30x28) ![0, 10, 0] S256x1x28.size inb_S256x30x28_S256x1x28_0_10_0, rowOf (View.ld x3 (Rect.unit (s := S30x20) ![0, 0] S30x20.size inb_S30x20_S30x20_0_0)) (View.ld x2 (Rect.unit (s := S256x30) ![0, 10] S256x1.size inb_S256x30_S256x1_0_10)) (View.ld x1 (Rect.unit (s := S256x30x4) ![0, 10, 0] S256x1x4.size inb_S256x30x4_S256x1x4_0_10_0)) (View.ld x0 (Rect.unit (s := S256x30x10) ![0, 10, 0] S256x1x10.size inb_S256x30x10_S256x1x10_0_10_0))⟩,
    ⟨Rect.unit (s := S256x30x28) ![0, 9, 0] S256x1x28.size inb_S256x30x28_S256x1x28_0_9_0, rowOf (View.ld x3 (Rect.unit (s := S30x20) ![0, 0] S30x20.size inb_S30x20_S30x20_0_0)) (View.ld x2 (Rect.unit (s := S256x30) ![0, 9] S256x1.size inb_S256x30_S256x1_0_9)) (View.ld x1 (Rect.unit (s := S256x30x4) ![0, 9, 0] S256x1x4.size inb_S256x30x4_S256x1x4_0_9_0)) (View.ld x0 (Rect.unit (s := S256x30x10) ![0, 9, 0] S256x1x10.size inb_S256x30x10_S256x1x10_0_9_0))⟩,
    ⟨Rect.unit (s := S256x30x28) ![0, 8, 0] S256x1x28.size inb_S256x30x28_S256x1x28_0_8_0, rowOf (View.ld x3 (Rect.unit (s := S30x20) ![0, 0] S30x20.size inb_S30x20_S30x20_0_0)) (View.ld x2 (Rect.unit (s := S256x30) ![0, 8] S256x1.size inb_S256x30_S256x1_0_8)) (View.ld x1 (Rect.unit (s := S256x30x4) ![0, 8, 0] S256x1x4.size inb_S256x30x4_S256x1x4_0_8_0)) (View.ld x0 (Rect.unit (s := S256x30x10) ![0, 8, 0] S256x1x10.size inb_S256x30x10_S256x1x10_0_8_0))⟩,
    ⟨Rect.unit (s := S256x30x28) ![0, 7, 0] S256x1x28.size inb_S256x30x28_S256x1x28_0_7_0, rowOf (View.ld x3 (Rect.unit (s := S30x20) ![0, 0] S30x20.size inb_S30x20_S30x20_0_0)) (View.ld x2 (Rect.unit (s := S256x30) ![0, 7] S256x1.size inb_S256x30_S256x1_0_7)) (View.ld x1 (Rect.unit (s := S256x30x4) ![0, 7, 0] S256x1x4.size inb_S256x30x4_S256x1x4_0_7_0)) (View.ld x0 (Rect.unit (s := S256x30x10) ![0, 7, 0] S256x1x10.size inb_S256x30x10_S256x1x10_0_7_0))⟩,
    ⟨Rect.unit (s := S256x30x28) ![0, 6, 0] S256x1x28.size inb_S256x30x28_S256x1x28_0_6_0, rowOf (View.ld x3 (Rect.unit (s := S30x20) ![0, 0] S30x20.size inb_S30x20_S30x20_0_0)) (View.ld x2 (Rect.unit (s := S256x30) ![0, 6] S256x1.size inb_S256x30_S256x1_0_6)) (View.ld x1 (Rect.unit (s := S256x30x4) ![0, 6, 0] S256x1x4.size inb_S256x30x4_S256x1x4_0_6_0)) (View.ld x0 (Rect.unit (s := S256x30x10) ![0, 6, 0] S256x1x10.size inb_S256x30x10_S256x1x10_0_6_0))⟩,
    ⟨Rect.unit (s := S256x30x28) ![0, 5, 0] S256x1x28.size inb_S256x30x28_S256x1x28_0_5_0, rowOf (View.ld x3 (Rect.unit (s := S30x20) ![0, 0] S30x20.size inb_S30x20_S30x20_0_0)) (View.ld x2 (Rect.unit (s := S256x30) ![0, 5] S256x1.size inb_S256x30_S256x1_0_5)) (View.ld x1 (Rect.unit (s := S256x30x4) ![0, 5, 0] S256x1x4.size inb_S256x30x4_S256x1x4_0_5_0)) (View.ld x0 (Rect.unit (s := S256x30x10) ![0, 5, 0] S256x1x10.size inb_S256x30x10_S256x1x10_0_5_0))⟩,
    ⟨Rect.unit (s := S256x30x28) ![0, 4, 0] S256x1x28.size inb_S256x30x28_S256x1x28_0_4_0, rowOf (View.ld x3 (Rect.unit (s := S30x20) ![0, 0] S30x20.size inb_S30x20_S30x20_0_0)) (View.ld x2 (Rect.unit (s := S256x30) ![0, 4] S256x1.size inb_S256x30_S256x1_0_4)) (View.ld x1 (Rect.unit (s := S256x30x4) ![0, 4, 0] S256x1x4.size inb_S256x30x4_S256x1x4_0_4_0)) (View.ld x0 (Rect.unit (s := S256x30x10) ![0, 4, 0] S256x1x10.size inb_S256x30x10_S256x1x10_0_4_0))⟩,
    ⟨Rect.unit (s := S256x30x28) ![0, 3, 0] S256x1x28.size inb_S256x30x28_S256x1x28_0_3_0, rowOf (View.ld x3 (Rect.unit (s := S30x20) ![0, 0] S30x20.size inb_S30x20_S30x20_0_0)) (View.ld x2 (Rect.unit (s := S256x30) ![0, 3] S256x1.size inb_S256x30_S256x1_0_3)) (View.ld x1 (Rect.unit (s := S256x30x4) ![0, 3, 0] S256x1x4.size inb_S256x30x4_S256x1x4_0_3_0)) (View.ld x0 (Rect.unit (s := S256x30x10) ![0, 3, 0] S256x1x10.size inb_S256x30x10_S256x1x10_0_3_0))⟩,
    ⟨Rect.unit (s := S256x30x28) ![0, 2, 0] S256x1x28.size inb_S256x30x28_S256x1x28_0_2_0, rowOf (View.ld x3 (Rect.unit (s := S30x20) ![0, 0] S30x20.size inb_S30x20_S30x20_0_0)) (View.ld x2 (Rect.unit (s := S256x30) ![0, 2] S256x1.size inb_S256x30_S256x1_0_2)) (View.ld x1 (Rect.unit (s := S256x30x4) ![0, 2, 0] S256x1x4.size inb_S256x30x4_S256x1x4_0_2_0)) (View.ld x0 (Rect.unit (s := S256x30x10) ![0, 2, 0] S256x1x10.size inb_S256x30x10_S256x1x10_0_2_0))⟩,
    ⟨Rect.unit (s := S256x30x28) ![0, 1, 0] S256x1x28.size inb_S256x30x28_S256x1x28_0_1_0, rowOf (View.ld x3 (Rect.unit (s := S30x20) ![0, 0] S30x20.size inb_S30x20_S30x20_0_0)) (View.ld x2 (Rect.unit (s := S256x30) ![0, 1] S256x1.size inb_S256x30_S256x1_0_1)) (View.ld x1 (Rect.unit (s := S256x30x4) ![0, 1, 0] S256x1x4.size inb_S256x30x4_S256x1x4_0_1_0)) (View.ld x0 (Rect.unit (s := S256x30x10) ![0, 1, 0] S256x1x10.size inb_S256x30x10_S256x1x10_0_1_0))⟩,
    ⟨Rect.unit (s := S256x30x28) ![0, 0, 0] S256x1x28.size inb_S256x30x28_S256x1x28_0_0_0, rowOf (View.ld x3 (Rect.unit (s := S30x20) ![0, 0] S30x20.size inb_S30x20_S30x20_0_0)) (View.ld x2 (Rect.unit (s := S256x30) ![0, 0] S256x1.size inb_S256x30_S256x1_0_0)) (View.ld x1 (Rect.unit (s := S256x30x4) ![0, 0, 0] S256x1x4.size inb_S256x30x4_S256x1x4_0_0_0)) (View.ld x0 (Rect.unit (s := S256x30x10) ![0, 0, 0] S256x1x10.size inb_S256x30x10_S256x1x10_0_0_0))⟩] : List (View.Piece (Elt F) S256x30x28 .f32))

/-! ## The body's triple -/

set_option maxHeartbeats 4000000 in
/-- The body on whole staging memrefs, the inputs' at contents `x0 … x3` and the output's at anything, runs to its
    return holding the inputs' as they were and the output's at `out0_4` of them. -/
theorem sound_kernel (c : Dev nD) (E : Set ℕ) (i : grid0.Coords) (arg1 : Memref sig .tc .vmem S256x30x10 .f32) (harg1 : arg1.IsWhole) (arg2 : Memref sig .tc .vmem S256x30x4 .f32) (harg2 : arg2.IsWhole) (arg3 : Memref sig .tc .vmem S256x30 .i32) (harg3 : arg3.IsWhole) (arg4 : Memref sig .tc .vmem S30x20 .f32) (harg4 : arg4.IsWhole) (arg5 : Memref sig .tc .vmem S256x30x28 .f32) (harg5 : arg5.IsWhole)
    (x0 : Vec F S256x30x10 .f32) (x1 : Vec F S256x30x4 .f32) (x2 : Vec F S256x30 .i32) (x3 : Vec F S30x20 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__assignment_kernel i arg1 harg1 arg2 harg2 arg3 harg3 arg4 harg4 arg5 harg5) K := by
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec_parts!
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact (View.read_writes_junk_eq_canon _ _).trans rfl

/-! ## The pipeline's proof data -/

/-- The proof data of the one pipeline on core `c`: the arrays as the region finds them; after the body at point `t`
    each input's buffer at its block and the output's at `out0_4` of the four input blocks; the class's invariant;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so `sound_kernel` applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.LibMatmul.lean ====
/-
  A plain matrix product read at an index: for the dimension numbers that contract the left operand's second
  axis with the right operand's first (rows × inner times inner × columns, no batch axis), a product into the
  zero accumulator is, at `(i, j)`, the sum over the inner coordinate `k` of `lhs (i, k) · rhs (k, j)`.
-/
import Idealize.ShloMosaic.PureOps.Ideal.Laws
import Idealize.ShloMosaic.Lib.ValueIdx

noncomputable section

namespace Idealize.ShloMosaic.ValueIdx

/-- The plain product into the zero accumulator, at `(i, j)`, as a sum over the inner coordinate. -/
theorem matmul_plain_zero_apply (M K N : ℕ) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact hk)
  have er : (DotDims.plain M K N).rhsIdx (ix2 i j) ((contrEquiv1 (DotDims.plain M K N) K rfl rfl).symm k) = ix2 k j :=
    funext fun a => Fin.ext (by
      match a with
      | ⟨0, _⟩ => exact hk
      | ⟨1, _⟩ => rfl)
  rw [el, er]

end Idealize.ShloMosaic.ValueIdx

end
-- ==== Proof.LibKeepdims.lean ====
/-
  What every row-wise reduction with kept dimensions needs, read at an index: a vector of `a` entries cast to
  a column `[a, 1]`; a column `[a, 1]` broadcast along a new second axis to `[a, b]`; and the sum and the
  maximum of the rows of an `[a, b]` matrix, at row `r`, as a sum and a fold of `max` over the `b` entries of
  that row.
-/
import Idealize.ShloMosaic.Lib.Pipeline.Value
import Idealize.ShloMosaic.Lib.ValueIdx
import Idealize.ShloMosaic.PureOps.Ideal.Laws

noncomputable section

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `r` of an `[a, b]` matrix with coordinate `k` of the reduced second axis put back is `(r, k)`. -/
theorem lift_rows {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- The sum over the second axis of an `[a, b]` matrix, at row `r`, is the sum of that row's `b` entries. -/
theorem multiReduction_add_rows_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_rows h r k)

/-- The maximum over the second axis of an `[a, b]` matrix, at row `r`, is the fold of `max` from the
    accumulator's value over that row's `b` entries. -/
theorem multiReduction_maximumf_rows_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (fun f => Finset.fold max (Ideal.ofBits φ acc) f Finset.univ) (funext fun k => congrArg src (lift_rows h r k))

end Idealize.ShloMosaic.ValueIdx

end
-- ==== Proof.RowValueI.lean ====
/-
  One row-slab read at an index, on the extended reals.

  Fix a row p of the block and let the slab's t-word at p be the number tv < 30.
  * The one-hot row (tv = k ? 1 : 0), k < 30, times the weight table is row tv of the table: every other term of the
    sum over k is 0·y = 0, and this holds for every extended real y.
  * The side-column choice at channel q < 20 is column (q mod 2) of the slab's four when q div 2 ≤ tv, column
    2 + (q mod 2) otherwise (the printed comparisons are on small non-negative 32-bit words: q div 2 is the arithmetic
    shift by one, q mod 2 the low bit).
  * Channels 20 … 27 are input features 2 … 9.
-/
import proofs.«165622_j90074054132588_2_alg».proof.Proof.BodyFrameI
import proofs.«165622_j90074054132588_2_alg».proof.Proof.LibMatmul
import proofs.«165622_j90074054132588_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-! ## Small 32-bit words -/

theorem toInt_small (a : ℕ) (h : a < 30) : (BitVec.ofNat 32 a).toInt = (a : ℤ) := by
  interval_cases a <;> rfl

/-- Signed ≥ on two small words is ≥ on the numbers. -/
theorem sge_small (a b : ℕ) (ha : a < 30) (hb : b < 30) :
    IntOp.cmpi .sge (BitVec.ofNat 32 a) (BitVec.ofNat 32 b) = BitVec.ofBool (decide (b ≤ a)) := by
  show BitVec.ofBool ((BitVec.ofNat 32 b).sle (BitVec.ofNat 32 a)) = _
  congr 1
  simp only [BitVec.sle, toInt_small a ha, toInt_small b hb, Nat.cast_le]

/-- Equality of two small words is equality of the numbers. -/
theorem eq_small (a k : ℕ) (ha : a < 30) (hk : k < 30) :
    IntOp.cmpi .eq (BitVec.ofNat 32 a) (BitVec.ofNat 32 k) = BitVec.ofBool (decide (a = k)) := by
  show BitVec.ofBool (BitVec.ofNat 32 a == BitVec.ofNat 32 k) = _
  congr 1
  by_cases h : a = k
  · subst h; simp
  · have hne : BitVec.ofNat 32 a ≠ BitVec.ofNat 32 k := fun e => h (by
      have := congrArg BitVec.toInt e
      rw [toInt_small a ha, toInt_small k hk] at this
      exact_mod_cast this)
    simp [h, hne]

/-- The arithmetic shift by one of a small word halves the number; its low bit is the number mod 2. -/
theorem shr1_small (q : Fin 20) : IntOp.shrsi .vector (BitVec.ofNat 32 q.val) 1#32 = BitVec.ofNat 32 (q.val / 2) := by
  fin_cases q <;> rfl
theorem and1_small (q : Fin 20) : IntOp.andi (BitVec.ofNat 32 q.val) 1#32 = BitVec.ofNat 32 (q.val % 2) := by
  fin_cases q <;> rfl

/-- A one-bit word widened and read as a signed number, as an extended real: 1 or 0. -/
theorem bit_real (c : Bool) : (FloatOps.sitofp (F := Ideal) .f32 ((BitVec.ofBool c).setWidth 32) : EReal) = if c then 1 else 0 := by
  cases c
  · show (((0 : ℤ) : ℝ) : EReal) = 0
    simp
  · show (((1 : ℤ) : ℝ) : EReal) = 1
    simp

theorem select_ofBool {α : Type} (c : Bool) (A B : α) : Scalar.select (BitVec.ofBool c) A B = if c then A else B := by
  cases c
  · exact select_zero A B
  · exact select_one A B

/-! ## The row-slab in three pieces -/

/-- The one-hot rows times the table, [256,20]. -/
def hotOf (w : Vec Ideal S30x20 .f32) (tc : Vec Ideal S256x1 .i32) : FVec Ideal S256x20 .f32 :=
  have v1 : FVec Ideal S30x20 .f32 := shapeCast S30x20 w shapeCasts_S30x20_S30x20
  have v2 : FVec Ideal S30x20 .bf16 := truncf .bf16 v1 bitsLt_bf16_f32
  have v3 : IVec S256x30 32 := iota .tc S256x30 32 [1] iota_S256x30_d1_w32
  have v10 : IVec S256 32 := shapeCast S256 tc shapeCasts_S256x1_S256
  have v11 : IVec S256x1 32 := shapeCast S256x1 v10 shapeCasts_S256_S256x1
  have v12 : IVec S256x30 32 := broadcastTo S256x30 v11 broadcasts_S256x1_S256x30
  have v13 : IVec S256x30 1 := cmpi .eq v12 v3
  have v14 : IVec S256x30 32 := extui 32 v13 natLt_1_32
  have v15 : FVec Ideal S256x30 .f32 := sitofp .f32 v14
  have v16 : FVec Ideal S256x30 .bf16 := truncf .bf16 v15 bitsLt_bf16_f32
  have cst : FVec Ideal S256x20 .f32 := constant S256x20 .f32 0x00000000#32
  matmul dot_S256x30_S30x20_S256x20_1_0_0_1_n_n none v16 v2 cst

/-- The side-column choice, [256,20]. -/
def selOf (tc : Vec Ideal S256x1 .i32) (cp : Vec Ideal S256x1x4 .f32) : FVec Ideal S256x20 .f32 :=
  have v4 : IVec S256x20 32 := iota .tc S256x20 32 [1] iota_S256x20_d1_w32
  have v5 : IVec S256x20 32 := broadcast S256x20 (1#32 : BitVec 32)
  have v6 : IVec S256x20 32 := shrsi v4 v5
  have v7 : IVec S256x20 32 := broadcast S256x20 (1#32 : BitVec 32)
  have v8 : IVec S256x20 32 := andi v4 v7
  have v10 : IVec S256 32 := shapeCast S256 tc shapeCasts_S256x1_S256
  have v11 : IVec S256x1 32 := shapeCast S256x1 v10 shapeCasts_S256_S256x1
  have v18 : IVec S256x20 32 := broadcastTo S256x20 v11 broadcasts_S256x1_S256x20
  have v19 : IVec S256x20 1 := cmpi .sge v18 v6
  have v21 : FVec Ideal S256x4 .f32 := shapeCast S256x4 cp shapeCasts_S256x1x4_S256x4
  have v22 : FVec Ideal S256x1 .f32 := extractStridedSlice S256x1 ![0, 0] v21 slices_S256x4_o0_0_S256x1
  have v23 : FVec Ideal S256x1 .f32 := extractStridedSlice S256x1 ![0, 1] v21 slices_S256x4_o0_1_S256x1
  have v24 : FVec Ideal S256x1 .f32 := extractStridedSlice S256x1 ![0, 2] v21 slices_S256x4_o0_2_S256x1
  have v25 : FVec Ideal S256x1 .f32 := extractStridedSlice S256x1 ![0, 3] v21 slices_S256x4_o0_3_S256x1
  have v26 : IVec S256x20 32 := broadcast S256x20 (0#32 : BitVec 32)
  have v27 : IVec S256x20 1 := cmpi .eq v8 v26
  have v28 : FVec Ideal S256x1 .f32 := shapeCast S256x1 v22 shapeCasts_S256x1_S256x1
  have v29 : FVec Ideal S256x20 .f32 := broadcastTo S256x20 v28 broadcasts_S256x1_S256x20
  have v30 : FVec Ideal S256x1 .f32 := shapeCast S256x1 v23 shapeCasts_S256x1_S256x1
  have v31 : FVec Ideal S256x20 .f32 := broadcastTo S256x20 v30 broadcasts_S256x1_S256x20
  have v32 : FVec Ideal S256x20 .f32 := select v27 v29 v31
  have v33 : IVec S256x20 32 := broadcast S256x20 (0#32 : BitVec 32)
  have v34 : IVec S256x20 1 := cmpi .eq v8 v33
  have v35 : FVec Ideal S256x1 .f32 := shapeCast S256x1 v24 shapeCasts_S256x1_S256x1
  have v36 : FVec Ideal S256x20 .f32 := broadcastTo S256x20 v35 broadcasts_S256x1_S256x20
  have v37 : FVec Ideal S256x1 .f32 := shapeCast S256x1 v25 shapeCasts_S256x1_S256x1
  have v38 : FVec Ideal S256x20 .f32 := broadcastTo S256x20 v37 broadcasts_S256x1_S256x20
  have v39 : FVec Ideal S256x20 .f32 := select v34 v36 v38
  select v19 v32 v39

/-- Input features 2 … 9, [256,8]. -/
def tailOf (inp : Vec Ideal S256x1x10 .f32) : FVec Ideal S256x8 .f32 :=
  have v43 : FVec Ideal S256x10 .f32 := shapeCast S256x10 inp shapeCasts_S256x1x10_S256x10
  extractStridedSlice S256x8 ![0, 2] v43 slices_S256x10_o0_2_S256x8

/-- The row-slab is the choice times the one-hot product, beside the tail, with a unit middle axis. -/
theorem rowOf_eq (w : Vec Ideal S30x20 .f32) (tc : Vec Ideal S256x1 .i32) (cp : Vec Ideal S256x1x4 .f32) (inp : Vec Ideal S256x1x10 .f32) :
    rowOf (F := Ideal) w tc cp inp
      = shapeCast S256x1x28 (concatenate S256x28 1 [⟨S256x20, mulf (selOf tc cp) (hotOf w tc)⟩, ⟨S256x8, tailOf inp⟩]
          concatenates_S256x20_S256x8_S256x28_d1) shapeCasts_S256x28_S256x1x28 := rfl

/-! ## Layout reads -/

/-- The column of t-words through its two recasts [256,1] → [256] → [256,1]. -/
theorem col_roundtrip (tc : Vec Ideal S256x1 .i32) (p : Fin 256) :
    shapeCast S256x1 (shapeCast S256 tc shapeCasts_S256x1_S256) shapeCasts_S256_S256x1 (ix2 p (0 : Fin 1)) = tc (ix2 p (0 : Fin 1)) := by
  refine (shapeCast_apply _ shapeCasts_S256_S256x1 (ix2 p (0 : Fin 1)) (ix1 p) ?_).trans
    (shapeCast_apply tc shapeCasts_S256x1_S256 (ix1 p) (ix2 p (0 : Fin 1)) ?_)
  · rw [Shape.rowMajor_val_one, Shape.rowMajor_val_two]
    show p.val = p.val * 1 + 0
    omega
  · rw [Shape.rowMajor_val_two, Shape.rowMajor_val_one]
    show p.val * 1 + 0 = p.val
    omega

/-- Column k of the slab's four-column side array, spread over the twenty channels. -/
theorem side_col (cp : Vec Ideal S256x1x4 .f32) (k : ℕ) (hk : k < 4) (hs : S256x4.Slices ![0, k] S256x1) (p : Fin 256) (q : Fin 20) :
    broadcastTo S256x20 (shapeCast S256x1 (extractStridedSlice S256x1 ![0, k] (shapeCast S256x4 cp shapeCasts_S256x1x4_S256x4) hs)
        shapeCasts_S256x1_S256x1) broadcasts_S256x1_S256x20 (ix2 p q)
      = cp (ix3 p (0 : Fin 1) (⟨k, hk⟩ : Fin 4)) := by
  rw [broadcastTo_a1_ab_apply, shapeCast_self]
  refine (extractStridedSlice_apply _ _ hs (ix2 p (0 : Fin 1)) (ix2 p (⟨k, hk⟩ : Fin 4)) (fun a => ?_)).trans ?_
  · match a with
    | ⟨0, _⟩ => show p.val = 0 + p.val; omega
    | ⟨1, _⟩ => show k = k + 0; omega
  · refine shapeCast_apply cp shapeCasts_S256x1x4_S256x4 (ix2 p (⟨k, hk⟩ : Fin 4)) (ix3 p (0 : Fin 1) (⟨k, hk⟩ : Fin 4)) ?_
    rw [Shape.rowMajor_val_three, Shape.rowMajor_val_two]
    show (p.val * 1 + 0) * 4 + k = p.val * 4 + k
    omega

theorem concat_left {α : Type} (x₁ : S256x20.Idx → α) (x₂ : S256x8.Idx → α)
    (h : Shape.Concatenates [S256x20, S256x8] S256x28 1) (p : Fin 256) (q : Fin 28) (hq : q.val < 20) :
    concatenate S256x28 1 [⟨S256x20, x₁⟩, ⟨S256x8, x₂⟩] h (ix2 p q) = x₁ (ix2 p ⟨q.val, hq⟩) :=
  concatenate_pair_apply_left (1 : Fin 2) x₁ x₂ h (ix2 p q) rfl (ix2 p ⟨q.val, hq⟩) fun b => by
    match b with
    | ⟨0, _⟩ => rfl
    | ⟨1, _⟩ => rfl

theorem concat_right {α : Type} (x₁ : S256x20.Idx → α) (x₂ : S256x8.Idx → α)
    (h : Shape.Concatenates [S256x20, S256x8] S256x28 1) (p : Fin 256) (q : Fin 28) (hq : 20 ≤ q.val) :
    concatenate S256x28 1 [⟨S256x20, x₁⟩, ⟨S256x8, x₂⟩] h (ix2 p q) = x₂ (ix2 p ⟨q.val - 20, by have := q.isLt; omega⟩) :=
  concatenate_pair_apply_right (1 : Fin 2) x₁ x₂ h (ix2 p q) rfl rfl (ix2 p ⟨q.val - 20, by have := q.isLt; omega⟩)
    (fun b hb => by
      match b with
      | ⟨0, _⟩ => rfl
      | ⟨1, _⟩ => exact absurd rfl hb)
    (by show (q.val - 20) + 20 = q.val; omega)

/-! ## The three pieces at an index -/

theorem tailOf_apply (inp : Vec Ideal S256x1x10 .f32) (p : Fin 256) (k : Fin 8) :
    tailOf inp (ix2 p k) = inp (ix3 p (0 : Fin 1) ⟨k.val + 2, by have := k.isLt; omega⟩) := by
  unfold tailOf
  refine (extractStridedSlice_apply _ _ slices_S256x10_o0_2_S256x8 (ix2 p k) (ix2 p ⟨k.val + 2, by have := k.isLt; omega⟩) (fun a => ?_)).trans ?_
  · match a with
    | ⟨0, _⟩ => show p.val = 0 + p.val; omega
    | ⟨1, _⟩ => show k.val + 2 = 2 + k.val; omega
  · refine shapeCast_apply inp shapeCasts_S256x1x10_S256x10 _ (ix3 p (0 : Fin 1) ⟨k.val + 2, by have := k.isLt; omega⟩) ?_
    rw [Shape.rowMajor_val_three, Shape.rowMajor_val_two]
    show (p.val * 1 + 0) * 10 + (k.val + 2) = p.val * 10 + (k.val + 2)
    omega

/-- The one-hot row at column k. -/
theorem onehot_apply (tc : Vec Ideal S256x1 .i32) (p : Fin 256) (k : Fin 30) (tv : ℕ) (htv : tv < 30)
    (ht : tc (ix2 p (0 : Fin 1)) = BitVec.ofNat 32 tv) :
    (truncf .bf16 (sitofp .f32 (extui 32 (cmpi .eq (broadcastTo S256x30 (shapeCast S256x1 (shapeCast S256 tc shapeCasts_S256x1_S256)
        shapeCasts_S256_S256x1) broadcasts_S256x1_S256x30) (iota .tc S256x30 32 [1] iota_S256x30_d1_w32)) natLt_1_32) : FVec Ideal S256x30 .f32)
        bitsLt_bf16_f32 : FVec Ideal S256x30 .bf16) (ix2 p k)
      = if tv = k.val then 1 else 0 := by
  show (FloatOps.sitofp (F := Ideal) .f32 ((IntOp.cmpi .eq (broadcastTo S256x30 _ broadcasts_S256x1_S256x30 (ix2 p k))
      (iota .tc S256x30 32 [1] iota_S256x30_d1_w32 (ix2 p k))).setWidth 32) : EReal) = _
  rw [broadcastTo_a1_ab_apply, col_roundtrip, ht, iota_single_apply]
  show (FloatOps.sitofp (F := Ideal) .f32 ((IntOp.cmpi .eq (BitVec.ofNat 32 tv) (BitVec.ofNat 32 k.val)).setWidth 32) : EReal) = _
  rw [eq_small tv k.val htv k.isLt, bit_real]
  by_cases h : tv = k.val <;> simp [h]

theorem hotOf_apply (w : Vec Ideal S30x20 .f32) (tc : Vec Ideal S256x1 .i32) (p : Fin 256) (q : Fin 20) (tv : ℕ) (htv : tv < 30)
    (ht : tc (ix2 p (0 : Fin 1)) = BitVec.ofNat 32 tv) :
    hotOf w tc (ix2 p q) = w (ix2 ⟨tv, htv⟩ q) := by
  unfold hotOf
  refine (matmul_plain_zero_apply 256 30 20 none _ _ p q).trans ?_
  rw [Finset.sum_eq_single (⟨tv, htv⟩ : Fin 30)]
  · rw [onehot_apply tc p ⟨tv, htv⟩ tv htv ht, if_pos rfl, one_mul]
    show shapeCast S30x20 w shapeCasts_S30x20_S30x20 (ix2 ⟨tv, htv⟩ q) = _
    rw [shapeCast_self]
  · intro k _ hk
    rw [onehot_apply tc p k tv htv ht, if_neg (fun e => hk (Fin.ext e.symm)), zero_mul]
  · intro h; exact absurd (Finset.mem_univ _) h

theorem selOf_apply (tc : Vec Ideal S256x1 .i32) (cp : Vec Ideal S256x1x4 .f32) (p : Fin 256) (q : Fin 20) (tv : ℕ) (htv : tv < 30)
    (ht : tc (ix2 p (0 : Fin 1)) = BitVec.ofNat 32 tv) :
    selOf tc cp (ix2 p q)
      = if q.val / 2 ≤ tv then (if q.val % 2 = 0 then cp (ix3 p (0 : Fin 1) 0) else cp (ix3 p (0 : Fin 1) 1))
        else (if q.val % 2 = 0 then cp (ix3 p (0 : Fin 1) 2) else cp (ix3 p (0 : Fin 1) 3)) := by
  unfold selOf
  show Scalar.select (IntOp.cmpi .sge (broadcastTo S256x20 _ broadcasts_S256x1_S256x20 (ix2 p q))
        (IntOp.shrsi .vector (iota .tc S256x20 32 [1] iota_S256x20_d1_w32 (ix2 p q)) 1#32))
      (Scalar.select (IntOp.cmpi .eq (IntOp.andi (iota .tc S256x20 32 [1] iota_S256x20_d1_w32 (ix2 p q)) 1#32) 0#32)
        (broadcastTo S256x20 _ broadcasts_S256x1_S256x20 (ix2 p q)) (broadcastTo S256x20 _ broadcasts_S256x1_S256x20 (ix2 p q)))
      (Scalar.select (IntOp.cmpi .eq (IntOp.andi (iota .tc S256x20 32 [1] iota_S256x20_d1_w32 (ix2 p q)) 1#32) 0#32)
        (broadcastTo S256x20 _ broadcasts_S256x1_S256x20 (ix2 p q)) (broadcastTo S256x20 _ broadcasts_S256x1_S256x20 (ix2 p q))) = _
  rw [side_col cp 0 (by omega) slices_S256x4_o0_0_S256x1 p q, side_col cp 1 (by omega) slices_S256x4_o0_1_S256x1 p q,
    side_col cp 2 (by omega) slices_S256x4_o0_2_S256x1 p q, side_col cp 3 (by omega) slices_S256x4_o0_3_S256x1 p q,
    broadcastTo_a1_ab_apply, col_roundtrip, ht, iota_single_apply]
  show Scalar.select (IntOp.cmpi .sge (BitVec.ofNat 32 tv) (IntOp.shrsi .vector (BitVec.ofNat 32 q.val) 1#32))
      (Scalar.select (IntOp.cmpi .eq (IntOp.andi (BitVec.ofNat 32 q.val) 1#32) 0#32) (cp (ix3 p (0 : Fin 1) 0)) (cp (ix3 p (0 : Fin 1) 1)))
      (Scalar.select (IntOp.cmpi .eq (IntOp.andi (BitVec.ofNat 32 q.val) 1#32) 0#32) (cp (ix3 p (0 : Fin 1) 2)) (cp (ix3 p (0 : Fin 1) 3))) = _
  rw [shr1_small q, and1_small q, sge_small tv (q.val / 2) htv (by have := q.isLt; omega), select_ofBool,
    select_eq0 (q.val % 2) (by omega), select_eq0 (q.val % 2) (by omega)]
  by_cases h : q.val / 2 ≤ tv <;> simp [h]

/-! ## The row-slab at an index -/

theorem rowOf_apply (w : Vec Ideal S30x20 .f32) (tc : Vec Ideal S256x1 .i32) (cp : Vec Ideal S256x1x4 .f32) (inp : Vec Ideal S256x1x10 .f32)
    (p : Fin 256) (q : Fin 28) (tv : ℕ) (htv : tv < 30) (ht : tc (ix2 p (0 : Fin 1)) = BitVec.ofNat 32 tv) :
    rowOf (F := Ideal) w tc cp inp (ix3 p (0 : Fin 1) q)
      = if h : q.val < 20 then
          (if q.val / 2 ≤ tv then (if q.val % 2 = 0 then cp (ix3 p (0 : Fin 1) 0) else cp (ix3 p (0 : Fin 1) 1))
            else (if q.val % 2 = 0 then cp (ix3 p (0 : Fin 1) 2) else cp (ix3 p (0 : Fin 1) 3)))
            * w (ix2 ⟨tv, htv⟩ ⟨q.val, h⟩)
        else inp (ix3 p (0 : Fin 1) ⟨q.val - 18, by have := q.isLt; omega⟩) := by
  rw [rowOf_eq]
  refine (shapeCast_apply _ shapeCasts_S256x28_S256x1x28 (ix3 p (0 : Fin 1) q) (ix2 p q) ?_).trans ?_
  · rw [Shape.rowMajor_val_two, Shape.rowMajor_val_three]
    show p.val * 28 + q.val = (p.val * 1 + 0) * 28 + q.val
    omega
  by_cases h : q.val < 20
  · rw [dif_pos h, concat_left _ _ _ p q h, mulf_apply, selOf_apply tc cp p ⟨q.val, h⟩ tv htv ht, hotOf_apply w tc p ⟨q.val, h⟩ tv htv ht]
  · rw [dif_neg h, concat_right _ _ _ p q (by omega), tailOf_apply]
    congr 2
    apply Fin.ext
    show q.val - 20 + 2 = q.val - 18
    omega

end Cert.KernelIdeal.Hand

end
-- ==== Proof.LibCanonPieces.lean ====
/-
  Reading the canonical contents of a list of writes piece by piece.

  The canon of a list of pieces (last write first) is, at an index, the payload of the first piece of the list whose
  rectangle holds the index. When the pieces are the images `f j` of a list of labels and rectangles of distinct
  labels are disjoint, the canon at the k-th place of the rectangle of a listed label j is the payload of `f j` at k:
  no earlier piece of the list holds that index. This is what a buffer filled by several stores into disjoint slabs
  holds, slab by slab.
-/
import Idealize.ShloMosaic.Lib.Pipeline.FrameBody

noncomputable section

namespace Idealize.ShloMosaic.View

variable {Val : EltTy → Type} [∀ e, Nonempty (Val e)] {s : Shape} {e : EltTy} {ι : Type}

/-- The canon of the pieces `f j`, j through a list, at the place `k` of the rectangle of a listed label `j`, is
    `f j`'s payload at `k`, when rectangles of distinct labels are disjoint. -/
theorem canon_map_of_disjoint (f : ι → Piece Val s e)
    (hdis : ∀ a b, a ≠ b → Disjoint (f a).1.set (f b).1.set) :
    ∀ (l : List ι) (j : ι), j ∈ l → ∀ k : (f j).1.shape.Idx, canon (l.map f) ((f j).1.emb k) = (f j).2 k
  | [], j, h, _ => absurd h (List.not_mem_nil)
  | a :: l, j, h, k => by
    rw [List.map_cons]
    by_cases hja : j = a
    · subst hja
      exact canon_cons_emb (f j).1 (f j).2 (l.map f) k
    · have hjl : j ∈ l := (List.mem_cons.mp h).resolve_left hja
      have hnm : (f j).1.emb k ∉ (f a).1.set := fun hm =>
        Finset.disjoint_left.mp (hdis j a hja) ((f j).1.toLoadRect.idx_mem k) hm
      rw [canon_cons_of_not_mem (f a) (l.map f) hnm]
      exact canon_map_of_disjoint f hdis l j hjl k

end Idealize.ShloMosaic.View

end
-- ==== Proof.Spec.lean ====
/-
  The function both programs compute, on the extended reals.

  Write B = 131072, T = 30, K = 10. An output entry sits at (a, j, ch) with a < B, j < T, ch < 28. Its flattened
  row number is n = j·B + a, and n = 30·b + t with t = n mod 30 < 30 and b = n div 30 < B.

  * For ch ≥ 20 the entry is the input's entry (a, j, ch − 18): the last eight features pass through.
  * For ch = 2·i + c (i < 10, c < 2) the reference stacks the products x_c[b']·w_c[t'] row-major, (b', t') ↦ 30·b' + t',
    pads nine zero rows on top and reads row n − i of the unpadded stack when n ≥ i, a zero row otherwise:
    `G` below. The kernel instead reads x_c[b] when t ≥ i, x_c[b − 1] when t < i and b ≥ 1, and 0 when t < i and
    b = 0, and multiplies by the weight at (t − i) mod 30: `Gk` below.

  They agree (`Gk_eq_G`): if t ≥ i then n − i = 30·b + (t − i); if t < i and b ≥ 1 then n − i = 30·(b − 1) + (30 + t − i);
  if t < i and b = 0 then n < i, the reference reads a zero row, and the kernel's factor 0 annihilates the weight
  (0·y = 0 for every extended real y, infinite ones included). No finiteness is used.
-/
import Idealize.ShloMosaic.PureOps.Ideal
import Idealize.ShloMosaic.Lib.ValueIdx

noncomputable section

namespace Cert.Assign

open Idealize.ShloMosaic Idealize.ShloMosaic.ValueIdx

/-- The input's shape [B, T, 10], a weight row's [1, T], the result's [B, T, 28]. -/
abbrev SX : Shape := ⟨3, ![131072, 30, 10]⟩
abbrev SW : Shape := ⟨2, ![1, 30]⟩
abbrev SO : Shape := ⟨3, ![131072, 30, 28]⟩

/-- The flattened row number n = j·B + a of output position (a, j). -/
def rowNo (a : Fin 131072) (j : Fin 30) : Nat := j.val * 131072 + a.val

theorem rowNo_lt (a : Fin 131072) (j : Fin 30) : rowNo a j < 131072 * 30 := by
  unfold rowNo; have := a.isLt; have := j.isLt; omega

/-- x[b, 0, c] by natural numbers (0 outside the array: never read there). -/
def xAt (x : SX.Idx → EReal) (b c : Nat) : EReal :=
  if h : b < 131072 ∧ c < 10 then x (ix3 ⟨b, h.1⟩ (0 : Fin 30) ⟨c, h.2⟩) else 0

/-- x[a, j, c] with the feature by a natural number. -/
def xTail (x : SX.Idx → EReal) (a : Fin 131072) (j : Fin 30) (c : Nat) : EReal :=
  if h : c < 10 then x (ix3 a j ⟨c, h⟩) else 0

/-- w[0, k] by a natural number. -/
def wAt (w : SW.Idx → EReal) (k : Nat) : EReal :=
  if h : k < 30 then w (ix2 (0 : Fin 1) ⟨k, h⟩) else 0

/-- The reference's arrangement: row n − i of the stacked products, a zero row above the stack. -/
def G (x : SX.Idx → EReal) (w1 w2 : SW.Idx → EReal) : SO.Idx → EReal := fun o =>
  if (o 2).val < 20 then
    if (o 2).val / 2 ≤ rowNo (o 0) (o 1) then
      xAt x ((rowNo (o 0) (o 1) - (o 2).val / 2) / 30) ((o 2).val % 2)
        * wAt (if (o 2).val % 2 = 0 then w1 else w2) ((rowNo (o 0) (o 1) - (o 2).val / 2) % 30)
    else 0
  else xTail x (o 0) (o 1) ((o 2).val - 18)

/-- The kernel's arrangement: current or previous batch row by t against the shift, times the rotated weight. -/
def Gk (x : SX.Idx → EReal) (w1 w2 : SW.Idx → EReal) : SO.Idx → EReal := fun o =>
  if (o 2).val < 20 then
    (if (o 2).val / 2 ≤ rowNo (o 0) (o 1) % 30 then xAt x (rowNo (o 0) (o 1) / 30) ((o 2).val % 2)
      else if 1 ≤ rowNo (o 0) (o 1) / 30 then xAt x (rowNo (o 0) (o 1) / 30 - 1) ((o 2).val % 2) else 0)
      * wAt (if (o 2).val % 2 = 0 then w1 else w2) ((rowNo (o 0) (o 1) % 30 + 30 - (o 2).val / 2) % 30)
  else xTail x (o 0) (o 1) ((o 2).val - 18)

/-- The two arrangements are one function. -/
theorem Gk_eq_G (x : SX.Idx → EReal) (w1 w2 : SW.Idx → EReal) : Gk x w1 w2 = G x w1 w2 := by
  funext o
  unfold Gk G
  by_cases hch : (o 2).val < 20
  · rw [if_pos hch, if_pos hch]
    generalize rowNo (o 0) (o 1) = n
    generalize (o 2).val = ch at hch ⊢
    by_cases ht : ch / 2 ≤ n % 30
    · have hn : ch / 2 ≤ n := le_trans ht (Nat.mod_le _ _)
      rw [if_pos ht, if_pos hn]
      congr 2 <;> omega
    · rw [if_neg ht]
      by_cases hb : 1 ≤ n / 30
      · have hn : ch / 2 ≤ n := by omega
        rw [if_pos hb, if_pos hn]
        congr 2 <;> omega
      · have hn : ¬ ch / 2 ≤ n := by omega
        rw [if_neg hb, if_neg hn, zero_mul]
  · rw [if_neg hch, if_neg hch]

end Cert.Assign

end
-- ==== Proof.KernelValueI.lean ====
/-
  The idealized kernel's result array, as one function of the arguments.

  The output buffer after the body is thirty disjoint row-slabs, slab j the row-slab function of the table, column j of
  the block's t-words, slab j of the block's side array and slab j of the block's input; so the buffer at (p, j, q) is
  that row-slab at (p, 0, q). The block of a row-blocked window at grid point t is rows 256·t … 256·t + 255 of its
  array; the table's block is the whole table. Given what the host operations put in the three side arrays — the
  t-word n mod 30, the four side columns x[b,0,0], x[b,0,1] and, when b ≥ 1, x[b−1,0,0], x[b−1,0,1] (0 otherwise), with
  n = j·131072 + a and b = n div 30, and the table w_c[(t − i) mod 30] at (t, 2i + c) — the block point t writes back is
  block t of the kernel-shaped function `Gk` of the arguments. The 512 blocks tile the result array, so the array
  ends at `Gk`.
-/
import proofs.«165622_j90074054132588_2_alg».proof.Proof.RowValueI
import proofs.«165622_j90074054132588_2_alg».proof.Proof.LibCanonPieces
import proofs.«165622_j90074054132588_2_alg».proof.Proof.Spec
import Idealize.ShloMosaic.Lib.Pipeline.Value

set_option maxRecDepth 16384

noncomputable section

namespace Cert.KernelIdeal.Hand

open Cert.KernelIdeal Cert.KernelIdeal.Gen Cert.Assign
open Idealize.ShloMosaic Idealize.ShloMosaic.TcCoe Idealize.ShloMosaic.ValueIdx
open Idealize.SL.Sem
open Idealize.ShloMosaic.Pipeline (Dat)

/-! ## The thirty slabs -/

theorem inbO (j : Fin 30) : ∀ a, (![0, j.val, 0] : Fin 3 → ℕ) a + S256x1x28.size a ≤ S256x30x28.size a := by
  intro a; have := j.isLt
  match a with
  | ⟨0, _⟩ => show 0 + 256 ≤ 256; omega
  | ⟨1, _⟩ => show j.val + 1 ≤ 30; omega
  | ⟨2, _⟩ => show 0 + 28 ≤ 28; omega
theorem inb0 (j : Fin 30) : ∀ a, (![0, j.val, 0] : Fin 3 → ℕ) a + S256x1x10.size a ≤ S256x30x10.size a := by
  intro a; have := j.isLt
  match a with
  | ⟨0, _⟩ => show 0 + 256 ≤ 256; omega
  | ⟨1, _⟩ => show j.val + 1 ≤ 30; omega
  | ⟨2, _⟩ => show 0 + 10 ≤ 10; omega
theorem inb1 (j : Fin 30) : ∀ a, (![0, j.val, 0] : Fin 3 → ℕ) a + S256x1x4.size a ≤ S256x30x4.size a := by
  intro a; have := j.isLt
  match a with
  | ⟨0, _⟩ => show 0 + 256 ≤ 256; omega
  | ⟨1, _⟩ => show j.val + 1 ≤ 30; omega
  | ⟨2, _⟩ => show 0 + 4 ≤ 4; omega
theorem inb2 (j : Fin 30) : ∀ a, (![0, j.val] : Fin 2 → ℕ) a + S256x1.size a ≤ S256x30.size a := by
  intro a; have := j.isLt
  match a with
  | ⟨0, _⟩ => show 0 + 256 ≤ 256; omega
  | ⟨1, _⟩ => show j.val + 1 ≤ 30; omega

/-- Slab j of the output buffer: its rectangle (all rows, middle coordinate j, all channels) and its payload. -/
def slab (x0 : Vec Ideal S256x30x10 .f32) (x1 : Vec Ideal S256x30x4 .f32) (x2 : Vec Ideal S256x30 .i32) (x3 : Vec Ideal S30x20 .f32) (j : Fin 30) :
    View.Piece (Elt Ideal) S256x30x28 .f32 :=
  ⟨Rect.unit (s := S256x30x28) ![0, j.val, 0] S256x1x28.size (inbO j),
    rowOf (F := Ideal) (View.ld x3 (Rect.unit (s := S30x20) ![0, 0] S30x20.size inb_S30x20_S30x20_0_0))
      (View.ld x2 (Rect.unit (s := S256x30) ![0, j.val] S256x1.size (inb2 j)))
      (View.ld x1 (Rect.unit (s := S256x30x4) ![0, j.val, 0] S256x1x4.size (inb1 j)))
      (View.ld x0 (Rect.unit (s := S256x30x10) ![0, j.val, 0] S256x1x10.size (inb0 j)))⟩

/-- The buffer after the body is the canon of the thirty slabs, last stored first. -/
theorem out0_4_eq (x0 : Vec Ideal S256x30x10 .f32) (x1 : Vec Ideal S256x30x4 .f32) (x2 : Vec Ideal S256x30 .i32) (x3 : Vec Ideal S30x20 .f32) :
    out0_4 (F := Ideal) x0 x1 x2 x3 = View.canon (([29, 28, 27, 26, 25, 24, 23, 22, 21, 20, 19, 18, 17, 16, 15, 14, 13, 12, 11, 10, 9, 8, 7, 6, 5, 4, 3, 2, 1, 0] : List (Fin 30)).map (slab x0 x1 x2 x3)) := rfl

theorem slab_disjoint (x0 : Vec Ideal S256x30x10 .f32) (x1 : Vec Ideal S256x30x4 .f32) (x2 : Vec Ideal S256x30 .i32) (x3 : Vec Ideal S30x20 .f32) :
    ∀ a b : Fin 30, a ≠ b → Disjoint (slab x0 x1 x2 x3 a).1.set (slab x0 x1 x2 x3 b).1.set := fun a b h =>
  Rect.unit_disjoint (inb := inbO a) (inb' := inbO b) (1 : Fin 3) (by
    show a.val + 1 ≤ b.val ∨ b.val + 1 ≤ a.val
    have : a.val ≠ b.val := fun e => h (Fin.ext e)
    omega)

theorem mem_slabs (j : Fin 30) : j ∈ ([29, 28, 27, 26, 25, 24, 23, 22, 21, 20, 19, 18, 17, 16, 15, 14, 13, 12, 11, 10, 9, 8, 7, 6, 5, 4, 3, 2, 1, 0] : List (Fin 30)) := by
  revert j; decide

/-- The buffer after the body at (p, j, q) is slab j's payload at (p, 0, q). -/
theorem out0_4_apply (x0 : Vec Ideal S256x30x10 .f32) (x1 : Vec Ideal S256x30x4 .f32) (x2 : Vec Ideal S256x30 .i32) (x3 : Vec Ideal S30x20 .f32)
    (p : Fin 256) (j : Fin 30) (q : Fin 28) :
    out0_4 (F := Ideal) x0 x1 x2 x3 (ix3 p j q) = (slab x0 x1 x2 x3 j).2 (ix3 p (0 : Fin 1) q) := by
  rw [out0_4_eq]
  have he : (ix3 p j q : S256x30x28.Idx) = (slab x0 x1 x2 x3 j).1.emb (ix3 p (0 : Fin 1) q) := by
    funext a; apply Fin.ext
    match a with
    | ⟨0, _⟩ => show p.val = 0 + 1 * p.val; omega
    | ⟨1, _⟩ => show j.val = j.val + 1 * 0; omega
    | ⟨2, _⟩ => show q.val = 0 + 1 * q.val; omega
  rw [he]
  exact View.canon_map_of_disjoint (slab x0 x1 x2 x3) (slab_disjoint x0 x1 x2 x3) _ j (mem_slabs j) (ix3 p (0 : Fin 1) q)

/-! ## The windows' blocks at an index -/

/-- The printed index maps over the grid: the row-blocked windows are at block row t, the table's block never moves. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

theorem point_lt (t : Fin cfg0.N) : t.val < 512 := lt_of_lt_of_eq t.isLt N_0

/-- Array row 256·t + p of a block row p at point t. -/
def rowAt (t : Fin cfg0.N) (p : Fin 256) : Fin 131072 := ⟨256 * t.val + p.val, by have := point_lt t; have := p.isLt; omega⟩

variable (m : (ℓ : Loc nD τ sig) → Buf (Elt Ideal) ℓ) (ρ : Dev nD → PrngReg)

theorem iblk0_apply (c : Dev nD) (t : Fin cfg0.N) (p : Fin 256) (j : Fin 30) (k : Fin 10) :
    iblk m c 0 t (ix3 p j k) = V m c main_arg0 (ix3 (rowAt t p) j k) := by
  obtain ⟨e0, e1, e2, -⟩ := idx_facts t
  show V m c main_arg0 (((cfg0.win 0).blk t).view.emb (ix3 p j k)) = V m c main_arg0 (ix3 (rowAt t p) j k)
  refine congrArg _ (funext fun a => Fin.ext ?_)
  match a with
  | ⟨0, _⟩ => show win0_0.index t (0 : Fin 3) * 256 + 1 * p.val = 256 * t.val + p.val; omega
  | ⟨1, _⟩ => show win0_0.index t (1 : Fin 3) * 30 + 1 * j.val = j.val; omega
  | ⟨2, _⟩ => show win0_0.index t (2 : Fin 3) * 10 + 1 * k.val = k.val; omega

theorem iblk1_apply (c : Dev nD) (t : Fin cfg0.N) (p : Fin 256) (j : Fin 30) (k : Fin 4) :
    iblk m c 1 t (ix3 p j k) = V m c main_v54 (ix3 (rowAt t p) j k) := by
  obtain ⟨-, -, -, e0, e1, e2, -⟩ := idx_facts t
  show V m c main_v54 (((cfg0.win 1).blk t).view.emb (ix3 p j k)) = V m c main_v54 (ix3 (rowAt t p) j k)
  refine congrArg _ (funext fun a => Fin.ext ?_)
  match a with
  | ⟨0, _⟩ => show win0_1.index t (0 : Fin 3) * 256 + 1 * p.val = 256 * t.val + p.val; omega
  | ⟨1, _⟩ => show win0_1.index t (1 : Fin 3) * 30 + 1 * j.val = j.val; omega
  | ⟨2, _⟩ => show win0_1.index t (2 : Fin 3) * 4 + 1 * k.val = k.val; omega

theorem iblk2_apply (c : Dev nD) (t : Fin cfg0.N) (p : Fin 256) (j : Fin 30) :
    iblk m c 2 t (ix2 p j) = V m c main_v9 (ix2 (rowAt t p) j) := by
  obtain ⟨-, -, -, -, -, -, e0, e1, -⟩ := idx_facts t
  show V m c main_v9 (((cfg0.win 2).blk t).view.emb (ix2 p j)) = V m c main_v9 (ix2 (rowAt t p) j)
  refine congrArg _ (funext fun a => Fin.ext ?_)
  match a with
  | ⟨0, _⟩ => show win0_2.index t (0 : Fin 2) * 256 + 1 * p.val = 256 * t.val + p.val; omega
  | ⟨1, _⟩ => show win0_2.index t (1 : Fin 2) * 30 + 1 * j.val = j.val; omega

theorem iblk3_apply (c : Dev nD) (t : Fin cfg0.N) (u : Fin 30) (q : Fin 20) :
    iblk m c 3 t (ix2 u q) = V m c main_v82 (ix2 u q) := by
  obtain ⟨-, -, -, -, -, -, -, -, e0, e1, -⟩ := idx_facts t
  show V m c main_v82 (((cfg0.win 3).blk t).view.emb (ix2 u q)) = V m c main_v82 (ix2 u q)
  refine congrArg _ (funext fun a => Fin.ext ?_)
  match a with
  | ⟨0, _⟩ => show win0_3.index t (0 : Fin 2) * 30 + 1 * u.val = u.val; omega
  | ⟨1, _⟩ => show win0_3.index t (1 : Fin 2) * 20 + 1 * q.val = q.val; omega

/-! ## What the host operations put in the three side arrays -/

/-- The contents of the three side arrays when the region is entered, as functions of the argument arrays. -/
structure HostFacts (c : Dev nD) : Prop where
  t_at : ∀ (a : Fin 131072) (j : Fin 30), V m c main_v9 (ix2 a j) = BitVec.ofNat 32 (rowNo a j % 30)
  c0 : ∀ (a : Fin 131072) (j : Fin 30), V m c main_v54 (ix3 a j (0 : Fin 4)) = xAt (m ((c : Thread nD τ).loc main_arg0)) (rowNo a j / 30) 0
  c1 : ∀ (a : Fin 131072) (j : Fin 30), V m c main_v54 (ix3 a j (1 : Fin 4)) = xAt (m ((c : Thread nD τ).loc main_arg0)) (rowNo a j / 30) 1
  c2 : ∀ (a : Fin 131072) (j : Fin 30), V m c main_v54 (ix3 a j (2 : Fin 4))
      = if 1 ≤ rowNo a j / 30 then xAt (m ((c : Thread nD τ).loc main_arg0)) (rowNo a j / 30 - 1) 0 else 0
  c3 : ∀ (a : Fin 131072) (j : Fin 30), V m c main_v54 (ix3 a j (3 : Fin 4))
      = if 1 ≤ rowNo a j / 30 then xAt (m ((c : Thread nD τ).loc main_arg0)) (rowNo a j / 30 - 1) 1 else 0
  w_at : ∀ (u : Fin 30) (q : Fin 20), V m c main_v82 (ix2 u q)
      = wAt (if q.val % 2 = 0 then m ((c : Thread nD τ).loc main_arg1) else m ((c : Thread nD τ).loc main_arg2)) ((u.val + 30 - q.val / 2) % 30)

/-! ## What a point writes back -/

theorem Gk_ix3 (x : SX.Idx → EReal) (w1 w2 : SW.Idx → EReal) (a : Fin 131072) (j : Fin 30) (q : Fin 28) :
    Gk x w1 w2 (ix3 a j q)
      = if q.val < 20 then
          (if q.val / 2 ≤ rowNo a j % 30 then xAt x (rowNo a j / 30) (q.val % 2)
            else if 1 ≤ rowNo a j / 30 then xAt x (rowNo a j / 30 - 1) (q.val % 2) else 0)
            * wAt (if q.val % 2 = 0 then w1 else w2) ((rowNo a j % 30 + 30 - q.val / 2) % 30)
        else xTail x a j (q.val - 18) := rfl

/-- What point t writes back is block t of `Gk` of the argument arrays. -/
theorem flushed4_eq (c : Dev nD) (hH : HostFacts m c) (t : Fin cfg0.N) :
    (dats m 0 c).flushed 4 t = ((cfg0.win 4).blk t).view.read (Elt Ideal)
      (Gk (m ((c : Thread nD τ).loc main_arg0)) (m ((c : Thread nD τ).loc main_arg1)) (m ((c : Thread nD τ).loc main_arg2))) := by
  show (cfg0.win 4).cut (grid0.coords t) ((dats m 0 c).after 4 t) = _
  rw [after0_4]
  funext y
  obtain ⟨p, j, q, rfl⟩ : ∃ (p : Fin 256) (j : Fin 30) (q : Fin 28), y = ix3 p j q := ⟨y 0, y 1, y 2, eq_ix3 y⟩
  obtain ⟨-, -, -, -, -, -, -, -, -, -, e0, e1, e2⟩ := idx_facts t
  have hemb : ((cfg0.win 4).blk t).view.emb (ix3 p j q) = (ix3 (rowAt t p) j q : S131072x30x28.Idx) := by
    funext a; apply Fin.ext
    match a with
    | ⟨0, _⟩ => show win0_4.index t (0 : Fin 3) * 256 + 1 * p.val = 256 * t.val + p.val; omega
    | ⟨1, _⟩ => show win0_4.index t (1 : Fin 3) * 30 + 1 * j.val = j.val; omega
    | ⟨2, _⟩ => show win0_4.index t (2 : Fin 3) * 28 + 1 * q.val = q.val; omega
  show out0_4 (F := Ideal) (iblk m c 0 t) (iblk m c 1 t) (iblk m c 2 t) (iblk m c 3 t) (ix3 p j q)
    = Gk _ _ _ (((cfg0.win 4).blk t).view.emb (ix3 p j q))
  rw [hemb, out0_4_apply, Gk_ix3]
  have htv : rowNo (rowAt t p) j % 30 < 30 := Nat.mod_lt _ (by omega)
  -- the slab's t-word at row p
  have hword : View.ld (iblk m c 2 t) (Rect.unit (s := S256x30) ![0, j.val] S256x1.size (inb2 j)) (ix2 p (0 : Fin 1))
      = BitVec.ofNat 32 (rowNo (rowAt t p) j % 30) := by
    show iblk m c 2 t ((Rect.unit (s := S256x30) ![0, j.val] S256x1.size (inb2 j)).idx (ix2 p (0 : Fin 1))) = _
    have hi : (Rect.unit (s := S256x30) ![0, j.val] S256x1.size (inb2 j)).idx (ix2 p (0 : Fin 1)) = (ix2 p j : S256x30.Idx) := by
      funext a; apply Fin.ext
      match a with
      | ⟨0, _⟩ => show 0 + 1 * p.val = p.val; omega
      | ⟨1, _⟩ => show j.val + 1 * 0 = j.val; omega
    rw [hi, iblk2_apply, hH.t_at]
  show rowOf (F := Ideal) _ (View.ld (iblk m c 2 t) (Rect.unit (s := S256x30) ![0, j.val] S256x1.size (inb2 j))) _ _ (ix3 p (0 : Fin 1) q) = _
  rw [rowOf_apply _ _ _ _ p q (rowNo (rowAt t p) j % 30) htv hword]
  -- the side columns, the table's row and the input's slab, at their array indices
  have hside : ∀ k : Fin 4, View.ld (iblk m c 1 t) (Rect.unit (s := S256x30x4) ![0, j.val, 0] S256x1x4.size (inb1 j)) (ix3 p (0 : Fin 1) k)
      = V m c main_v54 (ix3 (rowAt t p) j k) := fun k => by
    show iblk m c 1 t ((Rect.unit (s := S256x30x4) ![0, j.val, 0] S256x1x4.size (inb1 j)).idx (ix3 p (0 : Fin 1) k)) = _
    have hi : (Rect.unit (s := S256x30x4) ![0, j.val, 0] S256x1x4.size (inb1 j)).idx (ix3 p (0 : Fin 1) k) = (ix3 p j k : S256x30x4.Idx) := by
      funext a; apply Fin.ext
      match a with
      | ⟨0, _⟩ => show 0 + 1 * p.val = p.val; omega
      | ⟨1, _⟩ => show j.val + 1 * 0 = j.val; omega
      | ⟨2, _⟩ => show 0 + 1 * k.val = k.val; omega
    rw [hi, iblk1_apply]
  have htab : ∀ (u : Fin 30) (q' : Fin 20), View.ld (iblk m c 3 t) (Rect.unit (s := S30x20) ![0, 0] S30x20.size inb_S30x20_S30x20_0_0) (ix2 u q')
      = V m c main_v82 (ix2 u q') := fun u q' => by
    show iblk m c 3 t ((Rect.unit (s := S30x20) ![0, 0] S30x20.size inb_S30x20_S30x20_0_0).idx (ix2 u q')) = _
    have hi : (Rect.unit (s := S30x20) ![0, 0] S30x20.size inb_S30x20_S30x20_0_0).idx (ix2 u q') = (ix2 u q' : S30x20.Idx) := by
      funext a; apply Fin.ext
      match a with
      | ⟨0, _⟩ => show 0 + 1 * u.val = u.val; omega
      | ⟨1, _⟩ => show 0 + 1 * q'.val = q'.val; omega
    rw [hi, iblk3_apply]
  have hinp : ∀ k : Fin 10, View.ld (iblk m c 0 t) (Rect.unit (s := S256x30x10) ![0, j.val, 0] S256x1x10.size (inb0 j)) (ix3 p (0 : Fin 1) k)
      = m ((c : Thread nD τ).loc main_arg0) (ix3 (rowAt t p) j k) := fun k => by
    show iblk m c 0 t ((Rect.unit (s := S256x30x10) ![0, j.val, 0] S256x1x10.size (inb0 j)).idx (ix3 p (0 : Fin 1) k)) = _
    have hi : (Rect.unit (s := S256x30x10) ![0, j.val, 0] S256x1x10.size (inb0 j)).idx (ix3 p (0 : Fin 1) k) = (ix3 p j k : S256x30x10.Idx) := by
      funext a; apply Fin.ext
      match a with
      | ⟨0, _⟩ => show 0 + 1 * p.val = p.val; omega
      | ⟨1, _⟩ => show j.val + 1 * 0 = j.val; omega
      | ⟨2, _⟩ => show 0 + 1 * k.val = k.val; omega
    rw [hi, iblk0_apply, V_main_arg0]
  by_cases hq : q.val < 20
  · rw [dif_pos hq, if_pos hq, hside 0, hside 1, hside 2, hside 3, htab, hH.c0, hH.c1, hH.c2, hH.c3, hH.w_at]
    rcases Nat.mod_two_eq_zero_or_one q.val with h2 | h2
    · simp only [h2, if_true, ↓reduceIte]
    · simp only [h2, ↓reduceIte, one_ne_zero, if_false]
  · rw [dif_neg hq, if_neg hq, hinp]
    have h18 : q.val - 18 < 10 := by have := q.isLt; omega
    show _ = xTail _ _ _ _
    unfold xTail
    rw [dif_pos h18]

/-! ## The cover and the result array -/

theorem mem_blk4 (t : Fin cfg0.N) (i : S131072x30x28.Idx) :
    i ∈ ((cfg0.win 4).blk t).view.set ↔ ∀ a : Fin 3, win0_4.index t a * S256x30x28.size a ≤ (i a).val
      ∧ (i a).val < win0_4.index t a * S256x30x28.size a + S256x30x28.size a := by
  show i ∈ ((View.whole main_v83).slice (win0_4.rect t)).set ↔ _
  rw [View.set_slice_whole, Rect.mem_set_unit]
  exact Iff.rfl

/-- Every index of the result array is in the block of the point its row falls in. -/
theorem cover4 (i : S131072x30x28.Idx) : ∃ t : Fin cfg0.N, (cfg0.win 4).flush t = true ∧ i ∈ ((cfg0.win 4).blk t).view.set := by
  have h0 : (i 0).val < 131072 := (i 0).isLt
  have h1 : (i 1).val < 30 := (i 1).isLt
  have h2 : (i 2).val < 28 := (i 2).isLt
  have hN : (i 0).val / 256 < cfg0.N := by
    show (i 0).val / 256 < grid0.N
    rw [N_0]; omega
  refine ⟨⟨(i 0).val / 256, hN⟩, flush0_4 _, ?_⟩
  obtain ⟨-, -, -, -, -, -, -, -, -, -, e0, e1, e2⟩ := idx_facts ⟨(i 0).val / 256, hN⟩
  rw [mem_blk4]
  intro a
  match a with
  | ⟨0, _⟩ =>
    show win0_4.index ⟨(i 0).val / 256, hN⟩ (0 : Fin 3) * 256 ≤ (i 0).val ∧ (i 0).val < win0_4.index ⟨(i 0).val / 256, hN⟩ (0 : Fin 3) * 256 + 256
    rw [e0]; show (i 0).val / 256 * 256 ≤ (i 0).val ∧ (i 0).val < (i 0).val / 256 * 256 + 256; omega
  | ⟨1, _⟩ =>
    show win0_4.index ⟨(i 0).val / 256, hN⟩ (1 : Fin 3) * 30 ≤ (i 1).val ∧ (i 1).val < win0_4.index ⟨(i 0).val / 256, hN⟩ (1 : Fin 3) * 30 + 30
    rw [e1]; omega
  | ⟨2, _⟩ =>
    show win0_4.index ⟨(i 0).val / 256, hN⟩ (2 : Fin 3) * 28 ≤ (i 2).val ∧ (i 2).val < win0_4.index ⟨(i 0).val / 256, hN⟩ (2 : Fin 3) * 28 + 28
    rw [e2]; omega

/-- The result array after the run. -/
theorem final4 (c : Dev nD) (hH : HostFacts m c) :
    (dats m 0 c).arrAt 4 cfg0.N
      = Gk (m ((c : Thread nD τ).loc main_arg0)) (m ((c : Thread nD τ).loc main_arg1)) (m ((c : Thread nD τ).loc main_arg2)) :=
  (dats m 0 c).arrAt_eq_of_cover 4 _ (fun t _ => flushed4_eq m c hH t) cover4

/-- The run of the idealized kernel, re-posted: the result array at `Gk` of the arguments, the arguments unchanged. -/
theorem run_Gk (hH : ∀ c, HostFacts m c) :
    θ_run defs (onTc (τ := τ) (main (F := Ideal))) ⟨m, fun _ => 0, ρ⟩ fun r => ∀ c : Dev nD,
      r.2.mem ((c.tc : Thread nD τ).loc main_v83)
          = Gk (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 4).trans (final4 m c (hH c)),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.Hand

end
-- ==== Proof.HostKeep.lean ====
/-
  The host prefix of the kernel program leaves the three arguments alone: none of its operations writes
  `main_arg0`, `main_arg1` or `main_arg2`, so the fold over all thirteen stretches returns them as launched.
  Each operation writes exactly one reference (its result), and the arguments are not among the results.
-/
import proofs.«165622_j90074054132588_2_alg».proof.Proof.Gen.KernelIdeal.Launch
import proofs.«165622_j90074054132588_2_alg».proof.Proof.Spec

set_option maxRecDepth 4000

noncomputable section

namespace Cert.Assign.Host

open Idealize.ShloMosaic Idealize.ShloMosaic.TcCoe
open Cert.KernelIdeal Cert.KernelIdeal.Gen

variable {F : FTy → Type} [FloatOps F]

/-- Every host operation before the region, in program order: the thirteen stretches flattened. -/
abbrev hostOpsAll : List (HloOp τ sig (Elt F)) :=
  List.flatten [hostOps0, hostOps0_1, hostOps0_2, hostOps0_3, hostOps0_4, hostOps0_5, hostOps0_6, hostOps0_7, hostOps0_8, hostOps0_9, hostOps0_10, hostOps0_11, hostOps0_12]

/-- No host operation writes `main_arg0`: after the whole host prefix it holds what it was launched with. -/
theorem keep_main_arg0 (W : Valuation τ sig (Elt F)) :
    StableHlo.after (hostOpsAll (F := F)) W main_arg0 = W main_arg0 :=
  StableHlo.after_of_forall_not_mem (b := Proc.devRef .tc main_arg0) _ _ (List.forall_iff_forall_mem.mp (by
    simp only [hostOpsAll, hostOps0, hostOps0_1, hostOps0_2, hostOps0_3, hostOps0_4, hostOps0_5, hostOps0_6, hostOps0_7, hostOps0_8,
      hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))

/-- No host operation writes `main_arg1`: after the whole host prefix it holds what it was launched with. -/
theorem keep_main_arg1 (W : Valuation τ sig (Elt F)) :
    StableHlo.after (hostOpsAll (F := F)) W main_arg1 = W main_arg1 :=
  StableHlo.after_of_forall_not_mem (b := Proc.devRef .tc main_arg1) _ _ (List.forall_iff_forall_mem.mp (by
    simp only [hostOpsAll, hostOps0, hostOps0_1, hostOps0_2, hostOps0_3, hostOps0_4, hostOps0_5, hostOps0_6, hostOps0_7, hostOps0_8,
      hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))

/-- No host operation writes `main_arg2`: after the whole host prefix it holds what it was launched with. -/
theorem keep_main_arg2 (W : Valuation τ sig (Elt F)) :
    StableHlo.after (hostOpsAll (F := F)) W main_arg2 = W main_arg2 :=
  StableHlo.after_of_forall_not_mem (b := Proc.devRef .tc main_arg2) _ _ (List.forall_iff_forall_mem.mp (by
    simp only [hostOpsAll, hostOps0, hostOps0_1, hostOps0_2, hostOps0_3, hostOps0_4, hostOps0_5, hostOps0_6, hostOps0_7, hostOps0_8,
      hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))

end Cert.Assign.Host

end
-- ==== Proof.HostWeightsFold.lean ====
/-
  The host prefix's last three stretches, folded: what the weight table's buffer holds after them as a pure function of
  the two weight rows and nothing else.

  * The stretch before last but one writes d = t − i on [30, 10] (two iotas broadcast and subtracted) and the word 30.
  * The next one is the sign-corrected remainder of d by 30.
  * The last one wraps a negative index by +30 (never taken), gathers each weight row at the index, and lays the two
    gathered [30, 10] arrays side by side on a new last axis, reshaped row-major to [30, 20].
-/
import proofs.«165622_j90074054132588_2_alg».proof.Proof.HostKeep
import Idealize.ShloMosaic.Lib.Pipeline.Frame

set_option maxRecDepth 4000

noncomputable section

namespace Cert.Assign.Host

open Idealize.ShloMosaic Idealize.ShloMosaic.TcCoe Idealize.ShloMosaic.ValueIdx
open Cert.KernelIdeal Cert.KernelIdeal.Gen
open Idealize.ShloMosaic.StableHlo

variable {F : FTy → Type} [FloatOps F]

/-! ## The pure functions -/

/-- t − i on [30, 10]: the row number broadcast along the columns less the column number broadcast along the rows. -/
def diffVec : IVec S30x10 32 :=
  subi (broadcastInDim S30x10 ![0, 1] bcast_S30x1_S30x10_0_1 (broadcastInDim S30x1 ![0] bcast_S30_S30x1_0 (iotaInDim S30 32 0)))
    (broadcastInDim S30x10 ![0, 1] bcast_S1x10_S30x10_0_1 (broadcastInDim S1x10 ![1] bcast_S10_S1x10_1 (iotaInDim S10 32 0)))

/-- The divisor the remainder uses: 1 in place of 0. -/
def remDiv (c : IVec S_ 32) : IVec S_ 32 := select (cmpi .eq c (constantI S_ 32 0#32)) (constantI S_ 32 1#32) c

/-- The truncated remainder of every entry by the divisor. -/
def remTrunc (x : IVec S30x10 32) (c : IVec S_ 32) : IVec S30x10 32 :=
  Host.remsi x (broadcastInDim S30x10 ![] bcast_S_S30x10 (remDiv c))

/-- The sign-corrected remainder: the divisor is added where the truncated remainder is not zero and its sign is not the divisor's. -/
def remVec (x : IVec S30x10 32) (c : IVec S_ 32) : IVec S30x10 32 :=
  select
    (andi
      (cmpi .ne (cmpi .slt (remTrunc x c) (broadcastInDim S30x10 ![] bcast_S_S30x10 (constantI S_ 32 0#32)))
        (broadcastInDim S30x10 ![] bcast_S_S30x10 (cmpi .slt (remDiv c) (constantI S_ 32 0#32))))
      (cmpi .ne (remTrunc x c) (broadcastInDim S30x10 ![] bcast_S_S30x10 (constantI S_ 32 0#32))))
    (addi (remTrunc x c) (broadcastInDim S30x10 ![] bcast_S_S30x10 (remDiv c))) (remTrunc x c)

/-- A negative index wrapped by +30. -/
def wrapVec (m : IVec S30x10 32) : IVec S30x10 32 :=
  select (cmpi .slt m (broadcastInDim S30x10 ![] bcast_S_S30x10 (constantI S_ 32 0#32)))
    (addi m (broadcastInDim S30x10 ![] bcast_S_S30x10 (constantI S_ 32 30#32))) m

/-- One weight row gathered at the wrapped indices, with a unit last axis. -/
def gatherCol (a : Vec F S1x30 .f32) (m : IVec S30x10 32) : Vec F S30x10x1 .f32 :=
  broadcastInDim S30x10x1 ![0, 1] bcast_S30x10_S30x10x1_0_1
    (Host.gather gather_S30_S30x10x1_S30x10_n_0_n_n_0_2_1 (fun i => shapeCast S30 a shapeCasts_S1x30_S30 i)
      (broadcastInDim S30x10x1 ![0, 1] bcast_S30x10_S30x10x1_0_1 (wrapVec m)))

/-- Two [30, 10, 1] arrays side by side on the last axis, reshaped row-major to [30, 20]. -/
def joinCols (c1 c2 : Vec F S30x10x1 .f32) : Vec F S30x20 .f32 :=
  shapeCast S30x20 (concatenate S30x10x2 2 [⟨S30x10x1, c1⟩, ⟨S30x10x1, c2⟩] concatenates_S30x10x1_S30x10x1_S30x10x2_d2)
    shapeCasts_S30x10x2_S30x20

/-- The weight table from the two weight rows and the index array. -/
def wtable (a1 a2 : Vec F S1x30 .f32) (m : IVec S30x10 32) : Vec F S30x20 .f32 :=
  joinCols (gatherCol a1 m) (gatherCol a2 m)

/-! ## The folds -/

/-- The stretch that writes t − i: `main_v61` after it. -/
theorem fold10_v61 (V : Valuation τ sig (Elt F)) :
    StableHlo.after (hostOps0_10 (F := F)) V (main_v61 : DevRef τ sig) = diffVec := by
  simp only [hostOps0_10]
  after_results_simp
  rfl

/-- and the word 30 it leaves in `main_c_15`. -/
theorem fold10_c15 (V : Valuation τ sig (Elt F)) :
    StableHlo.after (hostOps0_10 (F := F)) V (main_c_15 : DevRef τ sig) = constantI S_ 32 30#32 := by
  simp only [hostOps0_10]
  after_results_simp

/-- The remainder's stretch: `main_v62` after it. -/
theorem fold11_v62 (V : Valuation τ sig (Elt F)) :
    StableHlo.after (hostOps0_11 (F := F)) V (main_v62 : DevRef τ sig)
      = remVec (V (main_v61 : DevRef τ sig)) (V (main_c_15 : DevRef τ sig)) := by
  simp only [hostOps0_11]
  after_results_simp
  simp only [TRef.ofBuf, TRef.toBuf, cast_eq, id_eq]
  rfl

/-- The last stretch: the two gathered columns before they are joined. -/
theorem fold12_v79 (V : Valuation τ sig (Elt F)) :
    StableHlo.after (hostOps0_12 (F := F)) V (main_v79 : DevRef τ sig)
      = gatherCol (V (main_arg1 : DevRef τ sig)) (V (main_v62 : DevRef τ sig)) := by
  simp only [hostOps0_12]
  after_results_simp
  rfl

theorem fold12_v80 (V : Valuation τ sig (Elt F)) :
    StableHlo.after (hostOps0_12 (F := F)) V (main_v80 : DevRef τ sig)
      = gatherCol (V (main_arg2 : DevRef τ sig)) (V (main_v62 : DevRef τ sig)) := by
  simp only [hostOps0_12]
  after_results_simp
  rfl

/-- The last stretch writes neither weight row. -/
theorem fold12_arg1 (V : Valuation τ sig (Elt F)) :
    StableHlo.after (hostOps0_12 (F := F)) V (main_arg1 : DevRef τ sig) = V (main_arg1 : DevRef τ sig) := by
  simp only [hostOps0_12]
  after_results_simp

theorem fold12_arg2 (V : Valuation τ sig (Elt F)) :
    StableHlo.after (hostOps0_12 (F := F)) V (main_arg2 : DevRef τ sig) = V (main_arg2 : DevRef τ sig) := by
  simp only [hostOps0_12]
  after_results_simp

/-- The last two operations of the last stretch join the columns and leave them in place. -/
theorem join_v82 (V : Valuation τ sig (Elt F)) :
    StableHlo.after ((hostOps0_12 (F := F)).drop 22) V (main_v82 : DevRef τ sig)
      = joinCols (V (main_v79 : DevRef τ sig)) (V (main_v80 : DevRef τ sig)) := by
  simp only [hostOps0_12, List.drop_succ_cons, List.drop_zero]
  after_results
  rfl

theorem join_v79 (V : Valuation τ sig (Elt F)) :
    StableHlo.after ((hostOps0_12 (F := F)).drop 22) V (main_v79 : DevRef τ sig) = V (main_v79 : DevRef τ sig) := by
  simp only [hostOps0_12, List.drop_succ_cons, List.drop_zero]
  after_results

theorem join_v80 (V : Valuation τ sig (Elt F)) :
    StableHlo.after ((hostOps0_12 (F := F)).drop 22) V (main_v80 : DevRef τ sig) = V (main_v80 : DevRef τ sig) := by
  simp only [hostOps0_12, List.drop_succ_cons, List.drop_zero]
  after_results

/-- The last stretch: the weight table's buffer after it. -/
theorem fold12_v82 (V : Valuation τ sig (Elt F)) :
    StableHlo.after (hostOps0_12 (F := F)) V (main_v82 : DevRef τ sig)
      = wtable (V (main_arg1 : DevRef τ sig)) (V (main_arg2 : DevRef τ sig)) (V (main_v62 : DevRef τ sig)) := by
  have h79 : StableHlo.after ((hostOps0_12 (F := F)).take 22) V (main_v79 : DevRef τ sig)
      = gatherCol (V (main_arg1 : DevRef τ sig)) (V (main_v62 : DevRef τ sig)) := by
    rw [← join_v79 (StableHlo.after ((hostOps0_12 (F := F)).take 22) V), ← StableHlo.after_append, List.take_append_drop]
    exact fold12_v79 V
  have h80 : StableHlo.after ((hostOps0_12 (F := F)).take 22) V (main_v80 : DevRef τ sig)
      = gatherCol (V (main_arg2 : DevRef τ sig)) (V (main_v62 : DevRef τ sig)) := by
    rw [← join_v80 (StableHlo.after ((hostOps0_12 (F := F)).take 22) V), ← StableHlo.after_append, List.take_append_drop]
    exact fold12_v80 V
  have hs : StableHlo.after (hostOps0_12 (F := F)) V
      = StableHlo.after ((hostOps0_12 (F := F)).drop 22) (StableHlo.after ((hostOps0_12 (F := F)).take 22) V) := by
    rw [← StableHlo.after_append, List.take_append_drop]
  rw [hs, join_v82, h79, h80]
  rfl

end Cert.Assign.Host

end
-- ==== Proof.HostWeightsIdx.lean ====
/-
  Index-level facts the weight table's proof uses, stated over literal shapes and arbitrary layout evidence:

  * the word arithmetic: for t < 30 and i < 10 the sign-corrected remainder of t − i by 30, wrapped once more by +30 when
    negative (it never is), read as a signed integer and clamped to [0, 29], is (t + 30 − i) mod 30 — decided over the
    300 pairs;
  * a row iota and a column iota broadcast to [R, C], read at (t, i);
  * a broadcast [R, C] → [R, C, 1] read at (t, i, 0);
  * two [R, C, 1] arrays concatenated on the last axis and reshaped row-major to [R, 2·C], read at (t, q): piece q mod 2
    at (t, q div 2, 0);
  * a gather of a [1, N] row (reshaped to [N]) at a [R, C, 1] index array, read at (t, i).
-/
import Idealize.ShloMosaic.PureOps.Ideal
import Idealize.ShloMosaic.Lib.ValueIdx
import Idealize.ShloMosaic.Lib.ValueLayout
import Idealize.ShloMosaic.Lib.IdealHost
import Idealize.ShloMosaic.Lib.Pipeline.Value

noncomputable section

namespace Cert.Assign.Host

open Idealize.ShloMosaic Idealize.ShloMosaic.ValueIdx

/-! ## Words -/

/-- The host's sign-corrected remainder on one word: the truncated remainder, plus the divisor when it is not zero and
    its sign is not the divisor's. -/
def wrapRem (x d : BitVec 32) : BitVec 32 :=
  Scalar.select
    (IntOp.andi (IntOp.cmpi .ne (IntOp.cmpi .slt (IntOp.remsi .host x d) 0#32) (IntOp.cmpi .slt d 0#32))
      (IntOp.cmpi .ne (IntOp.remsi .host x d) 0#32))
    (IntOp.addi (IntOp.remsi .host x d) d) (IntOp.remsi .host x d)

/-- A negative index wrapped by +30. -/
def wrapIdx (x : BitVec 32) : BitVec 32 :=
  Scalar.select (IntOp.cmpi .slt x 0#32) (IntOp.addi x 30#32) x

/-- The divisor the remainder uses: 1 in place of 0. -/
def safeDiv (c : BitVec 32) : BitVec 32 := Scalar.select (IntOp.cmpi .eq c 0#32) 1#32 c

/-- For t < 30, i < 10: the clamped, wrapped, sign-corrected remainder of t − i by 30 is (t + 30 − i) mod 30. -/
theorem wrap_table : ∀ (t : Fin 30) (i : Fin 10),
    min (wrapIdx (wrapRem (IntOp.subi (BitVec.ofNat 32 t.val) (BitVec.ofNat 32 i.val)) (safeDiv 30#32))).toInt.toNat (30 - 1)
      = (t.val + 30 - i.val) % 30 := by
  decide +kernel

/-! ## Layout -/

variable {α : Type}

/-- A row iota [R] → [R, 1] → [R, C] read at (t, i) is the word t. -/
theorem rowIota_apply {R C : Nat} (hR : R ≠ 1)
    (h : (⟨2, ![R, 1]⟩ : Shape).BroadcastsInDim ⟨2, ![R, C]⟩ ![0, 1])
    (h' : (⟨1, ![R]⟩ : Shape).BroadcastsInDim ⟨2, ![R, 1]⟩ ![0]) (t : Fin R) (i : Fin C) :
    broadcastInDim ⟨2, ![R, C]⟩ ![0, 1] h (broadcastInDim ⟨2, ![R, 1]⟩ ![0] h' (iotaInDim ⟨1, ![R]⟩ 32 0)) (ix2 t i)
      = BitVec.ofNat 32 t.val := by
  rw [broadcastInDim_apply _ h _ (ix2 t i) (ix2 t (0 : Fin 1)) (fun a => by
    match a with
    | ⟨0, _⟩ => show t.val = if R = 1 then 0 else t.val; rw [if_neg hR]
    | ⟨1, _⟩ => exact (if_pos rfl).symm)]
  rw [broadcastInDim_apply _ h' _ (ix2 t (0 : Fin 1)) (ix1 t) (fun a => by
    match a with
    | ⟨0, _⟩ => show t.val = if R = 1 then 0 else t.val; rw [if_neg hR])]
  rfl

/-- A column iota [C] → [1, C] → [R, C] read at (t, i) is the word i. -/
theorem colIota_apply {R C : Nat} (hC : C ≠ 1)
    (h : (⟨2, ![1, C]⟩ : Shape).BroadcastsInDim ⟨2, ![R, C]⟩ ![0, 1])
    (h' : (⟨1, ![C]⟩ : Shape).BroadcastsInDim ⟨2, ![1, C]⟩ ![1]) (t : Fin R) (i : Fin C) :
    broadcastInDim ⟨2, ![R, C]⟩ ![0, 1] h (broadcastInDim ⟨2, ![1, C]⟩ ![1] h' (iotaInDim ⟨1, ![C]⟩ 32 0)) (ix2 t i)
      = BitVec.ofNat 32 i.val := by
  rw [broadcastInDim_apply _ h _ (ix2 t i) (ix2 (0 : Fin 1) i) (fun a => by
    match a with
    | ⟨0, _⟩ => exact (if_pos rfl).symm
    | ⟨1, _⟩ => show i.val = if C = 1 then 0 else i.val; rw [if_neg hC])]
  rw [broadcastInDim_apply _ h' _ (ix2 (0 : Fin 1) i) (ix1 i) (fun a => by
    match a with
    | ⟨0, _⟩ => show i.val = if C = 1 then 0 else i.val; rw [if_neg hC])]
  rfl

/-- [R, C] → [R, C, 1] on axes 0, 1: entry (t, i, u) is entry (t, i). -/
theorem bcast_unit_last_apply {R C : Nat} (hR : R ≠ 1) (hC : C ≠ 1)
    (h : (⟨2, ![R, C]⟩ : Shape).BroadcastsInDim ⟨3, ![R, C, 1]⟩ ![0, 1])
    (x : (⟨2, ![R, C]⟩ : Shape).Idx → α) (j : (⟨3, ![R, C, 1]⟩ : Shape).Idx) (t : Fin R) (i : Fin C)
    (h0 : (j 0).val = t.val) (h1 : (j 1).val = i.val) :
    broadcastInDim ⟨3, ![R, C, 1]⟩ ![0, 1] h x j = x (ix2 t i) :=
  broadcastInDim_apply _ h x _ _ (fun a => by
    match a with
    | ⟨0, _⟩ => show t.val = if R = 1 then 0 else (j 0).val; rw [if_neg hR, h0]
    | ⟨1, _⟩ => show i.val = if C = 1 then 0 else (j 1).val; rw [if_neg hC, h1])

/-- Two [R, C, 1] arrays side by side on the last axis, reshaped row-major [R, C, 2] → [R, D] with D = 2·C: entry
    (t, q) is entry (t, q div 2, 0) of piece q mod 2. -/
theorem join_apply {R C D : Nat} (hD : D = 2 * C) (c1 c2 : (⟨3, ![R, C, 1]⟩ : Shape).Idx → α)
    (hc : Shape.Concatenates [(⟨3, ![R, C, 1]⟩ : Shape), ⟨3, ![R, C, 1]⟩] ⟨3, ![R, C, 2]⟩ 2)
    (hs : (⟨3, ![R, C, 2]⟩ : Shape).ShapeCasts ⟨2, ![R, D]⟩) (t : Fin R) (q : Fin D) :
    shapeCast ⟨2, ![R, D]⟩ (concatenate ⟨3, ![R, C, 2]⟩ 2 [⟨⟨3, ![R, C, 1]⟩, c1⟩, ⟨⟨3, ![R, C, 1]⟩, c2⟩] hc) hs (ix2 t q)
      = (if q.val % 2 = 0 then c1 else c2) (ix3 t ⟨q.val / 2, by have := q.isLt; omega⟩ (0 : Fin 1)) := by
  subst hD
  have hq := q.isLt
  have hlt : q.val / 2 < C := by omega
  have hm : q.val % 2 < 2 := Nat.mod_lt _ (by decide)
  rw [shapeCast_apply _ hs (ix2 t q) (ix3 t ⟨q.val / 2, hlt⟩ ⟨q.val % 2, hm⟩) (by
    rw [Shape.rowMajor_val_three, Shape.rowMajor_val_two]
    show (t.val * C + q.val / 2) * 2 + q.val % 2 = t.val * (2 * C) + q.val
    have := Nat.div_add_mod q.val 2
    rw [Nat.add_mul, Nat.mul_assoc, Nat.mul_comm C 2]; omega)]
  by_cases h0 : q.val % 2 = 0
  · rw [if_pos h0]
    exact concatenate_pair_apply_left 2 c1 c2 hc _ rfl _ (fun b => by
      match b with
      | ⟨0, _⟩ => rfl
      | ⟨1, _⟩ => rfl
      | ⟨2, _⟩ => show 0 = q.val % 2; omega)
  · rw [if_neg h0]
    exact concatenate_pair_apply_right 2 c1 c2 hc _ rfl rfl _ (fun b hb => by
      match b with
      | ⟨0, _⟩ => rfl
      | ⟨1, _⟩ => rfl
      | ⟨2, _⟩ => exact absurd rfl hb) (by show 0 + 1 = q.val % 2; omega)

/-- A [1, N] row reshaped to [N] and gathered at the [R, C] index array `m` (carried as [R, C, 1]): entry (t, i) is
    the row at `m (t, i)` read signed and clamped into [0, N − 1]. -/
theorem gatherRow_apply {N R C : Nat} (hN : 0 < N) (hR : R ≠ 1) (hC : C ≠ 1)
    (wf : GatherDims.WF ⟨1, ![N]⟩ ⟨3, ![R, C, 1]⟩ ⟨2, ![R, C]⟩ [] [0] [] [0] [] 2 ![1])
    (a : (⟨2, ![1, N]⟩ : Shape).Idx → α) (hsc : (⟨2, ![1, N]⟩ : Shape).ShapeCasts ⟨1, ![N]⟩)
    (hb : (⟨2, ![R, C]⟩ : Shape).BroadcastsInDim ⟨3, ![R, C, 1]⟩ ![0, 1]) (m : IVec ⟨2, ![R, C]⟩ 32) (t : Fin R) (i : Fin C) :
    Host.gather (takeDims N R C wf) (fun k => shapeCast ⟨1, ![N]⟩ a hsc k) (broadcastInDim ⟨3, ![R, C, 1]⟩ ![0, 1] hb m) (ix2 t i)
      = a (ix2 (0 : Fin 1) ⟨min (m (ix2 t i)).toInt.toNat (N - 1), by omega⟩) := by
  have hb' : broadcastInDim ⟨3, ![R, C, 1]⟩ ![0, 1] hb m (takeIdx (ix2 t i)) = m (ix2 t i) :=
    bcast_unit_last_apply hR hC hb m (takeIdx (ix2 t i)) t i rfl rfl
  rw [gather_take_apply hN wf]
  refine (shapeCast_1a_a_apply a hsc _).trans ?_
  exact congrArg a (congrArg (fun k : Fin N => ix2 (0 : Fin 1) k) (Fin.ext (by
    show min _ (N - 1) = min _ (N - 1)
    rw [hb'])))

end Cert.Assign.Host

end
-- ==== Proof.HostWeights.lean ====
/-
  The weight table the host prefix leaves in `main_v82` : f32[30, 20]: column q = 2·i + c of row t holds weight row c
  at (t − i) mod 30, written (t + 30 − i) mod 30 on the naturals.

  The fold of the thirteen stretches is read stretch by stretch: everything before the last three only matters through
  the two weight rows, which no host operation writes; the last three are the pure functions of the fold module, read
  here at an index.
-/
import proofs.«165622_j90074054132588_2_alg».proof.Proof.HostWeightsFold
import proofs.«165622_j90074054132588_2_alg».proof.Proof.HostWeightsIdx

set_option maxRecDepth 4000

noncomputable section

namespace Cert.Assign.Host

open Idealize.ShloMosaic Idealize.ShloMosaic.TcCoe Idealize.ShloMosaic.ValueIdx
open Cert.KernelIdeal Cert.KernelIdeal.Gen
open Idealize.ShloMosaic.StableHlo

variable {F : FTy → Type} [FloatOps F]

/-! ## The pure functions at an index -/

/-- t − i at (t, i), as words. -/
theorem diffVec_apply (t : Fin 30) (i : Fin 10) :
    diffVec (ix2 t i) = IntOp.subi (BitVec.ofNat 32 t.val) (BitVec.ofNat 32 i.val) := by
  exact congrArg₂ IntOp.subi (rowIota_apply (by decide) _ _ t i) (colIota_apply (by decide) _ _ t i)

/-- A word (a rank-0 array) broadcast to [30, 10] reads the word everywhere. -/
theorem bcastWord_apply {β : Type} (y : S_.Idx → β) (j : S30x10.Idx) :
    broadcastInDim S30x10 ![] bcast_S_S30x10 y j = y ix0 := broadcastInDim_scalar_apply _ y j

/-- The sign-corrected remainder at an index is the word function of the entry and the divisor word. -/
theorem remVec_apply (x : IVec S30x10 32) (c : IVec S_ 32) (j : S30x10.Idx) :
    remVec x c j = wrapRem (x j) (safeDiv (c ix0)) := by
  simp only [remVec, remTrunc, remDiv, select, cmpi, andi, addi, Host.remsi, wrapRem, safeDiv]
  repeat rw [bcastWord_apply]
  rfl

/-- The +30 wrap at an index. -/
theorem wrapVec_apply (m : IVec S30x10 32) (j : S30x10.Idx) : wrapVec m j = wrapIdx (m j) := by
  simp only [wrapVec, select, cmpi, addi, wrapIdx]
  repeat rw [bcastWord_apply]
  rfl

/-- A gathered column at (t, i, 0): the weight row at the wrapped index, read signed and clamped. -/
theorem gatherCol_apply (a : Vec F S1x30 .f32) (m : IVec S30x10 32) (t : Fin 30) (i : Fin 10) :
    gatherCol a m (ix3 t i (0 : Fin 1))
      = a (ix2 (0 : Fin 1) ⟨min (wrapIdx (m (ix2 t i))).toInt.toNat (30 - 1), by omega⟩) := by
  unfold gatherCol
  rw [bcast_unit_last_apply (by decide) (by decide) bcast_S30x10_S30x10x1_0_1 _ (ix3 t i (0 : Fin 1)) t i rfl rfl]
  have h := gatherRow_apply (N := 30) (R := 30) (C := 10) (by decide) (by decide) (by decide)
    gather_S30_S30x10x1_S30x10_n_0_n_n_0_2_1_wf a shapeCasts_S1x30_S30 bcast_S30x10_S30x10x1_0_1 (wrapVec m) t i
  exact h.trans (congrArg a (congrArg (fun k : Fin 30 => ix2 (0 : Fin 1) k) (Fin.ext (by
    show min _ (30 - 1) = min _ (30 - 1)
    rw [wrapVec_apply]))))

/-- The table at (t, q): weight row q mod 2 at (t + 30 − q div 2) mod 30. -/
theorem wtable_apply (a1 a2 : Vec F S1x30 .f32) (t : Fin 30) (q : Fin 20) :
    wtable a1 a2 (remVec diffVec (constantI S_ 32 30#32)) (ix2 t q)
      = (if q.val % 2 = 0 then a1 else a2)
          (ix2 (0 : Fin 1) ⟨(t.val + 30 - q.val / 2) % 30, Nat.mod_lt _ (by decide)⟩) := by
  have hq := q.isLt
  have hi : q.val / 2 < 10 := by omega
  -- the index word at (t, q div 2), and its clamped reading
  have hw : min (wrapIdx (remVec diffVec (constantI S_ 32 30#32) (ix2 t ⟨q.val / 2, hi⟩))).toInt.toNat (30 - 1)
      = (t.val + 30 - q.val / 2) % 30 := by
    rw [remVec_apply, diffVec_apply]
    exact wrap_table t ⟨q.val / 2, hi⟩
  have hcol : ∀ a : Vec F S1x30 .f32,
      gatherCol a (remVec diffVec (constantI S_ 32 30#32)) (ix3 t ⟨q.val / 2, hi⟩ (0 : Fin 1))
        = a (ix2 (0 : Fin 1) ⟨(t.val + 30 - q.val / 2) % 30, Nat.mod_lt _ (by decide)⟩) := fun a => by
    rw [gatherCol_apply]
    exact congrArg a (congrArg (fun k : Fin 30 => ix2 (0 : Fin 1) k) (Fin.ext hw))
  unfold wtable joinCols
  rw [join_apply (R := 30) (C := 10) (D := 20) rfl _ _ concatenates_S30x10x1_S30x10x1_S30x10x2_d2
    shapeCasts_S30x10x2_S30x20 t q]
  by_cases h0 : q.val % 2 = 0
  · rw [if_pos h0, if_pos h0]; exact hcol a1
  · rw [if_neg h0, if_neg h0]; exact hcol a2

/-! ## The fold of the whole host prefix at the table's buffer -/

/-- For any float values: after every host operation before the region, `main_v82` at (t, q) is weight row q mod 2,
    as launched, at (t + 30 − q div 2) mod 30. -/
theorem table_read (W : Valuation τ sig (Elt F)) (t : Fin 30) (q : Fin 20) :
    (StableHlo.after (hostOpsAll (F := F)) W (main_v82 : DevRef τ sig) : S30x20.Idx → Elt F .f32) (ix2 t q)
      = (if q.val % 2 = 0 then (W (main_arg1 : DevRef τ sig) : S1x30.Idx → Elt F .f32) else W (main_arg2 : DevRef τ sig))
          (ix2 (0 : Fin 1) ⟨(t.val + 30 - q.val / 2) % 30, Nat.mod_lt _ (by decide)⟩) := by
  have e : StableHlo.after (hostOpsAll (F := F)) W
      = StableHlo.after hostOps0_12 (StableHlo.after hostOps0_11 (StableHlo.after hostOps0_10
          (StableHlo.after (List.flatten [hostOps0, hostOps0_1, hostOps0_2, hostOps0_3, hostOps0_4, hostOps0_5, hostOps0_6,
            hostOps0_7, hostOps0_8, hostOps0_9]) W))) := by
    simp only [hostOpsAll, List.flatten_cons, List.flatten_nil, List.append_nil, StableHlo.after_append]
  generalize StableHlo.after (List.flatten [hostOps0 (F := F), hostOps0_1, hostOps0_2, hostOps0_3, hostOps0_4, hostOps0_5,
    hostOps0_6, hostOps0_7, hostOps0_8, hostOps0_9]) W = V10 at e
  have a1 : StableHlo.after hostOps0_11 (StableHlo.after hostOps0_10 V10) (main_arg1 : DevRef τ sig)
      = W (main_arg1 : DevRef τ sig) := by
    rw [← fold12_arg1 (StableHlo.after hostOps0_11 (StableHlo.after hostOps0_10 V10)), ← e]; exact keep_main_arg1 W
  have a2 : StableHlo.after hostOps0_11 (StableHlo.after hostOps0_10 V10) (main_arg2 : DevRef τ sig)
      = W (main_arg2 : DevRef τ sig) := by
    rw [← fold12_arg2 (StableHlo.after hostOps0_11 (StableHlo.after hostOps0_10 V10)), ← e]; exact keep_main_arg2 W
  rw [e, fold12_v82, a1, a2, fold11_v62, fold10_v61, fold10_c15]
  exact wtable_apply _ _ t q

/-- On the extended reals: the weight table at (t, q) is `wAt` of weight row q mod 2 at (t + 30 − q div 2) mod 30. -/
theorem wcomb_apply (W : Valuation τ sig (Elt Ideal)) (t : Fin 30) (q : Fin 20) :
    (StableHlo.after (hostOpsAll (F := Ideal)) W (main_v82 : DevRef τ sig) : S30x20.Idx → EReal) (ix2 t q)
      = Cert.Assign.wAt (if q.val % 2 = 0 then (W (main_arg1 : DevRef τ sig) : Cert.Assign.SW.Idx → EReal)
          else W (main_arg2 : DevRef τ sig)) ((t.val + 30 - q.val / 2) % 30) := by
  rw [table_read W t q]
  unfold Cert.Assign.wAt
  rw [dif_pos (Nat.mod_lt _ (by decide))]

end Cert.Assign.Host

end
-- ==== Proof.HostRowsWords.lean ====
/-
  Facts about 32-bit words that hold natural numbers below 2^31, as the host prefix computes with them:
  the word of j·131072 + a, the signed remainder and quotient by 30 as the natural ones, the sign fix-ups of a
  floored remainder and a floored quotient (never taken for a nonnegative dividend and the divisor 30), the clamp of
  b − 1 into [0, 131071], the comparison b ≥ 1, and the wrap of a negative index (never taken).
-/
import Idealize.ShloMosaic.Lib.Affine
import Idealize.ShloMosaic.Lib.ValueIdx

namespace Cert.Assign.HostRows.Words

open Idealize.ShloMosaic

/-- The word of a natural number below 2^31 reads back as that number. -/
theorem toNat_w (n : Nat) (h : n < 2 ^ 31) : (BitVec.ofNat 32 n).toNat = n := by
  rw [BitVec.toNat_ofNat]; omega

/-- … and its top bit is clear. -/
theorem msb_w (n : Nat) (h : n < 2 ^ 31) : (BitVec.ofNat 32 n).msb = false := by
  rw [BitVec.msb_eq_false_iff_two_mul_lt, toNat_w n h]; omega

/-- … so it reads the same signed. -/
theorem toInt_w (n : Nat) (h : n < 2 ^ 31) : (BitVec.ofNat 32 n).toInt = (n : Int) := by
  rw [BitVec.toInt_eq_toNat_of_msb (msb_w n h), toNat_w n h]

/-- j·131072 + a on words. -/
theorem addi_muli_w (a j : Nat) :
    IntOp.addi (IntOp.muli (BitVec.ofNat 32 j) 131072#32) (BitVec.ofNat 32 a) = BitVec.ofNat 32 (j * 131072 + a) := by
  apply BitVec.eq_of_toNat_eq
  simp only [IntOp.addi, IntOp.muli, BitVec.toNat_add, BitVec.toNat_mul, BitVec.toNat_ofNat]
  omega

/-- The signed remainder by 30 of a nonnegative word is the natural remainder. -/
theorem remsi_w (u : ArithUnit) (n : Nat) (h : n < 2 ^ 31) :
    IntOp.remsi u (BitVec.ofNat 32 n) 30#32 = BitVec.ofNat 32 (n % 30) := by
  apply BitVec.eq_of_toNat_eq
  have e := IntOp.toNat_remsi u (x := BitVec.ofNat 32 n) (by rw [toNat_w n h]; omega) 30 (by omega) (by omega)
  rw [e, toNat_w n h, toNat_w (n % 30) (by omega)]

/-- The signed quotient by 30 of a nonnegative word is the natural quotient. -/
theorem divsi_w (u : ArithUnit) (n : Nat) (h : n < 2 ^ 31) :
    IntOp.divsi u (BitVec.ofNat 32 n) 30#32 = BitVec.ofNat 32 (n / 30) := by
  have hy : (30#32 : BitVec 32).msb = false := by decide
  rw [IntOp.divsi, if_neg (IntOp.not_corner_of_pos (by decide)), BitVec.sdiv_eq, msb_w n h, hy]
  dsimp only
  rw [BitVec.udiv_eq]
  apply BitVec.eq_of_toNat_eq
  rw [BitVec.toNat_udiv, toNat_w n h, toNat_w (n / 30) (by omega)]
  rfl

/-- A nonnegative word is not below zero. -/
theorem slt_zero_w (n : Nat) (h : n < 2 ^ 31) : IntOp.cmpi .slt (BitVec.ofNat 32 n) 0#32 = 0#1 := by
  apply ValueIdx.eq_zero_of_ne_one
  rw [IntOp.cmpi_slt, toInt_w n h]
  have : (0#32 : BitVec 32).toInt = 0 := by decide
  omega

/-! ## The host's composite integer functions on one word

Each is the expression the host prefix evaluates at one index, as a function of the words it reads. -/

/-- The floored remainder of N by the word c: c replaced by 1 when it is 0, the signed remainder, and c added back
    when the remainder is non-zero and its sign differs from c's. -/
def remFix (c N : BitVec 32) : BitVec 32 :=
  Scalar.select (IntOp.andi (IntOp.cmpi .ne (IntOp.cmpi .slt
        (IntOp.remsi .host N (Scalar.select (IntOp.cmpi .eq c 0#32) 1#32 c)) 0#32)
        (IntOp.cmpi .slt (Scalar.select (IntOp.cmpi .eq c 0#32) 1#32 c) 0#32))
        (IntOp.cmpi .ne (IntOp.remsi .host N (Scalar.select (IntOp.cmpi .eq c 0#32) 1#32 c)) 0#32))
      (IntOp.addi (IntOp.remsi .host N (Scalar.select (IntOp.cmpi .eq c 0#32) 1#32 c)) (Scalar.select (IntOp.cmpi .eq c 0#32) 1#32 c))
      (IntOp.remsi .host N (Scalar.select (IntOp.cmpi .eq c 0#32) 1#32 c))

private theorem andi_zero_left (c : BitVec 1) : IntOp.andi 0#1 c = 0#1 := by revert c; decide
private theorem andi_zero_right (c : BitVec 1) : IntOp.andi c 0#1 = 0#1 := by revert c; decide

/-- For a nonnegative dividend and the divisor 30 the fix-up is not taken: the natural remainder. -/
theorem remFix_w (n : Nat) (h : n < 2 ^ 31) : remFix 30#32 (BitVec.ofNat 32 n) = BitVec.ofNat 32 (n % 30) := by
  have hC : Scalar.select (IntOp.cmpi .eq 30#32 0#32) 1#32 30#32 = 30#32 := by decide
  have h30 : IntOp.cmpi .slt 30#32 0#32 = 0#1 := by decide
  have hne : IntOp.cmpi .ne (0#1) (0#1) = 0#1 := by decide
  unfold remFix
  rw [hC, remsi_w .host n h, slt_zero_w (n % 30) (by omega), h30, hne, andi_zero_left, ValueIdx.select_zero]

/-- The sign of a word: 0, −1 or 1. -/
def sgn (x : BitVec 32) : BitVec 32 := if x = 0 then 0 else if x.msb then -1 else 1

/-- The floored quotient of N by the word c: the signed quotient, less one when the signs differ and the remainder
    is non-zero. -/
def floorDiv (c N : BitVec 32) : BitVec 32 :=
  Scalar.select (IntOp.andi (IntOp.cmpi .ne (sgn N) (sgn c)) (IntOp.cmpi .ne (IntOp.remsi .host N c) 0#32))
    (IntOp.subi (IntOp.divsi .host N c) 1#32) (IntOp.divsi .host N c)

/-- For a nonnegative dividend and the divisor 30 the fix-up is not taken (at zero the signs differ, but the
    remainder is zero): the natural quotient. -/
theorem floorDiv_w (n : Nat) (h : n < 2 ^ 31) : floorDiv 30#32 (BitVec.ofNat 32 n) = BitVec.ofNat 32 (n / 30) := by
  unfold floorDiv
  rw [remsi_w .host n h, divsi_w .host n h]
  have key : IntOp.andi (IntOp.cmpi .ne (sgn (BitVec.ofNat 32 n)) (sgn 30#32))
      (IntOp.cmpi .ne (BitVec.ofNat 32 (n % 30)) 0#32) = 0#1 := by
    by_cases h0 : n % 30 = 0
    · have e : IntOp.cmpi .ne (BitVec.ofNat 32 0) 0#32 = 0#1 := by decide
      rw [h0, e, andi_zero_right]
    · have hn0 : BitVec.ofNat 32 n ≠ 0 := by
        intro e
        have e' := congrArg BitVec.toNat e
        rw [toNat_w n h] at e'
        have : (0 : BitVec 32).toNat = 0 := rfl
        omega
      have hs : sgn (BitVec.ofNat 32 n) = 1 := by
        unfold sgn
        rw [if_neg hn0, msb_w n h]
        rfl
      have hs30 : sgn 30#32 = 1 := by decide
      have e : IntOp.cmpi .ne (1 : BitVec 32) 1 = 0#1 := by decide
      rw [hs, hs30, e, andi_zero_left]
  rw [key, ValueIdx.select_zero]

/-- b − 1 clamped into [0, 131071], on words. -/
def clipPrev (B : BitVec 32) : BitVec 32 := IntOp.minsi 131071#32 (IntOp.maxsi 0#32 (IntOp.subi B 1#32))

/-- For b < 131072 it is the truncated b − 1. -/
theorem clipPrev_w (b : Nat) (h : b < 131072) : clipPrev (BitVec.ofNat 32 b) = BitVec.ofNat 32 (b - 1) := by
  unfold clipPrev
  by_cases hb : b = 0
  · subst hb; decide
  · have e : IntOp.subi (BitVec.ofNat 32 b) 1#32 = BitVec.ofNat 32 (b - 1) := by
      apply BitVec.eq_of_toNat_eq
      simp only [IntOp.subi, BitVec.toNat_sub, BitVec.toNat_ofNat]
      omega
    have h1 : (0#32 : BitVec 32).slt (BitVec.ofNat 32 (b - 1)) = decide (0 < b - 1) := by
      rw [BitVec.slt_eq_decide, toInt_w (b - 1) (by omega)]
      have : (0#32 : BitVec 32).toInt = 0 := by decide
      rw [this]; simp
    have h2 : (BitVec.ofNat 32 (b - 1)).slt (0#32 : BitVec 32) = false := by
      rw [BitVec.slt_eq_decide, toInt_w (b - 1) (by omega)]
      have : (0#32 : BitVec 32).toInt = 0 := by decide
      rw [this]; simp
    have hmax : IntOp.maxsi 0#32 (BitVec.ofNat 32 (b - 1)) = BitVec.ofNat 32 (b - 1) := by
      unfold IntOp.maxsi; rw [h2]; rfl
    have hmin : IntOp.minsi 131071#32 (BitVec.ofNat 32 (b - 1)) = BitVec.ofNat 32 (b - 1) := by
      unfold IntOp.minsi
      have : (131071#32 : BitVec 32).slt (BitVec.ofNat 32 (b - 1)) = false := by
        rw [BitVec.slt_eq_decide, toInt_w (b - 1) (by omega)]
        have : (131071#32 : BitVec 32).toInt = 131071 := by decide
        rw [this]; simp; omega
      rw [this]; rfl
    rw [e, hmax, hmin]

/-- b ≥ 1 on words. -/
theorem sge_one_w (b : Nat) (h : b < 2 ^ 31) : IntOp.cmpi .sge (BitVec.ofNat 32 b) 1#32 = 1#1 ↔ 1 ≤ b := by
  rw [IntOp.cmpi_sge, toInt_w b h]
  have : (1#32 : BitVec 32).toInt = 1 := by decide
  rw [this]; omega

/-- An index wrapped when negative (131072 added), on words. -/
def wrapIdx (B : BitVec 32) : BitVec 32 := Scalar.select (IntOp.cmpi .slt B 0#32) (IntOp.addi B 131072#32) B

/-- A nonnegative index is not wrapped. -/
theorem wrapIdx_w (b : Nat) (h : b < 2 ^ 31) : wrapIdx (BitVec.ofNat 32 b) = BitVec.ofNat 32 b := by
  unfold wrapIdx; rw [slt_zero_w b h, ValueIdx.select_zero]

/-- A word below 131072 read signed and clamped into [0, 131071] is itself. -/
theorem clampIdx_w (b : Nat) (h : b < 131072) : min (BitVec.ofNat 32 b).toInt.toNat (131072 - 1) = b := by
  rw [toInt_w b (by omega)]; simp; omega

end Cert.Assign.HostRows.Words
-- ==== Proof.HostRowsT.lean ====
/-
  The side array t of the host prefix: at (a, j) it is the word of n mod 30, n = j·131072 + a.

  The first stretch builds n by iota, broadcast, multiply and add, and the constant 30; the second is the floored
  remainder, whose sign fix-up is never taken for a nonnegative n; no later operation writes the array again.
-/
import proofs.«165622_j90074054132588_2_alg».proof.Proof.Gen.KernelIdeal.Launch
import proofs.«165622_j90074054132588_2_alg».proof.Proof.Spec
import proofs.«165622_j90074054132588_2_alg».proof.Proof.HostRowsWords

set_option maxRecDepth 4000

noncomputable section

namespace Cert.Assign.HostRows

open Idealize.ShloMosaic Idealize.ShloMosaic.TcCoe Idealize.ShloMosaic.ValueIdx
open Cert.KernelIdeal Cert.KernelIdeal.Gen

/-- Every host operation before the region, in program order: the thirteen stretches flattened. -/
abbrev opsAll : List (HloOp τ sig (Elt Ideal)) :=
  List.flatten [hostOps0, hostOps0_1, hostOps0_2, hostOps0_3, hostOps0_4, hostOps0_5, hostOps0_6, hostOps0_7, hostOps0_8, hostOps0_9, hostOps0_10, hostOps0_11, hostOps0_12]

/-- The stretches after the first two. -/
abbrev opsFrom2 : List (HloOp τ sig (Elt Ideal)) :=
  List.flatten [hostOps0_2, hostOps0_3, hostOps0_4, hostOps0_5, hostOps0_6, hostOps0_7, hostOps0_8, hostOps0_9, hostOps0_10, hostOps0_11, hostOps0_12]

/-- The fold over two lines in a row is the second line's fold over the first's. -/
theorem after_app : ∀ (l₁ l₂ : List (HloOp τ sig (Elt Ideal))) (V : Valuation τ sig (Elt Ideal)),
    StableHlo.after (l₁ ++ l₂) V = StableHlo.after l₂ (StableHlo.after l₁ V)
  | [], _, _ => rfl
  | op :: l₁, l₂, V => by rw [List.cons_append, StableHlo.after_cons, StableHlo.after_cons, after_app l₁ l₂]

/-- The first stretch leaves n = j·131072 + a at (a, j). -/
theorem n_at (V : Valuation τ sig (Elt Ideal)) (a : Fin 131072) (j : Fin 30) :
    (StableHlo.after (hostOps0 (F := Ideal)) V main_v8) (ix2 a j) = BitVec.ofNat 32 (rowNo a j) := by
  after_results
  dsimp only [Idealize.ShloMosaic.addi, Idealize.ShloMosaic.muli, broadcastInDim, iotaInDim, constantI]
  exact Words.addi_muli_w a.val j.val

/-- … and the constant 30. -/
theorem c30_at (V : Valuation τ sig (Elt Ideal)) (k : S_.Idx) :
    (StableHlo.after (hostOps0 (F := Ideal)) V main_c_0) k = 30#32 := by
  after_results
  rfl

/-- The second stretch, from n at (a, j) and the constant 30: the word of n mod 30. -/
theorem t_step (V : Valuation τ sig (Elt Ideal)) (a : Fin 131072) (j : Fin 30) (n : Nat) (hn : n < 2 ^ 31)
    (hc : ∀ k, V main_c_0 k = 30#32) (h8 : V main_v8 (ix2 a j) = BitVec.ofNat 32 n) :
    (StableHlo.after (hostOps0_1 (F := Ideal)) V main_v9) (ix2 a j) = BitVec.ofNat 32 (n % 30) := by
  simp only [hostOps0_1]
  after_results_simp
  dsimp only [Idealize.ShloMosaic.select, Idealize.ShloMosaic.andi, Idealize.ShloMosaic.cmpi, Idealize.ShloMosaic.addi, Host.remsi,
    broadcastInDim, constantI, id, StableHlo.TRef.toBuf, StableHlo.TRef.ofBuf, cast_eq]
  rw [hc, h8]
  exact Words.remFix_w n hn

/-- No later operation writes t. -/
theorem keep_v9 (V : Valuation τ sig (Elt Ideal)) : StableHlo.after opsFrom2 V main_v9 = V main_v9 :=
  StableHlo.after_of_forall_not_mem (b := Proc.devRef .tc main_v9) _ _ (List.forall_iff_forall_mem.mp (by
    simp only [opsFrom2, hostOps0_2, hostOps0_3, hostOps0_4, hostOps0_5, hostOps0_6, hostOps0_7, hostOps0_8,
      hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))

/-- The whole prefix is the first stretch, then the second, then the rest. -/
theorem opsAll_split : opsAll = hostOps0 ++ (hostOps0_1 ++ opsFrom2) := by
  unfold opsAll opsFrom2
  rw [List.flatten_cons, List.flatten_cons]

/-- **(T)** After the host prefix the side array t holds, at (a, j), the word of n mod 30. -/
theorem t_at (W : Valuation τ sig (Elt Ideal)) (a : Fin 131072) (j : Fin 30) :
    (StableHlo.after opsAll W main_v9) (ix2 a j) = BitVec.ofNat 32 (rowNo a j % 30) := by
  rw [opsAll_split, after_app, after_app, keep_v9]
  have hb := rowNo_lt a j
  exact t_step _ a j (rowNo a j) (by omega) (fun k => c30_at W k) (n_at W a j)

end Cert.Assign.HostRows

end
-- ==== Proof.HostRowsB.lean ====
/-
  The batch row b = n div 30 and the clamped previous row of the host prefix, at (a, j).

  The floored quotient's fix-up (one subtracted when the signs differ and the remainder is non-zero) is never taken
  for a nonnegative n; b − 1 clamped into [0, 131071] is the truncated b − 1. Also: which references the early
  stretches leave alone.
-/
import proofs.«165622_j90074054132588_2_alg».proof.Proof.Gen.KernelIdeal.Launch
import proofs.«165622_j90074054132588_2_alg».proof.Proof.Spec
import proofs.«165622_j90074054132588_2_alg».proof.Proof.HostRowsT

set_option maxRecDepth 4000

noncomputable section

namespace Cert.Assign.HostRows

open Idealize.ShloMosaic Idealize.ShloMosaic.TcCoe Idealize.ShloMosaic.ValueIdx
open Cert.KernelIdeal Cert.KernelIdeal.Gen

/-- Closes `StableHlo.after ops V r = V r` for a literal concatenation of the prefix's stretches none of whose
    operations writes `r`: each operation writes one reference, told apart from `r` by computation. -/
macro "host_keep" : tactic =>
  `(tactic| (
    refine StableHlo.after_of_forall_not_mem _ _ (List.forall_iff_forall_mem.mp ?_)
    simp only [hostOps0, hostOps0_1, hostOps0_2, hostOps0_3, hostOps0_4, hostOps0_5, hostOps0_6, hostOps0_7, hostOps0_8,
      hostOps0_9, hostOps0_10, hostOps0_11, hostOps0_12, List.cons_append, List.nil_append, List.Forall,
      StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))

/-- The stretches of the floored quotient, from n at (a, j): the word of n div 30. -/
theorem b_step (V : Valuation τ sig (Elt Ideal)) (a : Fin 131072) (j : Fin 30) (n : Nat) (hn : n < 2 ^ 31)
    (h8 : V main_v8 (ix2 a j) = BitVec.ofNat 32 n) :
    (StableHlo.after (hostOps0_2 (F := Ideal) ++ hostOps0_3) V main_v10) (ix2 a j) = BitVec.ofNat 32 (n / 30) := by
  simp only [hostOps0_2, hostOps0_3, List.cons_append, List.nil_append]
  after_results_simp
  dsimp only [Idealize.ShloMosaic.select, Idealize.ShloMosaic.andi, Idealize.ShloMosaic.cmpi, Idealize.ShloMosaic.subi, Host.remsi, Host.divsi,
    signi, broadcastInDim, constantI, id, StableHlo.TRef.toBuf, StableHlo.TRef.ofBuf, cast_eq]
  rw [h8]
  exact Words.floorDiv_w n hn

/-- The stretches of the clamp, from b at (a, j): the word of the truncated b − 1. -/
theorem clip_step (V : Valuation τ sig (Elt Ideal)) (a : Fin 131072) (j : Fin 30) (b : Nat) (hb : b < 131072)
    (h10 : V main_v10 (ix2 a j) = BitVec.ofNat 32 b) :
    (StableHlo.after (hostOps0_4 (F := Ideal) ++ hostOps0_5) V main_v13) (ix2 a j) = BitVec.ofNat 32 (b - 1) := by
  simp only [hostOps0_4, hostOps0_5, List.cons_append, List.nil_append]
  after_results_simp
  dsimp only [Idealize.ShloMosaic.minsi, Idealize.ShloMosaic.maxsi, Idealize.ShloMosaic.subi,
    broadcastInDim, constantI, id, StableHlo.TRef.toBuf, StableHlo.TRef.ofBuf, cast_eq]
  rw [h10]
  exact Words.clipPrev_w b hb

/-! ## What the early stretches leave alone -/

theorem keep_v8_1 (V : Valuation τ sig (Elt Ideal)) : StableHlo.after (hostOps0_1 (F := Ideal)) V main_v8 = V main_v8 := by host_keep
theorem keep_v10_45 (V : Valuation τ sig (Elt Ideal)) :
    StableHlo.after (hostOps0_4 (F := Ideal) ++ hostOps0_5) V main_v10 = V main_v10 := by host_keep
theorem keep_arg0_0 (V : Valuation τ sig (Elt Ideal)) : StableHlo.after (hostOps0 (F := Ideal)) V main_arg0 = V main_arg0 := by host_keep
theorem keep_arg0_1 (V : Valuation τ sig (Elt Ideal)) : StableHlo.after (hostOps0_1 (F := Ideal)) V main_arg0 = V main_arg0 := by host_keep
theorem keep_arg0_23 (V : Valuation τ sig (Elt Ideal)) :
    StableHlo.after (hostOps0_2 (F := Ideal) ++ hostOps0_3) V main_arg0 = V main_arg0 := by host_keep
theorem keep_arg0_45 (V : Valuation τ sig (Elt Ideal)) :
    StableHlo.after (hostOps0_4 (F := Ideal) ++ hostOps0_5) V main_arg0 = V main_arg0 := by host_keep

end Cert.Assign.HostRows

end
-- ==== Proof.HostRowsVec.lean ====
/-
  The layout and gather operations of the host prefix read at an index, over variables of the literal types:
  a broadcast along a new trailing unit axis, the first feature columns x[:, 0, c] flattened to a vector, the
  gather of a vector at a word-valued index array, the wrap of a negative index, and the four-piece
  concatenation on the last axis.
-/
import proofs.«165622_j90074054132588_2_alg».proof.Proof.Gen.KernelIdeal.Launch
import proofs.«165622_j90074054132588_2_alg».proof.Proof.Spec
import proofs.«165622_j90074054132588_2_alg».proof.Proof.HostRowsWords
import Idealize.ShloMosaic.Lib.Pipeline.Value
import Idealize.ShloMosaic.PureOps.Ideal.Laws

set_option maxRecDepth 4000

noncomputable section

namespace Cert.Assign.HostRows

open Idealize.ShloMosaic Idealize.ShloMosaic.TcCoe Idealize.ShloMosaic.ValueIdx
open Cert.KernelIdeal Cert.KernelIdeal.Gen

variable {α : Type}

/-- An array broadcast along a new trailing unit axis, read at the start-index position of `y`, is the array at `y`. -/
theorem bcast_take (f : S131072x30.Idx → α) (y : S131072x30.Idx) :
    broadcastInDim S131072x30x1 ![0, 1] bcast_S131072x30_S131072x30x1_0_1 f (takeIdx y) = f y :=
  broadcastInDim_apply _ _ f _ y (fun a => match a with | ⟨0, _⟩ => rfl | ⟨1, _⟩ => rfl)

/-- … and read at (a, j, 0) it is the array at (a, j). -/
theorem bcast_last (f : S131072x30.Idx → α) (a : Fin 131072) (j : Fin 30) (c : Fin 1) :
    broadcastInDim S131072x30x1 ![0, 1] bcast_S131072x30_S131072x30x1_0_1 f (ix3 a j c) = f (ix2 a j) :=
  broadcastInDim_apply _ _ f _ (ix2 a j) (fun b => match b with | ⟨0, _⟩ => rfl | ⟨1, _⟩ => rfl)

/-- The column x[:, 0, 0] as a vector, at r. -/
theorem row0_at (x : S131072x30x10.Idx → α) (r : Fin 131072) :
    shapeCast S131072 (extractStridedSlice S131072x1x1 ![0, 0, 0] x slices_S131072x30x10_S131072x1x1_0_0_0)
      shapeCasts_S131072x1x1_S131072 (ix1 r) = x (ix3 r 0 0) := by
  rw [shapeCast_apply _ _ (ix1 r) (ix3 r (0 : Fin 1) (0 : Fin 1))
    (by rw [Shape.rowMajor_val_three, Shape.rowMajor_val_one]; show (r.val * 1 + 0) * 1 + 0 = r.val; omega)]
  exact extractStridedSlice_apply _ x _ _ (ix3 r 0 0) (fun a => match a with
    | ⟨0, _⟩ => by show r.val = 0 + r.val; omega
    | ⟨1, _⟩ => rfl
    | ⟨2, _⟩ => rfl)

/-- The column x[:, 0, 1] as a vector, at r. -/
theorem row1_at (x : S131072x30x10.Idx → α) (r : Fin 131072) :
    shapeCast S131072 (extractStridedSlice S131072x1x1 ![0, 0, 1] x slices_S131072x30x10_S131072x1x1_0_0_1)
      shapeCasts_S131072x1x1_S131072 (ix1 r) = x (ix3 r 0 1) := by
  rw [shapeCast_apply _ _ (ix1 r) (ix3 r (0 : Fin 1) (0 : Fin 1))
    (by rw [Shape.rowMajor_val_three, Shape.rowMajor_val_one]; show (r.val * 1 + 0) * 1 + 0 = r.val; omega)]
  exact extractStridedSlice_apply _ x _ _ (ix3 r 0 1) (fun a => match a with
    | ⟨0, _⟩ => by show r.val = 0 + r.val; omega
    | ⟨1, _⟩ => rfl
    | ⟨2, _⟩ => rfl)

/-- The gather of a vector at an index array whose word at `y` is that of b < 131072: the vector at b. -/
theorem take_at (x : S131072.Idx → α) (idx : IVec S131072x30x1 32) (y : S131072x30.Idx) (b : Nat) (hb : b < 131072)
    (hi : idx (takeIdx y) = BitVec.ofNat 32 b) :
    Host.gather gather_S131072_S131072x30x1_S131072x30_n_0_n_n_0_2_1 x idx y = x (ix1 ⟨b, hb⟩) := by
  rw [show gather_S131072_S131072x30x1_S131072x30_n_0_n_n_0_2_1
      = takeDims 131072 131072 30 gather_S131072_S131072x30x1_S131072x30_n_0_n_n_0_2_1_wf from rfl,
    gather_take_apply (by decide)]
  exact congrArg (fun r : Fin 131072 => x (ix1 r)) (Fin.ext (by
    show min (idx (takeIdx y)).toInt.toNat (131072 - 1) = b
    rw [hi]; exact Words.clampIdx_w b hb))

/-- The wrap of a negative index (131072 added) at `y`, where the index is the word of a natural number: not taken. -/
theorem wrap_at (v : IVec S131072x30 32) (y : S131072x30.Idx) (b : Nat) (hb : b < 2 ^ 31) (hv : v y = BitVec.ofNat 32 b) :
    Idealize.ShloMosaic.select
      (Idealize.ShloMosaic.cmpi .slt v (broadcastInDim S131072x30 ![] bcast_S_S131072x30 (constantI S_ 32 0#32)))
      (Idealize.ShloMosaic.addi v (broadcastInDim S131072x30 ![] bcast_S_S131072x30 (constantI S_ 32 131072#32))) v y
      = BitVec.ofNat 32 b := by
  show Scalar.select (IntOp.cmpi .slt (v y) 0#32) (IntOp.addi (v y) 131072#32) (v y) = _
  rw [hv]; exact Words.wrapIdx_w b hb

/-! ## The four-piece concatenation on the last axis -/

section Concat
variable (u0 u1 u2 u3 : S131072x30x1.Idx → α) (a : Fin 131072) (j : Fin 30)

theorem concat4_at0 :
    concatenate S131072x30x4 2 [⟨S131072x30x1, u0⟩, ⟨S131072x30x1, u1⟩, ⟨S131072x30x1, u2⟩, ⟨S131072x30x1, u3⟩]
      concatenates_S131072x30x1_S131072x30x1_S131072x30x1_S131072x30x1_S131072x30x4_d2 (ix3 a j 0) = u0 (ix3 a j 0) :=
  concatenate_apply_piece (t := S131072x30x4) (2 : Fin 3)
    [⟨S131072x30x1, u0⟩, ⟨S131072x30x1, u1⟩, ⟨S131072x30x1, u2⟩, ⟨S131072x30x1, u3⟩] _ (ix3 a j (0 : Fin 4)) 0 (by show (0 : Nat) < 4; omega)
    S131072x30x1 u0 rfl rfl 0 rfl (ix3 a j (0 : Fin 1))
    (fun b hb => match b, hb with | ⟨0, _⟩, _ => rfl | ⟨1, _⟩, _ => rfl | ⟨2, _⟩, hb => absurd rfl hb) rfl

theorem concat4_at1 :
    concatenate S131072x30x4 2 [⟨S131072x30x1, u0⟩, ⟨S131072x30x1, u1⟩, ⟨S131072x30x1, u2⟩, ⟨S131072x30x1, u3⟩]
      concatenates_S131072x30x1_S131072x30x1_S131072x30x1_S131072x30x1_S131072x30x4_d2 (ix3 a j 1) = u1 (ix3 a j 0) :=
  concatenate_apply_piece (t := S131072x30x4) (2 : Fin 3)
    [⟨S131072x30x1, u0⟩, ⟨S131072x30x1, u1⟩, ⟨S131072x30x1, u2⟩, ⟨S131072x30x1, u3⟩] _ (ix3 a j (1 : Fin 4)) 1 (by show (1 : Nat) < 4; omega)
    S131072x30x1 u1 rfl rfl 1 rfl (ix3 a j (0 : Fin 1))
    (fun b hb => match b, hb with | ⟨0, _⟩, _ => rfl | ⟨1, _⟩, _ => rfl | ⟨2, _⟩, hb => absurd rfl hb) rfl

theorem concat4_at2 :
    concatenate S131072x30x4 2 [⟨S131072x30x1, u0⟩, ⟨S131072x30x1, u1⟩, ⟨S131072x30x1, u2⟩, ⟨S131072x30x1, u3⟩]
      concatenates_S131072x30x1_S131072x30x1_S131072x30x1_S131072x30x1_S131072x30x4_d2 (ix3 a j 2) = u2 (ix3 a j 0) :=
  concatenate_apply_piece (t := S131072x30x4) (2 : Fin 3)
    [⟨S131072x30x1, u0⟩, ⟨S131072x30x1, u1⟩, ⟨S131072x30x1, u2⟩, ⟨S131072x30x1, u3⟩] _ (ix3 a j (2 : Fin 4)) 2 (by show (2 : Nat) < 4; omega)
    S131072x30x1 u2 rfl rfl 2 rfl (ix3 a j (0 : Fin 1))
    (fun b hb => match b, hb with | ⟨0, _⟩, _ => rfl | ⟨1, _⟩, _ => rfl | ⟨2, _⟩, hb => absurd rfl hb) rfl

theorem concat4_at3 :
    concatenate S131072x30x4 2 [⟨S131072x30x1, u0⟩, ⟨S131072x30x1, u1⟩, ⟨S131072x30x1, u2⟩, ⟨S131072x30x1, u3⟩]
      concatenates_S131072x30x1_S131072x30x1_S131072x30x1_S131072x30x1_S131072x30x4_d2 (ix3 a j 3) = u3 (ix3 a j 0) :=
  concatenate_apply_piece (t := S131072x30x4) (2 : Fin 3)
    [⟨S131072x30x1, u0⟩, ⟨S131072x30x1, u1⟩, ⟨S131072x30x1, u2⟩, ⟨S131072x30x1, u3⟩] _ (ix3 a j (3 : Fin 4)) 3 (by show (3 : Nat) < 4; omega)
    S131072x30x1 u3 rfl rfl 3 rfl (ix3 a j (0 : Fin 1))
    (fun b hb => match b, hb with | ⟨0, _⟩, _ => rfl | ⟨1, _⟩, _ => rfl | ⟨2, _⟩, hb => absurd rfl hb) rfl

end Concat

/-- A select between a gathered value and a zero array at `y`, its condition bit deciding `p`. -/
theorem where_at (c : IVec S131072x30 1) (g z : S131072x30.Idx → EReal) (y : S131072x30.Idx) (p : Prop) [Decidable p] (v : EReal)
    (hc : c y = 1#1 ↔ p) (hg : g y = v) (hz : z y = 0) :
    Idealize.ShloMosaic.select c g z y = if p then v else 0 := by
  show Scalar.select (c y) (g y) (z y) = _
  by_cases hp : p
  · rw [hc.mpr hp, select_one, if_pos hp, hg]
  · rw [eq_zero_of_ne_one (mt hc.mp hp), select_zero, if_neg hp, hz]

/-- The comparison with the constant 1 at `y`, where the array holds the word of b: whether 1 ≤ b. -/
theorem ge_one_at (v : IVec S131072x30 32) (y : S131072x30.Idx) (b : Nat) (hb : b < 2 ^ 31) (hv : v y = BitVec.ofNat 32 b) :
    Idealize.ShloMosaic.cmpi .sge v (broadcastInDim S131072x30 ![] bcast_S_S131072x30 (constantI S_ 32 1#32)) y = 1#1 ↔ 1 ≤ b := by
  show IntOp.cmpi .sge (v y) 1#32 = 1#1 ↔ _
  rw [hv]; exact Words.sge_one_w b hb

/-- The zero constant broadcast, at any index. -/
theorem zero_at (y : S131072x30.Idx) :
    (broadcastInDim S131072x30 ![] bcast_S_S131072x30 (constant (F := Ideal) S_ .f32 0x00000000#32) : S131072x30.Idx → EReal) y = 0 :=
  Ideal.ofBits_zero_f32

end Cert.Assign.HostRows

end
-- ==== Proof.HostRowsX.lean ====
/-
  The gathers of the current and previous batch rows in the host prefix, at (a, j): from the words of b and of the
  clamped b − 1 the stretch leaves x[b, 0, 0], x[b, 0, 1], the bit of b ≥ 1, the column x[:, 0, 1], and
  x[b − 1, 0, 0] where b ≥ 1, zero elsewhere.
-/
import proofs.«165622_j90074054132588_2_alg».proof.Proof.Gen.KernelIdeal.Launch
import proofs.«165622_j90074054132588_2_alg».proof.Proof.Spec
import proofs.«165622_j90074054132588_2_alg».proof.Proof.HostRowsB
import proofs.«165622_j90074054132588_2_alg».proof.Proof.HostRowsVec

set_option maxRecDepth 4000

noncomputable section

namespace Cert.Assign.HostRows

open Idealize.ShloMosaic Idealize.ShloMosaic.TcCoe Idealize.ShloMosaic.ValueIdx
open Cert.KernelIdeal Cert.KernelIdeal.Gen

/-- x[b, 0, 0], gathered. -/
theorem x26_step (V : Valuation τ sig (Elt Ideal)) (a : Fin 131072) (j : Fin 30) (b : Nat) (hb : b < 131072)
    (h10 : V main_v10 (ix2 a j) = BitVec.ofNat 32 b) :
    (StableHlo.after (hostOps0_6 (F := Ideal) ++ hostOps0_7) V main_v26 : S131072x30.Idx → EReal) (ix2 a j)
      = xAt (V main_arg0) b 0 := by
  simp only [hostOps0_6, hostOps0_7, List.cons_append, List.nil_append]
  after_results_simp
  refine (take_at _ _ _ b hb ?_).trans ?_
  · rw [bcast_take]; exact wrap_at _ _ b (by omega) h10
  · refine (row0_at (V main_arg0) ⟨b, hb⟩).trans ?_
    unfold xAt; rw [dif_pos ⟨hb, by omega⟩]; rfl

/-- x[b, 0, 1], gathered. -/
theorem x33_step (V : Valuation τ sig (Elt Ideal)) (a : Fin 131072) (j : Fin 30) (b : Nat) (hb : b < 131072)
    (h10 : V main_v10 (ix2 a j) = BitVec.ofNat 32 b) :
    (StableHlo.after (hostOps0_6 (F := Ideal) ++ hostOps0_7) V main_v33 : S131072x30.Idx → EReal) (ix2 a j)
      = xAt (V main_arg0) b 1 := by
  simp only [hostOps0_6, hostOps0_7, List.cons_append, List.nil_append]
  after_results_simp
  refine (take_at _ _ _ b hb ?_).trans ?_
  · rw [bcast_take]; exact wrap_at _ _ b (by omega) h10
  · refine (row1_at (V main_arg0) ⟨b, hb⟩).trans ?_
    unfold xAt; rw [dif_pos ⟨hb, by omega⟩]; rfl

/-- The bit of b ≥ 1. -/
theorem x15_step (V : Valuation τ sig (Elt Ideal)) (a : Fin 131072) (j : Fin 30) (b : Nat) (hb : b < 131072)
    (h10 : V main_v10 (ix2 a j) = BitVec.ofNat 32 b) :
    (StableHlo.after (hostOps0_6 (F := Ideal) ++ hostOps0_7) V main_v15 : IVec S131072x30 1) (ix2 a j) = 1#1 ↔ 1 ≤ b := by
  simp only [hostOps0_6, hostOps0_7, List.cons_append, List.nil_append]
  after_results_simp
  exact ge_one_at _ _ b (by omega) h10

/-- The column x[:, 0, 1] as a vector. -/
theorem x19_step (V : Valuation τ sig (Elt Ideal)) (r : Fin 131072) :
    (StableHlo.after (hostOps0_6 (F := Ideal) ++ hostOps0_7) V main_v19 : S131072.Idx → EReal) (ix1 r)
      = (V main_arg0 : S131072x30x10.Idx → EReal) (ix3 r 0 1) := by
  simp only [hostOps0_6, hostOps0_7, List.cons_append, List.nil_append]
  after_results_simp
  exact row1_at (V main_arg0) r

/-- x[b − 1, 0, 0] where b ≥ 1, zero elsewhere. -/
theorem x41_step (V : Valuation τ sig (Elt Ideal)) (a : Fin 131072) (j : Fin 30) (b : Nat) (hb : b < 131072)
    (h10 : V main_v10 (ix2 a j) = BitVec.ofNat 32 b) (h13 : V main_v13 (ix2 a j) = BitVec.ofNat 32 (b - 1)) :
    (StableHlo.after (hostOps0_6 (F := Ideal) ++ hostOps0_7) V main_v41 : S131072x30.Idx → EReal) (ix2 a j)
      = if 1 ≤ b then xAt (V main_arg0) (b - 1) 0 else 0 := by
  simp only [hostOps0_6, hostOps0_7, List.cons_append, List.nil_append]
  after_results_simp
  dsimp only [StableHlo.TRef.toBuf, StableHlo.TRef.ofBuf, cast_eq, id]
  refine where_at _ _ _ _ (1 ≤ b) _ (ge_one_at _ _ b (by omega) h10) ?_ (zero_at _)
  refine (take_at _ _ _ (b - 1) (by omega) ?_).trans ?_
  · rw [bcast_take]; exact wrap_at _ _ (b - 1) (by omega) h13
  · refine (row0_at (V main_arg0) ⟨b - 1, by omega⟩).trans ?_
    unfold xAt; rw [dif_pos ⟨by omega, by omega⟩]; rfl

/-- The clamped previous row survives the stretch. -/
theorem keep_v13_67 (V : Valuation τ sig (Elt Ideal)) :
    StableHlo.after (hostOps0_6 (F := Ideal) ++ hostOps0_7) V main_v13 = V main_v13 := by host_keep
/-- … and so does the input. -/
theorem keep_arg0_67 (V : Valuation τ sig (Elt Ideal)) :
    StableHlo.after (hostOps0_6 (F := Ideal) ++ hostOps0_7) V main_arg0 = V main_arg0 := by host_keep

end Cert.Assign.HostRows

end
-- ==== Proof.HostRowsY.lean ====
/-
  The last gather of the host prefix (x[b − 1, 0, 1] where b ≥ 1, zero elsewhere), the four-piece concatenation on
  the last axis that forms the side array, and which references the late stretches leave alone.
-/
import proofs.«165622_j90074054132588_2_alg».proof.Proof.Gen.KernelIdeal.Launch
import proofs.«165622_j90074054132588_2_alg».proof.Proof.Spec
import proofs.«165622_j90074054132588_2_alg».proof.Proof.HostRowsX

set_option maxRecDepth 4000

noncomputable section

namespace Cert.Assign.HostRows

open Idealize.ShloMosaic Idealize.ShloMosaic.TcCoe Idealize.ShloMosaic.ValueIdx
open Cert.KernelIdeal Cert.KernelIdeal.Gen

/-- x[b − 1, 0, 1] where b ≥ 1, zero elsewhere: from the clamped previous row, the bit of b ≥ 1 and the column x[:, 0, 1]. -/
theorem y49_step (V : Valuation τ sig (Elt Ideal)) (a : Fin 131072) (j : Fin 30) (b : Nat) (hb : b < 131072)
    (x : S131072x30x10.Idx → EReal)
    (h13 : V main_v13 (ix2 a j) = BitVec.ofNat 32 (b - 1))
    (h15 : (V main_v15 : IVec S131072x30 1) (ix2 a j) = 1#1 ↔ 1 ≤ b)
    (h19 : ∀ r : Fin 131072, (V main_v19 : S131072.Idx → EReal) (ix1 r) = x (ix3 r 0 1)) :
    (StableHlo.after (hostOps0_8 (F := Ideal) ++ hostOps0_9) V main_v49 : S131072x30.Idx → EReal) (ix2 a j)
      = if 1 ≤ b then xAt x (b - 1) 1 else 0 := by
  simp only [hostOps0_8, hostOps0_9, List.cons_append, List.nil_append]
  after_results_simp
  dsimp only [StableHlo.TRef.toBuf, StableHlo.TRef.ofBuf, cast_eq, id]
  refine where_at _ _ _ _ (1 ≤ b) _ h15 ?_ (zero_at _)
  refine (take_at _ _ _ (b - 1) (by omega) ?_).trans ?_
  · rw [bcast_take]; exact wrap_at _ _ (b - 1) (by omega) h13
  · refine (h19 ⟨b - 1, by omega⟩).trans ?_
    unfold xAt; rw [dif_pos ⟨by omega, by omega⟩]; rfl

/-! ## The concatenation: channel c of the side array is the c-th gathered array -/

theorem cat_step0 (V : Valuation τ sig (Elt Ideal)) (a : Fin 131072) (j : Fin 30) :
    (StableHlo.after (hostOps0_10 (F := Ideal)) V main_v54 : S131072x30x4.Idx → EReal) (ix3 a j 0)
      = (V main_v26 : S131072x30.Idx → EReal) (ix2 a j) := by
  simp only [hostOps0_10]
  after_results_simp
  refine (concat4_at0 _ _ _ _ a j).trans ?_
  exact bcast_last _ a j 0

theorem cat_step1 (V : Valuation τ sig (Elt Ideal)) (a : Fin 131072) (j : Fin 30) :
    (StableHlo.after (hostOps0_10 (F := Ideal)) V main_v54 : S131072x30x4.Idx → EReal) (ix3 a j 1)
      = (V main_v33 : S131072x30.Idx → EReal) (ix2 a j) := by
  simp only [hostOps0_10]
  after_results_simp
  refine (concat4_at1 _ _ _ _ a j).trans ?_
  exact bcast_last _ a j 0

theorem cat_step2 (V : Valuation τ sig (Elt Ideal)) (a : Fin 131072) (j : Fin 30) :
    (StableHlo.after (hostOps0_10 (F := Ideal)) V main_v54 : S131072x30x4.Idx → EReal) (ix3 a j 2)
      = (V main_v41 : S131072x30.Idx → EReal) (ix2 a j) := by
  simp only [hostOps0_10]
  after_results_simp
  refine (concat4_at2 _ _ _ _ a j).trans ?_
  exact bcast_last _ a j 0

theorem cat_step3 (V : Valuation τ sig (Elt Ideal)) (a : Fin 131072) (j : Fin 30) :
    (StableHlo.after (hostOps0_10 (F := Ideal)) V main_v54 : S131072x30x4.Idx → EReal) (ix3 a j 3)
      = (V main_v49 : S131072x30.Idx → EReal) (ix2 a j) := by
  simp only [hostOps0_10]
  after_results_simp
  refine (concat4_at3 _ _ _ _ a j).trans ?_
  exact bcast_last _ a j 0

/-! ## What the late stretches leave alone -/

theorem keep_v26_89 (V : Valuation τ sig (Elt Ideal)) :
    StableHlo.after (hostOps0_8 (F := Ideal) ++ hostOps0_9) V main_v26 = V main_v26 := by host_keep
theorem keep_v33_89 (V : Valuation τ sig (Elt Ideal)) :
    StableHlo.after (hostOps0_8 (F := Ideal) ++ hostOps0_9) V main_v33 = V main_v33 := by host_keep
theorem keep_v41_89 (V : Valuation τ sig (Elt Ideal)) :
    StableHlo.after (hostOps0_8 (F := Ideal) ++ hostOps0_9) V main_v41 = V main_v41 := by host_keep
theorem keep_v54_tail (V : Valuation τ sig (Elt Ideal)) :
    StableHlo.after (hostOps0_11 (F := Ideal) ++ hostOps0_12) V main_v54 = V main_v54 := by host_keep

end Cert.Assign.HostRows

end
-- ==== Proof.HostRowsC.lean ====
/-
  The side array of the host prefix, channel by channel: at (a, j), with b = n div 30 for n = j·131072 + a, it holds
  x[b, 0, 0], x[b, 0, 1], and x[b − 1, 0, 0], x[b − 1, 0, 1] where b ≥ 1 (zero where b = 0).

  The prefix is read group of stretches by group: n, then b, then the clamped b − 1, then the gathers, then the
  concatenation; between the groups each value is carried by the fact that no operation in between writes it.
-/
import proofs.«165622_j90074054132588_2_alg».proof.Proof.Gen.KernelIdeal.Launch
import proofs.«165622_j90074054132588_2_alg».proof.Proof.Spec
import proofs.«165622_j90074054132588_2_alg».proof.Proof.HostRowsY

set_option maxRecDepth 4000

noncomputable section

namespace Cert.Assign.HostRows

open Idealize.ShloMosaic Idealize.ShloMosaic.TcCoe Idealize.ShloMosaic.ValueIdx
open Cert.KernelIdeal Cert.KernelIdeal.Gen

/-- The valuations between the groups of stretches. -/
def V2 (W : Valuation τ sig (Elt Ideal)) : Valuation τ sig (Elt Ideal) := StableHlo.after hostOps0_1 (StableHlo.after hostOps0 W)
def V3 (W : Valuation τ sig (Elt Ideal)) : Valuation τ sig (Elt Ideal) := StableHlo.after (hostOps0_2 ++ hostOps0_3) (V2 W)
def V4 (W : Valuation τ sig (Elt Ideal)) : Valuation τ sig (Elt Ideal) := StableHlo.after (hostOps0_4 ++ hostOps0_5) (V3 W)
def V5 (W : Valuation τ sig (Elt Ideal)) : Valuation τ sig (Elt Ideal) := StableHlo.after (hostOps0_6 ++ hostOps0_7) (V4 W)
def V6 (W : Valuation τ sig (Elt Ideal)) : Valuation τ sig (Elt Ideal) := StableHlo.after (hostOps0_8 ++ hostOps0_9) (V5 W)
def V7 (W : Valuation τ sig (Elt Ideal)) : Valuation τ sig (Elt Ideal) := StableHlo.after hostOps0_10 (V6 W)

/-- The whole prefix, group by group. -/
theorem opsAll_chain (W : Valuation τ sig (Elt Ideal)) :
    StableHlo.after opsAll W = StableHlo.after (hostOps0_11 ++ hostOps0_12) (V7 W) := by
  have e : opsAll = hostOps0 ++ (hostOps0_1 ++ ((hostOps0_2 ++ hostOps0_3) ++ ((hostOps0_4 ++ hostOps0_5) ++
      ((hostOps0_6 ++ hostOps0_7) ++ ((hostOps0_8 ++ hostOps0_9) ++ (hostOps0_10 ++ (hostOps0_11 ++ hostOps0_12))))))) := by
    simp only [opsAll, List.flatten_cons, List.flatten_nil, List.append_nil, List.append_assoc]
  rw [e, after_app hostOps0, after_app hostOps0_1, after_app (hostOps0_2 ++ hostOps0_3), after_app (hostOps0_4 ++ hostOps0_5),
    after_app (hostOps0_6 ++ hostOps0_7), after_app (hostOps0_8 ++ hostOps0_9), after_app hostOps0_10]
  rfl

/-- No operation before the gathers writes the input. -/
theorem V4_arg0 (W : Valuation τ sig (Elt Ideal)) : V4 W main_arg0 = W main_arg0 := by
  unfold V4 V3 V2
  rw [keep_arg0_45, keep_arg0_23, keep_arg0_1, keep_arg0_0]

/-- The four gathered arrays at (a, j), when the concatenation reads them. -/
theorem gathered_at (W : Valuation τ sig (Elt Ideal)) (a : Fin 131072) (j : Fin 30) :
    (V6 W main_v26 : S131072x30.Idx → EReal) (ix2 a j) = xAt (W main_arg0) (rowNo a j / 30) 0
    ∧ (V6 W main_v33 : S131072x30.Idx → EReal) (ix2 a j) = xAt (W main_arg0) (rowNo a j / 30) 1
    ∧ (V6 W main_v41 : S131072x30.Idx → EReal) (ix2 a j)
        = (if 1 ≤ rowNo a j / 30 then xAt (W main_arg0) (rowNo a j / 30 - 1) 0 else 0)
    ∧ (V6 W main_v49 : S131072x30.Idx → EReal) (ix2 a j)
        = (if 1 ≤ rowNo a j / 30 then xAt (W main_arg0) (rowNo a j / 30 - 1) 1 else 0) := by
  have hlt := rowNo_lt a j
  have hn : rowNo a j < 2 ^ 31 := by omega
  have hb : rowNo a j / 30 < 131072 := by omega
  have h8 : V2 W main_v8 (ix2 a j) = BitVec.ofNat 32 (rowNo a j) := by
    unfold V2; rw [keep_v8_1]; exact n_at W a j
  have h10' : V3 W main_v10 (ix2 a j) = BitVec.ofNat 32 (rowNo a j / 30) := b_step (V2 W) a j _ hn h8
  have h10 : V4 W main_v10 (ix2 a j) = BitVec.ofNat 32 (rowNo a j / 30) := by
    unfold V4; rw [keep_v10_45]; exact h10'
  have h13' : V4 W main_v13 (ix2 a j) = BitVec.ofNat 32 (rowNo a j / 30 - 1) := clip_step (V3 W) a j _ hb h10'
  have h13 : V5 W main_v13 (ix2 a j) = BitVec.ofNat 32 (rowNo a j / 30 - 1) := by
    unfold V5; rw [keep_v13_67]; exact h13'
  have h26 := x26_step (V4 W) a j _ hb h10
  have h33 := x33_step (V4 W) a j _ hb h10
  have h41 := x41_step (V4 W) a j _ hb h10 h13'
  have h15 := x15_step (V4 W) a j _ hb h10
  have h49 := y49_step (V5 W) a j _ hb (V4 W main_arg0) h13 h15 (fun r => x19_step (V4 W) r)
  rw [V4_arg0] at h26 h33 h41 h49
  refine ⟨?_, ?_, ?_, h49⟩
  · unfold V6; rw [keep_v26_89]; exact h26
  · unfold V6; rw [keep_v33_89]; exact h33
  · unfold V6; rw [keep_v41_89]; exact h41

/-- **(C)**, channel 0: x[b, 0, 0]. -/
theorem cp0_at (W : Valuation τ sig (Elt Ideal)) (a : Fin 131072) (j : Fin 30) :
    (StableHlo.after opsAll W main_v54 : S131072x30x4.Idx → EReal) (ix3 a j 0) = xAt (W main_arg0) (rowNo a j / 30) 0 := by
  rw [opsAll_chain, keep_v54_tail]
  exact (cat_step0 (V6 W) a j).trans (gathered_at W a j).1

/-- **(C)**, channel 1: x[b, 0, 1]. -/
theorem cp1_at (W : Valuation τ sig (Elt Ideal)) (a : Fin 131072) (j : Fin 30) :
    (StableHlo.after opsAll W main_v54 : S131072x30x4.Idx → EReal) (ix3 a j 1) = xAt (W main_arg0) (rowNo a j / 30) 1 := by
  rw [opsAll_chain, keep_v54_tail]
  exact (cat_step1 (V6 W) a j).trans (gathered_at W a j).2.1

/-- **(C)**, channel 2: x[b − 1, 0, 0] where b ≥ 1, zero where b = 0. -/
theorem cp2_at (W : Valuation τ sig (Elt Ideal)) (a : Fin 131072) (j : Fin 30) :
    (StableHlo.after opsAll W main_v54 : S131072x30x4.Idx → EReal) (ix3 a j 2)
      = (if 1 ≤ rowNo a j / 30 then xAt (W main_arg0) (rowNo a j / 30 - 1) 0 else 0) := by
  rw [opsAll_chain, keep_v54_tail]
  exact (cat_step2 (V6 W) a j).trans (gathered_at W a j).2.2.1

/-- **(C)**, channel 3: x[b − 1, 0, 1] where b ≥ 1, zero where b = 0. -/
theorem cp3_at (W : Valuation τ sig (Elt Ideal)) (a : Fin 131072) (j : Fin 30) :
    (StableHlo.after opsAll W main_v54 : S131072x30x4.Idx → EReal) (ix3 a j 3)
      = (if 1 ≤ rowNo a j / 30 then xAt (W main_arg0) (rowNo a j / 30 - 1) 1 else 0) := by
  rw [opsAll_chain, keep_v54_tail]
  exact (cat_step3 (V6 W) a j).trans (gathered_at W a j).2.2.2

end Cert.Assign.HostRows

end
-- ==== Proof.HostFactsI.lean ====
/-
  The three side arrays when the region is entered, as functions of the argument arrays: the readings of the host
  prefix's fold (the row number modulo 30, the four gathered input columns, the rotated weight table) instantiated at
  the launch contents of core c.
-/
import proofs.«165622_j90074054132588_2_alg».proof.Proof.KernelValueI
import proofs.«165622_j90074054132588_2_alg».proof.Proof.HostWeights
import proofs.«165622_j90074054132588_2_alg».proof.Proof.HostRowsT
import proofs.«165622_j90074054132588_2_alg».proof.Proof.HostRowsC

set_option maxRecDepth 16384

noncomputable section

namespace Cert.KernelIdeal.Hand

open Cert.KernelIdeal Cert.KernelIdeal.Gen Cert.Assign
open Idealize.ShloMosaic Idealize.ShloMosaic.TcCoe Idealize.ShloMosaic.ValueIdx

/-- Every reading of the host prefix's fold holds at core c's launch contents. -/
theorem hostFacts (m : (ℓ : Loc nD τ sig) → Buf (Elt Ideal) ℓ) (c : Dev nD) : HostFacts m c where
  t_at a j := Cert.Assign.HostRows.t_at (fun b => m (c, b)) a j
  c0 a j := Cert.Assign.HostRows.cp0_at (fun b => m (c, b)) a j
  c1 a j := Cert.Assign.HostRows.cp1_at (fun b => m (c, b)) a j
  c2 a j := Cert.Assign.HostRows.cp2_at (fun b => m (c, b)) a j
  c3 a j := Cert.Assign.HostRows.cp3_at (fun b => m (c, b)) a j
  w_at u q := Cert.Assign.Host.wcomb_apply (fun b => m (c, b)) u q

end Cert.KernelIdeal.Hand

end
-- ==== Proof.RefRun.lean ====
/-
  The reference program as a straight line of 69 host operations, and its run.

  The program scopes no buffer and no semaphore, so every weakly fair execution of it terminates without a fault
  and leaves every buffer at the fold of the operations' results over the launch contents, taken in program order.
  No operation writes an argument array, so the three arguments end as launched: that is the reference's frame.
  The fold is stated as it is, operation after operation; it is read at the result buffer elsewhere, in two stretches,
  so that the padded stack of products, which ten later operations slice, is named once and never copied.
-/
import proofs.«165622_j90074054132588_2_alg».proof.Proof.Gen.ReferenceIdeal
import Idealize.ShloMosaic.Lib.StableHlo.Run

noncomputable section

namespace Cert.Assign.Ref

open Cert.ReferenceIdeal Cert.ReferenceIdeal.Gen Idealize.ShloMosaic Idealize.ShloMosaic.TcCoe Idealize.SL.Sem Idealize.ShloMosaic.StableHlo

variable {F : FTy → Type} [FloatOps F]

/-- @main's 69 operations, in order. -/
abbrev ops : List (HloOp τ sig (Elt F)) :=
  [ unary main_arg0 main_v0 ((extractStridedSlice S131072x1x1 ![0, 0, 0] · slices_S131072x30x10_S131072x1x1_0_0_0) : (⟨S131072x30x10, .f32⟩ : BufTy).Contents (Elt F) → (⟨S131072x1x1, .f32⟩ : BufTy).Contents (Elt F)),
    reshape main_v0 main_v1 rfl shapeCasts_S131072x1x1_S131072,
    unary main_v1 main_v2 (broadcastInDim S131072x1 ![0] bcast_S131072_S131072x1_0 : (⟨S131072, .f32⟩ : BufTy).Contents (Elt F) → (⟨S131072x1, .f32⟩ : BufTy).Contents (Elt F)),
    reshape main_arg1 main_v3 rfl shapeCasts_S1x30_S30,
    unary main_v3 main_v4 (broadcastInDim S1x30 ![1] bcast_S30_S1x30_1 : (⟨S30, .f32⟩ : BufTy).Contents (Elt F) → (⟨S1x30, .f32⟩ : BufTy).Contents (Elt F)),
    unary main_v2 main_v5 (broadcastInDim S131072x30 ![0, 1] bcast_S131072x1_S131072x30_0_1 : (⟨S131072x1, .f32⟩ : BufTy).Contents (Elt F) → (⟨S131072x30, .f32⟩ : BufTy).Contents (Elt F)),
    unary main_v4 main_v6 (broadcastInDim S131072x30 ![0, 1] bcast_S1x30_S131072x30_0_1 : (⟨S1x30, .f32⟩ : BufTy).Contents (Elt F) → (⟨S131072x30, .f32⟩ : BufTy).Contents (Elt F)),
    binary main_v5 main_v6 main_v7 (mulf : (⟨S131072x30, .f32⟩ : BufTy).Contents (Elt F) → (⟨S131072x30, .f32⟩ : BufTy).Contents (Elt F) → (⟨S131072x30, .f32⟩ : BufTy).Contents (Elt F)),
    unary main_arg0 main_v8 ((extractStridedSlice S131072x1x1 ![0, 0, 1] · slices_S131072x30x10_S131072x1x1_0_0_1) : (⟨S131072x30x10, .f32⟩ : BufTy).Contents (Elt F) → (⟨S131072x1x1, .f32⟩ : BufTy).Contents (Elt F)),
    reshape main_v8 main_v9 rfl shapeCasts_S131072x1x1_S131072,
    unary main_v9 main_v10 (broadcastInDim S131072x1 ![0] bcast_S131072_S131072x1_0 : (⟨S131072, .f32⟩ : BufTy).Contents (Elt F) → (⟨S131072x1, .f32⟩ : BufTy).Contents (Elt F)),
    reshape main_arg2 main_v11 rfl shapeCasts_S1x30_S30,
    unary main_v11 main_v12 (broadcastInDim S1x30 ![1] bcast_S30_S1x30_1 : (⟨S30, .f32⟩ : BufTy).Contents (Elt F) → (⟨S1x30, .f32⟩ : BufTy).Contents (Elt F)),
    unary main_v10 main_v13 (broadcastInDim S131072x30 ![0, 1] bcast_S131072x1_S131072x30_0_1 : (⟨S131072x1, .f32⟩ : BufTy).Contents (Elt F) → (⟨S131072x30, .f32⟩ : BufTy).Contents (Elt F)),
    unary main_v12 main_v14 (broadcastInDim S131072x30 ![0, 1] bcast_S1x30_S131072x30_0_1 : (⟨S1x30, .f32⟩ : BufTy).Contents (Elt F) → (⟨S131072x30, .f32⟩ : BufTy).Contents (Elt F)),
    binary main_v13 main_v14 main_v15 (mulf : (⟨S131072x30, .f32⟩ : BufTy).Contents (Elt F) → (⟨S131072x30, .f32⟩ : BufTy).Contents (Elt F) → (⟨S131072x30, .f32⟩ : BufTy).Contents (Elt F)),
    unary main_v7 main_v16 (broadcastInDim S131072x30x1 ![0, 1] bcast_S131072x30_S131072x30x1_0_1 : (⟨S131072x30, .f32⟩ : BufTy).Contents (Elt F) → (⟨S131072x30x1, .f32⟩ : BufTy).Contents (Elt F)),
    unary main_v15 main_v17 (broadcastInDim S131072x30x1 ![0, 1] bcast_S131072x30_S131072x30x1_0_1 : (⟨S131072x30, .f32⟩ : BufTy).Contents (Elt F) → (⟨S131072x30x1, .f32⟩ : BufTy).Contents (Elt F)),
    binary main_v16 main_v17 main_v18 ((fun a b => concatenate S131072x30x2 2 [⟨S131072x30x1, a⟩, ⟨S131072x30x1, b⟩] concatenates_S131072x30x1_S131072x30x1_S131072x30x2_d2) : (⟨S131072x30x1, .f32⟩ : BufTy).Contents (Elt F) → (⟨S131072x30x1, .f32⟩ : BufTy).Contents (Elt F) → (⟨S131072x30x2, .f32⟩ : BufTy).Contents (Elt F)),
    reshape main_v18 main_v19 rfl shapeCasts_S131072x30x2_S3932160x2,
    nullary main_cst (constant S_ .f32 0x00000000#32),
    unary main_cst main_v20 (broadcastInDim S9x2 ![] bcast_S_S9x2 : (⟨S_, .f32⟩ : BufTy).Contents (Elt F) → (⟨S9x2, .f32⟩ : BufTy).Contents (Elt F)),
    binary main_v20 main_v19 main_v21 ((fun a b => concatenate S3932169x2 0 [⟨S9x2, a⟩, ⟨S3932160x2, b⟩] concatenates_S9x2_S3932160x2_S3932169x2_d0) : (⟨S9x2, .f32⟩ : BufTy).Contents (Elt F) → (⟨S3932160x2, .f32⟩ : BufTy).Contents (Elt F) → (⟨S3932169x2, .f32⟩ : BufTy).Contents (Elt F)),
    nullary main_c (constantI S_ 32 9#32),
    nullary main_c_0 (constantI S_ 32 0#32),
    unaryIndexed main_v21 ![main_c, main_c_0] ⟨S_, .i32⟩ main_v22 ((fun x i => Host.dynamicSlice S3932160x2 x (fun k => (i k (Shape.Idx.first h_S_)).toInt) sliceFits_S3932169x2_S3932160x2) : (⟨S3932169x2, .f32⟩ : BufTy).Contents (Elt F) → (Fin 2 → (⟨S_, .i32⟩ : BufTy).Contents (Elt F)) → (⟨S3932160x2, .f32⟩ : BufTy).Contents (Elt F)),
    nullary main_c_1 (constantI S_ 32 8#32),
    nullary main_c_2 (constantI S_ 32 0#32),
    unaryIndexed main_v21 ![main_c_1, main_c_2] ⟨S_, .i32⟩ main_v23 ((fun x i => Host.dynamicSlice S3932160x2 x (fun k => (i k (Shape.Idx.first h_S_)).toInt) sliceFits_S3932169x2_S3932160x2) : (⟨S3932169x2, .f32⟩ : BufTy).Contents (Elt F) → (Fin 2 → (⟨S_, .i32⟩ : BufTy).Contents (Elt F)) → (⟨S3932160x2, .f32⟩ : BufTy).Contents (Elt F)),
    nullary main_c_3 (constantI S_ 32 7#32),
    nullary main_c_4 (constantI S_ 32 0#32),
    unaryIndexed main_v21 ![main_c_3, main_c_4] ⟨S_, .i32⟩ main_v24 ((fun x i => Host.dynamicSlice S3932160x2 x (fun k => (i k (Shape.Idx.first h_S_)).toInt) sliceFits_S3932169x2_S3932160x2) : (⟨S3932169x2, .f32⟩ : BufTy).Contents (Elt F) → (Fin 2 → (⟨S_, .i32⟩ : BufTy).Contents (Elt F)) → (⟨S3932160x2, .f32⟩ : BufTy).Contents (Elt F)),
    nullary main_c_5 (constantI S_ 32 6#32),
    nullary main_c_6 (constantI S_ 32 0#32),
    unaryIndexed main_v21 ![main_c_5, main_c_6] ⟨S_, .i32⟩ main_v25 ((fun x i => Host.dynamicSlice S3932160x2 x (fun k => (i k (Shape.Idx.first h_S_)).toInt) sliceFits_S3932169x2_S3932160x2) : (⟨S3932169x2, .f32⟩ : BufTy).Contents (Elt F) → (Fin 2 → (⟨S_, .i32⟩ : BufTy).Contents (Elt F)) → (⟨S3932160x2, .f32⟩ : BufTy).Contents (Elt F)),
    nullary main_c_7 (constantI S_ 32 5#32),
    nullary main_c_8 (constantI S_ 32 0#32),
    unaryIndexed main_v21 ![main_c_7, main_c_8] ⟨S_, .i32⟩ main_v26 ((fun x i => Host.dynamicSlice S3932160x2 x (fun k => (i k (Shape.Idx.first h_S_)).toInt) sliceFits_S3932169x2_S3932160x2) : (⟨S3932169x2, .f32⟩ : BufTy).Contents (Elt F) → (Fin 2 → (⟨S_, .i32⟩ : BufTy).Contents (Elt F)) → (⟨S3932160x2, .f32⟩ : BufTy).Contents (Elt F)),
    nullary main_c_9 (constantI S_ 32 4#32),
    nullary main_c_10 (constantI S_ 32 0#32),
    unaryIndexed main_v21 ![main_c_9, main_c_10] ⟨S_, .i32⟩ main_v27 ((fun x i => Host.dynamicSlice S3932160x2 x (fun k => (i k (Shape.Idx.first h_S_)).toInt) sliceFits_S3932169x2_S3932160x2) : (⟨S3932169x2, .f32⟩ : BufTy).Contents (Elt F) → (Fin 2 → (⟨S_, .i32⟩ : BufTy).Contents (Elt F)) → (⟨S3932160x2, .f32⟩ : BufTy).Contents (Elt F)),
    nullary main_c_11 (constantI S_ 32 3#32),
    nullary main_c_12 (constantI S_ 32 0#32),
    unaryIndexed main_v21 ![main_c_11, main_c_12] ⟨S_, .i32⟩ main_v28 ((fun x i => Host.dynamicSlice S3932160x2 x (fun k => (i k (Shape.Idx.first h_S_)).toInt) sliceFits_S3932169x2_S3932160x2) : (⟨S3932169x2, .f32⟩ : BufTy).Contents (Elt F) → (Fin 2 → (⟨S_, .i32⟩ : BufTy).Contents (Elt F)) → (⟨S3932160x2, .f32⟩ : BufTy).Contents (Elt F)),
    nullary main_c_13 (constantI S_ 32 2#32),
    nullary main_c_14 (constantI S_ 32 0#32),
    unaryIndexed main_v21 ![main_c_13, main_c_14] ⟨S_, .i32⟩ main_v29 ((fun x i => Host.dynamicSlice S3932160x2 x (fun k => (i k (Shape.Idx.first h_S_)).toInt) sliceFits_S3932169x2_S3932160x2) : (⟨S3932169x2, .f32⟩ : BufTy).Contents (Elt F) → (Fin 2 → (⟨S_, .i32⟩ : BufTy).Contents (Elt F)) → (⟨S3932160x2, .f32⟩ : BufTy).Contents (Elt F)),
    nullary main_c_15 (constantI S_ 32 1#32),
    nullary main_c_16 (constantI S_ 32 0#32),
    unaryIndexed main_v21 ![main_c_15, main_c_16] ⟨S_, .i32⟩ main_v30 ((fun x i => Host.dynamicSlice S3932160x2 x (fun k => (i k (Shape.Idx.first h_S_)).toInt) sliceFits_S3932169x2_S3932160x2) : (⟨S3932169x2, .f32⟩ : BufTy).Contents (Elt F) → (Fin 2 → (⟨S_, .i32⟩ : BufTy).Contents (Elt F)) → (⟨S3932160x2, .f32⟩ : BufTy).Contents (Elt F)),
    nullary main_c_17 (constantI S_ 32 0#32),
    nullary main_c_18 (constantI S_ 32 0#32),
    unaryIndexed main_v21 ![main_c_17, main_c_18] ⟨S_, .i32⟩ main_v31 ((fun x i => Host.dynamicSlice S3932160x2 x (fun k => (i k (Shape.Idx.first h_S_)).toInt) sliceFits_S3932169x2_S3932160x2) : (⟨S3932169x2, .f32⟩ : BufTy).Contents (Elt F) → (Fin 2 → (⟨S_, .i32⟩ : BufTy).Contents (Elt F)) → (⟨S3932160x2, .f32⟩ : BufTy).Contents (Elt F)),
    unary main_v22 main_v32 (broadcastInDim S3932160x1x2 ![0, 2] bcast_S3932160x2_S3932160x1x2_0_2 : (⟨S3932160x2, .f32⟩ : BufTy).Contents (Elt F) → (⟨S3932160x1x2, .f32⟩ : BufTy).Contents (Elt F)),
    unary main_v23 main_v33 (broadcastInDim S3932160x1x2 ![0, 2] bcast_S3932160x2_S3932160x1x2_0_2 : (⟨S3932160x2, .f32⟩ : BufTy).Contents (Elt F) → (⟨S3932160x1x2, .f32⟩ : BufTy).Contents (Elt F)),
    unary main_v24 main_v34 (broadcastInDim S3932160x1x2 ![0, 2] bcast_S3932160x2_S3932160x1x2_0_2 : (⟨S3932160x2, .f32⟩ : BufTy).Contents (Elt F) → (⟨S3932160x1x2, .f32⟩ : BufTy).Contents (Elt F)),
    unary main_v25 main_v35 (broadcastInDim S3932160x1x2 ![0, 2] bcast_S3932160x2_S3932160x1x2_0_2 : (⟨S3932160x2, .f32⟩ : BufTy).Contents (Elt F) → (⟨S3932160x1x2, .f32⟩ : BufTy).Contents (Elt F)),
    unary main_v26 main_v36 (broadcastInDim S3932160x1x2 ![0, 2] bcast_S3932160x2_S3932160x1x2_0_2 : (⟨S3932160x2, .f32⟩ : BufTy).Contents (Elt F) → (⟨S3932160x1x2, .f32⟩ : BufTy).Contents (Elt F)),
    unary main_v27 main_v37 (broadcastInDim S3932160x1x2 ![0, 2] bcast_S3932160x2_S3932160x1x2_0_2 : (⟨S3932160x2, .f32⟩ : BufTy).Contents (Elt F) → (⟨S3932160x1x2, .f32⟩ : BufTy).Contents (Elt F)),
    unary main_v28 main_v38 (broadcastInDim S3932160x1x2 ![0, 2] bcast_S3932160x2_S3932160x1x2_0_2 : (⟨S3932160x2, .f32⟩ : BufTy).Contents (Elt F) → (⟨S3932160x1x2, .f32⟩ : BufTy).Contents (Elt F)),
    unary main_v29 main_v39 (broadcastInDim S3932160x1x2 ![0, 2] bcast_S3932160x2_S3932160x1x2_0_2 : (⟨S3932160x2, .f32⟩ : BufTy).Contents (Elt F) → (⟨S3932160x1x2, .f32⟩ : BufTy).Contents (Elt F)),
    unary main_v30 main_v40 (broadcastInDim S3932160x1x2 ![0, 2] bcast_S3932160x2_S3932160x1x2_0_2 : (⟨S3932160x2, .f32⟩ : BufTy).Contents (Elt F) → (⟨S3932160x1x2, .f32⟩ : BufTy).Contents (Elt F)),
    unary main_v31 main_v41 (broadcastInDim S3932160x1x2 ![0, 2] bcast_S3932160x2_S3932160x1x2_0_2 : (⟨S3932160x2, .f32⟩ : BufTy).Contents (Elt F) → (⟨S3932160x1x2, .f32⟩ : BufTy).Contents (Elt F)),
    nary ![main_v32, main_v33, main_v34, main_v35, main_v36, main_v37, main_v38, main_v39, main_v40, main_v41] main_v42 (fun u => concatenate S3932160x10x2 1 [⟨S3932160x1x2, u 0⟩, ⟨S3932160x1x2, u 1⟩, ⟨S3932160x1x2, u 2⟩, ⟨S3932160x1x2, u 3⟩, ⟨S3932160x1x2, u 4⟩, ⟨S3932160x1x2, u 5⟩, ⟨S3932160x1x2, u 6⟩, ⟨S3932160x1x2, u 7⟩, ⟨S3932160x1x2, u 8⟩, ⟨S3932160x1x2, u 9⟩] concatenates_S3932160x1x2_S3932160x1x2_S3932160x1x2_S3932160x1x2_S3932160x1x2_S3932160x1x2_S3932160x1x2_S3932160x1x2_S3932160x1x2_S3932160x1x2_S3932160x10x2_d1),
    reshape main_v42 main_v43 rfl shapeCasts_S3932160x10x2_S3932160x20,
    reshape main_v43 main_v44 rfl shapeCasts_S3932160x20_S30x131072x20,
    unary main_v44 main_v45 ((transpose S131072x30x20 [1, 0, 2] · transposes_S30x131072x20_S131072x30x20_1_0_2) : (⟨S30x131072x20, .f32⟩ : BufTy).Contents (Elt F) → (⟨S131072x30x20, .f32⟩ : BufTy).Contents (Elt F)),
    unary main_arg0 main_v46 ((extractStridedSlice S131072x30x8 ![0, 0, 2] · slices_S131072x30x10_S131072x30x8_0_0_2) : (⟨S131072x30x10, .f32⟩ : BufTy).Contents (Elt F) → (⟨S131072x30x8, .f32⟩ : BufTy).Contents (Elt F)),
    binary main_v45 main_v46 main_v47 ((fun a b => concatenate S131072x30x28 2 [⟨S131072x30x20, a⟩, ⟨S131072x30x8, b⟩] concatenates_S131072x30x20_S131072x30x8_S131072x30x28_d2) : (⟨S131072x30x20, .f32⟩ : BufTy).Contents (Elt F) → (⟨S131072x30x8, .f32⟩ : BufTy).Contents (Elt F) → (⟨S131072x30x28, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., unary_bufs_sub .., unary_bufs_sub .., unary_bufs_sub .., binary_bufs_sub .., unary_bufs_sub .., reshape_bufs_sub .., unary_bufs_sub .., reshape_bufs_sub .., unary_bufs_sub .., unary_bufs_sub .., unary_bufs_sub .., binary_bufs_sub .., unary_bufs_sub .., unary_bufs_sub .., binary_bufs_sub .., reshape_bufs_sub .., nullary_bufs_sub .., unary_bufs_sub .., binary_bufs_sub .., nullary_bufs_sub .., nullary_bufs_sub .., unaryIndexed_bufs_sub .., nullary_bufs_sub .., nullary_bufs_sub .., unaryIndexed_bufs_sub .., nullary_bufs_sub .., nullary_bufs_sub .., unaryIndexed_bufs_sub .., nullary_bufs_sub .., nullary_bufs_sub .., unaryIndexed_bufs_sub .., nullary_bufs_sub .., nullary_bufs_sub .., unaryIndexed_bufs_sub .., nullary_bufs_sub .., nullary_bufs_sub .., unaryIndexed_bufs_sub .., nullary_bufs_sub .., nullary_bufs_sub .., unaryIndexed_bufs_sub .., nullary_bufs_sub .., nullary_bufs_sub .., unaryIndexed_bufs_sub .., nullary_bufs_sub .., nullary_bufs_sub .., unaryIndexed_bufs_sub .., nullary_bufs_sub .., nullary_bufs_sub .., unaryIndexed_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., reshape_bufs_sub .., reshape_bufs_sub .., unary_bufs_sub .., unary_bufs_sub .., binary_bufs_sub ..⟩

/-- Every weakly fair execution of the reference terminates, and every buffer ends at the fold of the operations over
    the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (ops (F := F)) (launchContents m c) (Proc.devRef .tc b) :=
  run_seq scopedRefs_eq scopedSems_eq defs main (fun _ => ops) main_eq (fun _ => ops_sub) m ρ

/-- No operation writes argument 0. -/
theorem kept_arg0 (W : Valuation τ sig (Elt F)) : after (ops (F := F)) W (Proc.devRef .tc main_arg0) = W (Proc.devRef .tc main_arg0) :=
  after_of_forall_not_mem (b := Proc.devRef .tc main_arg0) _ _ (List.forall_iff_forall_mem.mp (by
    simp only [ops, List.Forall, nullary_writes, unary_writes, binary_writes, ternary_writes, quaternary_writes, reshape_writes,
      binaryIndexed_writes, nary_writes, unaryIndexed_writes, Finset.mem_singleton]
    repeat' apply And.intro
    all_goals exact devRef_ne_of_ne (by decide)))
/-- No operation writes argument 1. -/
theorem kept_arg1 (W : Valuation τ sig (Elt F)) : after (ops (F := F)) W (Proc.devRef .tc main_arg1) = W (Proc.devRef .tc main_arg1) :=
  after_of_forall_not_mem (b := Proc.devRef .tc main_arg1) _ _ (List.forall_iff_forall_mem.mp (by
    simp only [ops, List.Forall, nullary_writes, unary_writes, binary_writes, ternary_writes, quaternary_writes, reshape_writes,
      binaryIndexed_writes, nary_writes, unaryIndexed_writes, Finset.mem_singleton]
    repeat' apply And.intro
    all_goals exact devRef_ne_of_ne (by decide)))
/-- No operation writes argument 2. -/
theorem kept_arg2 (W : Valuation τ sig (Elt F)) : after (ops (F := F)) W (Proc.devRef .tc main_arg2) = W (Proc.devRef .tc main_arg2) :=
  after_of_forall_not_mem (b := Proc.devRef .tc main_arg2) _ _ (List.forall_iff_forall_mem.mp (by
    simp only [ops, List.Forall, nullary_writes, unary_writes, binary_writes, ternary_writes, quaternary_writes, reshape_writes,
      binaryIndexed_writes, nary_writes, unaryIndexed_writes, Finset.mem_singleton]
    repeat' apply And.intro
    all_goals exact devRef_ne_of_ne (by decide)))

/-- The reference's frame: it runs to the end, faults nowhere and leaves its three arguments unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_arg0).trans (kept_arg0 _), (h c main_arg1).trans (kept_arg1 _),
    (h c main_arg2).trans (kept_arg2 _)⟩) (run_after m ρ)

end Cert.Assign.Ref

end
-- ==== Proof.RefStages.lean ====
/-
  The reference program, one operation at a time. `val_main_vN` is the array operation N writes, as a function of
  the argument arrays it depends on; `val_main_vN_apply` reads it at an index from the operands at an index, for each
  operation whose result element depends on one element of each operand (a layout operation reads its operand at
  `idx_main_vN i`, computed from the literal shapes). The three joins along an axis, the ten blocks taken at a row
  given by an integer operand, and the final join have no such lemma: they are read in the modules that use them.
-/
import proofs.«165622_j90074054132588_2_alg».proof.Proof.Gen.ReferenceIdeal
import Idealize.ShloMosaic.Lib.Pipeline.Value

noncomputable section

namespace Cert.Assign.Ref.Stages

open Cert.ReferenceIdeal Cert.ReferenceIdeal.Gen Idealize.ShloMosaic Idealize.ShloMosaic.TcCoe Idealize.SL.Sem Idealize.ShloMosaic.StableHlo

variable {F : FTy → Type} [FloatOps F]

-- %0 = stablehlo.slice %arg0 [0:131072, 0:1, 0:1] : (tensor<131072x30x10xf32>) -> tensor<131072x1x1xf32>
def val_main_v0 (x0 : (⟨S131072x30x10, .f32⟩ : BufTy).Contents (Elt F)) : (⟨S131072x1x1, .f32⟩ : BufTy).Contents (Elt F) :=
  extractStridedSlice S131072x1x1 ![0, 0, 0] (x0) slices_S131072x30x10_S131072x1x1_0_0_0
abbrev idx_main_v0 (i : S131072x1x1.Idx) : S131072x30x10.Idx := fun a => match a with
  | ⟨0, _⟩ => ⟨(i 0).val, (i 0).isLt⟩
  | ⟨1, _⟩ => ⟨(i 1).val, by have h1 : (i 1).val < 1 := (i 1).isLt; show (i 1).val < 30; omega⟩
  | ⟨2, _⟩ => ⟨(i 2).val, by have h2 : (i 2).val < 1 := (i 2).isLt; show (i 2).val < 10; omega⟩
theorem val_main_v0_apply (x0 : (⟨S131072x30x10, .f32⟩ : BufTy).Contents (Elt F)) (i : S131072x1x1.Idx) :
    val_main_v0 (F := F) x0 i = x0 (idx_main_v0 i) := by
  unfold val_main_v0
  exact extractStridedSlice_apply ![0, 0, 0] x0 slices_S131072x30x10_S131072x1x1_0_0_0 i (idx_main_v0 i) (fun a => match a with
    | ⟨0, _⟩ => by show (i 0).val = 0 + (i 0).val; omega
    | ⟨1, _⟩ => by show (i 1).val = 0 + (i 1).val; omega
    | ⟨2, _⟩ => by show (i 2).val = 0 + (i 2).val; omega)

-- %1 = stablehlo.reshape %0 : (tensor<131072x1x1xf32>) -> tensor<131072xf32>
def val_main_v1 (x0 : (⟨S131072x30x10, .f32⟩ : BufTy).Contents (Elt F)) : (⟨S131072, .f32⟩ : BufTy).Contents (Elt F) :=
  shapeCast _ (val_main_v0 (F := F) x0) shapeCasts_S131072x1x1_S131072
abbrev idx_main_v1 (i : S131072.Idx) : S131072x1x1.Idx := fun a => match a with
  | ⟨0, _⟩ => ⟨((i 0).val) / 1, by have h0 : (i 0).val < 131072 := (i 0).isLt; show ((i 0).val) / 1 < 131072; omega⟩
  | ⟨1, _⟩ => ⟨0, Nat.one_pos⟩
  | ⟨2, _⟩ => ⟨0, Nat.one_pos⟩
theorem val_main_v1_apply (x0 : (⟨S131072x30x10, .f32⟩ : BufTy).Contents (Elt F)) (i : S131072.Idx) :
    val_main_v1 (F := F) x0 i = val_main_v0 (F := F) x0 (idx_main_v1 i) := by
  unfold val_main_v1
  generalize val_main_v0 (F := F) x0 = y
  exact shapeCast_apply y shapeCasts_S131072x1x1_S131072 i (idx_main_v1 i)
    (by rewrite [Shape.rowMajor_val_three, Shape.rowMajor_val_one]; have h0 : (i 0).val < 131072 := (i 0).isLt; show (((i 0).val) / 1 * 1 + 0) * 1 + 0 = (i 0).val; omega)

-- %2 = stablehlo.broadcast_in_dim %1, dims = [0] : (tensor<131072xf32>) -> tensor<131072x1xf32>
def val_main_v2 (x0 : (⟨S131072x30x10, .f32⟩ : BufTy).Contents (Elt F)) : (⟨S131072x1, .f32⟩ : BufTy).Contents (Elt F) :=
  broadcastInDim S131072x1 ![0] bcast_S131072_S131072x1_0 (val_main_v1 (F := F) x0)
abbrev idx_main_v2 (i : S131072x1.Idx) : S131072.Idx := fun a => match a with
  | ⟨0, _⟩ => ⟨(i 0).val, (i 0).isLt⟩
theorem val_main_v2_apply (x0 : (⟨S131072x30x10, .f32⟩ : BufTy).Contents (Elt F)) (i : S131072x1.Idx) :
    val_main_v2 (F := F) x0 i = val_main_v1 (F := F) x0 (idx_main_v2 i) := by
  unfold val_main_v2
  generalize val_main_v1 (F := F) x0 = y
  exact broadcastInDim_apply _ bcast_S131072_S131072x1_0 y i (idx_main_v2 i) (fun a => match a with
    | ⟨0, _⟩ => by show (i 0).val = if (131072 : Nat) = 1 then 0 else (i 0).val; rw [if_neg (by decide)])

-- %3 = stablehlo.reshape %arg1 : (tensor<1x30xf32>) -> tensor<30xf32>
def val_main_v3 (x1 : (⟨S1x30, .f32⟩ : BufTy).Contents (Elt F)) : (⟨S30, .f32⟩ : BufTy).Contents (Elt F) :=
  shapeCast _ (x1) shapeCasts_S1x30_S30
abbrev idx_main_v3 (i : S30.Idx) : S1x30.Idx := fun a => match a with
  | ⟨0, _⟩ => ⟨0, Nat.one_pos⟩
  | ⟨1, _⟩ => ⟨((i 0).val) % 30, by have h0 : (i 0).val < 30 := (i 0).isLt; show ((i 0).val) % 30 < 30; omega⟩
theorem val_main_v3_apply (x1 : (⟨S1x30, .f32⟩ : BufTy).Contents (Elt F)) (i : S30.Idx) :
    val_main_v3 (F := F) x1 i = x1 (idx_main_v3 i) := by
  unfold val_main_v3
  exact shapeCast_apply x1 shapeCasts_S1x30_S30 i (idx_main_v3 i)
    (by rewrite [Shape.rowMajor_val_two, Shape.rowMajor_val_one]; have h0 : (i 0).val < 30 := (i 0).isLt; show 0 * 30 + ((i 0).val) % 30 = (i 0).val; omega)

-- %4 = stablehlo.broadcast_in_dim %3, dims = [1] : (tensor<30xf32>) -> tensor<1x30xf32>
def val_main_v4 (x1 : (⟨S1x30, .f32⟩ : BufTy).Contents (Elt F)) : (⟨S1x30, .f32⟩ : BufTy).Contents (Elt F) :=
  broadcastInDim S1x30 ![1] bcast_S30_S1x30_1 (val_main_v3 (F := F) x1)
abbrev idx_main_v4 (i : S1x30.Idx) : S30.Idx := fun a => match a with
  | ⟨0, _⟩ => ⟨(i 1).val, (i 1).isLt⟩
theorem val_main_v4_apply (x1 : (⟨S1x30, .f32⟩ : BufTy).Contents (Elt F)) (i : S1x30.Idx) :
    val_main_v4 (F := F) x1 i = val_main_v3 (F := F) x1 (idx_main_v4 i) := by
  unfold val_main_v4
  generalize val_main_v3 (F := F) x1 = y
  exact broadcastInDim_apply _ bcast_S30_S1x30_1 y i (idx_main_v4 i) (fun a => match a with
    | ⟨0, _⟩ => by show (i 1).val = if (30 : Nat) = 1 then 0 else (i 1).val; rw [if_neg (by decide)])

-- %5 = stablehlo.broadcast_in_dim %2, dims = [0, 1] : (tensor<131072x1xf32>) -> tensor<131072x30xf32>
def val_main_v5 (x0 : (⟨S131072x30x10, .f32⟩ : BufTy).Contents (Elt F)) : (⟨S131072x30, .f32⟩ : BufTy).Contents (Elt F) :=
  broadcastInDim S131072x30 ![0, 1] bcast_S131072x1_S131072x30_0_1 (val_main_v2 (F := F) x0)
abbrev idx_main_v5 (i : S131072x30.Idx) : S131072x1.Idx := fun a => match a with
  | ⟨0, _⟩ => ⟨(i 0).val, (i 0).isLt⟩
  | ⟨1, _⟩ => ⟨0, Nat.one_pos⟩
theorem val_main_v5_apply (x0 : (⟨S131072x30x10, .f32⟩ : BufTy).Contents (Elt F)) (i : S131072x30.Idx) :
    val_main_v5 (F := F) x0 i = val_main_v2 (F := F) x0 (idx_main_v5 i) := by
  unfold val_main_v5
  generalize val_main_v2 (F := F) x0 = y
  exact broadcastInDim_apply _ bcast_S131072x1_S131072x30_0_1 y i (idx_main_v5 i) (fun a => match a with
    | ⟨0, _⟩ => by show (i 0).val = if (131072 : Nat) = 1 then 0 else (i 0).val; rw [if_neg (by decide)]
    | ⟨1, _⟩ => by show 0 = if (1 : Nat) = 1 then 0 else (i 1).val; rw [if_pos rfl])

-- %6 = stablehlo.broadcast_in_dim %4, dims = [0, 1] : (tensor<1x30xf32>) -> tensor<131072x30xf32>
def val_main_v6 (x1 : (⟨S1x30, .f32⟩ : BufTy).Contents (Elt F)) : (⟨S131072x30, .f32⟩ : BufTy).Contents (Elt F) :=
  broadcastInDim S131072x30 ![0, 1] bcast_S1x30_S131072x30_0_1 (val_main_v4 (F := F) x1)
abbrev idx_main_v6 (i : S131072x30.Idx) : S1x30.Idx := fun a => match a with
  | ⟨0, _⟩ => ⟨0, Nat.one_pos⟩
  | ⟨1, _⟩ => ⟨(i 1).val, (i 1).isLt⟩
theorem val_main_v6_apply (x1 : (⟨S1x30, .f32⟩ : BufTy).Contents (Elt F)) (i : S131072x30.Idx) :
    val_main_v6 (F := F) x1 i = val_main_v4 (F := F) x1 (idx_main_v6 i) := by
  unfold val_main_v6
  generalize val_main_v4 (F := F) x1 = y
  exact broadcastInDim_apply _ bcast_S1x30_S131072x30_0_1 y i (idx_main_v6 i) (fun a => match a with
    | ⟨0, _⟩ => by show 0 = if (1 : Nat) = 1 then 0 else (i 0).val; rw [if_pos rfl]
    | ⟨1, _⟩ => by show (i 1).val = if (30 : Nat) = 1 then 0 else (i 1).val; rw [if_neg (by decide)])

-- %7 = stablehlo.multiply %5, %6 : tensor<131072x30xf32>
def val_main_v7 (x0 : (⟨S131072x30x10, .f32⟩ : BufTy).Contents (Elt F)) (x1 : (⟨S1x30, .f32⟩ : BufTy).Contents (Elt F)) : (⟨S131072x30, .f32⟩ : BufTy).Contents (Elt F) :=
  mulf (val_main_v5 (F := F) x0) (val_main_v6 (F := F) x1)
theorem val_main_v7_apply (x0 : (⟨S131072x30x10, .f32⟩ : BufTy).Contents (Elt F)) (x1 : (⟨S1x30, .f32⟩ : BufTy).Contents (Elt F)) (i : S131072x30.Idx) :
    val_main_v7 (F := F) x0 x1 i = FloatOps.mulf (val_main_v5 (F := F) x0 i) (val_main_v6 (F := F) x1 i) := rfl

-- %8 = stablehlo.slice %arg0 [0:131072, 0:1, 1:2] : (tensor<131072x30x10xf32>) -> tensor<131072x1x1xf32>
def val_main_v8 (x0 : (⟨S131072x30x10, .f32⟩ : BufTy).Contents (Elt F)) : (⟨S131072x1x1, .f32⟩ : BufTy).Contents (Elt F) :=
  extractStridedSlice S131072x1x1 ![0, 0, 1] (x0) slices_S131072x30x10_S131072x1x1_0_0_1
abbrev idx_main_v8 (i : S131072x1x1.Idx) : S131072x30x10.Idx := fun a => match a with
  | ⟨0, _⟩ => ⟨(i 0).val, (i 0).isLt⟩
  | ⟨1, _⟩ => ⟨(i 1).val, by have h1 : (i 1).val < 1 := (i 1).isLt; show (i 1).val < 30; omega⟩
  | ⟨2, _⟩ => ⟨1 + (i 2).val, by have h2 : (i 2).val < 1 := (i 2).isLt; show 1 + (i 2).val < 10; omega⟩
theorem val_main_v8_apply (x0 : (⟨S131072x30x10, .f32⟩ : BufTy).Contents (Elt F)) (i : S131072x1x1.Idx) :
    val_main_v8 (F := F) x0 i = x0 (idx_main_v8 i) := by
  unfold val_main_v8
  exact extractStridedSlice_apply ![0, 0, 1] x0 slices_S131072x30x10_S131072x1x1_0_0_1 i (idx_main_v8 i) (fun a => match a with
    | ⟨0, _⟩ => by show (i 0).val = 0 + (i 0).val; omega
    | ⟨1, _⟩ => by show (i 1).val = 0 + (i 1).val; omega
    | ⟨2, _⟩ => by show 1 + (i 2).val = 1 + (i 2).val; omega)

-- %9 = stablehlo.reshape %8 : (tensor<131072x1x1xf32>) -> tensor<131072xf32>
def val_main_v9 (x0 : (⟨S131072x30x10, .f32⟩ : BufTy).Contents (Elt F)) : (⟨S131072, .f32⟩ : BufTy).Contents (Elt F) :=
  shapeCast _ (val_main_v8 (F := F) x0) shapeCasts_S131072x1x1_S131072
abbrev idx_main_v9 (i : S131072.Idx) : S131072x1x1.Idx := fun a => match a with
  | ⟨0, _⟩ => ⟨((i 0).val) / 1, by have h0 : (i 0).val < 131072 := (i 0).isLt; show ((i 0).val) / 1 < 131072; omega⟩
  | ⟨1, _⟩ => ⟨0, Nat.one_pos⟩
  | ⟨2, _⟩ => ⟨0, Nat.one_pos⟩
theorem val_main_v9_apply (x0 : (⟨S131072x30x10, .f32⟩ : BufTy).Contents (Elt F)) (i : S131072.Idx) :
    val_main_v9 (F := F) x0 i = val_main_v8 (F := F) x0 (idx_main_v9 i) := by
  unfold val_main_v9
  generalize val_main_v8 (F := F) x0 = y
  exact shapeCast_apply y shapeCasts_S131072x1x1_S131072 i (idx_main_v9 i)
    (by rewrite [Shape.rowMajor_val_three, Shape.rowMajor_val_one]; have h0 : (i 0).val < 131072 := (i 0).isLt; show (((i 0).val) / 1 * 1 + 0) * 1 + 0 = (i 0).val; omega)

-- %10 = stablehlo.broadcast_in_dim %9, dims = [0] : (tensor<131072xf32>) -> tensor<131072x1xf32>
def val_main_v10 (x0 : (⟨S131072x30x10, .f32⟩ : BufTy).Contents (Elt F)) : (⟨S131072x1, .f32⟩ : BufTy).Contents (Elt F) :=
  broadcastInDim S131072x1 ![0] bcast_S131072_S131072x1_0 (val_main_v9 (F := F) x0)
abbrev idx_main_v10 (i : S131072x1.Idx) : S131072.Idx := fun a => match a with
  | ⟨0, _⟩ => ⟨(i 0).val, (i 0).isLt⟩
theorem val_main_v10_apply (x0 : (⟨S131072x30x10, .f32⟩ : BufTy).Contents (Elt F)) (i : S131072x1.Idx) :
    val_main_v10 (F := F) x0 i = val_main_v9 (F := F) x0 (idx_main_v10 i) := by
  unfold val_main_v10
  generalize val_main_v9 (F := F) x0 = y
  exact broadcastInDim_apply _ bcast_S131072_S131072x1_0 y i (idx_main_v10 i) (fun a => match a with
    | ⟨0, _⟩ => by show (i 0).val = if (131072 : Nat) = 1 then 0 else (i 0).val; rw [if_neg (by decide)])

-- %11 = stablehlo.reshape %arg2 : (tensor<1x30xf32>) -> tensor<30xf32>
def val_main_v11 (x2 : (⟨S1x30, .f32⟩ : BufTy).Contents (Elt F)) : (⟨S30, .f32⟩ : BufTy).Contents (Elt F) :=
  shapeCast _ (x2) shapeCasts_S1x30_S30
abbrev idx_main_v11 (i : S30.Idx) : S1x30.Idx := fun a => match a with
  | ⟨0, _⟩ => ⟨0, Nat.one_pos⟩
  | ⟨1, _⟩ => ⟨((i 0).val) % 30, by have h0 : (i 0).val < 30 := (i 0).isLt; show ((i 0).val) % 30 < 30; omega⟩
theorem val_main_v11_apply (x2 : (⟨S1x30, .f32⟩ : BufTy).Contents (Elt F)) (i : S30.Idx) :
    val_main_v11 (F := F) x2 i = x2 (idx_main_v11 i) := by
  unfold val_main_v11
  exact shapeCast_apply x2 shapeCasts_S1x30_S30 i (idx_main_v11 i)
    (by rewrite [Shape.rowMajor_val_two, Shape.rowMajor_val_one]; have h0 : (i 0).val < 30 := (i 0).isLt; show 0 * 30 + ((i 0).val) % 30 = (i 0).val; omega)

-- %12 = stablehlo.broadcast_in_dim %11, dims = [1] : (tensor<30xf32>) -> tensor<1x30xf32>
def val_main_v12 (x2 : (⟨S1x30, .f32⟩ : BufTy).Contents (Elt F)) : (⟨S1x30, .f32⟩ : BufTy).Contents (Elt F) :=
  broadcastInDim S1x30 ![1] bcast_S30_S1x30_1 (val_main_v11 (F := F) x2)
abbrev idx_main_v12 (i : S1x30.Idx) : S30.Idx := fun a => match a with
  | ⟨0, _⟩ => ⟨(i 1).val, (i 1).isLt⟩
theorem val_main_v12_apply (x2 : (⟨S1x30, .f32⟩ : BufTy).Contents (Elt F)) (i : S1x30.Idx) :
    val_main_v12 (F := F) x2 i = val_main_v11 (F := F) x2 (idx_main_v12 i) := by
  unfold val_main_v12
  generalize val_main_v11 (F := F) x2 = y
  exact broadcastInDim_apply _ bcast_S30_S1x30_1 y i (idx_main_v12 i) (fun a => match a with
    | ⟨0, _⟩ => by show (i 1).val = if (30 : Nat) = 1 then 0 else (i 1).val; rw [if_neg (by decide)])

-- %13 = stablehlo.broadcast_in_dim %10, dims = [0, 1] : (tensor<131072x1xf32>) -> tensor<131072x30xf32>
def val_main_v13 (x0 : (⟨S131072x30x10, .f32⟩ : BufTy).Contents (Elt F)) : (⟨S131072x30, .f32⟩ : BufTy).Contents (Elt F) :=
  broadcastInDim S131072x30 ![0, 1] bcast_S131072x1_S131072x30_0_1 (val_main_v10 (F := F) x0)
abbrev idx_main_v13 (i : S131072x30.Idx) : S131072x1.Idx := fun a => match a with
  | ⟨0, _⟩ => ⟨(i 0).val, (i 0).isLt⟩
  | ⟨1, _⟩ => ⟨0, Nat.one_pos⟩
theorem val_main_v13_apply (x0 : (⟨S131072x30x10, .f32⟩ : BufTy).Contents (Elt F)) (i : S131072x30.Idx) :
    val_main_v13 (F := F) x0 i = val_main_v10 (F := F) x0 (idx_main_v13 i) := by
  unfold val_main_v13
  generalize val_main_v10 (F := F) x0 = y
  exact broadcastInDim_apply _ bcast_S131072x1_S131072x30_0_1 y i (idx_main_v13 i) (fun a => match a with
    | ⟨0, _⟩ => by show (i 0).val = if (131072 : Nat) = 1 then 0 else (i 0).val; rw [if_neg (by decide)]
    | ⟨1, _⟩ => by show 0 = if (1 : Nat) = 1 then 0 else (i 1).val; rw [if_pos rfl])

-- %14 = stablehlo.broadcast_in_dim %12, dims = [0, 1] : (tensor<1x30xf32>) -> tensor<131072x30xf32>
def val_main_v14 (x2 : (⟨S1x30, .f32⟩ : BufTy).Contents (Elt F)) : (⟨S131072x30, .f32⟩ : BufTy).Contents (Elt F) :=
  broadcastInDim S131072x30 ![0, 1] bcast_S1x30_S131072x30_0_1 (val_main_v12 (F := F) x2)
abbrev idx_main_v14 (i : S131072x30.Idx) : S1x30.Idx := fun a => match a with
  | ⟨0, _⟩ => ⟨0, Nat.one_pos⟩
  | ⟨1, _⟩ => ⟨(i 1).val, (i 1).isLt⟩
theorem val_main_v14_apply (x2 : (⟨S1x30, .f32⟩ : BufTy).Contents (Elt F)) (i : S131072x30.Idx) :
    val_main_v14 (F := F) x2 i = val_main_v12 (F := F) x2 (idx_main_v14 i) := by
  unfold val_main_v14
  generalize val_main_v12 (F := F) x2 = y
  exact broadcastInDim_apply _ bcast_S1x30_S131072x30_0_1 y i (idx_main_v14 i) (fun a => match a with
    | ⟨0, _⟩ => by show 0 = if (1 : Nat) = 1 then 0 else (i 0).val; rw [if_pos rfl]
    | ⟨1, _⟩ => by show (i 1).val = if (30 : Nat) = 1 then 0 else (i 1).val; rw [if_neg (by decide)])

-- %15 = stablehlo.multiply %13, %14 : tensor<131072x30xf32>
def val_main_v15 (x0 : (⟨S131072x30x10, .f32⟩ : BufTy).Contents (Elt F)) (x2 : (⟨S1x30, .f32⟩ : BufTy).Contents (Elt F)) : (⟨S131072x30, .f32⟩ : BufTy).Contents (Elt F) :=
  mulf (val_main_v13 (F := F) x0) (val_main_v14 (F := F) x2)
theorem val_main_v15_apply (x0 : (⟨S131072x30x10, .f32⟩ : BufTy).Contents (Elt F)) (x2 : (⟨S1x30, .f32⟩ : BufTy).Contents (Elt F)) (i : S131072x30.Idx) :
    val_main_v15 (F := F) x0 x2 i = FloatOps.mulf (val_main_v13 (F := F) x0 i) (val_main_v14 (F := F) x2 i) := rfl

-- %16 = stablehlo.broadcast_in_dim %7, dims = [0, 1] : (tensor<131072x30xf32>) -> tensor<131072x30x1xf32>
def val_main_v16 (x0 : (⟨S131072x30x10, .f32⟩ : BufTy).Contents (Elt F)) (x1 : (⟨S1x30, .f32⟩ : BufTy).Contents (Elt F)) : (⟨S131072x30x1, .f32⟩ : BufTy).Contents (Elt F) :=
  broadcastInDim S131072x30x1 ![0, 1] bcast_S131072x30_S131072x30x1_0_1 (val_main_v7 (F := F) x0 x1)
abbrev idx_main_v16 (i : S131072x30x1.Idx) : S131072x30.Idx := fun a => match a with
  | ⟨0, _⟩ => ⟨(i 0).val, (i 0).isLt⟩
  | ⟨1, _⟩ => ⟨(i 1).val, (i 1).isLt⟩
theorem val_main_v16_apply (x0 : (⟨S131072x30x10, .f32⟩ : BufTy).Contents (Elt F)) (x1 : (⟨S1x30, .f32⟩ : BufTy).Contents (Elt F)) (i : S131072x30x1.Idx) :
    val_main_v16 (F := F) x0 x1 i = val_main_v7 (F := F) x0 x1 (idx_main_v16 i) := by
  unfold val_main_v16
  generalize val_main_v7 (F := F) x0 x1 = y
  exact broadcastInDim_apply _ bcast_S131072x30_S131072x30x1_0_1 y i (idx_main_v16 i) (fun a => match a with
    | ⟨0, _⟩ => by show (i 0).val = if (131072 : Nat) = 1 then 0 else (i 0).val; rw [if_neg (by decide)]
    | ⟨1, _⟩ => by show (i 1).val = if (30 : Nat) = 1 then 0 else (i 1).val; rw [if_neg (by decide)])

-- %17 = stablehlo.broadcast_in_dim %15, dims = [0, 1] : (tensor<131072x30xf32>) -> tensor<131072x30x1xf32>
def val_main_v17 (x0 : (⟨S131072x30x10, .f32⟩ : BufTy).Contents (Elt F)) (x2 : (⟨S1x30, .f32⟩ : BufTy).Contents (Elt F)) : (⟨S131072x30x1, .f32⟩ : BufTy).Contents (Elt F) :=
  broadcastInDim S131072x30x1 ![0, 1] bcast_S131072x30_S131072x30x1_0_1 (val_main_v15 (F := F) x0 x2)
abbrev idx_main_v17 (i : S131072x30x1.Idx) : S131072x30.Idx := fun a => match a with
  | ⟨0, _⟩ => ⟨(i 0).val, (i 0).isLt⟩
  | ⟨1, _⟩ => ⟨(i 1).val, (i 1).isLt⟩
theorem val_main_v17_apply (x0 : (⟨S131072x30x10, .f32⟩ : BufTy).Contents (Elt F)) (x2 : (⟨S1x30, .f32⟩ : BufTy).Contents (Elt F)) (i : S131072x30x1.Idx) :
    val_main_v17 (F := F) x0 x2 i = val_main_v15 (F := F) x0 x2 (idx_main_v17 i) := by
  unfold val_main_v17
  generalize val_main_v15 (F := F) x0 x2 = y
  exact broadcastInDim_apply _ bcast_S131072x30_S131072x30x1_0_1 y i (idx_main_v17 i) (fun a => match a with
    | ⟨0, _⟩ => by show (i 0).val = if (131072 : Nat) = 1 then 0 else (i 0).val; rw [if_neg (by decide)]
    | ⟨1, _⟩ => by show (i 1).val = if (30 : Nat) = 1 then 0 else (i 1).val; rw [if_neg (by decide)])

-- %18 = stablehlo.concatenate %16, %17, dim = 2 : (tensor<131072x30x1xf32>, tensor<131072x30x1xf32>) -> tensor<131072x30x2xf32>
def val_main_v18 (x0 : (⟨S131072x30x10, .f32⟩ : BufTy).Contents (Elt F)) (x1 x2 : (⟨S1x30, .f32⟩ : BufTy).Contents (Elt F)) : (⟨S131072x30x2, .f32⟩ : BufTy).Contents (Elt F) :=
  concatenate S131072x30x2 2 [⟨S131072x30x1, (val_main_v16 (F := F) x0 x1)⟩, ⟨S131072x30x1, (val_main_v17 (F := F) x0 x2)⟩] concatenates_S131072x30x1_S131072x30x1_S131072x30x2_d2

-- %19 = stablehlo.reshape %18 : (tensor<131072x30x2xf32>) -> tensor<3932160x2xf32>
def val_main_v19 (x0 : (⟨S131072x30x10, .f32⟩ : BufTy).Contents (Elt F)) (x1 x2 : (⟨S1x30, .f32⟩ : BufTy).Contents (Elt F)) : (⟨S3932160x2, .f32⟩ : BufTy).Contents (Elt F) :=
  shapeCast _ (val_main_v18 (F := F) x0 x1 x2) shapeCasts_S131072x30x2_S3932160x2
abbrev idx_main_v19 (i : S3932160x2.Idx) : S131072x30x2.Idx := fun a => match a with
  | ⟨0, _⟩ => ⟨((i 0).val * 2 + (i 1).val) / 60, by have h0 : (i 0).val < 3932160 := (i 0).isLt; have h1 : (i 1).val < 2 := (i 1).isLt; show ((i 0).val * 2 + (i 1).val) / 60 < 131072; omega⟩
  | ⟨1, _⟩ => ⟨((i 0).val * 2 + (i 1).val) / 2 % 30, by have h0 : (i 0).val < 3932160 := (i 0).isLt; have h1 : (i 1).val < 2 := (i 1).isLt; show ((i 0).val * 2 + (i 1).val) / 2 % 30 < 30; omega⟩
  | ⟨2, _⟩ => ⟨((i 0).val * 2 + (i 1).val) % 2, by have h0 : (i 0).val < 3932160 := (i 0).isLt; have h1 : (i 1).val < 2 := (i 1).isLt; show ((i 0).val * 2 + (i 1).val) % 2 < 2; omega⟩
theorem val_main_v19_apply (x0 : (⟨S131072x30x10, .f32⟩ : BufTy).Contents (Elt F)) (x1 x2 : (⟨S1x30, .f32⟩ : BufTy).Contents (Elt F)) (i : S3932160x2.Idx) :
    val_main_v19 (F := F) x0 x1 x2 i = val_main_v18 (F := F) x0 x1 x2 (idx_main_v19 i) := by
  unfold val_main_v19
  generalize val_main_v18 (F := F) x0 x1 x2 = y
  exact shapeCast_apply y shapeCasts_S131072x30x2_S3932160x2 i (idx_main_v19 i)
    (by rewrite [Shape.rowMajor_val_three, Shape.rowMajor_val_two]; have h0 : (i 0).val < 3932160 := (i 0).isLt; have h1 : (i 1).val < 2 := (i 1).isLt; show (((i 0).val * 2 + (i 1).val) / 60 * 30 + ((i 0).val * 2 + (i 1).val) / 2 % 30) * 2 + ((i 0).val * 2 + (i 1).val) % 2 = (i 0).val * 2 + (i 1).val; omega)

-- %cst = stablehlo.constant dense<0.000000e+00> : tensor<f32>
def val_main_cst : (⟨S_, .f32⟩ : BufTy).Contents (Elt F) :=
  constant S_ .f32 0x00000000#32
theorem val_main_cst_apply (i : S_.Idx) :
    val_main_cst (F := F) i = FloatOps.ofBits .f32 0x00000000#32 := rfl

-- %20 = stablehlo.broadcast_in_dim %cst, dims = [] : (tensor<f32>) -> tensor<9x2xf32>
def val_main_v20 : (⟨S9x2, .f32⟩ : BufTy).Contents (Elt F) :=
  broadcastInDim S9x2 ![] bcast_S_S9x2 (val_main_cst (F := F))
abbrev idx_main_v20 (i : S9x2.Idx) : S_.Idx := fun a => a.elim0
theorem val_main_v20_apply (i : S9x2.Idx) :
    val_main_v20 (F := F) i = val_main_cst (F := F) (idx_main_v20 i) := by
  unfold val_main_v20
  generalize val_main_cst (F := F) = y
  exact broadcastInDim_apply _ bcast_S_S9x2 y i (idx_main_v20 i) (fun a => a.elim0)

-- %21 = stablehlo.concatenate %20, %19, dim = 0 : (tensor<9x2xf32>, tensor<3932160x2xf32>) -> tensor<3932169x2xf32>
def val_main_v21 (x0 : (⟨S131072x30x10, .f32⟩ : BufTy).Contents (Elt F)) (x1 x2 : (⟨S1x30, .f32⟩ : BufTy).Contents (Elt F)) : (⟨S3932169x2, .f32⟩ : BufTy).Contents (Elt F) :=
  concatenate S3932169x2 0 [⟨S9x2, (val_main_v20 (F := F))⟩, ⟨S3932160x2, (val_main_v19 (F := F) x0 x1 x2)⟩] concatenates_S9x2_S3932160x2_S3932169x2_d0

-- %c = stablehlo.constant dense<9> : tensor<i32>
def val_main_c : (⟨S_, .i32⟩ : BufTy).Contents (Elt F) :=
  constantI S_ 32 9#32

-- %c_0 = stablehlo.constant dense<0> : tensor<i32>
def val_main_c_0 : (⟨S_, .i32⟩ : BufTy).Contents (Elt F) :=
  constantI S_ 32 0#32

-- %22 = stablehlo.dynamic_slice %21, %c, %c_0, sizes = [3932160, 2] : (tensor<3932169x2xf32>, tensor<i32>, tensor<i32>) -> tensor<3932160x2xf32>
def val_main_v22 (x0 : (⟨S131072x30x10, .f32⟩ : BufTy).Contents (Elt F)) (x1 x2 : (⟨S1x30, .f32⟩ : BufTy).Contents (Elt F)) : (⟨S3932160x2, .f32⟩ : BufTy).Contents (Elt F) :=
  Host.dynamicSlice S3932160x2 (val_main_v21 (F := F) x0 x1 x2) (fun k => (((![val_main_c (F := F), val_main_c_0 (F := F)] : Fin 2 → (⟨S_, .i32⟩ : BufTy).Contents (Elt F))) k (Shape.Idx.first h_S_)).toInt) sliceFits_S3932169x2_S3932160x2

-- %c_1 = stablehlo.constant dense<8> : tensor<i32>
def val_main_c_1 : (⟨S_, .i32⟩ : BufTy).Contents (Elt F) :=
  constantI S_ 32 8#32

-- %c_2 = stablehlo.constant dense<0> : tensor<i32>
def val_main_c_2 : (⟨S_, .i32⟩ : BufTy).Contents (Elt F) :=
  constantI S_ 32 0#32

-- %23 = stablehlo.dynamic_slice %21, %c_1, %c_2, sizes = [3932160, 2] : (tensor<3932169x2xf32>, tensor<i32>, tensor<i32>) -> tensor<3932160x2xf32>
def val_main_v23 (x0 : (⟨S131072x30x10, .f32⟩ : BufTy).Contents (Elt F)) (x1 x2 : (⟨S1x30, .f32⟩ : BufTy).Contents (Elt F)) : (⟨S3932160x2, .f32⟩ : BufTy).Contents (Elt F) :=
  Host.dynamicSlice S3932160x2 (val_main_v21 (F := F) x0 x1 x2) (fun k => (((![val_main_c_1 (F := F), val_main_c_2 (F := F)] : Fin 2 → (⟨S_, .i32⟩ : BufTy).Contents (Elt F))) k (Shape.Idx.first h_S_)).toInt) sliceFits_S3932169x2_S3932160x2

-- %c_3 = stablehlo.constant dense<7> : tensor<i32>
def val_main_c_3 : (⟨S_, .i32⟩ : BufTy).Contents (Elt F) :=
  constantI S_ 32 7#32

-- %c_4 = stablehlo.constant dense<0> : tensor<i32>
def val_main_c_4 : (⟨S_, .i32⟩ : BufTy).Contents (Elt F) :=
  constantI S_ 32 0#32

-- %24 = stablehlo.dynamic_slice %21, %c_3, %c_4, sizes = [3932160, 2] : (tensor<3932169x2xf32>, tensor<i32>, tensor<i32>) -> tensor<3932160x2xf32>
def val_main_v24 (x0 : (⟨S131072x30x10, .f32⟩ : BufTy).Contents (Elt F)) (x1 x2 : (⟨S1x30, .f32⟩ : BufTy).Contents (Elt F)) : (⟨S3932160x2, .f32⟩ : BufTy).Contents (Elt F) :=
  Host.dynamicSlice S3932160x2 (val_main_v21 (F := F) x0 x1 x2) (fun k => (((![val_main_c_3 (F := F), val_main_c_4 (F := F)] : Fin 2 → (⟨S_, .i32⟩ : BufTy).Contents (Elt F))) k (Shape.Idx.first h_S_)).toInt) sliceFits_S3932169x2_S3932160x2

-- %c_5 = stablehlo.constant dense<6> : tensor<i32>
def val_main_c_5 : (⟨S_, .i32⟩ : BufTy).Contents (Elt F) :=
  constantI S_ 32 6#32

-- %c_6 = stablehlo.constant dense<0> : tensor<i32>
def val_main_c_6 : (⟨S_, .i32⟩ : BufTy).Contents (Elt F) :=
  constantI S_ 32 0#32

-- %25 = stablehlo.dynamic_slice %21, %c_5, %c_6, sizes = [3932160, 2] : (tensor<3932169x2xf32>, tensor<i32>, tensor<i32>) -> tensor<3932160x2xf32>
def val_main_v25 (x0 : (⟨S131072x30x10, .f32⟩ : BufTy).Contents (Elt F)) (x1 x2 : (⟨S1x30, .f32⟩ : BufTy).Contents (Elt F)) : (⟨S3932160x2, .f32⟩ : BufTy).Contents (Elt F) :=
  Host.dynamicSlice S3932160x2 (val_main_v21 (F := F) x0 x1 x2) (fun k => (((![val_main_c_5 (F := F), val_main_c_6 (F := F)] : Fin 2 → (⟨S_, .i32⟩ : BufTy).Contents (Elt F))) k (Shape.Idx.first h_S_)).toInt) sliceFits_S3932169x2_S3932160x2

-- %c_7 = stablehlo.constant dense<5> : tensor<i32>
def val_main_c_7 : (⟨S_, .i32⟩ : BufTy).Contents (Elt F) :=
  constantI S_ 32 5#32

-- %c_8 = stablehlo.constant dense<0> : tensor<i32>
def val_main_c_8 : (⟨S_, .i32⟩ : BufTy).Contents (Elt F) :=
  constantI S_ 32 0#32

-- %26 = stablehlo.dynamic_slice %21, %c_7, %c_8, sizes = [3932160, 2] : (tensor<3932169x2xf32>, tensor<i32>, tensor<i32>) -> tensor<3932160x2xf32>
def val_main_v26 (x0 : (⟨S131072x30x10, .f32⟩ : BufTy).Contents (Elt F)) (x1 x2 : (⟨S1x30, .f32⟩ : BufTy).Contents (Elt F)) : (⟨S3932160x2, .f32⟩ : BufTy).Contents (Elt F) :=
  Host.dynamicSlice S3932160x2 (val_main_v21 (F := F) x0 x1 x2) (fun k => (((![val_main_c_7 (F := F), val_main_c_8 (F := F)] : Fin 2 → (⟨S_, .i32⟩ : BufTy).Contents (Elt F))) k (Shape.Idx.first h_S_)).toInt) sliceFits_S3932169x2_S3932160x2

-- %c_9 = stablehlo.constant dense<4> : tensor<i32>
def val_main_c_9 : (⟨S_, .i32⟩ : BufTy).Contents (Elt F) :=
  constantI S_ 32 4#32

-- %c_10 = stablehlo.constant dense<0> : tensor<i32>
def val_main_c_10 : (⟨S_, .i32⟩ : BufTy).Contents (Elt F) :=
  constantI S_ 32 0#32

-- %27 = stablehlo.dynamic_slice %21, %c_9, %c_10, sizes = [3932160, 2] : (tensor<3932169x2xf32>, tensor<i32>, tensor<i32>) -> tensor<3932160x2xf32>
def val_main_v27 (x0 : (⟨S131072x30x10, .f32⟩ : BufTy).Contents (Elt F)) (x1 x2 : (⟨S1x30, .f32⟩ : BufTy).Contents (Elt F)) : (⟨S3932160x2, .f32⟩ : BufTy).Contents (Elt F) :=
  Host.dynamicSlice S3932160x2 (val_main_v21 (F := F) x0 x1 x2) (fun k => (((![val_main_c_9 (F := F), val_main_c_10 (F := F)] : Fin 2 → (⟨S_, .i32⟩ : BufTy).Contents (Elt F))) k (Shape.Idx.first h_S_)).toInt) sliceFits_S3932169x2_S3932160x2

-- %c_11 = stablehlo.constant dense<3> : tensor<i32>
def val_main_c_11 : (⟨S_, .i32⟩ : BufTy).Contents (Elt F) :=
  constantI S_ 32 3#32

-- %c_12 = stablehlo.constant dense<0> : tensor<i32>
def val_main_c_12 : (⟨S_, .i32⟩ : BufTy).Contents (Elt F) :=
  constantI S_ 32 0#32

-- %28 = stablehlo.dynamic_slice %21, %c_11, %c_12, sizes = [3932160, 2] : (tensor<3932169x2xf32>, tensor<i32>, tensor<i32>) -> tensor<3932160x2xf32>
def val_main_v28 (x0 : (⟨S131072x30x10, .f32⟩ : BufTy).Contents (Elt F)) (x1 x2 : (⟨S1x30, .f32⟩ : BufTy).Contents (Elt F)) : (⟨S3932160x2, .f32⟩ : BufTy).Contents (Elt F) :=
  Host.dynamicSlice S3932160x2 (val_main_v21 (F := F) x0 x1 x2) (fun k => (((![val_main_c_11 (F := F), val_main_c_12 (F := F)] : Fin 2 → (⟨S_, .i32⟩ : BufTy).Contents (Elt F))) k (Shape.Idx.first h_S_)).toInt) sliceFits_S3932169x2_S3932160x2

-- %c_13 = stablehlo.constant dense<2> : tensor<i32>
def val_main_c_13 : (⟨S_, .i32⟩ : BufTy).Contents (Elt F) :=
  constantI S_ 32 2#32

-- %c_14 = stablehlo.constant dense<0> : tensor<i32>
def val_main_c_14 : (⟨S_, .i32⟩ : BufTy).Contents (Elt F) :=
  constantI S_ 32 0#32

-- %29 = stablehlo.dynamic_slice %21, %c_13, %c_14, sizes = [3932160, 2] : (tensor<3932169x2xf32>, tensor<i32>, tensor<i32>) -> tensor<3932160x2xf32>
def val_main_v29 (x0 : (⟨S131072x30x10, .f32⟩ : BufTy).Contents (Elt F)) (x1 x2 : (⟨S1x30, .f32⟩ : BufTy).Contents (Elt F)) : (⟨S3932160x2, .f32⟩ : BufTy).Contents (Elt F) :=
  Host.dynamicSlice S3932160x2 (val_main_v21 (F := F) x0 x1 x2) (fun k => (((![val_main_c_13 (F := F), val_main_c_14 (F := F)] : Fin 2 → (⟨S_, .i32⟩ : BufTy).Contents (Elt F))) k (Shape.Idx.first h_S_)).toInt) sliceFits_S3932169x2_S3932160x2

-- %c_15 = stablehlo.constant dense<1> : tensor<i32>
def val_main_c_15 : (⟨S_, .i32⟩ : BufTy).Contents (Elt F) :=
  constantI S_ 32 1#32

-- %c_16 = stablehlo.constant dense<0> : tensor<i32>
def val_main_c_16 : (⟨S_, .i32⟩ : BufTy).Contents (Elt F) :=
  constantI S_ 32 0#32

-- %30 = stablehlo.dynamic_slice %21, %c_15, %c_16, sizes = [3932160, 2] : (tensor<3932169x2xf32>, tensor<i32>, tensor<i32>) -> tensor<3932160x2xf32>
def val_main_v30 (x0 : (⟨S131072x30x10, .f32⟩ : BufTy).Contents (Elt F)) (x1 x2 : (⟨S1x30, .f32⟩ : BufTy).Contents (Elt F)) : (⟨S3932160x2, .f32⟩ : BufTy).Contents (Elt F) :=
  Host.dynamicSlice S3932160x2 (val_main_v21 (F := F) x0 x1 x2) (fun k => (((![val_main_c_15 (F := F), val_main_c_16 (F := F)] : Fin 2 → (⟨S_, .i32⟩ : BufTy).Contents (Elt F))) k (Shape.Idx.first h_S_)).toInt) sliceFits_S3932169x2_S3932160x2

-- %c_17 = stablehlo.constant dense<0> : tensor<i32>
def val_main_c_17 : (⟨S_, .i32⟩ : BufTy).Contents (Elt F) :=
  constantI S_ 32 0#32

-- %c_18 = stablehlo.constant dense<0> : tensor<i32>
def val_main_c_18 : (⟨S_, .i32⟩ : BufTy).Contents (Elt F) :=
  constantI S_ 32 0#32

-- %31 = stablehlo.dynamic_slice %21, %c_17, %c_18, sizes = [3932160, 2] : (tensor<3932169x2xf32>, tensor<i32>, tensor<i32>) -> tensor<3932160x2xf32>
def val_main_v31 (x0 : (⟨S131072x30x10, .f32⟩ : BufTy).Contents (Elt F)) (x1 x2 : (⟨S1x30, .f32⟩ : BufTy).Contents (Elt F)) : (⟨S3932160x2, .f32⟩ : BufTy).Contents (Elt F) :=
  Host.dynamicSlice S3932160x2 (val_main_v21 (F := F) x0 x1 x2) (fun k => (((![val_main_c_17 (F := F), val_main_c_18 (F := F)] : Fin 2 → (⟨S_, .i32⟩ : BufTy).Contents (Elt F))) k (Shape.Idx.first h_S_)).toInt) sliceFits_S3932169x2_S3932160x2

-- %32 = stablehlo.broadcast_in_dim %22, dims = [0, 2] : (tensor<3932160x2xf32>) -> tensor<3932160x1x2xf32>
def val_main_v32 (x0 : (⟨S131072x30x10, .f32⟩ : BufTy).Contents (Elt F)) (x1 x2 : (⟨S1x30, .f32⟩ : BufTy).Contents (Elt F)) : (⟨S3932160x1x2, .f32⟩ : BufTy).Contents (Elt F) :=
  broadcastInDim S3932160x1x2 ![0, 2] bcast_S3932160x2_S3932160x1x2_0_2 (val_main_v22 (F := F) x0 x1 x2)
abbrev idx_main_v32 (i : S3932160x1x2.Idx) : S3932160x2.Idx := fun a => match a with
  | ⟨0, _⟩ => ⟨(i 0).val, (i 0).isLt⟩
  | ⟨1, _⟩ => ⟨(i 2).val, (i 2).isLt⟩
theorem val_main_v32_apply (x0 : (⟨S131072x30x10, .f32⟩ : BufTy).Contents (Elt F)) (x1 x2 : (⟨S1x30, .f32⟩ : BufTy).Contents (Elt F)) (i : S3932160x1x2.Idx) :
    val_main_v32 (F := F) x0 x1 x2 i = val_main_v22 (F := F) x0 x1 x2 (idx_main_v32 i) := by
  unfold val_main_v32
  generalize val_main_v22 (F := F) x0 x1 x2 = y
  exact broadcastInDim_apply _ bcast_S3932160x2_S3932160x1x2_0_2 y i (idx_main_v32 i) (fun a => match a with
    | ⟨0, _⟩ => by show (i 0).val = if (3932160 : Nat) = 1 then 0 else (i 0).val; rw [if_neg (by decide)]
    | ⟨1, _⟩ => by show (i 2).val = if (2 : Nat) = 1 then 0 else (i 2).val; rw [if_neg (by decide)])

-- %33 = stablehlo.broadcast_in_dim %23, dims = [0, 2] : (tensor<3932160x2xf32>) -> tensor<3932160x1x2xf32>
def val_main_v33 (x0 : (⟨S131072x30x10, .f32⟩ : BufTy).Contents (Elt F)) (x1 x2 : (⟨S1x30, .f32⟩ : BufTy).Contents (Elt F)) : (⟨S3932160x1x2, .f32⟩ : BufTy).Contents (Elt F) :=
  broadcastInDim S3932160x1x2 ![0, 2] bcast_S3932160x2_S3932160x1x2_0_2 (val_main_v23 (F := F) x0 x1 x2)
abbrev idx_main_v33 (i : S3932160x1x2.Idx) : S3932160x2.Idx := fun a => match a with
  | ⟨0, _⟩ => ⟨(i 0).val, (i 0).isLt⟩
  | ⟨1, _⟩ => ⟨(i 2).val, (i 2).isLt⟩
theorem val_main_v33_apply (x0 : (⟨S131072x30x10, .f32⟩ : BufTy).Contents (Elt F)) (x1 x2 : (⟨S1x30, .f32⟩ : BufTy).Contents (Elt F)) (i : S3932160x1x2.Idx) :
    val_main_v33 (F := F) x0 x1 x2 i = val_main_v23 (F := F) x0 x1 x2 (idx_main_v33 i) := by
  unfold val_main_v33
  generalize val_main_v23 (F := F) x0 x1 x2 = y
  exact broadcastInDim_apply _ bcast_S3932160x2_S3932160x1x2_0_2 y i (idx_main_v33 i) (fun a => match a with
    | ⟨0, _⟩ => by show (i 0).val = if (3932160 : Nat) = 1 then 0 else (i 0).val; rw [if_neg (by decide)]
    | ⟨1, _⟩ => by show (i 2).val = if (2 : Nat) = 1 then 0 else (i 2).val; rw [if_neg (by decide)])

-- %34 = stablehlo.broadcast_in_dim %24, dims = [0, 2] : (tensor<3932160x2xf32>) -> tensor<3932160x1x2xf32>
def val_main_v34 (x0 : (⟨S131072x30x10, .f32⟩ : BufTy).Contents (Elt F)) (x1 x2 : (⟨S1x30, .f32⟩ : BufTy).Contents (Elt F)) : (⟨S3932160x1x2, .f32⟩ : BufTy).Contents (Elt F) :=
  broadcastInDim S3932160x1x2 ![0, 2] bcast_S3932160x2_S3932160x1x2_0_2 (val_main_v24 (F := F) x0 x1 x2)
abbrev idx_main_v34 (i : S3932160x1x2.Idx) : S3932160x2.Idx := fun a => match a with
  | ⟨0, _⟩ => ⟨(i 0).val, (i 0).isLt⟩
  | ⟨1, _⟩ => ⟨(i 2).val, (i 2).isLt⟩
theorem val_main_v34_apply (x0 : (⟨S131072x30x10, .f32⟩ : BufTy).Contents (Elt F)) (x1 x2 : (⟨S1x30, .f32⟩ : BufTy).Contents (Elt F)) (i : S3932160x1x2.Idx) :
    val_main_v34 (F := F) x0 x1 x2 i = val_main_v24 (F := F) x0 x1 x2 (idx_main_v34 i) := by
  unfold val_main_v34
  generalize val_main_v24 (F := F) x0 x1 x2 = y
  exact broadcastInDim_apply _ bcast_S3932160x2_S3932160x1x2_0_2 y i (idx_main_v34 i) (fun a => match a with
    | ⟨0, _⟩ => by show (i 0).val = if (3932160 : Nat) = 1 then 0 else (i 0).val; rw [if_neg (by decide)]
    | ⟨1, _⟩ => by show (i 2).val = if (2 : Nat) = 1 then 0 else (i 2).val; rw [if_neg (by decide)])

-- %35 = stablehlo.broadcast_in_dim %25, dims = [0, 2] : (tensor<3932160x2xf32>) -> tensor<3932160x1x2xf32>
def val_main_v35 (x0 : (⟨S131072x30x10, .f32⟩ : BufTy).Contents (Elt F)) (x1 x2 : (⟨S1x30, .f32⟩ : BufTy).Contents (Elt F)) : (⟨S3932160x1x2, .f32⟩ : BufTy).Contents (Elt F) :=
  broadcastInDim S3932160x1x2 ![0, 2] bcast_S3932160x2_S3932160x1x2_0_2 (val_main_v25 (F := F) x0 x1 x2)
abbrev idx_main_v35 (i : S3932160x1x2.Idx) : S3932160x2.Idx := fun a => match a with
  | ⟨0, _⟩ => ⟨(i 0).val, (i 0).isLt⟩
  | ⟨1, _⟩ => ⟨(i 2).val, (i 2).isLt⟩
theorem val_main_v35_apply (x0 : (⟨S131072x30x10, .f32⟩ : BufTy).Contents (Elt F)) (x1 x2 : (⟨S1x30, .f32⟩ : BufTy).Contents (Elt F)) (i : S3932160x1x2.Idx) :
    val_main_v35 (F := F) x0 x1 x2 i = val_main_v25 (F := F) x0 x1 x2 (idx_main_v35 i) := by
  unfold val_main_v35
  generalize val_main_v25 (F := F) x0 x1 x2 = y
  exact broadcastInDim_apply _ bcast_S3932160x2_S3932160x1x2_0_2 y i (idx_main_v35 i) (fun a => match a with
    | ⟨0, _⟩ => by show (i 0).val = if (3932160 : Nat) = 1 then 0 else (i 0).val; rw [if_neg (by decide)]
    | ⟨1, _⟩ => by show (i 2).val = if (2 : Nat) = 1 then 0 else (i 2).val; rw [if_neg (by decide)])

-- %36 = stablehlo.broadcast_in_dim %26, dims = [0, 2] : (tensor<3932160x2xf32>) -> tensor<3932160x1x2xf32>
def val_main_v36 (x0 : (⟨S131072x30x10, .f32⟩ : BufTy).Contents (Elt F)) (x1 x2 : (⟨S1x30, .f32⟩ : BufTy).Contents (Elt F)) : (⟨S3932160x1x2, .f32⟩ : BufTy).Contents (Elt F) :=
  broadcastInDim S3932160x1x2 ![0, 2] bcast_S3932160x2_S3932160x1x2_0_2 (val_main_v26 (F := F) x0 x1 x2)
abbrev idx_main_v36 (i : S3932160x1x2.Idx) : S3932160x2.Idx := fun a => match a with
  | ⟨0, _⟩ => ⟨(i 0).val, (i 0).isLt⟩
  | ⟨1, _⟩ => ⟨(i 2).val, (i 2).isLt⟩
theorem val_main_v36_apply (x0 : (⟨S131072x30x10, .f32⟩ : BufTy).Contents (Elt F)) (x1 x2 : (⟨S1x30, .f32⟩ : BufTy).Contents (Elt F)) (i : S3932160x1x2.Idx) :
    val_main_v36 (F := F) x0 x1 x2 i = val_main_v26 (F := F) x0 x1 x2 (idx_main_v36 i) := by
  unfold val_main_v36
  generalize val_main_v26 (F := F) x0 x1 x2 = y
  exact broadcastInDim_apply _ bcast_S3932160x2_S3932160x1x2_0_2 y i (idx_main_v36 i) (fun a => match a with
    | ⟨0, _⟩ => by show (i 0).val = if (3932160 : Nat) = 1 then 0 else (i 0).val; rw [if_neg (by decide)]
    | ⟨1, _⟩ => by show (i 2).val = if (2 : Nat) = 1 then 0 else (i 2).val; rw [if_neg (by decide)])

-- %37 = stablehlo.broadcast_in_dim %27, dims = [0, 2] : (tensor<3932160x2xf32>) -> tensor<3932160x1x2xf32>
def val_main_v37 (x0 : (⟨S131072x30x10, .f32⟩ : BufTy).Contents (Elt F)) (x1 x2 : (⟨S1x30, .f32⟩ : BufTy).Contents (Elt F)) : (⟨S3932160x1x2, .f32⟩ : BufTy).Contents (Elt F) :=
  broadcastInDim S3932160x1x2 ![0, 2] bcast_S3932160x2_S3932160x1x2_0_2 (val_main_v27 (F := F) x0 x1 x2)
abbrev idx_main_v37 (i : S3932160x1x2.Idx) : S3932160x2.Idx := fun a => match a with
  | ⟨0, _⟩ => ⟨(i 0).val, (i 0).isLt⟩
  | ⟨1, _⟩ => ⟨(i 2).val, (i 2).isLt⟩
theorem val_main_v37_apply (x0 : (⟨S131072x30x10, .f32⟩ : BufTy).Contents (Elt F)) (x1 x2 : (⟨S1x30, .f32⟩ : BufTy).Contents (Elt F)) (i : S3932160x1x2.Idx) :
    val_main_v37 (F := F) x0 x1 x2 i = val_main_v27 (F := F) x0 x1 x2 (idx_main_v37 i) := by
  unfold val_main_v37
  generalize val_main_v27 (F := F) x0 x1 x2 = y
  exact broadcastInDim_apply _ bcast_S3932160x2_S3932160x1x2_0_2 y i (idx_main_v37 i) (fun a => match a with
    | ⟨0, _⟩ => by show (i 0).val = if (3932160 : Nat) = 1 then 0 else (i 0).val; rw [if_neg (by decide)]
    | ⟨1, _⟩ => by show (i 2).val = if (2 : Nat) = 1 then 0 else (i 2).val; rw [if_neg (by decide)])

-- %38 = stablehlo.broadcast_in_dim %28, dims = [0, 2] : (tensor<3932160x2xf32>) -> tensor<3932160x1x2xf32>
def val_main_v38 (x0 : (⟨S131072x30x10, .f32⟩ : BufTy).Contents (Elt F)) (x1 x2 : (⟨S1x30, .f32⟩ : BufTy).Contents (Elt F)) : (⟨S3932160x1x2, .f32⟩ : BufTy).Contents (Elt F) :=
  broadcastInDim S3932160x1x2 ![0, 2] bcast_S3932160x2_S3932160x1x2_0_2 (val_main_v28 (F := F) x0 x1 x2)
abbrev idx_main_v38 (i : S3932160x1x2.Idx) : S3932160x2.Idx := fun a => match a with
  | ⟨0, _⟩ => ⟨(i 0).val, (i 0).isLt⟩
  | ⟨1, _⟩ => ⟨(i 2).val, (i 2).isLt⟩
theorem val_main_v38_apply (x0 : (⟨S131072x30x10, .f32⟩ : BufTy).Contents (Elt F)) (x1 x2 : (⟨S1x30, .f32⟩ : BufTy).Contents (Elt F)) (i : S3932160x1x2.Idx) :
    val_main_v38 (F := F) x0 x1 x2 i = val_main_v28 (F := F) x0 x1 x2 (idx_main_v38 i) := by
  unfold val_main_v38
  generalize val_main_v28 (F := F) x0 x1 x2 = y
  exact broadcastInDim_apply _ bcast_S3932160x2_S3932160x1x2_0_2 y i (idx_main_v38 i) (fun a => match a with
    | ⟨0, _⟩ => by show (i 0).val = if (3932160 : Nat) = 1 then 0 else (i 0).val; rw [if_neg (by decide)]
    | ⟨1, _⟩ => by show (i 2).val = if (2 : Nat) = 1 then 0 else (i 2).val; rw [if_neg (by decide)])

-- %39 = stablehlo.broadcast_in_dim %29, dims = [0, 2] : (tensor<3932160x2xf32>) -> tensor<3932160x1x2xf32>
def val_main_v39 (x0 : (⟨S131072x30x10, .f32⟩ : BufTy).Contents (Elt F)) (x1 x2 : (⟨S1x30, .f32⟩ : BufTy).Contents (Elt F)) : (⟨S3932160x1x2, .f32⟩ : BufTy).Contents (Elt F) :=
  broadcastInDim S3932160x1x2 ![0, 2] bcast_S3932160x2_S3932160x1x2_0_2 (val_main_v29 (F := F) x0 x1 x2)
abbrev idx_main_v39 (i : S3932160x1x2.Idx) : S3932160x2.Idx := fun a => match a with
  | ⟨0, _⟩ => ⟨(i 0).val, (i 0).isLt⟩
  | ⟨1, _⟩ => ⟨(i 2).val, (i 2).isLt⟩
theorem val_main_v39_apply (x0 : (⟨S131072x30x10, .f32⟩ : BufTy).Contents (Elt F)) (x1 x2 : (⟨S1x30, .f32⟩ : BufTy).Contents (Elt F)) (i : S3932160x1x2.Idx) :
    val_main_v39 (F := F) x0 x1 x2 i = val_main_v29 (F := F) x0 x1 x2 (idx_main_v39 i) := by
  unfold val_main_v39
  generalize val_main_v29 (F := F) x0 x1 x2 = y
  exact broadcastInDim_apply _ bcast_S3932160x2_S3932160x1x2_0_2 y i (idx_main_v39 i) (fun a => match a with
    | ⟨0, _⟩ => by show (i 0).val = if (3932160 : Nat) = 1 then 0 else (i 0).val; rw [if_neg (by decide)]
    | ⟨1, _⟩ => by show (i 2).val = if (2 : Nat) = 1 then 0 else (i 2).val; rw [if_neg (by decide)])

-- %40 = stablehlo.broadcast_in_dim %30, dims = [0, 2] : (tensor<3932160x2xf32>) -> tensor<3932160x1x2xf32>
def val_main_v40 (x0 : (⟨S131072x30x10, .f32⟩ : BufTy).Contents (Elt F)) (x1 x2 : (⟨S1x30, .f32⟩ : BufTy).Contents (Elt F)) : (⟨S3932160x1x2, .f32⟩ : BufTy).Contents (Elt F) :=
  broadcastInDim S3932160x1x2 ![0, 2] bcast_S3932160x2_S3932160x1x2_0_2 (val_main_v30 (F := F) x0 x1 x2)
abbrev idx_main_v40 (i : S3932160x1x2.Idx) : S3932160x2.Idx := fun a => match a with
  | ⟨0, _⟩ => ⟨(i 0).val, (i 0).isLt⟩
  | ⟨1, _⟩ => ⟨(i 2).val, (i 2).isLt⟩
theorem val_main_v40_apply (x0 : (⟨S131072x30x10, .f32⟩ : BufTy).Contents (Elt F)) (x1 x2 : (⟨S1x30, .f32⟩ : BufTy).Contents (Elt F)) (i : S3932160x1x2.Idx) :
    val_main_v40 (F := F) x0 x1 x2 i = val_main_v30 (F := F) x0 x1 x2 (idx_main_v40 i) := by
  unfold val_main_v40
  generalize val_main_v30 (F := F) x0 x1 x2 = y
  exact broadcastInDim_apply _ bcast_S3932160x2_S3932160x1x2_0_2 y i (idx_main_v40 i) (fun a => match a with
    | ⟨0, _⟩ => by show (i 0).val = if (3932160 : Nat) = 1 then 0 else (i 0).val; rw [if_neg (by decide)]
    | ⟨1, _⟩ => by show (i 2).val = if (2 : Nat) = 1 then 0 else (i 2).val; rw [if_neg (by decide)])

-- %41 = stablehlo.broadcast_in_dim %31, dims = [0, 2] : (tensor<3932160x2xf32>) -> tensor<3932160x1x2xf32>
def val_main_v41 (x0 : (⟨S131072x30x10, .f32⟩ : BufTy).Contents (Elt F)) (x1 x2 : (⟨S1x30, .f32⟩ : BufTy).Contents (Elt F)) : (⟨S3932160x1x2, .f32⟩ : BufTy).Contents (Elt F) :=
  broadcastInDim S3932160x1x2 ![0, 2] bcast_S3932160x2_S3932160x1x2_0_2 (val_main_v31 (F := F) x0 x1 x2)
abbrev idx_main_v41 (i : S3932160x1x2.Idx) : S3932160x2.Idx := fun a => match a with
  | ⟨0, _⟩ => ⟨(i 0).val, (i 0).isLt⟩
  | ⟨1, _⟩ => ⟨(i 2).val, (i 2).isLt⟩
theorem val_main_v41_apply (x0 : (⟨S131072x30x10, .f32⟩ : BufTy).Contents (Elt F)) (x1 x2 : (⟨S1x30, .f32⟩ : BufTy).Contents (Elt F)) (i : S3932160x1x2.Idx) :
    val_main_v41 (F := F) x0 x1 x2 i = val_main_v31 (F := F) x0 x1 x2 (idx_main_v41 i) := by
  unfold val_main_v41
  generalize val_main_v31 (F := F) x0 x1 x2 = y
  exact broadcastInDim_apply _ bcast_S3932160x2_S3932160x1x2_0_2 y i (idx_main_v41 i) (fun a => match a with
    | ⟨0, _⟩ => by show (i 0).val = if (3932160 : Nat) = 1 then 0 else (i 0).val; rw [if_neg (by decide)]
    | ⟨1, _⟩ => by show (i 2).val = if (2 : Nat) = 1 then 0 else (i 2).val; rw [if_neg (by decide)])

-- %42 = stablehlo.concatenate %32, %33, %34, %35, %36, %37, %38, %39, %40, %41, dim = 1 : (tensor<3932160x1x2xf32>, tensor<3932160x1x2xf32>, tensor<3932160x1x2xf32>, tensor<3932160x1x2xf32>, tensor<3932160x1x2xf32>, tensor<3932160x1x2xf32>, tensor<3932160x1x2xf32>, tensor<3932160x1x2xf32>, tensor<3932160x1x2xf32>, tensor<3932160x1x2xf32>) -> tensor<3932160x10x2xf32>
def val_main_v42 (x0 : (⟨S131072x30x10, .f32⟩ : BufTy).Contents (Elt F)) (x1 x2 : (⟨S1x30, .f32⟩ : BufTy).Contents (Elt F)) : (⟨S3932160x10x2, .f32⟩ : BufTy).Contents (Elt F) :=
  concatenate S3932160x10x2 1 [⟨S3932160x1x2, (val_main_v32 (F := F) x0 x1 x2)⟩, ⟨S3932160x1x2, (val_main_v33 (F := F) x0 x1 x2)⟩, ⟨S3932160x1x2, (val_main_v34 (F := F) x0 x1 x2)⟩, ⟨S3932160x1x2, (val_main_v35 (F := F) x0 x1 x2)⟩, ⟨S3932160x1x2, (val_main_v36 (F := F) x0 x1 x2)⟩, ⟨S3932160x1x2, (val_main_v37 (F := F) x0 x1 x2)⟩, ⟨S3932160x1x2, (val_main_v38 (F := F) x0 x1 x2)⟩, ⟨S3932160x1x2, (val_main_v39 (F := F) x0 x1 x2)⟩, ⟨S3932160x1x2, (val_main_v40 (F := F) x0 x1 x2)⟩, ⟨S3932160x1x2, (val_main_v41 (F := F) x0 x1 x2)⟩] concatenates_S3932160x1x2_S3932160x1x2_S3932160x1x2_S3932160x1x2_S3932160x1x2_S3932160x1x2_S3932160x1x2_S3932160x1x2_S3932160x1x2_S3932160x1x2_S3932160x10x2_d1

-- %43 = stablehlo.reshape %42 : (tensor<3932160x10x2xf32>) -> tensor<3932160x20xf32>
def val_main_v43 (x0 : (⟨S131072x30x10, .f32⟩ : BufTy).Contents (Elt F)) (x1 x2 : (⟨S1x30, .f32⟩ : BufTy).Contents (Elt F)) : (⟨S3932160x20, .f32⟩ : BufTy).Contents (Elt F) :=
  shapeCast _ (val_main_v42 (F := F) x0 x1 x2) shapeCasts_S3932160x10x2_S3932160x20
abbrev idx_main_v43 (i : S3932160x20.Idx) : S3932160x10x2.Idx := fun a => match a with
  | ⟨0, _⟩ => ⟨((i 0).val * 20 + (i 1).val) / 20, by have h0 : (i 0).val < 3932160 := (i 0).isLt; have h1 : (i 1).val < 20 := (i 1).isLt; show ((i 0).val * 20 + (i 1).val) / 20 < 3932160; omega⟩
  | ⟨1, _⟩ => ⟨((i 0).val * 20 + (i 1).val) / 2 % 10, by have h0 : (i 0).val < 3932160 := (i 0).isLt; have h1 : (i 1).val < 20 := (i 1).isLt; show ((i 0).val * 20 + (i 1).val) / 2 % 10 < 10; omega⟩
  | ⟨2, _⟩ => ⟨((i 0).val * 20 + (i 1).val) % 2, by have h0 : (i 0).val < 3932160 := (i 0).isLt; have h1 : (i 1).val < 20 := (i 1).isLt; show ((i 0).val * 20 + (i 1).val) % 2 < 2; omega⟩
theorem val_main_v43_apply (x0 : (⟨S131072x30x10, .f32⟩ : BufTy).Contents (Elt F)) (x1 x2 : (⟨S1x30, .f32⟩ : BufTy).Contents (Elt F)) (i : S3932160x20.Idx) :
    val_main_v43 (F := F) x0 x1 x2 i = val_main_v42 (F := F) x0 x1 x2 (idx_main_v43 i) := by
  unfold val_main_v43
  generalize val_main_v42 (F := F) x0 x1 x2 = y
  exact shapeCast_apply y shapeCasts_S3932160x10x2_S3932160x20 i (idx_main_v43 i)
    (by rewrite [Shape.rowMajor_val_three, Shape.rowMajor_val_two]; have h0 : (i 0).val < 3932160 := (i 0).isLt; have h1 : (i 1).val < 20 := (i 1).isLt; show (((i 0).val * 20 + (i 1).val) / 20 * 10 + ((i 0).val * 20 + (i 1).val) / 2 % 10) * 2 + ((i 0).val * 20 + (i 1).val) % 2 = (i 0).val * 20 + (i 1).val; omega)

-- %44 = stablehlo.reshape %43 : (tensor<3932160x20xf32>) -> tensor<30x131072x20xf32>
def val_main_v44 (x0 : (⟨S131072x30x10, .f32⟩ : BufTy).Contents (Elt F)) (x1 x2 : (⟨S1x30, .f32⟩ : BufTy).Contents (Elt F)) : (⟨S30x131072x20, .f32⟩ : BufTy).Contents (Elt F) :=
  shapeCast _ (val_main_v43 (F := F) x0 x1 x2) shapeCasts_S3932160x20_S30x131072x20
abbrev idx_main_v44 (i : S30x131072x20.Idx) : S3932160x20.Idx := fun a => match a with
  | ⟨0, _⟩ => ⟨(((i 0).val * 131072 + (i 1).val) * 20 + (i 2).val) / 20, by have h0 : (i 0).val < 30 := (i 0).isLt; have h1 : (i 1).val < 131072 := (i 1).isLt; have h2 : (i 2).val < 20 := (i 2).isLt; show (((i 0).val * 131072 + (i 1).val) * 20 + (i 2).val) / 20 < 3932160; omega⟩
  | ⟨1, _⟩ => ⟨(((i 0).val * 131072 + (i 1).val) * 20 + (i 2).val) % 20, by have h0 : (i 0).val < 30 := (i 0).isLt; have h1 : (i 1).val < 131072 := (i 1).isLt; have h2 : (i 2).val < 20 := (i 2).isLt; show (((i 0).val * 131072 + (i 1).val) * 20 + (i 2).val) % 20 < 20; omega⟩
theorem val_main_v44_apply (x0 : (⟨S131072x30x10, .f32⟩ : BufTy).Contents (Elt F)) (x1 x2 : (⟨S1x30, .f32⟩ : BufTy).Contents (Elt F)) (i : S30x131072x20.Idx) :
    val_main_v44 (F := F) x0 x1 x2 i = val_main_v43 (F := F) x0 x1 x2 (idx_main_v44 i) := by
  unfold val_main_v44
  generalize val_main_v43 (F := F) x0 x1 x2 = y
  exact shapeCast_apply y shapeCasts_S3932160x20_S30x131072x20 i (idx_main_v44 i)
    (by rewrite [Shape.rowMajor_val_two, Shape.rowMajor_val_three]; have h0 : (i 0).val < 30 := (i 0).isLt; have h1 : (i 1).val < 131072 := (i 1).isLt; have h2 : (i 2).val < 20 := (i 2).isLt; show (((i 0).val * 131072 + (i 1).val) * 20 + (i 2).val) / 20 * 20 + (((i 0).val * 131072 + (i 1).val) * 20 + (i 2).val) % 20 = ((i 0).val * 131072 + (i 1).val) * 20 + (i 2).val; omega)

-- %45 = stablehlo.transpose %44, dims = [1, 0, 2] : (tensor<30x131072x20xf32>) -> tensor<131072x30x20xf32>
def val_main_v45 (x0 : (⟨S131072x30x10, .f32⟩ : BufTy).Contents (Elt F)) (x1 x2 : (⟨S1x30, .f32⟩ : BufTy).Contents (Elt F)) : (⟨S131072x30x20, .f32⟩ : BufTy).Contents (Elt F) :=
  transpose S131072x30x20 [1, 0, 2] (val_main_v44 (F := F) x0 x1 x2) transposes_S30x131072x20_S131072x30x20_1_0_2
abbrev idx_main_v45 (i : S131072x30x20.Idx) : S30x131072x20.Idx := fun a => match a with
  | ⟨0, _⟩ => ⟨(i 1).val, (i 1).isLt⟩
  | ⟨1, _⟩ => ⟨(i 0).val, (i 0).isLt⟩
  | ⟨2, _⟩ => ⟨(i 2).val, (i 2).isLt⟩
theorem val_main_v45_apply (x0 : (⟨S131072x30x10, .f32⟩ : BufTy).Contents (Elt F)) (x1 x2 : (⟨S1x30, .f32⟩ : BufTy).Contents (Elt F)) (i : S131072x30x20.Idx) :
    val_main_v45 (F := F) x0 x1 x2 i = val_main_v44 (F := F) x0 x1 x2 (idx_main_v45 i) := by
  unfold val_main_v45
  generalize val_main_v44 (F := F) x0 x1 x2 = y
  exact transpose_apply [1, 0, 2] y transposes_S30x131072x20_S131072x30x20_1_0_2 i (idx_main_v45 i) (fun b => match b with
    | ⟨0, _⟩ => rfl
    | ⟨1, _⟩ => rfl
    | ⟨2, _⟩ => rfl)

-- %46 = stablehlo.slice %arg0 [0:131072, 0:30, 2:10] : (tensor<131072x30x10xf32>) -> tensor<131072x30x8xf32>
def val_main_v46 (x0 : (⟨S131072x30x10, .f32⟩ : BufTy).Contents (Elt F)) : (⟨S131072x30x8, .f32⟩ : BufTy).Contents (Elt F) :=
  extractStridedSlice S131072x30x8 ![0, 0, 2] (x0) slices_S131072x30x10_S131072x30x8_0_0_2
abbrev idx_main_v46 (i : S131072x30x8.Idx) : S131072x30x10.Idx := fun a => match a with
  | ⟨0, _⟩ => ⟨(i 0).val, (i 0).isLt⟩
  | ⟨1, _⟩ => ⟨(i 1).val, (i 1).isLt⟩
  | ⟨2, _⟩ => ⟨2 + (i 2).val, by have h2 : (i 2).val < 8 := (i 2).isLt; show 2 + (i 2).val < 10; omega⟩
theorem val_main_v46_apply (x0 : (⟨S131072x30x10, .f32⟩ : BufTy).Contents (Elt F)) (i : S131072x30x8.Idx) :
    val_main_v46 (F := F) x0 i = x0 (idx_main_v46 i) := by
  unfold val_main_v46
  exact extractStridedSlice_apply ![0, 0, 2] x0 slices_S131072x30x10_S131072x30x8_0_0_2 i (idx_main_v46 i) (fun a => match a with
    | ⟨0, _⟩ => by show (i 0).val = 0 + (i 0).val; omega
    | ⟨1, _⟩ => by show (i 1).val = 0 + (i 1).val; omega
    | ⟨2, _⟩ => by show 2 + (i 2).val = 2 + (i 2).val; omega)

-- %47 = stablehlo.concatenate %45, %46, dim = 2 : (tensor<131072x30x20xf32>, tensor<131072x30x8xf32>) -> tensor<131072x30x28xf32>
def val_main_v47 (x0 : (⟨S131072x30x10, .f32⟩ : BufTy).Contents (Elt F)) (x1 x2 : (⟨S1x30, .f32⟩ : BufTy).Contents (Elt F)) : (⟨S131072x30x28, .f32⟩ : BufTy).Contents (Elt F) :=
  concatenate S131072x30x28 2 [⟨S131072x30x20, (val_main_v45 (F := F) x0 x1 x2)⟩, ⟨S131072x30x8, (val_main_v46 (F := F) x0)⟩] concatenates_S131072x30x20_S131072x30x8_S131072x30x28_d2

end Cert.Assign.Ref.Stages

end
-- ==== Proof.RefFold.lean ====
/-
  The reference's straight line, read at its result buffer.

  The 69 operations are cut into five stretches: the 23 that build the padded stack of products; the 40 that take the
  ten blocks of it (each at a row given by two integer constants) and add a unit axis to each; the join of the ten
  blocks; the four layout operations after it (two regroupings, a transposition, and the input's last eight columns);
  and the final join. Each stretch is read for an arbitrary starting valuation, and each join is the last operation of
  its stretch, so that its operands are read off that valuation and the padded stack, which all ten blocks read, is
  named once. Composed, the readings are the stage function of the result applied to the launch contents of the three
  arguments.
-/
import proofs.«165622_j90074054132588_2_alg».proof.Proof.RefRun
import proofs.«165622_j90074054132588_2_alg».proof.Proof.RefStages
import Idealize.ShloMosaic.Lib.Pipeline.Frame

noncomputable section

namespace Cert.Assign.Ref

open Cert.ReferenceIdeal Cert.ReferenceIdeal.Gen Idealize.ShloMosaic Idealize.ShloMosaic.TcCoe Idealize.SL.Sem Idealize.ShloMosaic.StableHlo

variable {F : FTy → Type} [FloatOps F]

/-- The first 23 operations: the two products, joined, flattened to rows, with nine zero rows on top. -/
abbrev opsA : List (HloOp τ sig (Elt F)) :=
  [ unary main_arg0 main_v0 ((extractStridedSlice S131072x1x1 ![0, 0, 0] · slices_S131072x30x10_S131072x1x1_0_0_0) : (⟨S131072x30x10, .f32⟩ : BufTy).Contents (Elt F) → (⟨S131072x1x1, .f32⟩ : BufTy).Contents (Elt F)),
    reshape main_v0 main_v1 rfl shapeCasts_S131072x1x1_S131072,
    unary main_v1 main_v2 (broadcastInDim S131072x1 ![0] bcast_S131072_S131072x1_0 : (⟨S131072, .f32⟩ : BufTy).Contents (Elt F) → (⟨S131072x1, .f32⟩ : BufTy).Contents (Elt F)),
    reshape main_arg1 main_v3 rfl shapeCasts_S1x30_S30,
    unary main_v3 main_v4 (broadcastInDim S1x30 ![1] bcast_S30_S1x30_1 : (⟨S30, .f32⟩ : BufTy).Contents (Elt F) → (⟨S1x30, .f32⟩ : BufTy).Contents (Elt F)),
    unary main_v2 main_v5 (broadcastInDim S131072x30 ![0, 1] bcast_S131072x1_S131072x30_0_1 : (⟨S131072x1, .f32⟩ : BufTy).Contents (Elt F) → (⟨S131072x30, .f32⟩ : BufTy).Contents (Elt F)),
    unary main_v4 main_v6 (broadcastInDim S131072x30 ![0, 1] bcast_S1x30_S131072x30_0_1 : (⟨S1x30, .f32⟩ : BufTy).Contents (Elt F) → (⟨S131072x30, .f32⟩ : BufTy).Contents (Elt F)),
    binary main_v5 main_v6 main_v7 (mulf : (⟨S131072x30, .f32⟩ : BufTy).Contents (Elt F) → (⟨S131072x30, .f32⟩ : BufTy).Contents (Elt F) → (⟨S131072x30, .f32⟩ : BufTy).Contents (Elt F)),
    unary main_arg0 main_v8 ((extractStridedSlice S131072x1x1 ![0, 0, 1] · slices_S131072x30x10_S131072x1x1_0_0_1) : (⟨S131072x30x10, .f32⟩ : BufTy).Contents (Elt F) → (⟨S131072x1x1, .f32⟩ : BufTy).Contents (Elt F)),
    reshape main_v8 main_v9 rfl shapeCasts_S131072x1x1_S131072,
    unary main_v9 main_v10 (broadcastInDim S131072x1 ![0] bcast_S131072_S131072x1_0 : (⟨S131072, .f32⟩ : BufTy).Contents (Elt F) → (⟨S131072x1, .f32⟩ : BufTy).Contents (Elt F)),
    reshape main_arg2 main_v11 rfl shapeCasts_S1x30_S30,
    unary main_v11 main_v12 (broadcastInDim S1x30 ![1] bcast_S30_S1x30_1 : (⟨S30, .f32⟩ : BufTy).Contents (Elt F) → (⟨S1x30, .f32⟩ : BufTy).Contents (Elt F)),
    unary main_v10 main_v13 (broadcastInDim S131072x30 ![0, 1] bcast_S131072x1_S131072x30_0_1 : (⟨S131072x1, .f32⟩ : BufTy).Contents (Elt F) → (⟨S131072x30, .f32⟩ : BufTy).Contents (Elt F)),
    unary main_v12 main_v14 (broadcastInDim S131072x30 ![0, 1] bcast_S1x30_S131072x30_0_1 : (⟨S1x30, .f32⟩ : BufTy).Contents (Elt F) → (⟨S131072x30, .f32⟩ : BufTy).Contents (Elt F)),
    binary main_v13 main_v14 main_v15 (mulf : (⟨S131072x30, .f32⟩ : BufTy).Contents (Elt F) → (⟨S131072x30, .f32⟩ : BufTy).Contents (Elt F) → (⟨S131072x30, .f32⟩ : BufTy).Contents (Elt F)),
    unary main_v7 main_v16 (broadcastInDim S131072x30x1 ![0, 1] bcast_S131072x30_S131072x30x1_0_1 : (⟨S131072x30, .f32⟩ : BufTy).Contents (Elt F) → (⟨S131072x30x1, .f32⟩ : BufTy).Contents (Elt F)),
    unary main_v15 main_v17 (broadcastInDim S131072x30x1 ![0, 1] bcast_S131072x30_S131072x30x1_0_1 : (⟨S131072x30, .f32⟩ : BufTy).Contents (Elt F) → (⟨S131072x30x1, .f32⟩ : BufTy).Contents (Elt F)),
    binary main_v16 main_v17 main_v18 ((fun a b => concatenate S131072x30x2 2 [⟨S131072x30x1, a⟩, ⟨S131072x30x1, b⟩] concatenates_S131072x30x1_S131072x30x1_S131072x30x2_d2) : (⟨S131072x30x1, .f32⟩ : BufTy).Contents (Elt F) → (⟨S131072x30x1, .f32⟩ : BufTy).Contents (Elt F) → (⟨S131072x30x2, .f32⟩ : BufTy).Contents (Elt F)),
    reshape main_v18 main_v19 rfl shapeCasts_S131072x30x2_S3932160x2,
    nullary main_cst (constant S_ .f32 0x00000000#32),
    unary main_cst main_v20 (broadcastInDim S9x2 ![] bcast_S_S9x2 : (⟨S_, .f32⟩ : BufTy).Contents (Elt F) → (⟨S9x2, .f32⟩ : BufTy).Contents (Elt F)),
    binary main_v20 main_v19 main_v21 ((fun a b => concatenate S3932169x2 0 [⟨S9x2, a⟩, ⟨S3932160x2, b⟩] concatenates_S9x2_S3932160x2_S3932169x2_d0) : (⟨S9x2, .f32⟩ : BufTy).Contents (Elt F) → (⟨S3932160x2, .f32⟩ : BufTy).Contents (Elt F) → (⟨S3932169x2, .f32⟩ : BufTy).Contents (Elt F)) ]

/-- The next 40: ten blocks of 3932160 rows of the padded stack, each at a constant row, each then given a unit axis. -/
abbrev opsB : List (HloOp τ sig (Elt F)) :=
  [ nullary main_c (constantI S_ 32 9#32),
    nullary main_c_0 (constantI S_ 32 0#32),
    unaryIndexed main_v21 ![main_c, main_c_0] ⟨S_, .i32⟩ main_v22 ((fun x i => Host.dynamicSlice S3932160x2 x (fun k => (i k (Shape.Idx.first h_S_)).toInt) sliceFits_S3932169x2_S3932160x2) : (⟨S3932169x2, .f32⟩ : BufTy).Contents (Elt F) → (Fin 2 → (⟨S_, .i32⟩ : BufTy).Contents (Elt F)) → (⟨S3932160x2, .f32⟩ : BufTy).Contents (Elt F)),
    nullary main_c_1 (constantI S_ 32 8#32),
    nullary main_c_2 (constantI S_ 32 0#32),
    unaryIndexed main_v21 ![main_c_1, main_c_2] ⟨S_, .i32⟩ main_v23 ((fun x i => Host.dynamicSlice S3932160x2 x (fun k => (i k (Shape.Idx.first h_S_)).toInt) sliceFits_S3932169x2_S3932160x2) : (⟨S3932169x2, .f32⟩ : BufTy).Contents (Elt F) → (Fin 2 → (⟨S_, .i32⟩ : BufTy).Contents (Elt F)) → (⟨S3932160x2, .f32⟩ : BufTy).Contents (Elt F)),
    nullary main_c_3 (constantI S_ 32 7#32),
    nullary main_c_4 (constantI S_ 32 0#32),
    unaryIndexed main_v21 ![main_c_3, main_c_4] ⟨S_, .i32⟩ main_v24 ((fun x i => Host.dynamicSlice S3932160x2 x (fun k => (i k (Shape.Idx.first h_S_)).toInt) sliceFits_S3932169x2_S3932160x2) : (⟨S3932169x2, .f32⟩ : BufTy).Contents (Elt F) → (Fin 2 → (⟨S_, .i32⟩ : BufTy).Contents (Elt F)) → (⟨S3932160x2, .f32⟩ : BufTy).Contents (Elt F)),
    nullary main_c_5 (constantI S_ 32 6#32),
    nullary main_c_6 (constantI S_ 32 0#32),
    unaryIndexed main_v21 ![main_c_5, main_c_6] ⟨S_, .i32⟩ main_v25 ((fun x i => Host.dynamicSlice S3932160x2 x (fun k => (i k (Shape.Idx.first h_S_)).toInt) sliceFits_S3932169x2_S3932160x2) : (⟨S3932169x2, .f32⟩ : BufTy).Contents (Elt F) → (Fin 2 → (⟨S_, .i32⟩ : BufTy).Contents (Elt F)) → (⟨S3932160x2, .f32⟩ : BufTy).Contents (Elt F)),
    nullary main_c_7 (constantI S_ 32 5#32),
    nullary main_c_8 (constantI S_ 32 0#32),
    unaryIndexed main_v21 ![main_c_7, main_c_8] ⟨S_, .i32⟩ main_v26 ((fun x i => Host.dynamicSlice S3932160x2 x (fun k => (i k (Shape.Idx.first h_S_)).toInt) sliceFits_S3932169x2_S3932160x2) : (⟨S3932169x2, .f32⟩ : BufTy).Contents (Elt F) → (Fin 2 → (⟨S_, .i32⟩ : BufTy).Contents (Elt F)) → (⟨S3932160x2, .f32⟩ : BufTy).Contents (Elt F)),
    nullary main_c_9 (constantI S_ 32 4#32),
    nullary main_c_10 (constantI S_ 32 0#32),
    unaryIndexed main_v21 ![main_c_9, main_c_10] ⟨S_, .i32⟩ main_v27 ((fun x i => Host.dynamicSlice S3932160x2 x (fun k => (i k (Shape.Idx.first h_S_)).toInt) sliceFits_S3932169x2_S3932160x2) : (⟨S3932169x2, .f32⟩ : BufTy).Contents (Elt F) → (Fin 2 → (⟨S_, .i32⟩ : BufTy).Contents (Elt F)) → (⟨S3932160x2, .f32⟩ : BufTy).Contents (Elt F)),
    nullary main_c_11 (constantI S_ 32 3#32),
    nullary main_c_12 (constantI S_ 32 0#32),
    unaryIndexed main_v21 ![main_c_11, main_c_12] ⟨S_, .i32⟩ main_v28 ((fun x i => Host.dynamicSlice S3932160x2 x (fun k => (i k (Shape.Idx.first h_S_)).toInt) sliceFits_S3932169x2_S3932160x2) : (⟨S3932169x2, .f32⟩ : BufTy).Contents (Elt F) → (Fin 2 → (⟨S_, .i32⟩ : BufTy).Contents (Elt F)) → (⟨S3932160x2, .f32⟩ : BufTy).Contents (Elt F)),
    nullary main_c_13 (constantI S_ 32 2#32),
    nullary main_c_14 (constantI S_ 32 0#32),
    unaryIndexed main_v21 ![main_c_13, main_c_14] ⟨S_, .i32⟩ main_v29 ((fun x i => Host.dynamicSlice S3932160x2 x (fun k => (i k (Shape.Idx.first h_S_)).toInt) sliceFits_S3932169x2_S3932160x2) : (⟨S3932169x2, .f32⟩ : BufTy).Contents (Elt F) → (Fin 2 → (⟨S_, .i32⟩ : BufTy).Contents (Elt F)) → (⟨S3932160x2, .f32⟩ : BufTy).Contents (Elt F)),
    nullary main_c_15 (constantI S_ 32 1#32),
    nullary main_c_16 (constantI S_ 32 0#32),
    unaryIndexed main_v21 ![main_c_15, main_c_16] ⟨S_, .i32⟩ main_v30 ((fun x i => Host.dynamicSlice S3932160x2 x (fun k => (i k (Shape.Idx.first h_S_)).toInt) sliceFits_S3932169x2_S3932160x2) : (⟨S3932169x2, .f32⟩ : BufTy).Contents (Elt F) → (Fin 2 → (⟨S_, .i32⟩ : BufTy).Contents (Elt F)) → (⟨S3932160x2, .f32⟩ : BufTy).Contents (Elt F)),
    nullary main_c_17 (constantI S_ 32 0#32),
    nullary main_c_18 (constantI S_ 32 0#32),
    unaryIndexed main_v21 ![main_c_17, main_c_18] ⟨S_, .i32⟩ main_v31 ((fun x i => Host.dynamicSlice S3932160x2 x (fun k => (i k (Shape.Idx.first h_S_)).toInt) sliceFits_S3932169x2_S3932160x2) : (⟨S3932169x2, .f32⟩ : BufTy).Contents (Elt F) → (Fin 2 → (⟨S_, .i32⟩ : BufTy).Contents (Elt F)) → (⟨S3932160x2, .f32⟩ : BufTy).Contents (Elt F)),
    unary main_v22 main_v32 (broadcastInDim S3932160x1x2 ![0, 2] bcast_S3932160x2_S3932160x1x2_0_2 : (⟨S3932160x2, .f32⟩ : BufTy).Contents (Elt F) → (⟨S3932160x1x2, .f32⟩ : BufTy).Contents (Elt F)),
    unary main_v23 main_v33 (broadcastInDim S3932160x1x2 ![0, 2] bcast_S3932160x2_S3932160x1x2_0_2 : (⟨S3932160x2, .f32⟩ : BufTy).Contents (Elt F) → (⟨S3932160x1x2, .f32⟩ : BufTy).Contents (Elt F)),
    unary main_v24 main_v34 (broadcastInDim S3932160x1x2 ![0, 2] bcast_S3932160x2_S3932160x1x2_0_2 : (⟨S3932160x2, .f32⟩ : BufTy).Contents (Elt F) → (⟨S3932160x1x2, .f32⟩ : BufTy).Contents (Elt F)),
    unary main_v25 main_v35 (broadcastInDim S3932160x1x2 ![0, 2] bcast_S3932160x2_S3932160x1x2_0_2 : (⟨S3932160x2, .f32⟩ : BufTy).Contents (Elt F) → (⟨S3932160x1x2, .f32⟩ : BufTy).Contents (Elt F)),
    unary main_v26 main_v36 (broadcastInDim S3932160x1x2 ![0, 2] bcast_S3932160x2_S3932160x1x2_0_2 : (⟨S3932160x2, .f32⟩ : BufTy).Contents (Elt F) → (⟨S3932160x1x2, .f32⟩ : BufTy).Contents (Elt F)),
    unary main_v27 main_v37 (broadcastInDim S3932160x1x2 ![0, 2] bcast_S3932160x2_S3932160x1x2_0_2 : (⟨S3932160x2, .f32⟩ : BufTy).Contents (Elt F) → (⟨S3932160x1x2, .f32⟩ : BufTy).Contents (Elt F)),
    unary main_v28 main_v38 (broadcastInDim S3932160x1x2 ![0, 2] bcast_S3932160x2_S3932160x1x2_0_2 : (⟨S3932160x2, .f32⟩ : BufTy).Contents (Elt F) → (⟨S3932160x1x2, .f32⟩ : BufTy).Contents (Elt F)),
    unary main_v29 main_v39 (broadcastInDim S3932160x1x2 ![0, 2] bcast_S3932160x2_S3932160x1x2_0_2 : (⟨S3932160x2, .f32⟩ : BufTy).Contents (Elt F) → (⟨S3932160x1x2, .f32⟩ : BufTy).Contents (Elt F)),
    unary main_v30 main_v40 (broadcastInDim S3932160x1x2 ![0, 2] bcast_S3932160x2_S3932160x1x2_0_2 : (⟨S3932160x2, .f32⟩ : BufTy).Contents (Elt F) → (⟨S3932160x1x2, .f32⟩ : BufTy).Contents (Elt F)),
    unary main_v31 main_v41 (broadcastInDim S3932160x1x2 ![0, 2] bcast_S3932160x2_S3932160x1x2_0_2 : (⟨S3932160x2, .f32⟩ : BufTy).Contents (Elt F) → (⟨S3932160x1x2, .f32⟩ : BufTy).Contents (Elt F)) ]

/-- The join of the ten blocks along the unit axis. -/
abbrev opsJ : List (HloOp τ sig (Elt F)) :=
  [ nary ![main_v32, main_v33, main_v34, main_v35, main_v36, main_v37, main_v38, main_v39, main_v40, main_v41] main_v42 (fun u => concatenate S3932160x10x2 1 [⟨S3932160x1x2, u 0⟩, ⟨S3932160x1x2, u 1⟩, ⟨S3932160x1x2, u 2⟩, ⟨S3932160x1x2, u 3⟩, ⟨S3932160x1x2, u 4⟩, ⟨S3932160x1x2, u 5⟩, ⟨S3932160x1x2, u 6⟩, ⟨S3932160x1x2, u 7⟩, ⟨S3932160x1x2, u 8⟩, ⟨S3932160x1x2, u 9⟩] concatenates_S3932160x1x2_S3932160x1x2_S3932160x1x2_S3932160x1x2_S3932160x1x2_S3932160x1x2_S3932160x1x2_S3932160x1x2_S3932160x1x2_S3932160x1x2_S3932160x10x2_d1) ]

/-- The four layout operations: the joined blocks regrouped twice and transposed, and the input's last eight columns. -/
abbrev opsR : List (HloOp τ sig (Elt F)) :=
  [ reshape main_v42 main_v43 rfl shapeCasts_S3932160x10x2_S3932160x20,
    reshape main_v43 main_v44 rfl shapeCasts_S3932160x20_S30x131072x20,
    unary main_v44 main_v45 ((transpose S131072x30x20 [1, 0, 2] · transposes_S30x131072x20_S131072x30x20_1_0_2) : (⟨S30x131072x20, .f32⟩ : BufTy).Contents (Elt F) → (⟨S131072x30x20, .f32⟩ : BufTy).Contents (Elt F)),
    unary main_arg0 main_v46 ((extractStridedSlice S131072x30x8 ![0, 0, 2] · slices_S131072x30x10_S131072x30x8_0_0_2) : (⟨S131072x30x10, .f32⟩ : BufTy).Contents (Elt F) → (⟨S131072x30x8, .f32⟩ : BufTy).Contents (Elt F)) ]

/-- The final join of the arranged blocks and the input's last eight columns. -/
abbrev opsL : List (HloOp τ sig (Elt F)) :=
  [ binary main_v45 main_v46 main_v47 ((fun a b => concatenate S131072x30x28 2 [⟨S131072x30x20, a⟩, ⟨S131072x30x8, b⟩] concatenates_S131072x30x20_S131072x30x8_S131072x30x28_d2) : (⟨S131072x30x20, .f32⟩ : BufTy).Contents (Elt F) → (⟨S131072x30x8, .f32⟩ : BufTy).Contents (Elt F) → (⟨S131072x30x28, .f32⟩ : BufTy).Contents (Elt F)) ]

set_option maxRecDepth 8192 in
theorem ops_split : (ops : List (HloOp τ sig (Elt F))) = opsA ++ (opsB ++ (opsJ ++ (opsR ++ opsL))) := rfl

/-- A block of the padded stack depends on its two integer operands only through their values. -/
theorem blockAt_congr (x : (⟨S3932169x2, .f32⟩ : BufTy).Contents (Elt F)) (i j : Fin 2 → (⟨S_, .i32⟩ : BufTy).Contents (Elt F))
    (h0 : i 0 = j 0) (h1 : i 1 = j 1) :
    Host.dynamicSlice S3932160x2 x (fun k => (i k (Shape.Idx.first h_S_)).toInt) sliceFits_S3932169x2_S3932160x2
      = Host.dynamicSlice S3932160x2 x (fun k => (j k (Shape.Idx.first h_S_)).toInt) sliceFits_S3932169x2_S3932160x2 := by
  have hij : i = j := funext fun k => by
    match k with
    | ⟨0, _⟩ => exact h0
    | ⟨1, _⟩ => exact h1
  rw [hij]

/-- After the first stretch the padded stack is its stage function of the three arguments. -/
theorem stack_v21 (W : Valuation τ sig (Elt F)) :
    after (opsA (F := F)) W (Proc.devRef .tc main_v21)
      = Stages.val_main_v21 (F := F) (W (Proc.devRef .tc main_arg0)) (W (Proc.devRef .tc main_arg1)) (W (Proc.devRef .tc main_arg2)) := by
  after_results_simp
  rfl

/-- The first stretch does not write argument 0. -/
theorem keptA_arg0 (V : Valuation τ sig (Elt F)) :
    after (opsA (F := F)) V (Proc.devRef .tc main_arg0) = V (Proc.devRef .tc main_arg0) := by
  after_results_simp

/-- The second stretch does not write argument 0. -/
theorem keptB_arg0 (V : Valuation τ sig (Elt F)) :
    after (opsB (F := F)) V (Proc.devRef .tc main_arg0) = V (Proc.devRef .tc main_arg0) := by
  after_results_simp

/-- Block 0, with a unit axis added, from the padded stack: the stretch's other operations do not touch it. -/
theorem blocks_v32 (V : Valuation τ sig (Elt F)) :
    after (opsB (F := F)) V (Proc.devRef .tc main_v32)
      = broadcastInDim S3932160x1x2 ![0, 2] bcast_S3932160x2_S3932160x1x2_0_2
          (Host.dynamicSlice S3932160x2 (V (Proc.devRef .tc main_v21)) (fun k => (((![Stages.val_main_c (F := F), Stages.val_main_c_0 (F := F)] : Fin 2 → (⟨S_, .i32⟩ : BufTy).Contents (Elt F))) k (Shape.Idx.first h_S_)).toInt) sliceFits_S3932169x2_S3932160x2) := by
  after_results_simp
  refine congrArg _ (blockAt_congr _ _ _ ?_ ?_) <;> rfl
/-- Block 1, with a unit axis added, from the padded stack: the stretch's other operations do not touch it. -/
theorem blocks_v33 (V : Valuation τ sig (Elt F)) :
    after (opsB (F := F)) V (Proc.devRef .tc main_v33)
      = broadcastInDim S3932160x1x2 ![0, 2] bcast_S3932160x2_S3932160x1x2_0_2
          (Host.dynamicSlice S3932160x2 (V (Proc.devRef .tc main_v21)) (fun k => (((![Stages.val_main_c_1 (F := F), Stages.val_main_c_2 (F := F)] : Fin 2 → (⟨S_, .i32⟩ : BufTy).Contents (Elt F))) k (Shape.Idx.first h_S_)).toInt) sliceFits_S3932169x2_S3932160x2) := by
  after_results_simp
  refine congrArg _ (blockAt_congr _ _ _ ?_ ?_) <;> rfl
/-- Block 2, with a unit axis added, from the padded stack: the stretch's other operations do not touch it. -/
theorem blocks_v34 (V : Valuation τ sig (Elt F)) :
    after (opsB (F := F)) V (Proc.devRef .tc main_v34)
      = broadcastInDim S3932160x1x2 ![0, 2] bcast_S3932160x2_S3932160x1x2_0_2
          (Host.dynamicSlice S3932160x2 (V (Proc.devRef .tc main_v21)) (fun k => (((![Stages.val_main_c_3 (F := F), Stages.val_main_c_4 (F := F)] : Fin 2 → (⟨S_, .i32⟩ : BufTy).Contents (Elt F))) k (Shape.Idx.first h_S_)).toInt) sliceFits_S3932169x2_S3932160x2) := by
  after_results_simp
  refine congrArg _ (blockAt_congr _ _ _ ?_ ?_) <;> rfl
/-- Block 3, with a unit axis added, from the padded stack: the stretch's other operations do not touch it. -/
theorem blocks_v35 (V : Valuation τ sig (Elt F)) :
    after (opsB (F := F)) V (Proc.devRef .tc main_v35)
      = broadcastInDim S3932160x1x2 ![0, 2] bcast_S3932160x2_S3932160x1x2_0_2
          (Host.dynamicSlice S3932160x2 (V (Proc.devRef .tc main_v21)) (fun k => (((![Stages.val_main_c_5 (F := F), Stages.val_main_c_6 (F := F)] : Fin 2 → (⟨S_, .i32⟩ : BufTy).Contents (Elt F))) k (Shape.Idx.first h_S_)).toInt) sliceFits_S3932169x2_S3932160x2) := by
  after_results_simp
  refine congrArg _ (blockAt_congr _ _ _ ?_ ?_) <;> rfl
/-- Block 4, with a unit axis added, from the padded stack: the stretch's other operations do not touch it. -/
theorem blocks_v36 (V : Valuation τ sig (Elt F)) :
    after (opsB (F := F)) V (Proc.devRef .tc main_v36)
      = broadcastInDim S3932160x1x2 ![0, 2] bcast_S3932160x2_S3932160x1x2_0_2
          (Host.dynamicSlice S3932160x2 (V (Proc.devRef .tc main_v21)) (fun k => (((![Stages.val_main_c_7 (F := F), Stages.val_main_c_8 (F := F)] : Fin 2 → (⟨S_, .i32⟩ : BufTy).Contents (Elt F))) k (Shape.Idx.first h_S_)).toInt) sliceFits_S3932169x2_S3932160x2) := by
  after_results_simp
  refine congrArg _ (blockAt_congr _ _ _ ?_ ?_) <;> rfl
/-- Block 5, with a unit axis added, from the padded stack: the stretch's other operations do not touch it. -/
theorem blocks_v37 (V : Valuation τ sig (Elt F)) :
    after (opsB (F := F)) V (Proc.devRef .tc main_v37)
      = broadcastInDim S3932160x1x2 ![0, 2] bcast_S3932160x2_S3932160x1x2_0_2
          (Host.dynamicSlice S3932160x2 (V (Proc.devRef .tc main_v21)) (fun k => (((![Stages.val_main_c_9 (F := F), Stages.val_main_c_10 (F := F)] : Fin 2 → (⟨S_, .i32⟩ : BufTy).Contents (Elt F))) k (Shape.Idx.first h_S_)).toInt) sliceFits_S3932169x2_S3932160x2) := by
  after_results_simp
  refine congrArg _ (blockAt_congr _ _ _ ?_ ?_) <;> rfl
/-- Block 6, with a unit axis added, from the padded stack: the stretch's other operations do not touch it. -/
theorem blocks_v38 (V : Valuation τ sig (Elt F)) :
    after (opsB (F := F)) V (Proc.devRef .tc main_v38)
      = broadcastInDim S3932160x1x2 ![0, 2] bcast_S3932160x2_S3932160x1x2_0_2
          (Host.dynamicSlice S3932160x2 (V (Proc.devRef .tc main_v21)) (fun k => (((![Stages.val_main_c_11 (F := F), Stages.val_main_c_12 (F := F)] : Fin 2 → (⟨S_, .i32⟩ : BufTy).Contents (Elt F))) k (Shape.Idx.first h_S_)).toInt) sliceFits_S3932169x2_S3932160x2) := by
  after_results_simp
  refine congrArg _ (blockAt_congr _ _ _ ?_ ?_) <;> rfl
/-- Block 7, with a unit axis added, from the padded stack: the stretch's other operations do not touch it. -/
theorem blocks_v39 (V : Valuation τ sig (Elt F)) :
    after (opsB (F := F)) V (Proc.devRef .tc main_v39)
      = broadcastInDim S3932160x1x2 ![0, 2] bcast_S3932160x2_S3932160x1x2_0_2
          (Host.dynamicSlice S3932160x2 (V (Proc.devRef .tc main_v21)) (fun k => (((![Stages.val_main_c_13 (F := F), Stages.val_main_c_14 (F := F)] : Fin 2 → (⟨S_, .i32⟩ : BufTy).Contents (Elt F))) k (Shape.Idx.first h_S_)).toInt) sliceFits_S3932169x2_S3932160x2) := by
  after_results_simp
  refine congrArg _ (blockAt_congr _ _ _ ?_ ?_) <;> rfl
/-- Block 8, with a unit axis added, from the padded stack: the stretch's other operations do not touch it. -/
theorem blocks_v40 (V : Valuation τ sig (Elt F)) :
    after (opsB (F := F)) V (Proc.devRef .tc main_v40)
      = broadcastInDim S3932160x1x2 ![0, 2] bcast_S3932160x2_S3932160x1x2_0_2
          (Host.dynamicSlice S3932160x2 (V (Proc.devRef .tc main_v21)) (fun k => (((![Stages.val_main_c_15 (F := F), Stages.val_main_c_16 (F := F)] : Fin 2 → (⟨S_, .i32⟩ : BufTy).Contents (Elt F))) k (Shape.Idx.first h_S_)).toInt) sliceFits_S3932169x2_S3932160x2) := by
  after_results_simp
  refine congrArg _ (blockAt_congr _ _ _ ?_ ?_) <;> rfl
/-- Block 9, with a unit axis added, from the padded stack: the stretch's other operations do not touch it. -/
theorem blocks_v41 (V : Valuation τ sig (Elt F)) :
    after (opsB (F := F)) V (Proc.devRef .tc main_v41)
      = broadcastInDim S3932160x1x2 ![0, 2] bcast_S3932160x2_S3932160x1x2_0_2
          (Host.dynamicSlice S3932160x2 (V (Proc.devRef .tc main_v21)) (fun k => (((![Stages.val_main_c_17 (F := F), Stages.val_main_c_18 (F := F)] : Fin 2 → (⟨S_, .i32⟩ : BufTy).Contents (Elt F))) k (Shape.Idx.first h_S_)).toInt) sliceFits_S3932169x2_S3932160x2) := by
  after_results_simp
  refine congrArg _ (blockAt_congr _ _ _ ?_ ?_) <;> rfl

/-- The ten blocks joined along the unit axis. -/
theorem joined_v42 (V : Valuation τ sig (Elt F)) :
    after (opsJ (F := F)) V (Proc.devRef .tc main_v42)
      = concatenate S3932160x10x2 1 [⟨S3932160x1x2, V (Proc.devRef .tc main_v32)⟩, ⟨S3932160x1x2, V (Proc.devRef .tc main_v33)⟩, ⟨S3932160x1x2, V (Proc.devRef .tc main_v34)⟩, ⟨S3932160x1x2, V (Proc.devRef .tc main_v35)⟩, ⟨S3932160x1x2, V (Proc.devRef .tc main_v36)⟩, ⟨S3932160x1x2, V (Proc.devRef .tc main_v37)⟩, ⟨S3932160x1x2, V (Proc.devRef .tc main_v38)⟩, ⟨S3932160x1x2, V (Proc.devRef .tc main_v39)⟩, ⟨S3932160x1x2, V (Proc.devRef .tc main_v40)⟩, ⟨S3932160x1x2, V (Proc.devRef .tc main_v41)⟩] concatenates_S3932160x1x2_S3932160x1x2_S3932160x1x2_S3932160x1x2_S3932160x1x2_S3932160x1x2_S3932160x1x2_S3932160x1x2_S3932160x1x2_S3932160x1x2_S3932160x10x2_d1 := by
  rw [after_cons, after_nil, nary_result]
  rfl

/-- The join does not write argument 0. -/
theorem keptJ_arg0 (V : Valuation τ sig (Elt F)) :
    after (opsJ (F := F)) V (Proc.devRef .tc main_arg0) = V (Proc.devRef .tc main_arg0) := by
  after_results_simp

/-- The joined blocks regrouped [3932160, 10, 2] → [3932160, 20] → [30, 131072, 20] and transposed to [131072, 30, 20]. -/
theorem arranged_v45 (V : Valuation τ sig (Elt F)) :
    after (opsR (F := F)) V (Proc.devRef .tc main_v45)
      = transpose S131072x30x20 [1, 0, 2]
          (shapeCast S30x131072x20 (shapeCast S3932160x20 (V (Proc.devRef .tc main_v42)) shapeCasts_S3932160x10x2_S3932160x20)
            shapeCasts_S3932160x20_S30x131072x20)
          transposes_S30x131072x20_S131072x30x20_1_0_2 := by
  after_results_simp
  rfl

/-- The input's last eight columns. -/
theorem tail_v46 (V : Valuation τ sig (Elt F)) :
    after (opsR (F := F)) V (Proc.devRef .tc main_v46)
      = extractStridedSlice S131072x30x8 ![0, 0, 2] (V (Proc.devRef .tc main_arg0)) slices_S131072x30x10_S131072x30x8_0_0_2 := by
  after_results_simp

/-- The final join, from the arranged blocks and the input's last eight columns. -/
theorem last_v47 (V : Valuation τ sig (Elt F)) :
    after (opsL (F := F)) V (Proc.devRef .tc main_v47)
      = concatenate S131072x30x28 2 [⟨S131072x30x20, V (Proc.devRef .tc main_v45)⟩, ⟨S131072x30x8, V (Proc.devRef .tc main_v46)⟩]
          concatenates_S131072x30x20_S131072x30x8_S131072x30x28_d2 := by
  rw [after_cons, after_nil, binary_result]

/-- The whole line at its result buffer: the stage function of the result, at the launch contents of the arguments. -/
theorem fold_v47 (W : Valuation τ sig (Elt F)) :
    after (ops (F := F)) W (Proc.devRef .tc main_v47)
      = Stages.val_main_v47 (F := F) (W (Proc.devRef .tc main_arg0)) (W (Proc.devRef .tc main_arg1)) (W (Proc.devRef .tc main_arg2)) := by
  rw [ops_split, StableHlo.after_append, StableHlo.after_append, StableHlo.after_append, StableHlo.after_append,
    last_v47, arranged_v45, tail_v46, joined_v42, keptJ_arg0,
    blocks_v32, blocks_v33, blocks_v34, blocks_v35, blocks_v36, blocks_v37, blocks_v38, blocks_v39, blocks_v40, blocks_v41,
    keptB_arg0, stack_v21, keptA_arg0]
  rfl

end Cert.Assign.Ref

end
-- ==== Proof.RefValueOps.lean ====
/-
  The reference's layout operations that choose among operands, read at an index, for arbitrary operand arrays:
  the two one-column arrays joined on the last axis, the nine zero rows put above the stack, a block of
  3932160 rows taken from the padded stack at a literal row, the ten shifted blocks stacked on a new middle
  axis, and the twenty stacked features joined with the eight passed through.
-/
import proofs.«165622_j90074054132588_2_alg».proof.Proof.Gen.ReferenceIdeal
import Idealize.ShloMosaic.Lib.Pipeline.Value
import Idealize.ShloMosaic.Lib.DynamicIndex
import Idealize.ShloMosaic.Lib.ValueIdx

noncomputable section

namespace Cert.Assign.Ref

open Cert.ReferenceIdeal Cert.ReferenceIdeal.Gen Idealize.ShloMosaic Idealize.ShloMosaic.ValueIdx

variable {α : Type}

/-- Two one-column arrays joined on the last axis: column 0 is the first, column 1 the second. -/
theorem join2_apply (u v : S131072x30x1.Idx → α) (b : Fin 131072) (t : Fin 30) (c : Fin 2) :
    concatenate S131072x30x2 2 [⟨S131072x30x1, u⟩, ⟨S131072x30x1, v⟩] concatenates_S131072x30x1_S131072x30x1_S131072x30x2_d2 (ix3 b t c)
      = if c.val = 0 then u (ix3 b t (0 : Fin 1)) else v (ix3 b t (0 : Fin 1)) := by
  by_cases hc : c.val = 0
  · rw [if_pos hc]
    exact concatenate_pair_apply_left (t := S131072x30x2) 2 u v _ (ix3 b t c) rfl (ix3 b t (0 : Fin 1)) (fun a => match a with
      | ⟨0, _⟩ => rfl
      | ⟨1, _⟩ => rfl
      | ⟨2, _⟩ => by show 0 = c.val; omega)
  · rw [if_neg hc]
    exact concatenate_pair_apply_right (t := S131072x30x2) 2 u v _ (ix3 b t c) rfl rfl (ix3 b t (0 : Fin 1)) (fun a ha => match a, ha with
      | ⟨0, _⟩, _ => rfl
      | ⟨1, _⟩, _ => rfl
      | ⟨2, _⟩, ha => absurd rfl ha) (by show 0 + 1 = c.val; have := c.isLt; omega)

/-- Nine rows put above the stack: rows 0–8 are the nine rows, row p ≥ 9 is row p − 9 of the stack. -/
theorem pad_apply (z : S9x2.Idx → α) (y : S3932160x2.Idx → α) (p : Fin 3932169) (c : Fin 2) :
    concatenate S3932169x2 0 [⟨S9x2, z⟩, ⟨S3932160x2, y⟩] concatenates_S9x2_S3932160x2_S3932169x2_d0 (ix2 p c)
      = if h : p.val < 9 then z (ix2 (⟨p.val, h⟩ : Fin 9) c)
        else y (ix2 (⟨p.val - 9, by have := p.isLt; omega⟩ : Fin 3932160) c) := by
  by_cases h : p.val < 9
  · rw [dif_pos h]
    exact concatenate_pair_apply_left (t := S3932169x2) 0 z y _ (ix2 p c) rfl (ix2 (⟨p.val, h⟩ : Fin 9) c) (fun a => match a with
      | ⟨0, _⟩ => rfl
      | ⟨1, _⟩ => rfl)
  · rw [dif_neg h]
    exact concatenate_pair_apply_right (t := S3932169x2) 0 z y _ (ix2 p c) rfl rfl (ix2 (⟨p.val - 9, by have := p.isLt; omega⟩ : Fin 3932160) c) (fun a ha => match a, ha with
      | ⟨0, _⟩, ha => absurd rfl ha
      | ⟨1, _⟩, _ => rfl) (by show p.val - 9 + 9 = p.val; omega)

/-- A block of 3932160 rows of the padded stack starting at the literal row k ≤ 9, column 0: row r of the block is
    row r + k of the padded stack (the start lies inside, so the clamp is the identity). -/
theorem block_apply (v : S3932169x2.Idx → α) (start : Fin S3932169x2.rank → Int) (k : Nat) (hk : k ≤ 9)
    (h0 : start 0 = (k : Int)) (h1 : start 1 = 0) (r : Fin 3932160) (c : Fin 2) :
    Host.dynamicSlice S3932160x2 v start sliceFits_S3932169x2_S3932160x2 (ix2 r c)
      = v (ix2 (⟨r.val + k, by have := r.isLt; omega⟩ : Fin 3932169) c) := by
  have hoff : S3932169x2.Slices ![k, 0] S3932160x2 := ⟨rfl, fun a => match a with
    | ⟨0, _⟩ => by show k + 3932160 ≤ 3932169; omega
    | ⟨1, _⟩ => by show 0 + 2 ≤ 2; omega⟩
  rw [Host.dynamicSlice_eq_extractStridedSlice S3932160x2 v start ![k, 0] sliceFits_S3932169x2_S3932160x2 hoff
    (fun a => match a with
      | ⟨0, _⟩ => h0
      | ⟨1, _⟩ => h1)]
  exact extractStridedSlice_apply ![k, 0] v hoff (ix2 r c) _ (fun a => match a with
    | ⟨0, _⟩ => by show r.val + k = k + r.val; omega
    | ⟨1, _⟩ => by show c.val = 0 + c.val; omega)

/-- The twenty stacked features joined with the eight passed through: features 0–19 the first, 20–27 the second. -/
theorem tail_apply (u : S131072x30x20.Idx → α) (v : S131072x30x8.Idx → α) (a : Fin 131072) (j : Fin 30) (ch : Fin 28) :
    concatenate S131072x30x28 2 [⟨S131072x30x20, u⟩, ⟨S131072x30x8, v⟩] concatenates_S131072x30x20_S131072x30x8_S131072x30x28_d2 (ix3 a j ch)
      = if h : ch.val < 20 then u (ix3 a j (⟨ch.val, h⟩ : Fin 20))
        else v (ix3 a j (⟨ch.val - 20, by have := ch.isLt; omega⟩ : Fin 8)) := by
  by_cases h : ch.val < 20
  · rw [dif_pos h]
    exact concatenate_pair_apply_left (t := S131072x30x28) 2 u v _ (ix3 a j ch) rfl (ix3 a j (⟨ch.val, h⟩ : Fin 20)) (fun b => match b with
      | ⟨0, _⟩ => rfl
      | ⟨1, _⟩ => rfl
      | ⟨2, _⟩ => rfl)
  · rw [dif_neg h]
    exact concatenate_pair_apply_right (t := S131072x30x28) 2 u v _ (ix3 a j ch) rfl rfl (ix3 a j (⟨ch.val - 20, by have := ch.isLt; omega⟩ : Fin 8)) (fun b hb => match b, hb with
      | ⟨0, _⟩, _ => rfl
      | ⟨1, _⟩, _ => rfl
      | ⟨2, _⟩, hb => absurd rfl hb) (by show ch.val - 20 + 20 = ch.val; omega)

/-- Ten one-row blocks stacked on a new middle axis: position k of that axis is block k. -/
theorem stack10_apply (u0 u1 u2 u3 u4 u5 u6 u7 u8 u9 : S3932160x1x2.Idx → α) (r : Fin 3932160) (k : Fin 10) (c : Fin 2) :
    concatenate S3932160x10x2 1 [⟨S3932160x1x2, u0⟩, ⟨S3932160x1x2, u1⟩, ⟨S3932160x1x2, u2⟩, ⟨S3932160x1x2, u3⟩,
        ⟨S3932160x1x2, u4⟩, ⟨S3932160x1x2, u5⟩, ⟨S3932160x1x2, u6⟩, ⟨S3932160x1x2, u7⟩, ⟨S3932160x1x2, u8⟩, ⟨S3932160x1x2, u9⟩]
        concatenates_S3932160x1x2_S3932160x1x2_S3932160x1x2_S3932160x1x2_S3932160x1x2_S3932160x1x2_S3932160x1x2_S3932160x1x2_S3932160x1x2_S3932160x1x2_S3932160x10x2_d1
        (ix3 r k c)
      = (![u0, u1, u2, u3, u4, u5, u6, u7, u8, u9] k) (ix3 r (0 : Fin 1) c) := by
  refine concatenate_apply_piece (t := S3932160x10x2) 1 _ _ (ix3 r k c) k.val (by show k.val < 10; exact k.isLt) S3932160x1x2
    (![u0, u1, u2, u3, u4, u5, u6, u7, u8, u9] k) ?_ rfl k.val ?_ (ix3 r (0 : Fin 1) c) (fun b hb => match b, hb with
      | ⟨0, _⟩, _ => rfl
      | ⟨1, _⟩, hb => absurd rfl hb
      | ⟨2, _⟩, _ => rfl) (by show k.val + 0 = k.val; omega)
  · fin_cases k <;> rfl
  · fin_cases k <;> rfl

end Cert.Assign.Ref

end
-- ==== Proof.RefValueStack.lean ====
/-
  The reference's stacked products. The two products x[b, 0, c] · w_c[0, t] (c = 0, 1), each an array [131072, 30],
  are joined as the two columns of [131072, 30, 2] and flattened row-major to [3932160, 2]: row m = 30·b + t, so entry
  (m, c) is x[m div 30, 0, c] · w_c[0, m mod 30].
-/
import proofs.«165622_j90074054132588_2_alg».proof.Proof.RefStages
import proofs.«165622_j90074054132588_2_alg».proof.Proof.Spec
import proofs.«165622_j90074054132588_2_alg».proof.Proof.RefValueOps

noncomputable section

namespace Cert.Assign.Ref

open Cert.ReferenceIdeal Cert.ReferenceIdeal.Gen Cert.Assign.Ref.Stages Idealize.ShloMosaic Idealize.ShloMosaic.ValueIdx

/-- The specification's read of the input by natural numbers, at coordinates of the array. -/
theorem xAt_eq (x : SX.Idx → EReal) (b : Fin 131072) (c : Fin 10) : xAt x b.val c.val = x (ix3 b (0 : Fin 30) c) := by
  unfold xAt; rw [dif_pos ⟨b.isLt, c.isLt⟩]
/-- The specification's read of a weight row by a natural number, at a coordinate of the row. -/
theorem wAt_eq (w : SW.Idx → EReal) (t : Fin 30) : wAt w t.val = w (ix2 (0 : Fin 1) t) := by
  unfold wAt; rw [dif_pos t.isLt]

/-- Entry (r, c) of the stacked products: x[r div 30, 0, c] · w_c[0, r mod 30]. -/
def stackAt (x : SX.Idx → EReal) (w1 w2 : SW.Idx → EReal) (r c : Nat) : EReal :=
  xAt x (r / 30) c * wAt (if c = 0 then w1 else w2) (r % 30)

/-- The first product, as a one-column array, at (b, t, 0): x[b, 0, 0] · w1[0, t]. -/
theorem prod0_apply (x0 : (⟨S131072x30x10, .f32⟩ : BufTy).Contents (Elt Ideal)) (x1 : (⟨S1x30, .f32⟩ : BufTy).Contents (Elt Ideal))
    (b : Fin 131072) (t : Fin 30) (z : Fin 1) :
    val_main_v16 (F := Ideal) x0 x1 (ix3 b t z) = x0 (ix3 b (0 : Fin 30) (0 : Fin 10)) * x1 (ix2 (0 : Fin 1) t) := by
  rw [val_main_v16_apply, val_main_v7_apply, val_main_v5_apply, val_main_v2_apply, val_main_v1_apply, val_main_v0_apply,
    val_main_v6_apply, val_main_v4_apply, val_main_v3_apply, Ideal.mulf_def]
  congr 2
  · funext a; apply Fin.ext
    match a with
    | ⟨0, _⟩ => show b.val / 1 = b.val; omega
    | ⟨1, _⟩ => rfl
    | ⟨2, _⟩ => rfl
  · funext a; apply Fin.ext
    match a with
    | ⟨0, _⟩ => rfl
    | ⟨1, _⟩ => show t.val % 30 = t.val; have := t.isLt; omega

/-- The second product, as a one-column array, at (b, t, 0): x[b, 0, 1] · w2[0, t]. -/
theorem prod1_apply (x0 : (⟨S131072x30x10, .f32⟩ : BufTy).Contents (Elt Ideal)) (x2 : (⟨S1x30, .f32⟩ : BufTy).Contents (Elt Ideal))
    (b : Fin 131072) (t : Fin 30) (z : Fin 1) :
    val_main_v17 (F := Ideal) x0 x2 (ix3 b t z) = x0 (ix3 b (0 : Fin 30) (1 : Fin 10)) * x2 (ix2 (0 : Fin 1) t) := by
  rw [val_main_v17_apply, val_main_v15_apply, val_main_v13_apply, val_main_v10_apply, val_main_v9_apply, val_main_v8_apply,
    val_main_v14_apply, val_main_v12_apply, val_main_v11_apply, Ideal.mulf_def]
  congr 2
  · funext a; apply Fin.ext
    match a with
    | ⟨0, _⟩ => show b.val / 1 = b.val; omega
    | ⟨1, _⟩ => rfl
    | ⟨2, _⟩ => rfl
  · funext a; apply Fin.ext
    match a with
    | ⟨0, _⟩ => rfl
    | ⟨1, _⟩ => show t.val % 30 = t.val; have := t.isLt; omega

/-- The two products joined and flattened row-major to [3932160, 2]: entry (m, c) is the stacked product. -/
theorem stack_apply (x0 : (⟨S131072x30x10, .f32⟩ : BufTy).Contents (Elt Ideal)) (x1 x2 : (⟨S1x30, .f32⟩ : BufTy).Contents (Elt Ideal))
    (m c : Nat) (hm : m < 3932160) (hc : c < 2) :
    val_main_v19 (F := Ideal) x0 x1 x2 (ix2 (⟨m, hm⟩ : Fin 3932160) (⟨c, hc⟩ : Fin 2)) = stackAt x0 x1 x2 m c := by
  have hb : m / 30 < 131072 := by omega
  have ht : m % 30 < 30 := by omega
  rw [val_main_v19_apply]
  have e : idx_main_v19 (ix2 (⟨m, hm⟩ : Fin 3932160) (⟨c, hc⟩ : Fin 2))
      = ix3 (⟨m / 30, hb⟩ : Fin 131072) (⟨m % 30, ht⟩ : Fin 30) (⟨c, hc⟩ : Fin 2) := by
    funext a; apply Fin.ext
    match a with
    | ⟨0, _⟩ => show (m * 2 + c) / 60 = m / 30; omega
    | ⟨1, _⟩ => show (m * 2 + c) / 2 % 30 = m % 30; omega
    | ⟨2, _⟩ => show (m * 2 + c) % 2 = c; omega
  rw [e]
  unfold val_main_v18
  rw [join2_apply]
  unfold stackAt
  interval_cases c
  · rw [if_pos rfl, if_pos rfl, prod0_apply]
    exact congrArg₂ (· * ·) (xAt_eq x0 ⟨m / 30, hb⟩ 0).symm (wAt_eq x1 ⟨m % 30, ht⟩).symm
  · rw [if_neg Nat.one_ne_zero, if_neg Nat.one_ne_zero, prod1_apply]
    exact congrArg₂ (· * ·) (xAt_eq x0 ⟨m / 30, hb⟩ 1).symm (wAt_eq x2 ⟨m % 30, ht⟩).symm

end Cert.Assign.Ref

end
-- ==== Proof.RefValueShift.lean ====
/-
  The reference's ten shifted copies of the stack. Nine rows of the zero word are put above the stack (the word
  0x00000000 denotes 0); block i of the ten is the 3932160 rows of the padded stack from row 9 − i, so its row r is
  row r − i of the stack when i ≤ r and a zero row otherwise; the ten blocks are stacked on a new middle axis.
-/
import proofs.«165622_j90074054132588_2_alg».proof.Proof.RefValueStack
import Idealize.ShloMosaic.PureOps.Ideal.Laws

noncomputable section

namespace Cert.Assign.Ref

open Cert.ReferenceIdeal Cert.ReferenceIdeal.Gen Cert.Assign.Ref.Stages Idealize.ShloMosaic Idealize.ShloMosaic.ValueIdx

/-- Entry (r, c) of the stack shifted down by i rows, zero rows entering at the top. -/
def shiftAt (x : SX.Idx → EReal) (w1 w2 : SW.Idx → EReal) (i r c : Nat) : EReal :=
  if i ≤ r then stackAt x w1 w2 (r - i) c else 0

/-- The padded stack [3932169, 2]: nine rows of the zero word, then the stack. -/
theorem padded_apply (x0 : (⟨S131072x30x10, .f32⟩ : BufTy).Contents (Elt Ideal)) (x1 x2 : (⟨S1x30, .f32⟩ : BufTy).Contents (Elt Ideal))
    (p c : Nat) (hp : p < 3932169) (hc : c < 2) :
    val_main_v21 (F := Ideal) x0 x1 x2 (ix2 (⟨p, hp⟩ : Fin 3932169) (⟨c, hc⟩ : Fin 2))
      = if 9 ≤ p then stackAt x0 x1 x2 (p - 9) c else 0 := by
  unfold val_main_v21
  rw [pad_apply]
  by_cases h : p < 9
  · rw [dif_pos h, if_neg (by omega), val_main_v20_apply, val_main_cst_apply, Ideal.ofBits_def, Ideal.ofBits_zero_f32]
  · rw [dif_neg h, if_pos (by omega)]
    exact stack_apply x0 x1 x2 (p - 9) c (by omega) hc

/-- A block of 3932160 rows of the padded stack from the literal row 9 − i, column 0: the stack shifted down by i. -/
theorem shifted_apply (x0 : (⟨S131072x30x10, .f32⟩ : BufTy).Contents (Elt Ideal)) (x1 x2 : (⟨S1x30, .f32⟩ : BufTy).Contents (Elt Ideal))
    (start : Fin S3932169x2.rank → Int) (i : Nat) (hi : i ≤ 9) (h0 : start 0 = ((9 - i : Nat) : Int)) (h1 : start 1 = 0)
    (r c : Nat) (hr : r < 3932160) (hc : c < 2) :
    Host.dynamicSlice S3932160x2 (val_main_v21 (F := Ideal) x0 x1 x2) start sliceFits_S3932169x2_S3932160x2
        (ix2 (⟨r, hr⟩ : Fin 3932160) (⟨c, hc⟩ : Fin 2)) = shiftAt x0 x1 x2 i r c := by
  rw [block_apply _ _ (9 - i) (by omega) h0 h1]
  show val_main_v21 (F := Ideal) x0 x1 x2 (ix2 (⟨r + (9 - i), by omega⟩ : Fin 3932169) (⟨c, hc⟩ : Fin 2)) = _
  rw [padded_apply]
  unfold shiftAt
  by_cases h : i ≤ r
  · rw [if_pos (by omega), if_pos h]
    congr 1
    omega
  · rw [if_neg (by omega), if_neg h]

/-- Block 0 of the ten (start row 9), as a one-row array: the stack shifted down by 0. -/
theorem shift0_apply (x0 : (⟨S131072x30x10, .f32⟩ : BufTy).Contents (Elt Ideal)) (x1 x2 : (⟨S1x30, .f32⟩ : BufTy).Contents (Elt Ideal))
    (r c : Nat) (hr : r < 3932160) (hc : c < 2) (z : Fin 1) :
    val_main_v32 (F := Ideal) x0 x1 x2 (ix3 (⟨r, hr⟩ : Fin 3932160) z (⟨c, hc⟩ : Fin 2)) = shiftAt x0 x1 x2 0 r c := by
  rw [val_main_v32_apply]
  have e : idx_main_v32 (ix3 (⟨r, hr⟩ : Fin 3932160) z (⟨c, hc⟩ : Fin 2)) = ix2 (⟨r, hr⟩ : Fin 3932160) (⟨c, hc⟩ : Fin 2) := by
    funext a
    match a with
    | ⟨0, _⟩ => rfl
    | ⟨1, _⟩ => rfl
  rw [e]
  exact shifted_apply x0 x1 x2 _ 0 (by omega) rfl rfl r c hr hc

/-- Block 1 of the ten (start row 8), as a one-row array: the stack shifted down by 1. -/
theorem shift1_apply (x0 : (⟨S131072x30x10, .f32⟩ : BufTy).Contents (Elt Ideal)) (x1 x2 : (⟨S1x30, .f32⟩ : BufTy).Contents (Elt Ideal))
    (r c : Nat) (hr : r < 3932160) (hc : c < 2) (z : Fin 1) :
    val_main_v33 (F := Ideal) x0 x1 x2 (ix3 (⟨r, hr⟩ : Fin 3932160) z (⟨c, hc⟩ : Fin 2)) = shiftAt x0 x1 x2 1 r c := by
  rw [val_main_v33_apply]
  have e : idx_main_v33 (ix3 (⟨r, hr⟩ : Fin 3932160) z (⟨c, hc⟩ : Fin 2)) = ix2 (⟨r, hr⟩ : Fin 3932160) (⟨c, hc⟩ : Fin 2) := by
    funext a
    match a with
    | ⟨0, _⟩ => rfl
    | ⟨1, _⟩ => rfl
  rw [e]
  exact shifted_apply x0 x1 x2 _ 1 (by omega) rfl rfl r c hr hc

/-- Block 2 of the ten (start row 7), as a one-row array: the stack shifted down by 2. -/
theorem shift2_apply (x0 : (⟨S131072x30x10, .f32⟩ : BufTy).Contents (Elt Ideal)) (x1 x2 : (⟨S1x30, .f32⟩ : BufTy).Contents (Elt Ideal))
    (r c : Nat) (hr : r < 3932160) (hc : c < 2) (z : Fin 1) :
    val_main_v34 (F := Ideal) x0 x1 x2 (ix3 (⟨r, hr⟩ : Fin 3932160) z (⟨c, hc⟩ : Fin 2)) = shiftAt x0 x1 x2 2 r c := by
  rw [val_main_v34_apply]
  have e : idx_main_v34 (ix3 (⟨r, hr⟩ : Fin 3932160) z (⟨c, hc⟩ : Fin 2)) = ix2 (⟨r, hr⟩ : Fin 3932160) (⟨c, hc⟩ : Fin 2) := by
    funext a
    match a with
    | ⟨0, _⟩ => rfl
    | ⟨1, _⟩ => rfl
  rw [e]
  exact shifted_apply x0 x1 x2 _ 2 (by omega) rfl rfl r c hr hc

/-- Block 3 of the ten (start row 6), as a one-row array: the stack shifted down by 3. -/
theorem shift3_apply (x0 : (⟨S131072x30x10, .f32⟩ : BufTy).Contents (Elt Ideal)) (x1 x2 : (⟨S1x30, .f32⟩ : BufTy).Contents (Elt Ideal))
    (r c : Nat) (hr : r < 3932160) (hc : c < 2) (z : Fin 1) :
    val_main_v35 (F := Ideal) x0 x1 x2 (ix3 (⟨r, hr⟩ : Fin 3932160) z (⟨c, hc⟩ : Fin 2)) = shiftAt x0 x1 x2 3 r c := by
  rw [val_main_v35_apply]
  have e : idx_main_v35 (ix3 (⟨r, hr⟩ : Fin 3932160) z (⟨c, hc⟩ : Fin 2)) = ix2 (⟨r, hr⟩ : Fin 3932160) (⟨c, hc⟩ : Fin 2) := by
    funext a
    match a with
    | ⟨0, _⟩ => rfl
    | ⟨1, _⟩ => rfl
  rw [e]
  exact shifted_apply x0 x1 x2 _ 3 (by omega) rfl rfl r c hr hc

/-- Block 4 of the ten (start row 5), as a one-row array: the stack shifted down by 4. -/
theorem shift4_apply (x0 : (⟨S131072x30x10, .f32⟩ : BufTy).Contents (Elt Ideal)) (x1 x2 : (⟨S1x30, .f32⟩ : BufTy).Contents (Elt Ideal))
    (r c : Nat) (hr : r < 3932160) (hc : c < 2) (z : Fin 1) :
    val_main_v36 (F := Ideal) x0 x1 x2 (ix3 (⟨r, hr⟩ : Fin 3932160) z (⟨c, hc⟩ : Fin 2)) = shiftAt x0 x1 x2 4 r c := by
  rw [val_main_v36_apply]
  have e : idx_main_v36 (ix3 (⟨r, hr⟩ : Fin 3932160) z (⟨c, hc⟩ : Fin 2)) = ix2 (⟨r, hr⟩ : Fin 3932160) (⟨c, hc⟩ : Fin 2) := by
    funext a
    match a with
    | ⟨0, _⟩ => rfl
    | ⟨1, _⟩ => rfl
  rw [e]
  exact shifted_apply x0 x1 x2 _ 4 (by omega) rfl rfl r c hr hc

/-- Block 5 of the ten (start row 4), as a one-row array: the stack shifted down by 5. -/
theorem shift5_apply (x0 : (⟨S131072x30x10, .f32⟩ : BufTy).Contents (Elt Ideal)) (x1 x2 : (⟨S1x30, .f32⟩ : BufTy).Contents (Elt Ideal))
    (r c : Nat) (hr : r < 3932160) (hc : c < 2) (z : Fin 1) :
    val_main_v37 (F := Ideal) x0 x1 x2 (ix3 (⟨r, hr⟩ : Fin 3932160) z (⟨c, hc⟩ : Fin 2)) = shiftAt x0 x1 x2 5 r c := by
  rw [val_main_v37_apply]
  have e : idx_main_v37 (ix3 (⟨r, hr⟩ : Fin 3932160) z (⟨c, hc⟩ : Fin 2)) = ix2 (⟨r, hr⟩ : Fin 3932160) (⟨c, hc⟩ : Fin 2) := by
    funext a
    match a with
    | ⟨0, _⟩ => rfl
    | ⟨1, _⟩ => rfl
  rw [e]
  exact shifted_apply x0 x1 x2 _ 5 (by omega) rfl rfl r c hr hc

/-- Block 6 of the ten (start row 3), as a one-row array: the stack shifted down by 6. -/
theorem shift6_apply (x0 : (⟨S131072x30x10, .f32⟩ : BufTy).Contents (Elt Ideal)) (x1 x2 : (⟨S1x30, .f32⟩ : BufTy).Contents (Elt Ideal))
    (r c : Nat) (hr : r < 3932160) (hc : c < 2) (z : Fin 1) :
    val_main_v38 (F := Ideal) x0 x1 x2 (ix3 (⟨r, hr⟩ : Fin 3932160) z (⟨c, hc⟩ : Fin 2)) = shiftAt x0 x1 x2 6 r c := by
  rw [val_main_v38_apply]
  have e : idx_main_v38 (ix3 (⟨r, hr⟩ : Fin 3932160) z (⟨c, hc⟩ : Fin 2)) = ix2 (⟨r, hr⟩ : Fin 3932160) (⟨c, hc⟩ : Fin 2) := by
    funext a
    match a with
    | ⟨0, _⟩ => rfl
    | ⟨1, _⟩ => rfl
  rw [e]
  exact shifted_apply x0 x1 x2 _ 6 (by omega) rfl rfl r c hr hc

/-- Block 7 of the ten (start row 2), as a one-row array: the stack shifted down by 7. -/
theorem shift7_apply (x0 : (⟨S131072x30x10, .f32⟩ : BufTy).Contents (Elt Ideal)) (x1 x2 : (⟨S1x30, .f32⟩ : BufTy).Contents (Elt Ideal))
    (r c : Nat) (hr : r < 3932160) (hc : c < 2) (z : Fin 1) :
    val_main_v39 (F := Ideal) x0 x1 x2 (ix3 (⟨r, hr⟩ : Fin 3932160) z (⟨c, hc⟩ : Fin 2)) = shiftAt x0 x1 x2 7 r c := by
  rw [val_main_v39_apply]
  have e : idx_main_v39 (ix3 (⟨r, hr⟩ : Fin 3932160) z (⟨c, hc⟩ : Fin 2)) = ix2 (⟨r, hr⟩ : Fin 3932160) (⟨c, hc⟩ : Fin 2) := by
    funext a
    match a with
    | ⟨0, _⟩ => rfl
    | ⟨1, _⟩ => rfl
  rw [e]
  exact shifted_apply x0 x1 x2 _ 7 (by omega) rfl rfl r c hr hc

/-- Block 8 of the ten (start row 1), as a one-row array: the stack shifted down by 8. -/
theorem shift8_apply (x0 : (⟨S131072x30x10, .f32⟩ : BufTy).Contents (Elt Ideal)) (x1 x2 : (⟨S1x30, .f32⟩ : BufTy).Contents (Elt Ideal))
    (r c : Nat) (hr : r < 3932160) (hc : c < 2) (z : Fin 1) :
    val_main_v40 (F := Ideal) x0 x1 x2 (ix3 (⟨r, hr⟩ : Fin 3932160) z (⟨c, hc⟩ : Fin 2)) = shiftAt x0 x1 x2 8 r c := by
  rw [val_main_v40_apply]
  have e : idx_main_v40 (ix3 (⟨r, hr⟩ : Fin 3932160) z (⟨c, hc⟩ : Fin 2)) = ix2 (⟨r, hr⟩ : Fin 3932160) (⟨c, hc⟩ : Fin 2) := by
    funext a
    match a with
    | ⟨0, _⟩ => rfl
    | ⟨1, _⟩ => rfl
  rw [e]
  exact shifted_apply x0 x1 x2 _ 8 (by omega) rfl rfl r c hr hc

/-- Block 9 of the ten (start row 0), as a one-row array: the stack shifted down by 9. -/
theorem shift9_apply (x0 : (⟨S131072x30x10, .f32⟩ : BufTy).Contents (Elt Ideal)) (x1 x2 : (⟨S1x30, .f32⟩ : BufTy).Contents (Elt Ideal))
    (r c : Nat) (hr : r < 3932160) (hc : c < 2) (z : Fin 1) :
    val_main_v41 (F := Ideal) x0 x1 x2 (ix3 (⟨r, hr⟩ : Fin 3932160) z (⟨c, hc⟩ : Fin 2)) = shiftAt x0 x1 x2 9 r c := by
  rw [val_main_v41_apply]
  have e : idx_main_v41 (ix3 (⟨r, hr⟩ : Fin 3932160) z (⟨c, hc⟩ : Fin 2)) = ix2 (⟨r, hr⟩ : Fin 3932160) (⟨c, hc⟩ : Fin 2) := by
    funext a
    match a with
    | ⟨0, _⟩ => rfl
    | ⟨1, _⟩ => rfl
  rw [e]
  exact shifted_apply x0 x1 x2 _ 9 (by omega) rfl rfl r c hr hc

/-- The ten blocks stacked on a middle axis, [3932160, 10, 2]: position k of that axis is the stack shifted down by k. -/
theorem shifts_apply (x0 : (⟨S131072x30x10, .f32⟩ : BufTy).Contents (Elt Ideal)) (x1 x2 : (⟨S1x30, .f32⟩ : BufTy).Contents (Elt Ideal))
    (r : Nat) (k : Fin 10) (c : Nat) (hr : r < 3932160) (hc : c < 2) :
    val_main_v42 (F := Ideal) x0 x1 x2 (ix3 (⟨r, hr⟩ : Fin 3932160) k (⟨c, hc⟩ : Fin 2)) = shiftAt x0 x1 x2 k.val r c := by
  unfold val_main_v42
  rw [stack10_apply]
  fin_cases k
  · exact shift0_apply x0 x1 x2 r c hr hc 0
  · exact shift1_apply x0 x1 x2 r c hr hc 0
  · exact shift2_apply x0 x1 x2 r c hr hc 0
  · exact shift3_apply x0 x1 x2 r c hr hc 0
  · exact shift4_apply x0 x1 x2 r c hr hc 0
  · exact shift5_apply x0 x1 x2 r c hr hc 0
  · exact shift6_apply x0 x1 x2 r c hr hc 0
  · exact shift7_apply x0 x1 x2 r c hr hc 0
  · exact shift8_apply x0 x1 x2 r c hr hc 0
  · exact shift9_apply x0 x1 x2 r c hr hc 0

end Cert.Assign.Ref

end
-- ==== Proof.RefValueArr.lean ====
/-
  The reference's result, read at an index, is the function `Cert.Assign.G` of the argument arrays.

  The stack of shifted copies [3932160, 10, 2] is flattened to [3932160, 20] (feature ch = 2·i + c), regrouped
  [30, 131072, 20] and transposed to [131072, 30, 20]: entry (a, j, ch) is row n = j·131072 + a of the stack shifted
  down by ch div 2, column ch mod 2 — x[(n − i) div 30, 0, c] · w_c[0, (n − i) mod 30] when i ≤ n, zero otherwise.
  The last eight features are the input's features 2–9 at (a, j).
-/
import proofs.«165622_j90074054132588_2_alg».proof.Proof.RefValueShift

noncomputable section

namespace Cert.Assign.Ref

open Cert.ReferenceIdeal Cert.ReferenceIdeal.Gen Cert.Assign.Ref.Stages Idealize.ShloMosaic Idealize.ShloMosaic.ValueIdx

/-- The stacked features regrouped [3932160, 20] → [30, 131072, 20] and transposed to [131072, 30, 20]: entry (a, j, ch)
    is row j·131072 + a of the stack shifted down by ch div 2, column ch mod 2. -/
theorem arranged_apply (x0 : (⟨S131072x30x10, .f32⟩ : BufTy).Contents (Elt Ideal)) (x1 x2 : (⟨S1x30, .f32⟩ : BufTy).Contents (Elt Ideal))
    (a : Fin 131072) (j : Fin 30) (ch : Fin 20) :
    val_main_v45 (F := Ideal) x0 x1 x2 (ix3 a j ch) = shiftAt x0 x1 x2 (ch.val / 2) (rowNo a j) (ch.val % 2) := by
  have hn : rowNo a j < 3932160 := rowNo_lt a j
  have hk : ch.val / 2 < 10 := by have := ch.isLt; omega
  have hc : ch.val % 2 < 2 := by omega
  have e45 : idx_main_v45 (ix3 a j ch) = ix3 j a ch := by
    funext b
    match b with
    | ⟨0, _⟩ => rfl
    | ⟨1, _⟩ => rfl
    | ⟨2, _⟩ => rfl
  have e44 : idx_main_v44 (ix3 j a ch) = ix2 (⟨rowNo a j, hn⟩ : Fin 3932160) ch := by
    funext b; apply Fin.ext
    match b with
    | ⟨0, _⟩ => show ((j.val * 131072 + a.val) * 20 + ch.val) / 20 = rowNo a j; unfold rowNo; have := ch.isLt; omega
    | ⟨1, _⟩ => show ((j.val * 131072 + a.val) * 20 + ch.val) % 20 = ch.val; have := ch.isLt; omega
  have e43 : idx_main_v43 (ix2 (⟨rowNo a j, hn⟩ : Fin 3932160) ch)
      = ix3 (⟨rowNo a j, hn⟩ : Fin 3932160) (⟨ch.val / 2, hk⟩ : Fin 10) (⟨ch.val % 2, hc⟩ : Fin 2) := by
    funext b; apply Fin.ext
    match b with
    | ⟨0, _⟩ => show (rowNo a j * 20 + ch.val) / 20 = rowNo a j; have := ch.isLt; omega
    | ⟨1, _⟩ => show (rowNo a j * 20 + ch.val) / 2 % 10 = ch.val / 2; have := ch.isLt; omega
    | ⟨2, _⟩ => show (rowNo a j * 20 + ch.val) % 2 = ch.val % 2; omega
  rw [val_main_v45_apply, e45, val_main_v44_apply, e44, val_main_v43_apply, e43]
  exact shifts_apply x0 x1 x2 (rowNo a j) ⟨ch.val / 2, hk⟩ (ch.val % 2) hn hc

/-- The reference's result at (a, j, ch) is the specification's arrangement there. -/
theorem result_apply (x0 : (⟨S131072x30x10, .f32⟩ : BufTy).Contents (Elt Ideal)) (x1 x2 : (⟨S1x30, .f32⟩ : BufTy).Contents (Elt Ideal))
    (a : Fin 131072) (j : Fin 30) (ch : Fin 28) :
    val_main_v47 (F := Ideal) x0 x1 x2 (ix3 a j ch) = G x0 x1 x2 (ix3 a j ch) := by
  unfold val_main_v47
  rw [tail_apply]
  show _ = if ch.val < 20 then
      (if ch.val / 2 ≤ rowNo a j then
        xAt x0 ((rowNo a j - ch.val / 2) / 30) (ch.val % 2)
          * wAt (if ch.val % 2 = 0 then x1 else x2) ((rowNo a j - ch.val / 2) % 30)
      else 0)
    else xTail x0 a j (ch.val - 18)
  by_cases h : ch.val < 20
  · rw [dif_pos h, if_pos h, arranged_apply]
    rfl
  · have h10 : ch.val - 18 < 10 := by have := ch.isLt; omega
    rw [dif_neg h, if_neg h, val_main_v46_apply]
    unfold xTail
    rw [dif_pos h10]
    congr 1
    funext b; apply Fin.ext
    match b with
    | ⟨0, _⟩ => rfl
    | ⟨1, _⟩ => rfl
    | ⟨2, _⟩ => show 2 + (ch.val - 20) = ch.val - 18; omega

/-- The reference's result array, as a function of the three argument arrays, is the specification's arrangement. -/
theorem result_eq (x : (⟨S131072x30x10, .f32⟩ : BufTy).Contents (Elt Ideal)) (w1 w2 : (⟨S1x30, .f32⟩ : BufTy).Contents (Elt Ideal)) :
    val_main_v47 (F := Ideal) x w1 w2 = G x w1 w2 := by
  funext o
  obtain ⟨a, j, ch, rfl⟩ : ∃ (a : Fin 131072) (j : Fin 30) (ch : Fin 28), o = ix3 a j ch := ⟨o 0, o 1, o 2, eq_ix3 o⟩
  exact result_apply x w1 w2 a j ch

end Cert.Assign.Ref

end
-- ==== Proof.RefValue.lean ====
/-
  The reference's run ends with its result array at `Cert.Assign.G` of the argument arrays.

  Every weakly fair execution of the straight line terminates with each buffer at the fold of the operations over the
  launch contents (Proof/RefRun.lean); at the result buffer that fold is the stage function of the result
  (Proof/RefFold.lean), which is the specification's arrangement (Proof/RefValueArr.lean); the three arguments are
  written by no operation.
-/
import proofs.«165622_j90074054132588_2_alg».proof.Proof.RefFold
import proofs.«165622_j90074054132588_2_alg».proof.Proof.RefValueArr

noncomputable section

namespace Cert.Assign.Ref

open Cert.ReferenceIdeal Cert.ReferenceIdeal.Gen Idealize.ShloMosaic Idealize.ShloMosaic.TcCoe Idealize.SL.Sem Idealize.ShloMosaic.StableHlo

/-- The reference, run from any launch contents: it terminates without a fault, its result is `G` of the launched
    arguments, and the arguments end as launched. -/
theorem run_G (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v47)
        = Cert.Assign.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c main_v47).trans ((fold_v47 (F := Ideal) (launchContents m c)).trans (result_eq _ _ _)),
      (h c main_arg0).trans (kept_arg0 _), (h c main_arg1).trans (kept_arg1 _), (h c main_arg2).trans (kept_arg2 _)⟩)
    (run_after m ρ)

end Cert.Assign.Ref

end
-- ==== Proof.lean ====
/-
  The certificate of the assignment-layer kernel against its reference.

  The reference stacks the outer products x_c[b]·w_c[t] row-major, pads nine zero rows on top, takes the ten shifted
  copies and lays row j·131072 + a of the stack at output position (a, j); the kernel instead computes, per output
  position, the source row by a division with remainder by 30 on the host and, in the region, a one-hot lookup of the
  rotated weight times the current or previous batch row. On the extended reals both results are one function of
  the three arguments (Proof/Spec.lean: `Gk_eq_G`, a case split on t ≥ i and b ≥ 1; the only arithmetic law used is
  0·y = 0, which holds at infinite y too, so the finiteness of the inputs is never opened).

  The frames: each kernel program is thirteen stretches of host operations and one region whose body is run
  symbolically once (Proof/HostFrameK.lean, Proof/BodyFrameK.lean at the word level; Proof/HostFrameI.lean,
  Proof/BodyFrameI.lean at the extended reals); the reference is a straight line of host operations. The ideal pass
  rewrote nothing, so the idealized kernel is the printed kernel read at the extended reals.

  The values: the kernel's result array (Proof/RowValueI.lean: one row-slab at an index; Proof/KernelValueI.lean: the
  blocks tile the array; Proof/HostFactsI.lean and the Host* modules: what the host operations put in the three side
  arrays) and the reference's (Proof/RefRun.lean: the run; Proof/RefFold.lean: the run read at the result buffer;
  Proof/RefValue*.lean: that array at an index) are both the function of Proof/Spec.lean.
-/
import proofs.«165622_j90074054132588_2_alg».proof.Defs
import proofs.«165622_j90074054132588_2_alg».proof.Proof.Gen.Kernel
import proofs.«165622_j90074054132588_2_alg».proof.Proof.Gen.KernelIdeal
import proofs.«165622_j90074054132588_2_alg».proof.Proof.Gen.ReferenceIdeal
import proofs.«165622_j90074054132588_2_alg».proof.Proof.Gen.Pre_finite_inputs
import proofs.«165622_j90074054132588_2_alg».proof.Proof.BodyFrameK
import proofs.«165622_j90074054132588_2_alg».proof.Proof.KernelValueI
import proofs.«165622_j90074054132588_2_alg».proof.Proof.HostFactsI
import proofs.«165622_j90074054132588_2_alg».proof.Proof.RefRun
import proofs.«165622_j90074054132588_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ => Cert.Assign.Ref.frame (F := Ideal) m ρ

/-- The ideal pass rewrote no operation. -/
theorem preserves : Cert.preserves_Kernel_KernelIdeal := trivial

/-- Both idealized programs end with their result at the one function `G` of the (agreeing) arguments. -/
theorem algebraic : Cert.algebraic_KernelIdeal_ReferenceIdeal := by
  intro m ρ m' ρ' _ hagree
  refine ⟨fun c => Cert.Assign.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.Assign.Gk_eq_G _ _ _), (h c).2⟩)
      (Cert.KernelIdeal.Hand.run_Gk m ρ (Cert.KernelIdeal.Hand.hostFacts m))
  · refine (θ_run Cert.ReferenceIdeal.defs _ _).mono (fun _ h c => ⟨(h c).1.trans ?_, (h c).2⟩)
      (Cert.Assign.Ref.run_G m' ρ')
    rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
